-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v94_0)) (v1 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94_0) = v0 c
          ∧ r.2.mem ((c.tc : Thread Cert.KernelIdeal.nD Cert.KernelIdeal.τ).loc Cert.KernelIdeal.main_v95) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_v148) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S10x1x128 : Shape := ⟨3, ![10, 1, 128]⟩
abbrev S10x1x1 : Shape := ⟨3, ![10, 1, 1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S10x1x128 : S_.BroadcastsInDim S10x1x128 (![] : Fin 0 → Fin S10x1x128.rank)
  reducesTo_S10x1x128_S_d0_1_2 : S10x1x128.ReducesTo [0, 1, 2] S_
  bcast_S_S10x1x1 : S_.BroadcastsInDim S10x1x1 (![] : Fin 0 → Fin S10x1x1.rank)
  reducesTo_S10x1x1_S_d0_1_2 : S10x1x1.ReducesTo [0, 1, 2] S_

variable [Facts]

def fn_part3 {F : FTy → Type} [FloatOps F] (main_v48 : IVec S_ 1) (main_v49 : FVec F S10x1x1 .f32) (main_v50 : FVec F S10x1x1 .f32) : IVec S_ 1 :=
  let main_v51 : IVec S10x1x1 1 := cmpf .olt main_v49 main_v50
  let main_c_19 : IVec S_ 1 := constantI S_ 1 1#1
  let main_v52 : IVec S_ 1 := (fun x v => Host.reduce IntOp.andi x v reducesTo_S10x1x1_S_d0_1_2 h_S_) main_v51 main_c_19
  let main_v53 : IVec S_ 1 := andi main_v48 main_v52
  main_v53

def fn_part2 {F : FTy → Type} [FloatOps F] (main_arg8 : FVec F S128x128 .f32) (main_arg9 : FVec F S128 .f32) (main_arg10 : FVec F S10x1x128 .f32) (main_arg11 : FVec F S10x1x1 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S10x1x128 .f32 := Host.absf main_arg10
  let main_cst_16 : FVec F S_ .f32 := constant S_ .f32 0x7F800000#32
  let main_v45 : FVec F S10x1x128 .f32 := broadcastInDim S10x1x128 ![] bcast_S_S10x1x128 main_cst_16
  let main_v46 : IVec S10x1x128 1 := cmpf .olt main_v44 main_v45
  let main_c_17 : IVec S_ 1 := constantI S_ 1 1#1
  let main_v47 : IVec S_ 1 := (fun x v => Host.reduce IntOp.andi x v reducesTo_S10x1x128_S_d0_1_2 h_S_) main_v46 main_c_17
  let main_v48 : IVec S_ 1 := andi main_v43 main_v47
  let main_v49 : FVec F S10x1x1 .f32 := Host.absf main_arg11
  let main_cst_18 : FVec F S_ .f32 := constant S_ .f32 0x7F800000#32
  let main_v50 : FVec F S10x1x1 .f32 := broadcastInDim S10x1x1 ![] bcast_S_S10x1x1 main_cst_18
  fn_part3 (F := F) main_v48 main_v49 main_v50

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_arg10 : FVec F S10x1x128 .f32) (main_arg11 : FVec F S10x1x1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S10x1x128 .f32) (main_arg11 : FVec F S10x1x1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S10x1x128 : Shape := ⟨3, ![10, 1, 128]⟩
abbrev S10x1x1 : Shape := ⟨3, ![10, 1, 1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S2000x128 : Shape := ⟨2, ![2000, 128]⟩
abbrev S2000x1 : Shape := ⟨2, ![2000, 1]⟩
abbrev S850000x128 : Shape := ⟨2, ![850000, 128]⟩
abbrev S1x128 : Shape := ⟨2, ![1, 128]⟩
abbrev S10x128 : Shape := ⟨2, ![10, 128]⟩
abbrev S10 : Shape := ⟨1, ![10]⟩
abbrev S10x1 : Shape := ⟨2, ![10, 1]⟩
abbrev S128x10 : Shape := ⟨2, ![128, 10]⟩
abbrev S1x10 : Shape := ⟨2, ![1, 10]⟩
abbrev S50000x10 : Shape := ⟨2, ![50000, 10]⟩
abbrev S2000x10 : Shape := ⟨2, ![2000, 10]⟩
abbrev S2000 : Shape := ⟨1, ![2000]⟩

abbrev nBuf : Space → Nat
  | .hbm => 148
  | .vmem => 42
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S10x1x128, .f32⟩
  | 11 => ⟨S10x1x1, .f32⟩
  | 12 => ⟨S50000, .i32⟩
  | 13 => ⟨S1x800000, .i32⟩
  | 14 => ⟨S800000, .i32⟩
  | 15 => ⟨S850000, .i32⟩
  | 16 => ⟨S1x800000, .i32⟩
  | 17 => ⟨S800000, .i32⟩
  | 18 => ⟨S850000, .i32⟩
  | 19 => ⟨S_, .f32⟩
  | 20 => ⟨S850000, .f32⟩
  | 21 => ⟨S_, .f32⟩
  | 22 => ⟨S50000, .f32⟩
  | 23 => ⟨S850000x1, .i32⟩
  | 24 => ⟨S50000, .f32⟩
  | 25 => ⟨S_, .f32⟩
  | 26 => ⟨S50000, .f32⟩
  | 27 => ⟨S50000, .i1⟩
  | 28 => ⟨S_, .f32⟩
  | 29 => ⟨S50000, .f32⟩
  | 30 => ⟨S50000, .f32⟩
  | 31 => ⟨S50000, .f32⟩
  | 32 => ⟨S_, .f32⟩
  | 33 => ⟨S_, .f32⟩
  | 34 => ⟨S50000, .f32⟩
  | 35 => ⟨S50000, .f32⟩
  | 36 => ⟨S50000x1, .f32⟩
  | 37 => ⟨S50000x128, .bf16⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000x128, .bf16⟩
  | 47 => ⟨S850000x128, .f32⟩
  | 48 => ⟨S_, .f32⟩
  | 49 => ⟨S50000x128, .f32⟩
  | 50 => ⟨S850000x1, .i32⟩
  | 51 => ⟨S50000x128, .f32⟩
  | 52 => ⟨S1x128, .f32⟩
  | 53 => ⟨S50000x128, .bf16⟩
  | 54 => ⟨S_, .i32⟩
  | 55 => ⟨S850000, .i32⟩
  | 56 => ⟨S850000, .i1⟩
  | 57 => ⟨S_, .i32⟩
  | 58 => ⟨S850000, .i32⟩
  | 59 => ⟨S850000, .i32⟩
  | 60 => ⟨S850000, .i32⟩
  | 61 => ⟨S850000x1, .i32⟩
  | 62 => ⟨S850000x128, .bf16⟩
  | 63 => ⟨S850000x128, .f32⟩
  | 64 => ⟨S_, .f32⟩
  | 65 => ⟨S50000x128, .f32⟩
  | 66 => ⟨S850000x1, .i32⟩
  | 67 => ⟨S50000x128, .f32⟩
  | 68 => ⟨S1x128, .f32⟩
  | 69 => ⟨S50000x128, .bf16⟩
  | 70 => ⟨S_, .i32⟩
  | 71 => ⟨S850000, .i32⟩
  | 72 => ⟨S850000, .i1⟩
  | 73 => ⟨S_, .i32⟩
  | 74 => ⟨S850000, .i32⟩
  | 75 => ⟨S850000, .i32⟩
  | 76 => ⟨S850000, .i32⟩
  | 77 => ⟨S850000x1, .i32⟩
  | 78 => ⟨S850000x128, .bf16⟩
  | 79 => ⟨S850000x128, .f32⟩
  | 80 => ⟨S_, .f32⟩
  | 81 => ⟨S50000x128, .f32⟩
  | 82 => ⟨S850000x1, .i32⟩
  | 83 => ⟨S50000x128, .f32⟩
  | 84 => ⟨S1x128, .f32⟩
  | 85 => ⟨S50000x128, .bf16⟩
  | 86 => ⟨S_, .i32⟩
  | 87 => ⟨S850000, .i32⟩
  | 88 => ⟨S850000, .i1⟩
  | 89 => ⟨S_, .i32⟩
  | 90 => ⟨S850000, .i32⟩
  | 91 => ⟨S850000, .i32⟩
  | 92 => ⟨S850000, .i32⟩
  | 93 => ⟨S850000x1, .i32⟩
  | 94 => ⟨S850000x128, .bf16⟩
  | 95 => ⟨S850000x128, .f32⟩
  | 96 => ⟨S_, .f32⟩
  | 97 => ⟨S50000x128, .f32⟩
  | 98 => ⟨S850000x1, .i32⟩
  | 99 => ⟨S50000x128, .f32⟩
  | 100 => ⟨S10x1x128, .f32⟩
  | 101 => ⟨S_, .f32⟩
  | 102 => ⟨S10x128, .f32⟩
  | 103 => ⟨S_, .f32⟩
  | 104 => ⟨S10x128, .f32⟩
  | 105 => ⟨S10x128, .f32⟩
  | 106 => ⟨S_, .f32⟩
  | 107 => ⟨S10, .f32⟩
  | 108 => ⟨S_, .f32⟩
  | 109 => ⟨S10, .f32⟩
  | 110 => ⟨S10, .f32⟩
  | 111 => ⟨S10x1, .f32⟩
  | 112 => ⟨S10x128, .f32⟩
  | 113 => ⟨S10x128, .f32⟩
  | 114 => ⟨S10x128, .f32⟩
  | 115 => ⟨S_, .f32⟩
  | 116 => ⟨S10, .f32⟩
  | 117 => ⟨S10x1, .f32⟩
  | 118 => ⟨S10x128, .f32⟩
  | 119 => ⟨S10x128, .f32⟩
  | 120 => ⟨S_, .f32⟩
  | 121 => ⟨S10, .f32⟩
  | 122 => ⟨S10x1, .f32⟩
  | 123 => ⟨S10x128, .f32⟩
  | 124 => ⟨S10x128, .f32⟩
  | 125 => ⟨S10x128, .f32⟩
  | 126 => ⟨S10x128, .f32⟩
  | 127 => ⟨S128x10, .f32⟩
  | _ => ⟨S50000x128, .f32⟩

abbrev hbmTy0_1 (i : Nat) : BufTy := match i % 128 with
  | 0 => ⟨S10, .f32⟩
  | 1 => ⟨S1x10, .f32⟩
  | 2 => ⟨S1x128, .f32⟩
  | 3 => ⟨S50000x128, .f32⟩
  | 4 => ⟨S50000x10, .f32⟩
  | 5 => ⟨S_, .f32⟩
  | 6 => ⟨S10, .f32⟩
  | 7 => ⟨S_, .f32⟩
  | 8 => ⟨S10, .f32⟩
  | 9 => ⟨S10, .f32⟩
  | 10 => ⟨S1x10, .f32⟩
  | 11 => ⟨S50000x10, .f32⟩
  | 12 => ⟨S50000x10, .f32⟩
  | 13 => ⟨S50000x10, .f32⟩
  | 14 => ⟨S_, .f32⟩
  | 15 => ⟨S10, .f32⟩
  | 16 => ⟨S1x10, .f32⟩
  | 17 => ⟨S1x10, .f32⟩
  | 18 => ⟨S50000x10, .f32⟩
  | 19 => ⟨S50000x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x1, .f32⟩
  | .local _ .vmem, ⟨4, _⟩ => ⟨S2000x1, .f32⟩
  | .local _ .vmem, ⟨5, _⟩ => ⟨S2000x128, .bf16⟩
  | .local _ .vmem, ⟨6, _⟩ => ⟨S2000x128, .bf16⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S128x128, .f32⟩
  | .local _ .vmem, ⟨13, _⟩ => ⟨S2000x128, .bf16⟩
  | .local _ .vmem, ⟨14, _⟩ => ⟨S2000x128, .bf16⟩
  | .local _ .vmem, ⟨15, _⟩ => ⟨S2000x128, .f32⟩
  | .local _ .vmem, ⟨16, _⟩ => ⟨S2000x128, .f32⟩
  | .local _ .vmem, ⟨17, _⟩ => ⟨S2000x1, .f32⟩
  | .local _ .vmem, ⟨18, _⟩ => ⟨S2000x1, .f32⟩
  | .local _ .vmem, ⟨19, _⟩ => ⟨S1x128, .f32⟩
  | .local _ .vmem, ⟨20, _⟩ => ⟨S128x128, .f32⟩
  | .local _ .vmem, ⟨21, _⟩ => ⟨S2000x128, .bf16⟩
  | .local _ .vmem, ⟨22, _⟩ => ⟨S2000x128, .bf16⟩
  | .local _ .vmem, ⟨23, _⟩ => ⟨S2000x128, .f32⟩
  | .local _ .vmem, ⟨24, _⟩ => ⟨S2000x128, .f32⟩
  | .local _ .vmem, ⟨25, _⟩ => ⟨S2000x1, .f32⟩
  | .local _ .vmem, ⟨26, _⟩ => ⟨S2000x1, .f32⟩
  | .local _ .vmem, ⟨27, _⟩ => ⟨S1x128, .f32⟩
  | .local _ .vmem, ⟨28, _⟩ => ⟨S128x128, .f32⟩
  | .local _ .vmem, ⟨29, _⟩ => ⟨S2000x128, .bf16⟩
  | .local _ .vmem, ⟨30, _⟩ => ⟨S2000x128, .bf16⟩
  | .local _ .vmem, ⟨31, _⟩ => ⟨S2000x128, .f32⟩
  | .local _ .vmem, ⟨32, _⟩ => ⟨S2000x128, .f32⟩
  | .local _ .vmem, ⟨33, _⟩ => ⟨S2000x1, .f32⟩
  | .local _ .vmem, ⟨34, _⟩ => ⟨S2000x1, .f32⟩
  | .local _ .vmem, ⟨35, _⟩ => ⟨S1x128, .f32⟩
  | .local _ .vmem, ⟨36, _⟩ => ⟨S128x10, .f32⟩
  | .local _ .vmem, ⟨37, _⟩ => ⟨S1x10, .f32⟩
  | .local _ .vmem, ⟨38, _⟩ => ⟨S2000x128, .f32⟩
  | .local _ .vmem, ⟨39, _⟩ => ⟨S2000x128, .f32⟩
  | .local _ .vmem, ⟨40, _⟩ => ⟨S2000x10, .f32⟩
  | .local _ .vmem, ⟨41, _⟩ => ⟨S2000x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c : Ref sig .tc := ⟨.hbm, 38, rfl⟩
abbrev main_v19 : Ref sig .tc := ⟨.hbm, 39, rfl⟩
abbrev main_v20 : Ref sig .tc := ⟨.hbm, 40, rfl⟩
abbrev main_c_4 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_5 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_6 : Ref sig .tc := ⟨.hbm, 54, rfl⟩
abbrev main_v32 : Ref sig .tc := ⟨.hbm, 55, rfl⟩
abbrev main_v33 : Ref sig .tc := ⟨.hbm, 56, rfl⟩
abbrev main_c_7 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_8 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_c_9 : Ref sig .tc := ⟨.hbm, 70, rfl⟩
abbrev main_v45 : Ref sig .tc := ⟨.hbm, 71, rfl⟩
abbrev main_v46 : Ref sig .tc := ⟨.hbm, 72, rfl⟩
abbrev main_c_10 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_11 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_c_12 : Ref sig .tc := ⟨.hbm, 86, rfl⟩
abbrev main_v58 : Ref sig .tc := ⟨.hbm, 87, rfl⟩
abbrev main_v59 : Ref sig .tc := ⟨.hbm, 88, rfl⟩
abbrev main_c_13 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_14 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_15 : Ref sig .tc := ⟨.hbm, 101, rfl⟩
abbrev main_v70 : Ref sig .tc := ⟨.hbm, 102, rfl⟩
abbrev main_cst_16 : Ref sig .tc := ⟨.hbm, 103, rfl⟩
abbrev main_v71 : Ref sig .tc := ⟨.hbm, 104, rfl⟩
abbrev main_v72 : Ref sig .tc := ⟨.hbm, 105, rfl⟩
abbrev main_cst_17 : Ref sig .tc := ⟨.hbm, 106, rfl⟩
abbrev main_v73 : Ref sig .tc := ⟨.hbm, 107, rfl⟩
abbrev main_cst_18 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_19 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_cst_20 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94_0 : Ref sig .tc := ⟨.hbm, 131, rfl⟩
abbrev main_v94_1 : Ref sig .tc := ⟨.hbm, 132, rfl⟩
abbrev main_call1_cst : Ref sig .tc := ⟨.hbm, 133, rfl⟩
abbrev main_call1_v0 : Ref sig .tc := ⟨.hbm, 134, rfl⟩
abbrev main_call1_cst_0 : Ref sig .tc := ⟨.hbm, 135, rfl⟩
abbrev main_call1_v1 : Ref sig .tc := ⟨.hbm, 136, rfl⟩
abbrev main_call1_v2 : Ref sig .tc := ⟨.hbm, 137, rfl⟩
abbrev main_call1_v3 : Ref sig .tc := ⟨.hbm, 138, rfl⟩
abbrev main_call1_v4 : Ref sig .tc := ⟨.hbm, 139, rfl⟩
abbrev main_call1_v5 : Ref sig .tc := ⟨.hbm, 140, rfl⟩
abbrev main_call1_v6 : Ref sig .tc := ⟨.hbm, 141, rfl⟩
abbrev main_call1_cst_1 : Ref sig .tc := ⟨.hbm, 142, rfl⟩
abbrev main_call1_v7 : Ref sig .tc := ⟨.hbm, 143, rfl⟩
abbrev main_call1_v8 : Ref sig .tc := ⟨.hbm, 144, rfl⟩
abbrev main_call1_v9 : Ref sig .tc := ⟨.hbm, 145, rfl⟩
abbrev main_call1_v10 : Ref sig .tc := ⟨.hbm, 146, rfl⟩
abbrev main_v95 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg4_1 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg1_1 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg4_0 : Ref sig .tc := ⟨.vmem, 37, rfl⟩
abbrev cc4_stg5_0 : Ref sig .tc := ⟨.vmem, 38, rfl⟩
abbrev cc4_stg5_1 : Ref sig .tc := ⟨.vmem, 39, rfl⟩
abbrev cc4_stg6_0 : Ref sig .tc := ⟨.vmem, 40, rfl⟩
abbrev cc4_stg6_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem4_0 : DmaSem sig := 29
abbrev cc3_sem4_1 : DmaSem sig := 30
abbrev cc4_sem0_0 : DmaSem sig := 31
abbrev cc4_sem0_1 : DmaSem sig := 32
abbrev cc4_sem1_0 : DmaSem sig := 33
abbrev cc4_sem1_1 : DmaSem sig := 34
abbrev cc4_sem2_0 : DmaSem sig := 35
abbrev cc4_sem3_0 : DmaSem sig := 36
abbrev cc4_sem4_0 : DmaSem sig := 37
abbrev cc4_sem5_0 : DmaSem sig := 38
abbrev cc4_sem5_1 : DmaSem sig := 39
abbrev cc4_sem6_0 : DmaSem sig := 40
abbrev cc4_sem6_1 : DmaSem sig := 41

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x128 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x128 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x10 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x10 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S2000x10 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  packedbf16_S2000x128_S2000x128_0_0 : (Rect.unit (s := S2000x128) ![0, 0] S2000x128.size inb_S2000x128_S2000x128_0_0).PackedRows (EltTy.packing .bf16)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reducesTo_S10x1x128_S10x128_d1 : S10x1x128.ReducesTo [1] S10x128
  h_S_ : 0 < S_.numel
  bcast_S_S10x128 : S_.BroadcastsInDim S10x128 (![] : Fin 0 → Fin S10x128.rank)
  reducesTo_S10x128_S10_d1 : S10x128.ReducesTo [1] S10
  bcast_S_S10 : S_.BroadcastsInDim S10 (![] : Fin 0 → Fin S10.rank)
  bcast_S10_S10x1_0 : S10.BroadcastsInDim S10x1 (![0] : Fin 1 → Fin S10x1.rank)
  bcast_S10x1_S10x128_0_1 : S10x1.BroadcastsInDim S10x128 (![0, 1] : Fin 2 → Fin S10x128.rank)
  shapeCasts_S10x1x128_S10x128 : S10x1x128.ShapeCasts S10x128
  transposes_S10x128_S128x10_1_0 : S10x128.Transposes [1, 0] S128x10
  shapeCasts_S10x1x1_S10 : S10x1x1.ShapeCasts S10
  shapeCasts_S10_S1x10 : S10.ShapeCasts S1x10
  reduces_S2000x128_S2000 : S2000x128.Reduces [1] S2000
  shapeCasts_S2000_S2000x1 : S2000.ShapeCasts S2000x1
  inb_S128x10_S128x10_0_0 : ∀ a, (![0, 0] : Fin 2 → Nat) a + S128x10.size a ≤ S128x10.size a
  h_S128x10 : 0 < S128x10.numel
  shapeCasts_S128x10_S128x10 : S128x10.ShapeCasts S128x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S2000x10 : S1x10.Broadcasts S2000x10
  inb_S2000x10_S2000x10_0_0 : ∀ a, (![0, 0] : Fin 2 → Nat) a + S2000x10.size a ≤ S2000x10.size a
  h_S2000x10 : 0 < S2000x10.numel
  reducesTo_S50000x10_S10_d0 : S50000x10.ReducesTo [0] S10
  bcast_S10_S1x10_1 : S10.BroadcastsInDim S1x10 (![1] : Fin 1 → Fin S1x10.rank)
  bcast_S1x10_S50000x10_0_1 : S1x10.BroadcastsInDim S50000x10 (![0, 1] : Fin 2 → Fin S50000x10.rank)
  scatter_S50000_S850000x1_S850000_n_0_0_1_wf : ScatterDims.WF S50000 S850000x1 S850000 [] [0] [0] 1
  dot_S2000x128_S128x128_S2000x128_1_0_0_1_n_n_wf : DotDims.WF S2000x128 S128x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x10_S2000x10_1_0_0_1_n_n_wf : DotDims.WF S2000x128 S128x10 S2000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .bf16 = 32 ∨ (Rect.block (s := S50000x128) S2000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .bf16 = 32 ∨ (Rect.block (s := S50000x128) S2000x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S50000x128.size a
  hwx2_4 : ∀ i : grid2.Coords, EltTy.bits .bf16 = 32 ∨ (Rect.block (s := S50000x128) S2000x128.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S50000x1.size a
  hwx3_1 : ∀ i : grid3.Coords, EltTy.bits .f32 = 32 ∨ (Rect.block (s := S50000x1) S2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S50000x128.size a
  hwx3_4 : ∀ i : grid3.Coords, EltTy.bits .bf16 = 32 ∨ (Rect.block (s := S50000x128) S2000x128.size (cc3_transform_4 i) (hinb3_4 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x1.size a ≤ S50000x1.size a
  hwx4_1 : ∀ i : grid4.Coords, EltTy.bits .f32 = 32 ∨ (Rect.block (s := S50000x1) S2000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x10.size a ≤ S128x10.size a
  hwx4_3 : ∀ i : grid4.Coords, EltTy.bits .f32 = 32 ∨ (Rect.block (s := S128x10) S128x10.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x10.size a ≤ S1x10.size a
  hwx4_4 : ∀ i : grid4.Coords, EltTy.bits .f32 = 32 ∨ (Rect.block (s := S1x10) S1x10.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x128.size a ≤ S50000x128.size a
  hwx4_5 : ∀ i : grid4.Coords, EltTy.bits .f32 = 32 ∨ (Rect.block (s := S50000x128) S2000x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x10.size a ≤ S50000x10.size a
  hwx4_6 : ∀ i : grid4.Coords, EltTy.bits .f32 = 32 ∨ (Rect.block (s := S50000x10) S2000x10.size (cc4_transform_6 i) (hinb4_6 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x10_S2000x10_1_0_0_1_n_n : DotDims S2000x128 S128x10 S2000x10 where
  lhsContracting := [1]
  rhsContracting := [0]
  lhsNonContracting := [0]
  rhsNonContracting := [1]
  lhsBatch := []
  rhsBatch := []
  wf := dot_S2000x128_S128x10_S2000x10_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v29) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v42) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v43) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v44) S2000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v55) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v17) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v56) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg8) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v57) S2000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v68) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v17) S2000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v93) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v90) S128x10.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v92) S1x10.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v94_0) S2000x128.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v94_1) S2000x10.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S10x1x128 : Shape := ⟨3, ![10, 1, 128]⟩
abbrev S10x1x1 : Shape := ⟨3, ![10, 1, 1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x1 : Shape := ⟨2, ![50000, 1]⟩
abbrev S10x128 : Shape := ⟨2, ![10, 128]⟩
abbrev S10 : Shape := ⟨1, ![10]⟩
abbrev S10x1 : Shape := ⟨2, ![10, 1]⟩
abbrev S1x50000x128 : Shape := ⟨3, ![1, 50000, 128]⟩
abbrev S10x50000x128 : Shape := ⟨3, ![10, 50000, 128]⟩
abbrev S10x50000x1 : Shape := ⟨3, ![10, 50000, 1]⟩
abbrev S50000x10x1 : Shape := ⟨3, ![50000, 10, 1]⟩
abbrev S1x10x1 : Shape := ⟨3, ![1, 10, 1]⟩
abbrev S50000x10 : Shape := ⟨2, ![50000, 10]⟩

abbrev nBuf : Space → Nat
  | .hbm => 236
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S10x1x128, .f32⟩
  | 11 => ⟨S10x1x1, .f32⟩
  | 12 => ⟨S50000, .i32⟩
  | 13 => ⟨S1x800000, .i32⟩
  | 14 => ⟨S800000, .i32⟩
  | 15 => ⟨S850000, .i32⟩
  | 16 => ⟨S1x800000, .i32⟩
  | 17 => ⟨S800000, .i32⟩
  | 18 => ⟨S850000, .i32⟩
  | 19 => ⟨S_, .f32⟩
  | 20 => ⟨S850000, .f32⟩
  | 21 => ⟨S_, .f32⟩
  | 22 => ⟨S50000, .f32⟩
  | 23 => ⟨S850000x1, .i32⟩
  | 24 => ⟨S50000, .f32⟩
  | 25 => ⟨S_, .f32⟩
  | 26 => ⟨S50000, .f32⟩
  | 27 => ⟨S50000, .i1⟩
  | 28 => ⟨S_, .f32⟩
  | 29 => ⟨S50000, .f32⟩
  | 30 => ⟨S50000, .f32⟩
  | 31 => ⟨S50000, .f32⟩
  | 32 => ⟨S_, .f32⟩
  | 33 => ⟨S_, .f32⟩
  | 34 => ⟨S50000, .f32⟩
  | 35 => ⟨S50000, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000, .f32⟩
  | 45 => ⟨S_, .i32⟩
  | 46 => ⟨S850000, .i32⟩
  | 47 => ⟨S850000, .i1⟩
  | 48 => ⟨S_, .i32⟩
  | 49 => ⟨S850000, .i32⟩
  | 50 => ⟨S850000, .i32⟩
  | 51 => ⟨S850000, .i32⟩
  | 52 => ⟨S850000x1, .i32⟩
  | 53 => ⟨S850000, .f32⟩
  | 54 => ⟨S850000, .f32⟩
  | 55 => ⟨S50000x128, .f32⟩
  | 56 => ⟨S_, .i32⟩
  | 57 => ⟨S850000, .i32⟩
  | 58 => ⟨S850000, .i1⟩
  | 59 => ⟨S_, .i32⟩
  | 60 => ⟨S850000, .i32⟩
  | 61 => ⟨S850000, .i32⟩
  | 62 => ⟨S850000, .i32⟩
  | 63 => ⟨S850000x1, .i32⟩
  | 64 => ⟨S850000x128, .f32⟩
  | 65 => ⟨S850000x1, .f32⟩
  | 66 => ⟨S850000x128, .f32⟩
  | 67 => ⟨S850000x128, .f32⟩
  | 68 => ⟨S_, .f32⟩
  | 69 => ⟨S50000x128, .f32⟩
  | 70 => ⟨S850000x1, .i32⟩
  | 71 => ⟨S50000x128, .f32⟩
  | 72 => ⟨S1x128, .f32⟩
  | 73 => ⟨S50000x128, .f32⟩
  | 74 => ⟨S50000x128, .f32⟩
  | 75 => ⟨S_, .f32⟩
  | 76 => ⟨S_, .f32⟩
  | 77 => ⟨S50000x128, .f32⟩
  | 78 => ⟨S50000x128, .i1⟩
  | 79 => ⟨S_, .f32⟩
  | 80 => ⟨S50000x128, .f32⟩
  | 81 => ⟨S50000x128, .f32⟩
  | 82 => ⟨S50000x128, .f32⟩
  | 83 => ⟨S50000x128, .f32⟩
  | 84 => ⟨S_, .i32⟩
  | 85 => ⟨S850000, .i32⟩
  | 86 => ⟨S850000, .i1⟩
  | 87 => ⟨S_, .i32⟩
  | 88 => ⟨S850000, .i32⟩
  | 89 => ⟨S850000, .i32⟩
  | 90 => ⟨S850000, .i32⟩
  | 91 => ⟨S850000x1, .i32⟩
  | 92 => ⟨S850000x128, .f32⟩
  | 93 => ⟨S850000x1, .f32⟩
  | 94 => ⟨S850000x128, .f32⟩
  | 95 => ⟨S850000x128, .f32⟩
  | 96 => ⟨S_, .f32⟩
  | 97 => ⟨S50000x128, .f32⟩
  | 98 => ⟨S850000x1, .i32⟩
  | 99 => ⟨S50000x128, .f32⟩
  | 100 => ⟨S1x128, .f32⟩
  | 101 => ⟨S50000x128, .f32⟩
  | 102 => ⟨S50000x128, .f32⟩
  | 103 => ⟨S_, .f32⟩
  | 104 => ⟨S_, .f32⟩
  | 105 => ⟨S50000x128, .f32⟩
  | 106 => ⟨S50000x128, .i1⟩
  | 107 => ⟨S_, .f32⟩
  | 108 => ⟨S50000x128, .f32⟩
  | 109 => ⟨S50000x128, .f32⟩
  | 110 => ⟨S50000x128, .f32⟩
  | 111 => ⟨S50000x128, .f32⟩
  | 112 => ⟨S_, .i32⟩
  | 113 => ⟨S850000, .i32⟩
  | 114 => ⟨S850000, .i1⟩
  | 115 => ⟨S_, .i32⟩
  | 116 => ⟨S850000, .i32⟩
  | 117 => ⟨S850000, .i32⟩
  | 118 => ⟨S850000, .i32⟩
  | 119 => ⟨S850000x1, .i32⟩
  | 120 => ⟨S850000x128, .f32⟩
  | 121 => ⟨S850000x1, .f32⟩
  | 122 => ⟨S850000x128, .f32⟩
  | 123 => ⟨S850000x128, .f32⟩
  | 124 => ⟨S_, .f32⟩
  | 125 => ⟨S50000x128, .f32⟩
  | 126 => ⟨S850000x1, .i32⟩
  | 127 => ⟨S50000x128, .f32⟩
  | _ => ⟨S50000x128, .f32⟩

abbrev hbmTy0_1 (i : Nat) : BufTy := match i % 128 with
  | 0 => ⟨S1x128, .f32⟩
  | 1 => ⟨S50000x128, .f32⟩
  | 2 => ⟨S50000x128, .f32⟩
  | 3 => ⟨S_, .f32⟩
  | 4 => ⟨S_, .f32⟩
  | 5 => ⟨S50000x128, .f32⟩
  | 6 => ⟨S50000x128, .i1⟩
  | 7 => ⟨S_, .f32⟩
  | 8 => ⟨S50000x128, .f32⟩
  | 9 => ⟨S50000x128, .f32⟩
  | 10 => ⟨S50000x128, .f32⟩
  | 11 => ⟨S50000x128, .f32⟩
  | 12 => ⟨S_, .i32⟩
  | 13 => ⟨S850000, .i32⟩
  | 14 => ⟨S850000, .i1⟩
  | 15 => ⟨S_, .i32⟩
  | 16 => ⟨S850000, .i32⟩
  | 17 => ⟨S850000, .i32⟩
  | 18 => ⟨S850000, .i32⟩
  | 19 => ⟨S850000x1, .i32⟩
  | 20 => ⟨S850000x128, .f32⟩
  | 21 => ⟨S850000x1, .f32⟩
  | 22 => ⟨S850000x128, .f32⟩
  | 23 => ⟨S850000x128, .f32⟩
  | 24 => ⟨S_, .f32⟩
  | 25 => ⟨S50000x128, .f32⟩
  | 26 => ⟨S850000x1, .i32⟩
  | 27 => ⟨S50000x128, .f32⟩
  | 28 => ⟨S1x128, .f32⟩
  | 29 => ⟨S50000x128, .f32⟩
  | 30 => ⟨S50000x128, .f32⟩
  | 31 => ⟨S_, .f32⟩
  | 32 => ⟨S_, .f32⟩
  | 33 => ⟨S50000x128, .f32⟩
  | 34 => ⟨S50000x128, .i1⟩
  | 35 => ⟨S_, .f32⟩
  | 36 => ⟨S50000x128, .f32⟩
  | 37 => ⟨S50000x128, .f32⟩
  | 38 => ⟨S50000x128, .f32⟩
  | 39 => ⟨S_, .f32⟩
  | 40 => ⟨S50000, .f32⟩
  | 41 => ⟨S_, .f32⟩
  | 42 => ⟨S50000, .f32⟩
  | 43 => ⟨S50000, .f32⟩
  | 44 => ⟨S50000x1, .f32⟩
  | 45 => ⟨S50000x128, .f32⟩
  | 46 => ⟨S50000x128, .f32⟩
  | 47 => ⟨S50000x128, .f32⟩
  | 48 => ⟨S_, .f32⟩
  | 49 => ⟨S50000, .f32⟩
  | 50 => ⟨S50000x1, .f32⟩
  | 51 => ⟨S50000x128, .f32⟩
  | 52 => ⟨S50000x128, .f32⟩
  | 53 => ⟨S_, .f32⟩
  | 54 => ⟨S50000, .f32⟩
  | 55 => ⟨S50000x1, .f32⟩
  | 56 => ⟨S50000x128, .f32⟩
  | 57 => ⟨S50000x128, .f32⟩
  | 58 => ⟨S10x1x128, .f32⟩
  | 59 => ⟨S_, .f32⟩
  | 60 => ⟨S10x128, .f32⟩
  | 61 => ⟨S_, .f32⟩
  | 62 => ⟨S10x128, .f32⟩
  | 63 => ⟨S10x128, .f32⟩
  | 64 => ⟨S_, .f32⟩
  | 65 => ⟨S10, .f32⟩
  | 66 => ⟨S_, .f32⟩
  | 67 => ⟨S10, .f32⟩
  | 68 => ⟨S10, .f32⟩
  | 69 => ⟨S10x1, .f32⟩
  | 70 => ⟨S10x128, .f32⟩
  | 71 => ⟨S10x128, .f32⟩
  | 72 => ⟨S10x128, .f32⟩
  | 73 => ⟨S_, .f32⟩
  | 74 => ⟨S10, .f32⟩
  | 75 => ⟨S10x1, .f32⟩
  | 76 => ⟨S10x128, .f32⟩
  | 77 => ⟨S10x128, .f32⟩
  | 78 => ⟨S_, .f32⟩
  | 79 => ⟨S10, .f32⟩
  | 80 => ⟨S10x1, .f32⟩
  | 81 => ⟨S10x128, .f32⟩
  | 82 => ⟨S10x128, .f32⟩
  | 83 => ⟨S1x50000x128, .f32⟩
  | 84 => ⟨S10x1x128, .f32⟩
  | 85 => ⟨S10x50000x128, .f32⟩
  | 86 => ⟨S10x50000x128, .f32⟩
  | 87 => ⟨S10x50000x128, .f32⟩
  | 88 => ⟨S10x50000x1, .f32⟩
  | 89 => ⟨S10x50000x1, .f32⟩
  | 90 => ⟨S10x50000x1, .f32⟩
  | 91 => ⟨S50000x10x1, .f32⟩
  | 92 => ⟨S_, .f32⟩
  | 93 => ⟨S10x1, .f32⟩
  | 94 => ⟨S_, .f32⟩
  | 95 => ⟨S10x1, .f32⟩
  | 96 => ⟨S10x1, .f32⟩
  | 97 => ⟨S1x10x1, .f32⟩
  | 98 => ⟨S50000x10x1, .f32⟩
  | 99 => ⟨S50000x10x1, .f32⟩
  | 100 => ⟨S50000x10x1, .f32⟩
  | 101 => ⟨S_, .f32⟩
  | 102 => ⟨S10x1, .f32⟩
  | 103 => ⟨S1x10x1, .f32⟩
  | 104 => ⟨S1x10x1, .f32⟩
  | 105 => ⟨S50000x10x1, .f32⟩
  | 106 => ⟨S50000x10x1, .f32⟩
  | 107 => ⟨S50000x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v16 : Ref sig .tc := ⟨.hbm, 35, rfl⟩
abbrev main_c : Ref sig .tc := ⟨.hbm, 36, rfl⟩
abbrev main_v17 : Ref sig .tc := ⟨.hbm, 37, rfl⟩
abbrev main_v18 : Ref sig .tc := ⟨.hbm, 38, rfl⟩
abbrev main_c_4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_c_6 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_c_8 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_9 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_10 : Ref sig .tc := ⟨.hbm, 75, rfl⟩
abbrev main_call1_cst : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_call1_v3 : Ref sig .tc := ⟨.hbm, 80, rfl⟩
abbrev main_call1_v4 : Ref sig .tc := ⟨.hbm, 81, rfl⟩
abbrev main_v49 : Ref sig .tc := ⟨.hbm, 82, rfl⟩
abbrev main_v50 : Ref sig .tc := ⟨.hbm, 83, rfl⟩
abbrev main_c_11 : Ref sig .tc := ⟨.hbm, 84, rfl⟩
abbrev main_v51 : Ref sig .tc := ⟨.hbm, 85, rfl⟩
abbrev main_v52 : Ref sig .tc := ⟨.hbm, 86, rfl⟩
abbrev main_c_12 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_cst_13 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_cst_14 : Ref sig .tc := ⟨.hbm, 103, rfl⟩
abbrev main_call2_cst : Ref sig .tc := ⟨.hbm, 104, rfl⟩
abbrev main_call2_v0 : Ref sig .tc := ⟨.hbm, 105, rfl⟩
abbrev main_call2_v1 : Ref sig .tc := ⟨.hbm, 106, rfl⟩
abbrev main_call2_v2 : Ref sig .tc := ⟨.hbm, 107, rfl⟩
abbrev main_call2_v3 : Ref sig .tc := ⟨.hbm, 108, rfl⟩
abbrev main_call2_v4 : Ref sig .tc := ⟨.hbm, 109, rfl⟩
abbrev main_v67 : Ref sig .tc := ⟨.hbm, 110, rfl⟩
abbrev main_v68 : Ref sig .tc := ⟨.hbm, 111, rfl⟩
abbrev main_c_15 : Ref sig .tc := ⟨.hbm, 112, rfl⟩
abbrev main_v69 : Ref sig .tc := ⟨.hbm, 113, rfl⟩
abbrev main_v70 : Ref sig .tc := ⟨.hbm, 114, rfl⟩
abbrev main_c_16 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_cst_17 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_cst_18 : Ref sig .tc := ⟨.hbm, 131, rfl⟩
abbrev main_call3_cst : Ref sig .tc := ⟨.hbm, 132, rfl⟩
abbrev main_call3_v0 : Ref sig .tc := ⟨.hbm, 133, rfl⟩
abbrev main_call3_v1 : Ref sig .tc := ⟨.hbm, 134, rfl⟩
abbrev main_call3_v2 : Ref sig .tc := ⟨.hbm, 135, rfl⟩
abbrev main_call3_v3 : Ref sig .tc := ⟨.hbm, 136, rfl⟩
abbrev main_call3_v4 : Ref sig .tc := ⟨.hbm, 137, rfl⟩
abbrev main_v85 : Ref sig .tc := ⟨.hbm, 138, rfl⟩
abbrev main_v86 : Ref sig .tc := ⟨.hbm, 139, rfl⟩
abbrev main_c_19 : Ref sig .tc := ⟨.hbm, 140, rfl⟩
abbrev main_v87 : Ref sig .tc := ⟨.hbm, 141, rfl⟩
abbrev main_v88 : Ref sig .tc := ⟨.hbm, 142, rfl⟩
abbrev main_c_20 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_cst_21 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_cst_22 : Ref sig .tc := ⟨.hbm, 159, rfl⟩
abbrev main_call4_cst : Ref sig .tc := ⟨.hbm, 160, rfl⟩
abbrev main_call4_v0 : Ref sig .tc := ⟨.hbm, 161, rfl⟩
abbrev main_call4_v1 : Ref sig .tc := ⟨.hbm, 162, rfl⟩
abbrev main_call4_v2 : Ref sig .tc := ⟨.hbm, 163, rfl⟩
abbrev main_call4_v3 : Ref sig .tc := ⟨.hbm, 164, rfl⟩
abbrev main_call4_v4 : Ref sig .tc := ⟨.hbm, 165, rfl⟩
abbrev main_v103 : Ref sig .tc := ⟨.hbm, 166, rfl⟩
abbrev main_cst_23 : Ref sig .tc := ⟨.hbm, 167, rfl⟩
abbrev main_v104 : Ref sig .tc := ⟨.hbm, 168, rfl⟩
abbrev main_cst_24 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_cst_25 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_v114 : Ref sig .tc := ⟨.hbm, 180, rfl⟩
abbrev main_cst_26 : Ref sig .tc := ⟨.hbm, 181, rfl⟩
abbrev main_v115 : Ref sig .tc := ⟨.hbm, 182, rfl⟩
abbrev main_v116 : Ref sig .tc := ⟨.hbm, 183, rfl⟩
abbrev main_v117 : Ref sig .tc := ⟨.hbm, 184, rfl⟩
abbrev main_v118 : Ref sig .tc := ⟨.hbm, 185, rfl⟩
abbrev main_v119 : Ref sig .tc := ⟨.hbm, 186, rfl⟩
abbrev main_cst_27 : Ref sig .tc := ⟨.hbm, 187, rfl⟩
abbrev main_v120 : Ref sig .tc := ⟨.hbm, 188, rfl⟩
abbrev main_cst_28 : Ref sig .tc := ⟨.hbm, 189, rfl⟩
abbrev main_v121 : Ref sig .tc := ⟨.hbm, 190, rfl⟩
abbrev main_v122 : Ref sig .tc := ⟨.hbm, 191, rfl⟩
abbrev main_cst_29 : Ref sig .tc := ⟨.hbm, 192, rfl⟩
abbrev main_v123 : Ref sig .tc := ⟨.hbm, 193, rfl⟩
abbrev main_cst_30 : Ref sig .tc := ⟨.hbm, 194, rfl⟩
abbrev main_v124 : Ref sig .tc := ⟨.hbm, 195, rfl⟩
abbrev main_v125 : Ref sig .tc := ⟨.hbm, 196, rfl⟩
abbrev main_v126 : Ref sig .tc := ⟨.hbm, 197, rfl⟩
abbrev main_v127 : Ref sig .tc := ⟨.hbm, 198, rfl⟩
abbrev main_v128 : Ref sig .tc := ⟨.hbm, 199, rfl⟩
abbrev main_v129 : Ref sig .tc := ⟨.hbm, 200, rfl⟩
abbrev main_cst_31 : Ref sig .tc := ⟨.hbm, 201, rfl⟩
abbrev main_v130 : Ref sig .tc := ⟨.hbm, 202, rfl⟩
abbrev main_v131 : Ref sig .tc := ⟨.hbm, 203, rfl⟩
abbrev main_v132 : Ref sig .tc := ⟨.hbm, 204, rfl⟩
abbrev main_v133 : Ref sig .tc := ⟨.hbm, 205, rfl⟩
abbrev main_cst_32 : Ref sig .tc := ⟨.hbm, 206, rfl⟩
abbrev main_v134 : Ref sig .tc := ⟨.hbm, 207, rfl⟩
abbrev main_v135 : Ref sig .tc := ⟨.hbm, 208, rfl⟩
abbrev main_v136 : Ref sig .tc := ⟨.hbm, 209, rfl⟩
abbrev main_v137 : Ref sig .tc := ⟨.hbm, 210, rfl⟩
abbrev main_v138 : Ref sig .tc := ⟨.hbm, 211, rfl⟩
abbrev main_v139 : Ref sig .tc := ⟨.hbm, 212, rfl⟩
abbrev main_v140 : Ref sig .tc := ⟨.hbm, 213, rfl⟩
abbrev main_v141 : Ref sig .tc := ⟨.hbm, 214, rfl⟩
abbrev main_v142 : Ref sig .tc := ⟨.hbm, 215, rfl⟩
abbrev main_v143 : Ref sig .tc := ⟨.hbm, 216, rfl⟩
abbrev main_v144 : Ref sig .tc := ⟨.hbm, 217, rfl⟩
abbrev main_v145 : Ref sig .tc := ⟨.hbm, 218, rfl⟩
abbrev main_v146 : Ref sig .tc := ⟨.hbm, 219, rfl⟩
abbrev main_call5_cst : Ref sig .tc := ⟨.hbm, 220, rfl⟩
abbrev main_call5_v0 : Ref sig .tc := ⟨.hbm, 221, rfl⟩
abbrev main_call5_cst_0 : Ref sig .tc := ⟨.hbm, 222, rfl⟩
abbrev main_call5_v1 : Ref sig .tc := ⟨.hbm, 223, rfl⟩
abbrev main_call5_v2 : Ref sig .tc := ⟨.hbm, 224, rfl⟩
abbrev main_call5_v3 : Ref sig .tc := ⟨.hbm, 225, rfl⟩
abbrev main_call5_v4 : Ref sig .tc := ⟨.hbm, 226, rfl⟩
abbrev main_call5_v5 : Ref sig .tc := ⟨.hbm, 227, rfl⟩
abbrev main_call5_v6 : Ref sig .tc := ⟨.hbm, 228, rfl⟩
abbrev main_call5_cst_1 : Ref sig .tc := ⟨.hbm, 229, rfl⟩
abbrev main_call5_v7 : Ref sig .tc := ⟨.hbm, 230, rfl⟩
abbrev main_call5_v8 : Ref sig .tc := ⟨.hbm, 231, rfl⟩
abbrev main_call5_v9 : Ref sig .tc := ⟨.hbm, 232, rfl⟩
abbrev main_call5_v10 : Ref sig .tc := ⟨.hbm, 233, rfl⟩
abbrev main_v147 : Ref sig .tc := ⟨.hbm, 234, rfl⟩
abbrev main_v148 : Ref sig .tc := ⟨.hbm, 235, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  reducesTo_S10x1x128_S10x128_d1 : S10x1x128.ReducesTo [1] S10x128
  bcast_S_S10x128 : S_.BroadcastsInDim S10x128 (![] : Fin 0 → Fin S10x128.rank)
  reducesTo_S10x128_S10_d1 : S10x128.ReducesTo [1] S10
  bcast_S_S10 : S_.BroadcastsInDim S10 (![] : Fin 0 → Fin S10.rank)
  bcast_S10_S10x1_0 : S10.BroadcastsInDim S10x1 (![0] : Fin 1 → Fin S10x1.rank)
  bcast_S10x1_S10x128_0_1 : S10x1.BroadcastsInDim S10x128 (![0, 1] : Fin 2 → Fin S10x128.rank)
  bcast_S50000x128_S1x50000x128_1_2 : S50000x128.BroadcastsInDim S1x50000x128 (![1, 2] : Fin 2 → Fin S1x50000x128.rank)
  bcast_S10x128_S10x1x128_0_2 : S10x128.BroadcastsInDim S10x1x128 (![0, 2] : Fin 2 → Fin S10x1x128.rank)
  bcast_S1x50000x128_S10x50000x128_0_1_2 : S1x50000x128.BroadcastsInDim S10x50000x128 (![0, 1, 2] : Fin 3 → Fin S10x50000x128.rank)
  bcast_S10x1x128_S10x50000x128_0_1_2 : S10x1x128.BroadcastsInDim S10x50000x128 (![0, 1, 2] : Fin 3 → Fin S10x50000x128.rank)
  bcast_S10x1x1_S10x50000x1_0_1_2 : S10x1x1.BroadcastsInDim S10x50000x1 (![0, 1, 2] : Fin 3 → Fin S10x50000x1.rank)
  transposes_S10x50000x1_S50000x10x1_1_0_2 : S10x50000x1.Transposes [1, 0, 2] S50000x10x1
  reducesTo_S50000x10x1_S10x1_d0 : S50000x10x1.ReducesTo [0] S10x1
  bcast_S_S10x1 : S_.BroadcastsInDim S10x1 (![] : Fin 0 → Fin S10x1.rank)
  bcast_S10x1_S1x10x1_1_2 : S10x1.BroadcastsInDim S1x10x1 (![1, 2] : Fin 2 → Fin S1x10x1.rank)
  bcast_S1x10x1_S50000x10x1_0_1_2 : S1x10x1.BroadcastsInDim S50000x10x1 (![0, 1, 2] : Fin 3 → Fin S50000x10x1.rank)
  shapeCasts_S50000x10x1_S50000x10 : S50000x10x1.ShapeCasts S50000x10
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S10x50000x128_S10x1x128_S10x50000x1_2_2_1_1_0_0_wf : DotDims.WF S10x50000x128 S10x1x128 S10x50000x1 [2] [2] [1] [1] [0] [0]

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S10x50000x128_S10x1x128_S10x50000x1_2_2_1_1_0_0 : DotDims S10x50000x128 S10x1x128 S10x50000x1 where
  lhsContracting := [2]
  rhsContracting := [2]
  lhsNonContracting := [1]
  rhsNonContracting := [1]
  lhsBatch := [0]
  rhsBatch := [0]
  wf := dot_S10x50000x128_S10x1x128_S10x50000x1_2_2_1_1_0_0_wf

class Facts : Prop extends Facts₀ where

variable [Facts]
-- ==== Proof.Spec.lean ====
/-
  The mathematics both programs compute, index by index, over the extended reals.

  A graph with 50000 nodes carries 128 features per node through four graph-convolution layers. With
  s : node ↦ the reciprocal square root of its degree (a nonnegative real, 0 for an isolated node), one layer
  takes node features v to

      act (A (lin v W · s)) s b,

  where  lin v W  is the dense product  ∑ k, v(n,k)·W(k,j),  "· s" scales row n by s n,  A  adds up, at every
  node, the rows that its incoming edges carry (a row gather followed by an accumulating scatter: stated by the
  programs themselves, not here), and  act a s b = leaky (a·s + b)  rescales the sum at its destination,
  adds the bias and applies the leaky rectifier with slope 0.01 (as the binary32 word both programs spell).
  The last layer's activations are turned into "concepts"  exp (v − max of the row)  and those into class
  scores  ∑ k, concepts(n,k)·ww(k,c) + bias(c).
-/
import Idealize.ShloMosaic.Lib.ValueIdx
import Idealize.ShloMosaic.PureOps.Ideal

noncomputable section

namespace Cert.Spec

open Idealize.ShloMosaic Idealize.ShloMosaic.ValueIdx
open scoped BigOperators

/-- The leaky rectifier's slope: the binary32 word of 0.01 that both programs carry. -/
def slope : EReal := Ideal.ofBits .f32 0x3C23D70A#32

/-- The leaky rectifier on an extended real: x where 0 ≤ x, x · slope elsewhere. -/
def leaky (x : EReal) : EReal :=
  Scalar.select (FloatOps.cmpf (F := Ideal) (φ := .f32) .oge x (Ideal.ofBits .f32 0x00000000#32)) x (x * slope)

/-- The dense product of an [M, K] array with a [K, N] array, entry by entry. -/
def lin {M K N : ℕ} (v : (⟨2, ![M, K]⟩ : Shape).Idx → EReal) (W : (⟨2, ![K, N]⟩ : Shape).Idx → EReal) :
    (⟨2, ![M, N]⟩ : Shape).Idx → EReal :=
  fun i => ∑ k : Fin K, v (ix2 (i 0) k) * W (ix2 k (i 1))

/-- Row n of an [M, N] array scaled by entry n of a column [M, 1]. -/
def scaleRows {M N : ℕ} (h : (⟨2, ![M, N]⟩ : Shape).Idx → EReal) (s : (⟨2, ![M, 1]⟩ : Shape).Idx → EReal) :
    (⟨2, ![M, N]⟩ : Shape).Idx → EReal :=
  fun i => h i * s (ix2 (i 0) (0 : Fin 1))

/-- What a layer sends along the edges: the dense product, each row scaled by its own node's factor. -/
def msg {M K N : ℕ} (v : (⟨2, ![M, K]⟩ : Shape).Idx → EReal) (W : (⟨2, ![K, N]⟩ : Shape).Idx → EReal)
    (s : (⟨2, ![M, 1]⟩ : Shape).Idx → EReal) : (⟨2, ![M, N]⟩ : Shape).Idx → EReal :=
  scaleRows (lin v W) s

/-- What a layer makes of the sum that arrived: rescaled per destination node, plus the bias row, through the
    leaky rectifier. -/
def act {M N : ℕ} (a : (⟨2, ![M, N]⟩ : Shape).Idx → EReal) (s : (⟨2, ![M, 1]⟩ : Shape).Idx → EReal)
    (b : (⟨2, ![1, N]⟩ : Shape).Idx → EReal) : (⟨2, ![M, N]⟩ : Shape).Idx → EReal :=
  fun i => leaky (a i * s (ix2 (i 0) (0 : Fin 1)) + b (ix2 (0 : Fin 1) (i 1)))

/-- The maximum of row n, folded from −∞. -/
def rowMax {M N : ℕ} (v : (⟨2, ![M, N]⟩ : Shape).Idx → EReal) (n : Fin M) : EReal :=
  (Finset.univ : Finset (Fin N)).fold max (Ideal.ofBits .f32 0xFF800000#32) (fun f : Fin N => v (ix2 n f))

/-- The concepts: every entry's exponential after the row's maximum is subtracted. -/
def conc {M N : ℕ} (v : (⟨2, ![M, N]⟩ : Shape).Idx → EReal) : (⟨2, ![M, N]⟩ : Shape).Idx → EReal :=
  fun i => Ideal.exp (v i - rowMax v (i 0))

/-- The class scores: the dense product with the weights plus the bias row. -/
def score {M K N : ℕ} (cpt : (⟨2, ![M, K]⟩ : Shape).Idx → EReal) (ww : (⟨2, ![K, N]⟩ : Shape).Idx → EReal)
    (bias : (⟨2, ![1, N]⟩ : Shape).Idx → EReal) : (⟨2, ![M, N]⟩ : Shape).Idx → EReal :=
  fun i => lin cpt ww i + bias (ix2 (0 : Fin 1) (i 1))

end Cert.Spec

end
-- ==== Proof.KTerms.lean ====
/-
  The idealized kernel program's two results as pure functions of its twelve arguments: the host stretches'
  operations composed as the program spells them, each region's output array as the function of Spec.lean.
-/
import proofs.«170301_j10299331576451_2_alg».proof.KernelIdeal
import proofs.«170301_j10299331576451_2_alg».proof.Proof.Spec
import Idealize.ShloMosaic.PureOps.Ideal

noncomputable section

namespace Cert.KernelIdeal.KValue

open Idealize.ShloMosaic Cert.KernelIdeal
variable [Cert.KernelIdeal.Facts]
open Cert.KernelIdeal.Facts₀ Cert.KernelIdeal.Facts

/-- The node numbers 0 … 49999: every node's self-loop. -/
def loops : IVec S50000 32 := iotaInDim S50000 32 0

/-- Row r of the edge list (r = 0 the sources, r = 1 the destinations) followed by the self-loops. -/
def ends0 (a1 : IVec S2x800000 32) : IVec S850000 32 :=
  concatenate S850000 0 [⟨S800000, shapeCast S800000 (extractStridedSlice S1x800000 ![0, 0] a1 slices_S2x800000_S1x800000_0_0) shapeCasts_S1x800000_S800000⟩, ⟨S50000, loops⟩] concatenates_S800000_S50000_S850000_d0
def ends1 (a1 : IVec S2x800000 32) : IVec S850000 32 :=
  concatenate S850000 0 [⟨S800000, shapeCast S800000 (extractStridedSlice S1x800000 ![1, 0] a1 slices_S2x800000_S1x800000_1_0) shapeCasts_S1x800000_S800000⟩, ⟨S50000, loops⟩] concatenates_S800000_S50000_S850000_d0

/-- A column of node numbers as an index column [E, 1]. -/
def col (x : IVec S850000 32) : IVec S850000x1 32 := broadcastInDim S850000x1 ![0] bcast_S850000_S850000x1_0 x

/-- A negative node number counted from the end (jnp's index normalisation): x + 50000 where x < 0. -/
def wrap (x : IVec S850000 32) : IVec S850000 32 :=
  select (cmpi .slt x (broadcastInDim S850000 ![] bcast_S_S850000 (constantI S_ 32 0#32)))
    (addi x (broadcastInDim S850000 ![] bcast_S_S850000 (constantI S_ 32 50000#32))) x

/-- Every node's degree: ones added up at the destinations. -/
def deg (a1 : IVec S2x800000 32) : FVec Ideal S50000 .f32 :=
  Host.scatterAdd scatter_S50000_S850000x1_S850000_n_0_0_1
    (broadcastInDim S50000 ![] bcast_S_S50000 (constant S_ .f32 0x00000000#32)) (col (ends1 a1))
    (broadcastInDim S850000 ![] bcast_S_S850000 (constant S_ .f32 0x3F800000#32))

/-- The per-node factor: the reciprocal square root of the degree (at least 1), 0 at a node of degree 0. -/
def dis (a1 : IVec S2x800000 32) : FVec Ideal S50000 .f32 :=
  select (cmpf .ogt (deg a1) (broadcastInDim S50000 ![] bcast_S_S50000 (constant S_ .f32 0x00000000#32)))
    (Host.rsqrt (maximumf (deg a1) (broadcastInDim S50000 ![] bcast_S_S50000 (constant S_ .f32 0x3F800000#32))))
    (broadcastInDim S50000 ![] bcast_S_S50000 (id (constant S_ .f32 0x00000000#32)))

/-- The factor as the column [50000, 1] the regions read. -/
def dis2 (a1 : IVec S2x800000 32) : FVec Ideal S50000x1 .f32 := shapeCast S50000x1 (dis a1) shapeCasts_S50000_S50000x1

/-- What arrives at every node: the rows of `mk` gathered at the (normalised) sources and added up at the
    destinations, from zero. -/
def agg (mk : FVec Ideal S50000x128 .bf16) (a1 : IVec S2x800000 32) : FVec Ideal S50000x128 .f32 :=
  Host.scatterAdd scatter_S50000x128_S850000x1_S850000x128_1_0_0_1
    (broadcastInDim S50000x128 ![] bcast_S_S50000x128 (constant S_ .f32 0x00000000#32)) (col (ends1 a1))
    (extf .f32 (Host.gather gather_S50000x128_S850000x1_S850000x128_1_0_n_n_0_1_1128 mk (col (wrap (ends0 a1)))) bitsLt_bf16_f32)

/-- A bias vector as the row [1, 128] the regions read. -/
def brow (b : FVec Ideal S128 .f32) : FVec Ideal S1x128 .f32 := shapeCast S1x128 b shapeCasts_S128_S1x128

/-- The per-class attention over the features: |w| summed over the unit axis, over the temperature, soft-maxed
    along the features and divided by its own maximum. -/
def gam (a10 : FVec Ideal S10x1x128 .f32) : FVec Ideal S10x128 .f32 :=
  Host.divf (Host.reduceAdd (Host.absf a10) (constant S_ .f32 0x00000000#32) reducesTo_S10x1x128_S10x128_d1 h_S_)
    (broadcastInDim S10x128 ![] bcast_S_S10x128 (constant S_ .f32 0x3F19999A#32))
def gmax (g : FVec Ideal S10x128 .f32) : FVec Ideal S10 .f32 :=
  maximumf (broadcastInDim S10 ![] bcast_S_S10 (constant S_ .f32 0xFF800000#32)) (Host.reduce FloatOps.maximumf g (constant S_ .f32 0xFF800000#32) reducesTo_S10x128_S10_d1 h_S_)
def spread (x : FVec Ideal S10 .f32) : FVec Ideal S10x128 .f32 :=
  broadcastInDim S10x128 ![0, 1] bcast_S10x1_S10x128_0_1 (broadcastInDim S10x1 ![0] bcast_S10_S10x1_0 x)
def gexp (g : FVec Ideal S10x128 .f32) : FVec Ideal S10x128 .f32 := Host.exp (subf g (spread (gmax g)))
def gsoft (g : FVec Ideal S10x128 .f32) : FVec Ideal S10x128 .f32 :=
  Host.divf (gexp g) (spread (Host.reduceAdd (gexp g) (constant S_ .f32 0x00000000#32) reducesTo_S10x128_S10_d1 h_S_))
def alphaNorm (a10 : FVec Ideal S10x1x128 .f32) : FVec Ideal S10x128 .f32 :=
  Host.divf (gsoft (gam a10)) (spread (Host.reduce FloatOps.maximumf (gsoft (gam a10)) (constant S_ .f32 0xFF800000#32) reducesTo_S10x128_S10_d1 h_S_))

/-- The class weights the last region reads: the attention times the weights, transposed to [128, 10]. -/
def wwT (a10 : FVec Ideal S10x1x128 .f32) : FVec Ideal S128x10 .f32 :=
  transpose S128x10 [1, 0] (mulf (alphaNorm a10) (shapeCast S10x128 a10 shapeCasts_S10x1x128_S10x128)) transposes_S10x128_S128x10_1_0
/-- The class biases as the row [1, 10] the last region reads. -/
def biasRow (a11 : FVec Ideal S10x1x1 .f32) : FVec Ideal S1x10 .f32 :=
  shapeCast S1x10 (shapeCast S10 a11 shapeCasts_S10x1x1_S10) shapeCasts_S10_S1x10

/-- The log-softmax over the NODES (axis 0) of the [50000, 10] scores. -/
def lmax (x : FVec Ideal S50000x10 .f32) : FVec Ideal S10 .f32 :=
  maximumf (broadcastInDim S10 ![] bcast_S_S10 (constant S_ .f32 0xFF800000#32)) (Host.reduce FloatOps.maximumf x (constant S_ .f32 0xFF800000#32) reducesTo_S50000x10_S10_d0 h_S_)
def lspread (x : FVec Ideal S10 .f32) : FVec Ideal S50000x10 .f32 :=
  broadcastInDim S50000x10 ![0, 1] bcast_S1x10_S50000x10_0_1 (broadcastInDim S1x10 ![1] bcast_S10_S1x10_1 x)
def lshift (x : FVec Ideal S50000x10 .f32) : FVec Ideal S50000x10 .f32 := subf x (lspread (lmax x))
def lsm (x : FVec Ideal S50000x10 .f32) : FVec Ideal S50000x10 .f32 :=
  subf (lshift x) (broadcastInDim S50000x10 ![0, 1] bcast_S1x10_S50000x10_0_1 (Host.log (broadcastInDim S1x10 ![1] bcast_S10_S1x10_1
    (Host.reduceAdd (Host.exp (lshift x)) (constant S_ .f32 0x00000000#32) reducesTo_S50000x10_S10_d0 h_S_))))

/-- Layer 0's messages; a middle layer's messages from the previous layer's; the last layer's activations. -/
def m0 (a0 : FVec Ideal S50000x128 .f32) (a1 : IVec S2x800000 32) (a2 : FVec Ideal S128x128 .f32) : FVec Ideal S50000x128 .bf16 :=
  Cert.Spec.msg a0 a2 (dis2 a1)
def mid (mp : FVec Ideal S50000x128 .bf16) (a1 : IVec S2x800000 32) (b : FVec Ideal S128 .f32) (W : FVec Ideal S128x128 .f32) : FVec Ideal S50000x128 .bf16 :=
  Cert.Spec.msg (Cert.Spec.act (agg mp a1) (dis2 a1) (brow b)) W (dis2 a1)
def last (mp : FVec Ideal S50000x128 .bf16) (a1 : IVec S2x800000 32) (b : FVec Ideal S128 .f32) : FVec Ideal S50000x128 .f32 :=
  Cert.Spec.act (agg mp a1) (dis2 a1) (brow b)

/-- The last layer's activations, from the twelve arguments. -/
def v4 (a0 : FVec Ideal S50000x128 .f32) (a1 : IVec S2x800000 32) (a2 : FVec Ideal S128x128 .f32) (a3 : FVec Ideal S128 .f32)
    (a4 : FVec Ideal S128x128 .f32) (a5 : FVec Ideal S128 .f32) (a6 : FVec Ideal S128x128 .f32) (a7 : FVec Ideal S128 .f32)
    (a8 : FVec Ideal S128x128 .f32) (a9 : FVec Ideal S128 .f32) : FVec Ideal S50000x128 .f32 :=
  last (mid (mid (mid (m0 a0 a1 a2) a1 a3 a4) a1 a5 a6) a1 a7 a8) a1 a9

/-- The program's first result: the concepts. -/
def out0 (a0 : FVec Ideal S50000x128 .f32) (a1 : IVec S2x800000 32) (a2 : FVec Ideal S128x128 .f32) (a3 : FVec Ideal S128 .f32)
    (a4 : FVec Ideal S128x128 .f32) (a5 : FVec Ideal S128 .f32) (a6 : FVec Ideal S128x128 .f32) (a7 : FVec Ideal S128 .f32)
    (a8 : FVec Ideal S128x128 .f32) (a9 : FVec Ideal S128 .f32) : FVec Ideal S50000x128 .f32 :=
  Cert.Spec.conc (v4 a0 a1 a2 a3 a4 a5 a6 a7 a8 a9)

/-- The program's second result: the log-probabilities over the nodes. -/
def out1 (a0 : FVec Ideal S50000x128 .f32) (a1 : IVec S2x800000 32) (a2 : FVec Ideal S128x128 .f32) (a3 : FVec Ideal S128 .f32)
    (a4 : FVec Ideal S128x128 .f32) (a5 : FVec Ideal S128 .f32) (a6 : FVec Ideal S128x128 .f32) (a7 : FVec Ideal S128 .f32)
    (a8 : FVec Ideal S128x128 .f32) (a9 : FVec Ideal S128 .f32) (a10 : FVec Ideal S10x1x128 .f32) (a11 : FVec Ideal S10x1x1 .f32) :
    FVec Ideal S50000x10 .f32 :=
  lsm (Cert.Spec.score (out0 a0 a1 a2 a3 a4 a5 a6 a7 a8 a9) (wwT a10) (biasRow a11))

end Cert.KernelIdeal.KValue

end
-- ==== Proof.LibPlainMatmul.lean ====
/-
  A plain matrix product into a zero accumulator, read at an entry, for any extents.

  For an [M, K] left operand and a [K, N] right operand contracted row by column (left axis 1 against right axis 0,
  no batch axes), on the extended reals, entry (r, e) of the product accumulated into the zero matrix is
  ∑ k < K, lhs[r, k] · rhs[k, e]: the accumulator contributes 0 + _, and the contraction's one-axis index is its one
  coordinate. The dimension record may be any record equal to the plain one (a program's own record differs from it
  only in the proof it carries), which is how the lemma is applied to a printed product.
-/
import Idealize.ShloMosaic.Lib.ValueIdx
import Idealize.ShloMosaic.PureOps.Ideal.Laws

noncomputable section

namespace Idealize.ShloMosaic.ValueIdx

open Idealize.ShloMosaic

/-- Entry (r, e) of a plain [M, K] × [K, N] product into the zero accumulator is ∑ k, lhs[r, k] · rhs[k, e]. -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (e : Fin N) :
    FloatOps.matmul d prec lhs rhs (constant ⟨2, ![M, N]⟩ .f32 0x00000000#32) (ix2 r e)
      = ∑ k : Fin K, lhs (ix2 r k) * rhs (ix2 k e) := by
  subst hd
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r e) ((contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r e) ((contrEquiv1 (DotDims.plain M K N) K rfl rfl).symm k) = ix2 k e :=
    funext fun a => Fin.ext (by
      match a with
      | ⟨0, _⟩ => exact hk
      | ⟨1, _⟩ => rfl)
  rw [el, er]

end Idealize.ShloMosaic.ValueIdx

end
-- ==== Proof.LibKeepdims.lean ====
/-
  A sum along the rows of a matrix, kept as a column and spread back over the columns, read at an index.

  `jnp.sum(x, axis=-1, keepdims=True) + y` for an `[a, b]` matrix `x` and an `[a, c]` matrix `y` is three vector
  operations: a reduction `[a, b] → [a]` over the last axis, a cast `[a] → [a, 1]` that makes the sums a column, and
  a broadcast `[a, 1] → [a, c]` that repeats the column along every row.  Read at `(i, j)` the three compose to
  `Σ_f x[i, f]`: the result does not depend on `j`.  The three lemmas below read one operation each at an index
  written by its coordinates, for any extents `a`, `b`, `c` and any element type.
-/
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- A vector `[a]` cast to a column `[a, 1]` reads, at `(i, u)`, the vector at `i`, whatever the unit coordinate
    `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, c]` reads, at `(i, j)`, the column's entry of row `i`. -/
theorem broadcastTo_a1_ac_apply {a c : ℕ} (v : (⟨2, ![a, 1]⟩ : Shape).Idx → α) (h : (⟨2, ![a, 1]⟩ : Shape).Broadcasts ⟨2, ![a, c]⟩)
    (i : Fin a) (j : Fin c) : broadcastTo ⟨2, ![a, c]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show 0 = if (1 : ℕ) = 1 then 0 else j.val
    rw [if_pos rfl]

/-- On the extended reals a float sum over the last axis of an `[a, b]` matrix reads, at row `i`, the sum of that
    row's entries: the index over `i` with coordinate `f` put back on the summed axis is `(i, f)`. -/
theorem multiReduction_add_lastAxis_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ f : Fin b, src (ix2 i f) := by
  refine (Ideal.multiReduction_add_single src acc h hφ hacc (ix1 i)).trans ?_
  exact Finset.sum_congr rfl fun f _ => congrArg src (funext fun d => Fin.ext (by
    match d with
    | ⟨0, _⟩ => rfl
    | ⟨1, _⟩ => rfl))

/-- The three composed: the row sums of `x`, kept as a column and broadcast to `c` columns, read `Σ_f x[i, f]` at
    every `(i, j)`. -/
theorem rowSum_keepdims_broadcast_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (hb : (⟨2, ![a, 1]⟩ : Shape).Broadcasts ⟨2, ![a, c]⟩)
    (i : Fin a) (j : Fin c) :
    broadcastTo ⟨2, ![a, c]⟩ (shapeCast ⟨2, ![a, 1]⟩ (multiReduction .add [1] ⟨1, ![a]⟩ src acc h hφ hacc) hc) hb (ix2 i j)
      = ∑ f : Fin b, src (ix2 i f) :=
  (broadcastTo_a1_ac_apply _ hb i j).trans
    ((shapeCast_a_a1_apply _ hc i 0).trans (multiReduction_add_lastAxis_apply src acc h hφ hacc i))

end Cert.LibKeepdims

end
-- ==== Proof.LibRowReads.lean ====
/-
  Three reads of a dense layer's vector operations at one entry, on the extended reals, for any extents.

  * `bias_row_apply`: a `[1, b]` bias row, recast to its own shape and spread over `a` rows, reads at `(r, e)` its one
    row at `e`.
  * `product_apply`: a plain `[M, K] × [K, N]` matrix product into the zero accumulator whose right operand is a weight
    block recast to its own shape reads at `(r, e)` the sum `∑ k, X[r, k] · W[k, e]` (any dimension record equal to
    the plain one, any operand formats: a change of float format is the identity here).
  * `two_columns_apply`: two `[a, 1]` columns set side by side into `[a, 2]` read at `(r, k)` the first column's row `r`
    for `k = 0` and the second's for `k = 1`.
  Built on this directory's `matmul_plain_zero_apply` (LibPlainMatmul.lean).
-/
import proofs.«170301_j10299331576451_2_alg».proof.Proof.LibPlainMatmul
import Idealize.ShloMosaic.Lib.Pipeline.Value
import Idealize.ShloMosaic.Lib.ValueLayout

noncomputable section

open scoped BigOperators

namespace Cert.LibRowReads

open Idealize.ShloMosaic Idealize.ShloMosaic.ValueIdx

/-- A `[1, b]` bias row, recast to its own shape and spread over `a` rows, reads its one row. -/
theorem bias_row_apply {a b : ℕ} (v : (⟨2, ![1, b]⟩ : Shape).Idx → EReal) (h1 : (⟨2, ![1, b]⟩ : Shape).ShapeCasts ⟨2, ![1, b]⟩)
    (h2 : (⟨2, ![1, b]⟩ : Shape).Broadcasts ⟨2, ![a, b]⟩) (r : Fin a) (e : Fin b) :
    broadcastTo ⟨2, ![a, b]⟩ (shapeCast ⟨2, ![1, b]⟩ v h1) h2 (ix2 r e) = v (ix2 (0 : Fin 1) e) :=
  (broadcastTo_1b_ab_apply _ h2 r e).trans (congrFun (shapeCast_self v h1) _)

/-- A plain product of an `[M, K]` block with a `[K, N]` weight block (recast to its own shape) into the zero
    accumulator: entry `(r, e)` is `∑ k, X[r, k] · W[k, e]`. -/
theorem product_apply {M K N : ℕ} {φ₁ φ₂ : FTy} (d : DotDims ⟨2, ![M, K]⟩ ⟨2, ![K, N]⟩ ⟨2, ![M, N]⟩)
    (hd : d = DotDims.plain M K N) (X : FVec Ideal ⟨2, ![M, K]⟩ φ₁) (W : FVec Ideal ⟨2, ![K, N]⟩ φ₂)
    (h : (⟨2, ![K, N]⟩ : Shape).ShapeCasts ⟨2, ![K, N]⟩) (r : Fin M) (e : Fin N) :
    FloatOps.matmul d none X (shapeCast ⟨2, ![K, N]⟩ W h) (constant ⟨2, ![M, N]⟩ .f32 0x00000000#32) (ix2 r e)
      = ∑ k : Fin K, X (ix2 r k) * W (ix2 k e) := by
  rw [shapeCast_self W h]
  exact matmul_plain_zero_apply d hd none X W r e

/-- Two `[a, 1]` columns set side by side: entry `(r, k)` of the `[a, 2]` result is the first column's entry of row `r`
    for `k = 0` and the second's for `k = 1`. -/
theorem two_columns_apply {a : ℕ} (X Y : (⟨2, ![a, 1]⟩ : Shape).Idx → EReal)
    (h : Shape.Concatenates [(⟨2, ![a, 1]⟩ : Shape), (⟨2, ![a, 1]⟩ : Shape)] (⟨2, ![a, 2]⟩ : Shape) (1 : Fin 2)) (r : Fin a) (k : Fin 2) :
    concatenate (⟨2, ![a, 2]⟩ : Shape) (1 : Fin 2) [⟨(⟨2, ![a, 1]⟩ : Shape), X⟩, ⟨(⟨2, ![a, 1]⟩ : Shape), Y⟩] h (ix2 r k)
      = if k.val = 0 then X (ix2 r (0 : Fin 1)) else Y (ix2 r (0 : Fin 1)) := by
  match k with
  | ⟨0, _⟩ =>
    rw [if_pos rfl]
    exact concatenate_pair_apply_left (1 : Fin 2) X Y h (ix2 r (⟨0, by decide⟩ : Fin 2)) rfl (ix2 r (0 : Fin 1))
      (fun b => match b with | ⟨0, _⟩ => rfl | ⟨1, _⟩ => rfl)
  | ⟨1, _⟩ =>
    rw [if_neg Nat.one_ne_zero]
    exact concatenate_pair_apply_right (1 : Fin 2) X Y h (ix2 r (⟨1, by decide⟩ : Fin 2)) rfl rfl (ix2 r (0 : Fin 1))
      (fun b hb => match b, hb with | ⟨0, _⟩, _ => rfl | ⟨1, _⟩, hb => absurd rfl hb) rfl

end Cert.LibRowReads

end
-- ==== Proof.RegionACommon.lean ====
/-
  The bodies of the four dense regions read at one entry of a block, over the extended reals.

  The first region's body takes a block X of 2000 node rows, the weights W and the block's column s of row factors
  to  (X · W) scaled per row by s.  The three middle regions share one body: from a block a of incoming sums, the
  column s, the bias row b and the weights W it forms  h = leaky (a · s + b)  entry by entry and then  (h · W)
  scaled per row by s.  Changes of float format are the identity on the extended reals, a recast of a block to its
  own shape changes nothing, and a column or a row spread over the block reads its own row or column; the product
  into the zero accumulator is the sum over the 128 contracted positions.  Each body's block entry is therefore the
  layer's message (Spec.msg, for the middle bodies of Spec.act) at the array entry the block entry sits at, as soon
  as every input block entry is the array entry of the same row and column.
-/
import proofs.«170301_j10299331576451_2_alg».proof.Proof.Gen.KernelIdeal.Frame
import proofs.«170301_j10299331576451_2_alg».proof.Proof.Spec
import proofs.«170301_j10299331576451_2_alg».proof.Proof.LibPlainMatmul
import proofs.«170301_j10299331576451_2_alg».proof.Proof.LibKeepdims
import proofs.«170301_j10299331576451_2_alg».proof.Proof.LibRowReads
import Idealize.ShloMosaic.Lib.Pipeline.Value

set_option maxRecDepth 16384

noncomputable section

namespace Cert.KernelIdeal.RegionValue

open Idealize.ShloMosaic Idealize.ShloMosaic.TcCoe Idealize.SL.Sem Idealize.ShloMosaic.ValueIdx
open Cert.KernelIdeal Cert.KernelIdeal.Gen
open Idealize.ShloMosaic.Pipeline (Dat)
open scoped BigOperators

/-- The zero offsets of a whole-block access, as the constant function. -/
theorem hz : (![0, 0] : Fin 2 → Nat) = fun _ => 0 := funext fun a => by fin_cases a <;> rfl

/-- The first body at an entry of its block: the dense product of the node block with the weights, the row scaled. -/
theorem k0_pay1_apply (x0 : Vec Ideal S2000x128 .f32) (x1 : Vec Ideal S128x128 .f32) (x2 : Vec Ideal S2000x1 .f32)
    (p : Fin 2000) (q : Fin 128) :
    k0_pay1 x0 x1 x2 (ix2 p q) = (∑ k : Fin 128, x0 (ix2 p k) * x1 (ix2 k q)) * x2 (ix2 p (0 : Fin 1)) := by
  unfold k0_pay1
  rw [truncf_apply, mulf_apply]
  refine (congrArg₂ (· * ·) (matmul_plain_zero_apply dot_S2000x128_S128x128_S2000x128_1_0_0_1_n_n rfl none _ _ p q)
    ((Cert.LibKeepdims.broadcastTo_a1_ac_apply _ _ p q).trans (congrFun (shapeCast_self x2 _) _))).trans ?_
  rfl

/-- The first body's block entry is the layer's message at the array entry the block entry sits at, once each input
    block entry is the array entry the same row and column name. -/
theorem k0_pay1_eq_msg (A : S50000x128.Idx → EReal) (W : S128x128.Idx → EReal) (s : S50000x1.Idx → EReal)
    (x0 : Vec Ideal S2000x128 .f32) (x1 : Vec Ideal S128x128 .f32) (x2 : Vec Ideal S2000x1 .f32)
    (y : S2000x128.Idx) (i : S50000x128.Idx) (p : Fin 2000) (q : Fin 128) (r : Fin 50000)
    (hy : y = ix2 p q) (hi : i = ix2 r q)
    (h0 : ∀ k : Fin 128, x0 (ix2 p k) = A (ix2 r k))
    (h1 : ∀ k : Fin 128, x1 (ix2 k q) = W (ix2 k q))
    (h2 : x2 (ix2 p (0 : Fin 1)) = s (ix2 r (0 : Fin 1))) :
    k0_pay1 x0 x1 x2 y = Cert.Spec.msg A W s i := by
  subst hy hi
  rw [k0_pay1_apply, h2]
  show _ = (∑ k : Fin 128, A (ix2 r k) * W (ix2 k q)) * s (ix2 r (0 : Fin 1))
  exact congrArg (· * s (ix2 r (0 : Fin 1))) (Finset.sum_congr rfl fun k _ => by rw [h0 k, h1 k])

/-- A middle body at an entry of its block: the incoming sum rescaled, biased and rectified, then the dense product
    with the weights, the row scaled. -/
theorem k1_pay1_apply (x0 : Vec Ideal S2000x128 .f32) (x2 : Vec Ideal S2000x1 .f32) (x6 : Vec Ideal S1x128 .f32)
    (x16 : Vec Ideal S128x128 .f32) (x19 : Vec Ideal S2000x1 .f32) (p : Fin 2000) (q : Fin 128) :
    k1_pay1 x0 x2 x6 x16 x19 (ix2 p q)
      = (∑ k : Fin 128, Cert.Spec.leaky (x0 (ix2 p k) * x2 (ix2 p (0 : Fin 1)) + x6 (ix2 (0 : Fin 1) k)) * x16 (ix2 k q))
          * x19 (ix2 p (0 : Fin 1)) := by
  unfold k1_pay1
  rw [truncf_apply, mulf_apply]
  refine (congrArg₂ (· * ·) (matmul_plain_zero_apply dot_S2000x128_S128x128_S2000x128_1_0_0_1_n_n rfl none _ _ p q)
    ((Cert.LibKeepdims.broadcastTo_a1_ac_apply _ _ p q).trans (congrFun (shapeCast_self x19 _) _))).trans ?_
  refine congrArg (· * x19 (ix2 p (0 : Fin 1))) (Finset.sum_congr rfl fun k _ => ?_)
  rw [truncf_apply, truncf_apply, select_apply, cmpf_apply, mulf_apply, addf_apply, mulf_apply, broadcast_apply, broadcast_apply,
    shapeCast_self, Cert.LibKeepdims.broadcastTo_a1_ac_apply, shapeCast_self, Cert.LibRowReads.bias_row_apply]
  rfl

/-- The three middle bodies are one function of their five blocks. -/
theorem k2_pay1_eq : @k2_pay1 Ideal _ = @k1_pay1 Ideal _ := rfl
theorem k3_pay1_eq : @k3_pay1 Ideal _ = @k1_pay1 Ideal _ := rfl

/-- A middle body's block entry is the layer's message of the activated incoming sum at the array entry the block
    entry sits at, once each input block entry is the array entry the same row and column name. -/
theorem k1_pay1_eq_msg_act (A : S50000x128.Idx → EReal) (s : S50000x1.Idx → EReal) (b : S1x128.Idx → EReal)
    (W : S128x128.Idx → EReal)
    (x0 : Vec Ideal S2000x128 .f32) (x2 : Vec Ideal S2000x1 .f32) (x6 : Vec Ideal S1x128 .f32)
    (x16 : Vec Ideal S128x128 .f32) (x19 : Vec Ideal S2000x1 .f32)
    (y : S2000x128.Idx) (i : S50000x128.Idx) (p : Fin 2000) (q : Fin 128) (r : Fin 50000)
    (hy : y = ix2 p q) (hi : i = ix2 r q)
    (h0 : ∀ k : Fin 128, x0 (ix2 p k) = A (ix2 r k))
    (h2 : x2 (ix2 p (0 : Fin 1)) = s (ix2 r (0 : Fin 1)))
    (h6 : ∀ k : Fin 128, x6 (ix2 (0 : Fin 1) k) = b (ix2 (0 : Fin 1) k))
    (h16 : ∀ k : Fin 128, x16 (ix2 k q) = W (ix2 k q))
    (h19 : x19 (ix2 p (0 : Fin 1)) = s (ix2 r (0 : Fin 1))) :
    k1_pay1 x0 x2 x6 x16 x19 y = Cert.Spec.msg (Cert.Spec.act A s b) W s i := by
  subst hy hi
  rw [k1_pay1_apply, h19, h2]
  show _ = (∑ k : Fin 128, Cert.Spec.act A s b (ix2 r k) * W (ix2 k q)) * s (ix2 r (0 : Fin 1))
  refine congrArg (· * s (ix2 r (0 : Fin 1))) (Finset.sum_congr rfl fun k _ => ?_)
  rw [h0 k, h6 k, h16 k]
  rfl

end Cert.KernelIdeal.RegionValue

end
-- ==== Proof.RegionA0.lean ====
/-
  The first dense region's output array as one function of its input arrays.

  The region walks 25 grid points; point t reads rows 2000 t … 2000 t + 1999 of the node features and of the column
  of row factors, reads the whole weight matrix, and writes back rows 2000 t … 2000 t + 1999 of the output.  Each
  block entry it writes is the layer's message at the array entry the block entry sits at (the body read at an
  entry), so every point writes back a block of ONE function of the arrays; the 25 row blocks cover the 50000 rows
  (row r is point r / 2000's), so the output array ends holding that function.
-/
import proofs.«170301_j10299331576451_2_alg».proof.Proof.RegionACommon

set_option maxRecDepth 16384

noncomputable section

namespace Cert.KernelIdeal.RegionValue

open Idealize.ShloMosaic Idealize.ShloMosaic.TcCoe Idealize.SL.Sem Idealize.ShloMosaic.ValueIdx
open Cert.KernelIdeal Cert.KernelIdeal.Gen
open Idealize.ShloMosaic.Pipeline (Dat)
open scoped BigOperators

variable (V : (c : Dev nD) → (b : Ref sig .tc) → Buf (Elt Ideal) ((c : Thread nD τ).loc b))

/-- The first region's index maps over its grid: the row blocks move with the point, the weights stay. -/
theorem index_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Entry (p, k) of the node block at point t is the node array's entry (2000 t + p, k). -/
theorem iblk0_0_apply (c : Dev nD) (t : Fin cfg0.N) (p : Fin 2000) (k : Fin 128) (r : Fin 50000)
    (hr : r.val = t.val * 2000 + p.val) :
    (iblk0 V c 0 t : Vec Ideal S2000x128 .f32) (ix2 p k) = (V c main_arg0 : S50000x128.Idx → EReal) (ix2 r k) := by
  obtain ⟨e0, e1, -⟩ := index_facts0 t
  show (V c main_arg0 : S50000x128.Idx → EReal) (((cfg0.win 0).blk t).view.emb (ix2 p k)) = _
  refine congrArg _ (funext fun a => Fin.ext ?_)
  match a with
  | ⟨0, _⟩ => show win0_0.index t (0 : Fin 2) * 2000 + 1 * p.val = r.val; omega
  | ⟨1, _⟩ => show win0_0.index t (1 : Fin 2) * 128 + 1 * k.val = k.val; omega

/-- The weight block at every point is the weight array. -/
theorem iblk0_1_apply (c : Dev nD) (t : Fin cfg0.N) (k : Fin 128) (q : Fin 128) :
    (iblk0 V c 1 t : Vec Ideal S128x128 .f32) (ix2 k q) = (V c main_arg2 : S128x128.Idx → EReal) (ix2 k q) := by
  obtain ⟨-, -, e0, e1, -⟩ := index_facts0 t
  show (V c main_arg2 : S128x128.Idx → EReal) (((cfg0.win 1).blk t).view.emb (ix2 k q)) = _
  refine congrArg _ (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- Entry p of the scale block at point t is the scale column's entry 2000 t + p. -/
theorem iblk0_2_apply (c : Dev nD) (t : Fin cfg0.N) (p : Fin 2000) (r : Fin 50000)
    (hr : r.val = t.val * 2000 + p.val) :
    (iblk0 V c 2 t : Vec Ideal S2000x1 .f32) (ix2 p (0 : Fin 1)) = (V c main_v17 : S50000x1.Idx → EReal) (ix2 r (0 : Fin 1)) := by
  obtain ⟨-, -, -, -, e0, e1, -⟩ := index_facts0 t
  show (V c main_v17 : S50000x1.Idx → EReal) (((cfg0.win 2).blk t).view.emb (ix2 p (0 : Fin 1))) = _
  refine congrArg _ (funext fun a => Fin.ext ?_)
  match a with
  | ⟨0, _⟩ => show win0_2.index t (0 : Fin 2) * 2000 + 1 * p.val = r.val; omega
  | ⟨1, _⟩ => show win0_2.index t (1 : Fin 2) * 1 + 1 * 0 = 0; omega

/-- What point t writes back is block t of the layer's message. -/
theorem region0_flushed (c : Dev nD) (t : Fin cfg0.N) :
    (dat0 (F := Ideal) V c).flushed 3 t
      = ((cfg0.win 3).blk t).view.read (Elt Ideal) (Cert.Spec.msg (V c main_arg0 : S50000x128.Idx → EReal) (V c main_arg2 : S128x128.Idx → EReal) (V c main_v17 : S50000x1.Idx → EReal)) := by
  show (cfg0.win 3).cut (grid0.coords t) ((dat0 V c).after 3 t) = _
  rw [after0_3]
  unfold out0_3
  rw [View.canon_unit_zero hz]
  simp only [View.ld_unit_zero (S := S2000x128) hz, View.ld_unit_zero (S := S128x128) hz, View.ld_unit_zero (S := S2000x1) hz]
  obtain ⟨-, -, -, -, -, -, e30, e31⟩ := index_facts0 t
  have ht : t.val < 25 := lt_of_lt_of_eq t.isLt N_0
  funext j
  have hj0 : (j 0).val < 2000 := (j 0).isLt
  have hj1 : (j 1).val < 128 := (j 1).isLt
  show k0_pay1 (iblk0 V c 0 t) (iblk0 V c 1 t) (iblk0 V c 2 t) ((cfg0.win 3).xinj (grid0.coords t) j)
      = Cert.Spec.msg (V c main_arg0 : S50000x128.Idx → EReal) (V c main_arg2 : S128x128.Idx → EReal) (V c main_v17 : S50000x1.Idx → EReal) (((cfg0.win 3).blk t).view.emb j)
  refine k0_pay1_eq_msg (V c main_arg0) (V c main_arg2) (V c main_v17) (iblk0 V c 0 t) (iblk0 V c 1 t) (iblk0 V c 2 t) _ _
    ⟨(j 0).val, hj0⟩ ⟨(j 1).val, hj1⟩ ⟨t.val * 2000 + (j 0).val, by omega⟩ ?_ ?_
    (fun k => iblk0_0_apply V c t _ k _ rfl) (fun k => iblk0_1_apply V c t k _) (iblk0_2_apply V c t _ _ rfl)
  · funext a
    match a with
    | ⟨0, _⟩ => rfl
    | ⟨1, _⟩ => rfl
  · funext a
    apply Fin.ext
    match a with
    | ⟨0, _⟩ => show win0_3.index t (0 : Fin 2) * 2000 + 1 * (j 0).val = t.val * 2000 + (j 0).val; omega
    | ⟨1, _⟩ => show win0_3.index t (1 : Fin 2) * 128 + 1 * (j 1).val = (j 1).val; omega

/-- An index of the output array is in point t's block iff each coordinate is in the block's range on its axis. -/
theorem mem_blk0 (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v18).slice (win0_3.rect t)).set ↔ _
  rw [View.set_slice_whole, Rect.mem_set_unit]
  exact Iff.rfl

/-- Row r of the output array is written back by point r / 2000. -/
theorem cover0 (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 25 := N_0
  obtain ⟨t, htv⟩ : ∃ t : Fin cfg0.N, t.val = (i 0).val / 2000 := ⟨⟨(i 0).val / 2000, by omega⟩, rfl⟩
  obtain ⟨-, -, -, -, -, -, e30, e31⟩ := index_facts0 t
  refine ⟨t, flush0_3 t, ?_⟩
  rw [mem_blk0]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

theorem region0_arr (c : Dev nD) :
    ((dat0 (F := Ideal) V c).arrAt 3 cfg0.N : S50000x128.Idx → EReal)
      = Cert.Spec.msg (V c main_arg0 : S50000x128.Idx → EReal) (V c main_arg2 : S128x128.Idx → EReal) (V c main_v17 : S50000x1.Idx → EReal) :=
  (dat0 (F := Ideal) V c).arrAt_eq_of_cover 3 (Cert.Spec.msg (V c main_arg0 : S50000x128.Idx → EReal) (V c main_arg2 : S128x128.Idx → EReal) (V c main_v17 : S50000x1.Idx → EReal))
    (fun t _ => region0_flushed V c t) cover0

end Cert.KernelIdeal.RegionValue

end
-- ==== Proof.RegionA1.lean ====
/-
  The first middle region's output array as one function of its input arrays.

  The region walks 25 grid points; point t reads rows 2000 t … 2000 t + 1999 of the incoming sums and of the column
  of row factors, reads the whole bias row and the whole weight matrix, and writes back rows 2000 t … 2000 t + 1999
  of the output.  Each block entry it writes is the layer's message of the activated incoming sum at the array entry
  the block entry sits at (the shared middle body read at an entry), so every point writes back a block of ONE
  function of the arrays; the 25 row blocks cover the 50000 rows (row r is point r / 2000's), so the output array
  ends holding that function.
-/
import proofs.«170301_j10299331576451_2_alg».proof.Proof.RegionACommon

set_option maxRecDepth 16384

noncomputable section

namespace Cert.KernelIdeal.RegionValue

open Idealize.ShloMosaic Idealize.ShloMosaic.TcCoe Idealize.SL.Sem Idealize.ShloMosaic.ValueIdx
open Cert.KernelIdeal Cert.KernelIdeal.Gen
open Idealize.ShloMosaic.Pipeline (Dat)
open scoped BigOperators

variable (V : (c : Dev nD) → (b : Ref sig .tc) → Buf (Elt Ideal) ((c : Thread nD τ).loc b))

/-- The region's index maps over its grid: the row blocks move with the point, the bias and the weights stay. -/
theorem index_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Entry (p, k) of the block of incoming sums at point t is the array's entry (2000 t + p, k). -/
theorem iblk1_0_apply (c : Dev nD) (t : Fin cfg1.N) (p : Fin 2000) (k : Fin 128) (r : Fin 50000)
    (hr : r.val = t.val * 2000 + p.val) :
    (iblk1 V c 0 t : Vec Ideal S2000x128 .f32) (ix2 p k) = (V c main_v29 : S50000x128.Idx → EReal) (ix2 r k) := by
  obtain ⟨e0, e1, -⟩ := index_facts1 t
  show (V c main_v29 : S50000x128.Idx → EReal) (((cfg1.win 0).blk t).view.emb (ix2 p k)) = _
  refine congrArg _ (funext fun a => Fin.ext ?_)
  match a with
  | ⟨0, _⟩ => show win1_0.index t (0 : Fin 2) * 2000 + 1 * p.val = r.val; omega
  | ⟨1, _⟩ => show win1_0.index t (1 : Fin 2) * 128 + 1 * k.val = k.val; omega

/-- Entry p of the scale block at point t is the scale column's entry 2000 t + p. -/
theorem iblk1_1_apply (c : Dev nD) (t : Fin cfg1.N) (p : Fin 2000) (r : Fin 50000)
    (hr : r.val = t.val * 2000 + p.val) :
    (iblk1 V c 1 t : Vec Ideal S2000x1 .f32) (ix2 p (0 : Fin 1)) = (V c main_v17 : S50000x1.Idx → EReal) (ix2 r (0 : Fin 1)) := by
  obtain ⟨-, -, e0, e1, -⟩ := index_facts1 t
  show (V c main_v17 : S50000x1.Idx → EReal) (((cfg1.win 1).blk t).view.emb (ix2 p (0 : Fin 1))) = _
  refine congrArg _ (funext fun a => Fin.ext ?_)
  match a with
  | ⟨0, _⟩ => show win1_1.index t (0 : Fin 2) * 2000 + 1 * p.val = r.val; omega
  | ⟨1, _⟩ => show win1_1.index t (1 : Fin 2) * 1 + 1 * 0 = 0; omega

/-- The bias block at every point is the bias row. -/
theorem iblk1_2_apply (c : Dev nD) (t : Fin cfg1.N) (k : Fin 128) :
    (iblk1 V c 2 t : Vec Ideal S1x128 .f32) (ix2 (0 : Fin 1) k) = (V c main_v30 : S1x128.Idx → EReal) (ix2 (0 : Fin 1) k) := by
  obtain ⟨-, -, -, -, e0, e1, -⟩ := index_facts1 t
  show (V c main_v30 : S1x128.Idx → EReal) (((cfg1.win 2).blk t).view.emb (ix2 (0 : Fin 1) k)) = _
  refine congrArg _ (funext fun a => Fin.ext ?_)
  match a with
  | ⟨0, _⟩ => show win1_2.index t (0 : Fin 2) * 1 + 1 * 0 = 0; omega
  | ⟨1, _⟩ => show win1_2.index t (1 : Fin 2) * 128 + 1 * k.val = k.val; omega

/-- The weight block at every point is the weight array. -/
theorem iblk1_3_apply (c : Dev nD) (t : Fin cfg1.N) (k : Fin 128) (q : Fin 128) :
    (iblk1 V c 3 t : Vec Ideal S128x128 .f32) (ix2 k q) = (V c main_arg4 : S128x128.Idx → EReal) (ix2 k q) := by
  obtain ⟨-, -, -, -, -, -, e0, e1, -⟩ := index_facts1 t
  show (V c main_arg4 : S128x128.Idx → EReal) (((cfg1.win 3).blk t).view.emb (ix2 k q)) = _
  refine congrArg _ (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega

/-- What point t writes back is block t of the layer's message of the activated incoming sum. -/
theorem region1_flushed (c : Dev nD) (t : Fin cfg1.N) :
    (dat1 (F := Ideal) V c).flushed 4 t
      = ((cfg1.win 4).blk t).view.read (Elt Ideal) (Cert.Spec.msg (Cert.Spec.act (V c main_v29 : S50000x128.Idx → EReal) (V c main_v17 : S50000x1.Idx → EReal) (V c main_v30 : S1x128.Idx → EReal))
          (V c main_arg4 : S128x128.Idx → EReal) (V c main_v17 : S50000x1.Idx → EReal)) := by
  show (cfg1.win 4).cut (grid1.coords t) ((dat1 V c).after 4 t) = _
  rw [after1_4]
  unfold out1_4
  rw [View.canon_unit_zero hz]
  simp only [View.ld_unit_zero (S := S2000x128) hz, View.ld_unit_zero (S := S128x128) hz, View.ld_unit_zero (S := S2000x1) hz,
    View.ld_unit_zero (S := S1x128) hz]
  obtain ⟨-, -, -, -, -, -, -, -, e40, e41⟩ := index_facts1 t
  have ht : t.val < 25 := lt_of_lt_of_eq t.isLt N_1
  funext j
  have hj0 : (j 0).val < 2000 := (j 0).isLt
  have hj1 : (j 1).val < 128 := (j 1).isLt
  show k1_pay1 (iblk1 V c 0 t) (iblk1 V c 1 t) (iblk1 V c 2 t) (iblk1 V c 3 t) (iblk1 V c 1 t) ((cfg1.win 4).xinj (grid1.coords t) j)
      = Cert.Spec.msg (Cert.Spec.act (V c main_v29 : S50000x128.Idx → EReal) (V c main_v17 : S50000x1.Idx → EReal) (V c main_v30 : S1x128.Idx → EReal))
          (V c main_arg4 : S128x128.Idx → EReal) (V c main_v17 : S50000x1.Idx → EReal) (((cfg1.win 4).blk t).view.emb j)
  refine k1_pay1_eq_msg_act (V c main_v29) (V c main_v17) (V c main_v30) (V c main_arg4)
    (iblk1 V c 0 t) (iblk1 V c 1 t) (iblk1 V c 2 t) (iblk1 V c 3 t) (iblk1 V c 1 t) _ _
    ⟨(j 0).val, hj0⟩ ⟨(j 1).val, hj1⟩ ⟨t.val * 2000 + (j 0).val, by omega⟩ ?_ ?_
    (fun k => iblk1_0_apply V c t _ k _ rfl) (iblk1_1_apply V c t _ _ rfl) (fun k => iblk1_2_apply V c t k)
    (fun k => iblk1_3_apply V c t k _) (iblk1_1_apply V c t _ _ rfl)
  · funext a
    match a with
    | ⟨0, _⟩ => rfl
    | ⟨1, _⟩ => rfl
  · funext a
    apply Fin.ext
    match a with
    | ⟨0, _⟩ => show win1_4.index t (0 : Fin 2) * 2000 + 1 * (j 0).val = t.val * 2000 + (j 0).val; omega
    | ⟨1, _⟩ => show win1_4.index t (1 : Fin 2) * 128 + 1 * (j 1).val = (j 1).val; omega

/-- An index of the output array is in point t's block iff each coordinate is in the block's range on its axis. -/
theorem mem_blk1 (t : Fin cfg1.N) (i : S50000x128.Idx) :
    i ∈ ((cfg1.win 4).blk t).view.set ↔ ∀ a : Fin 2, win1_4.index t a * S2000x128.size a ≤ (i a).val ∧ (i a).val < win1_4.index t a * S2000x128.size a + S2000x128.size a := by
  show i ∈ ((View.whole main_v31).slice (win1_4.rect t)).set ↔ _
  rw [View.set_slice_whole, Rect.mem_set_unit]
  exact Iff.rfl

/-- Row r of the output array is written back by point r / 2000. -/
theorem cover1 (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 25 := N_1
  obtain ⟨t, htv⟩ : ∃ t : Fin cfg1.N, t.val = (i 0).val / 2000 := ⟨⟨(i 0).val / 2000, by omega⟩, rfl⟩
  obtain ⟨-, -, -, -, -, -, -, -, e40, e41⟩ := index_facts1 t
  refine ⟨t, flush1_4 t, ?_⟩
  rw [mem_blk1]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 128 ≤ (i 1).val ∧ (i 1).val < win1_4.index t (1 : Fin 2) * 128 + 128; omega

theorem region1_arr (c : Dev nD) :
    ((dat1 (F := Ideal) V c).arrAt 4 cfg1.N : S50000x128.Idx → EReal)
      = Cert.Spec.msg (Cert.Spec.act (V c main_v29 : S50000x128.Idx → EReal) (V c main_v17 : S50000x1.Idx → EReal) (V c main_v30 : S1x128.Idx → EReal))
          (V c main_arg4 : S128x128.Idx → EReal) (V c main_v17 : S50000x1.Idx → EReal) :=
  (dat1 (F := Ideal) V c).arrAt_eq_of_cover 4
    (Cert.Spec.msg (Cert.Spec.act (V c main_v29 : S50000x128.Idx → EReal) (V c main_v17 : S50000x1.Idx → EReal) (V c main_v30 : S1x128.Idx → EReal))
      (V c main_arg4 : S128x128.Idx → EReal) (V c main_v17 : S50000x1.Idx → EReal))
    (fun t _ => region1_flushed V c t) cover1

end Cert.KernelIdeal.RegionValue

end
-- ==== Proof.RegionA2.lean ====
/-
  The second middle region's output array as one function of its input arrays.

  The region walks 25 grid points; point t reads rows 2000 t … 2000 t + 1999 of the incoming sums and of the column
  of row factors, reads the whole bias row and the whole weight matrix, and writes back rows 2000 t … 2000 t + 1999
  of the output.  Each block entry it writes is the layer's message of the activated incoming sum at the array entry
  the block entry sits at (the shared middle body read at an entry), so every point writes back a block of ONE
  function of the arrays; the 25 row blocks cover the 50000 rows (row r is point r / 2000's), so the output array
  ends holding that function.
-/
import proofs.«170301_j10299331576451_2_alg».proof.Proof.RegionACommon

set_option maxRecDepth 16384

noncomputable section

namespace Cert.KernelIdeal.RegionValue

open Idealize.ShloMosaic Idealize.ShloMosaic.TcCoe Idealize.SL.Sem Idealize.ShloMosaic.ValueIdx
open Cert.KernelIdeal Cert.KernelIdeal.Gen
open Idealize.ShloMosaic.Pipeline (Dat)
open scoped BigOperators

variable (V : (c : Dev nD) → (b : Ref sig .tc) → Buf (Elt Ideal) ((c : Thread nD τ).loc b))

/-- The region's index maps over its grid: the row blocks move with the point, the bias and the weights stay. -/
theorem index_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Entry (p, k) of the block of incoming sums at point t is the array's entry (2000 t + p, k). -/
theorem iblk2_0_apply (c : Dev nD) (t : Fin cfg2.N) (p : Fin 2000) (k : Fin 128) (r : Fin 50000)
    (hr : r.val = t.val * 2000 + p.val) :
    (iblk2 V c 0 t : Vec Ideal S2000x128 .f32) (ix2 p k) = (V c main_v42 : S50000x128.Idx → EReal) (ix2 r k) := by
  obtain ⟨e0, e1, -⟩ := index_facts2 t
  show (V c main_v42 : S50000x128.Idx → EReal) (((cfg2.win 0).blk t).view.emb (ix2 p k)) = _
  refine congrArg _ (funext fun a => Fin.ext ?_)
  match a with
  | ⟨0, _⟩ => show win2_0.index t (0 : Fin 2) * 2000 + 1 * p.val = r.val; omega
  | ⟨1, _⟩ => show win2_0.index t (1 : Fin 2) * 128 + 1 * k.val = k.val; omega

/-- Entry p of the scale block at point t is the scale column's entry 2000 t + p. -/
theorem iblk2_1_apply (c : Dev nD) (t : Fin cfg2.N) (p : Fin 2000) (r : Fin 50000)
    (hr : r.val = t.val * 2000 + p.val) :
    (iblk2 V c 1 t : Vec Ideal S2000x1 .f32) (ix2 p (0 : Fin 1)) = (V c main_v17 : S50000x1.Idx → EReal) (ix2 r (0 : Fin 1)) := by
  obtain ⟨-, -, e0, e1, -⟩ := index_facts2 t
  show (V c main_v17 : S50000x1.Idx → EReal) (((cfg2.win 1).blk t).view.emb (ix2 p (0 : Fin 1))) = _
  refine congrArg _ (funext fun a => Fin.ext ?_)
  match a with
  | ⟨0, _⟩ => show win2_1.index t (0 : Fin 2) * 2000 + 1 * p.val = r.val; omega
  | ⟨1, _⟩ => show win2_1.index t (1 : Fin 2) * 1 + 1 * 0 = 0; omega

/-- The bias block at every point is the bias row. -/
theorem iblk2_2_apply (c : Dev nD) (t : Fin cfg2.N) (k : Fin 128) :
    (iblk2 V c 2 t : Vec Ideal S1x128 .f32) (ix2 (0 : Fin 1) k) = (V c main_v43 : S1x128.Idx → EReal) (ix2 (0 : Fin 1) k) := by
  obtain ⟨-, -, -, -, e0, e1, -⟩ := index_facts2 t
  show (V c main_v43 : S1x128.Idx → EReal) (((cfg2.win 2).blk t).view.emb (ix2 (0 : Fin 1) k)) = _
  refine congrArg _ (funext fun a => Fin.ext ?_)
  match a with
  | ⟨0, _⟩ => show win2_2.index t (0 : Fin 2) * 1 + 1 * 0 = 0; omega
  | ⟨1, _⟩ => show win2_2.index t (1 : Fin 2) * 128 + 1 * k.val = k.val; omega

/-- The weight block at every point is the weight array. -/
theorem iblk2_3_apply (c : Dev nD) (t : Fin cfg2.N) (k : Fin 128) (q : Fin 128) :
    (iblk2 V c 3 t : Vec Ideal S128x128 .f32) (ix2 k q) = (V c main_arg6 : S128x128.Idx → EReal) (ix2 k q) := by
  obtain ⟨-, -, -, -, -, -, e0, e1, -⟩ := index_facts2 t
  show (V c main_arg6 : S128x128.Idx → EReal) (((cfg2.win 3).blk t).view.emb (ix2 k q)) = _
  refine congrArg _ (funext fun a => Fin.ext ?_)
  match a with
  | ⟨0, _⟩ => show win2_3.index t (0 : Fin 2) * 128 + 1 * k.val = k.val; omega
  | ⟨1, _⟩ => show win2_3.index t (1 : Fin 2) * 128 + 1 * q.val = q.val; omega

/-- What point t writes back is block t of the layer's message of the activated incoming sum. -/
theorem region2_flushed (c : Dev nD) (t : Fin cfg2.N) :
    (dat2 (F := Ideal) V c).flushed 4 t
      = ((cfg2.win 4).blk t).view.read (Elt Ideal) (Cert.Spec.msg (Cert.Spec.act (V c main_v42 : S50000x128.Idx → EReal) (V c main_v17 : S50000x1.Idx → EReal) (V c main_v43 : S1x128.Idx → EReal))
          (V c main_arg6 : S128x128.Idx → EReal) (V c main_v17 : S50000x1.Idx → EReal)) := by
  show (cfg2.win 4).cut (grid2.coords t) ((dat2 V c).after 4 t) = _
  rw [after2_4]
  unfold out2_4
  rw [View.canon_unit_zero hz]
  simp only [View.ld_unit_zero (S := S2000x128) hz, View.ld_unit_zero (S := S128x128) hz, View.ld_unit_zero (S := S2000x1) hz,
    View.ld_unit_zero (S := S1x128) hz]
  obtain ⟨-, -, -, -, -, -, -, -, e40, e41⟩ := index_facts2 t
  have ht : t.val < 25 := lt_of_lt_of_eq t.isLt N_2
  funext j
  have hj0 : (j 0).val < 2000 := (j 0).isLt
  have hj1 : (j 1).val < 128 := (j 1).isLt
  show k2_pay1 (iblk2 V c 0 t) (iblk2 V c 1 t) (iblk2 V c 2 t) (iblk2 V c 3 t) (iblk2 V c 1 t) ((cfg2.win 4).xinj (grid2.coords t) j)
      = Cert.Spec.msg (Cert.Spec.act (V c main_v42 : S50000x128.Idx → EReal) (V c main_v17 : S50000x1.Idx → EReal) (V c main_v43 : S1x128.Idx → EReal))
          (V c main_arg6 : S128x128.Idx → EReal) (V c main_v17 : S50000x1.Idx → EReal) (((cfg2.win 4).blk t).view.emb j)
  rw [k2_pay1_eq]
  refine k1_pay1_eq_msg_act (V c main_v42) (V c main_v17) (V c main_v43) (V c main_arg6)
    (iblk2 V c 0 t) (iblk2 V c 1 t) (iblk2 V c 2 t) (iblk2 V c 3 t) (iblk2 V c 1 t) _ _
    ⟨(j 0).val, hj0⟩ ⟨(j 1).val, hj1⟩ ⟨t.val * 2000 + (j 0).val, by omega⟩ ?_ ?_
    (fun k => iblk2_0_apply V c t _ k _ rfl) (iblk2_1_apply V c t _ _ rfl) (fun k => iblk2_2_apply V c t k)
    (fun k => iblk2_3_apply V c t k _) (iblk2_1_apply V c t _ _ rfl)
  · funext a
    match a with
    | ⟨0, _⟩ => rfl
    | ⟨1, _⟩ => rfl
  · funext a
    apply Fin.ext
    match a with
    | ⟨0, _⟩ => show win2_4.index t (0 : Fin 2) * 2000 + 1 * (j 0).val = t.val * 2000 + (j 0).val; omega
    | ⟨1, _⟩ => show win2_4.index t (1 : Fin 2) * 128 + 1 * (j 1).val = (j 1).val; omega

/-- An index of the output array is in point t's block iff each coordinate is in the block's range on its axis. -/
theorem mem_blk2 (t : Fin cfg2.N) (i : S50000x128.Idx) :
    i ∈ ((cfg2.win 4).blk t).view.set ↔ ∀ a : Fin 2, win2_4.index t a * S2000x128.size a ≤ (i a).val ∧ (i a).val < win2_4.index t a * S2000x128.size a + S2000x128.size a := by
  show i ∈ ((View.whole main_v44).slice (win2_4.rect t)).set ↔ _
  rw [View.set_slice_whole, Rect.mem_set_unit]
  exact Iff.rfl

/-- Row r of the output array is written back by point r / 2000. -/
theorem cover2 (i : S50000x128.Idx) : ∃ t : Fin cfg2.N, (cfg2.win 4).flush t = true ∧ i ∈ ((cfg2.win 4).blk t).view.set := by
  have hi0 : (i 0).val < 50000 := (i 0).isLt
  have hi1 : (i 1).val < 128 := (i 1).isLt
  have hN : cfg2.N = 25 := N_2
  obtain ⟨t, htv⟩ : ∃ t : Fin cfg2.N, t.val = (i 0).val / 2000 := ⟨⟨(i 0).val / 2000, by omega⟩, rfl⟩
  obtain ⟨-, -, -, -, -, -, -, -, e40, e41⟩ := index_facts2 t
  refine ⟨t, flush2_4 t, ?_⟩
  rw [mem_blk2]
  intro a
  match a with
  | ⟨0, _⟩ => show win2_4.index t (0 : Fin 2) * 2000 ≤ (i 0).val ∧ (i 0).val < win2_4.index t (0 : Fin 2) * 2000 + 2000; omega
  | ⟨1, _⟩ => show win2_4.index t (1 : Fin 2) * 128 ≤ (i 1).val ∧ (i 1).val < win2_4.index t (1 : Fin 2) * 128 + 128; omega

theorem region2_arr (c : Dev nD) :
    ((dat2 (F := Ideal) V c).arrAt 4 cfg2.N : S50000x128.Idx → EReal)
      = Cert.Spec.msg (Cert.Spec.act (V c main_v42 : S50000x128.Idx → EReal) (V c main_v17 : S50000x1.Idx → EReal) (V c main_v43 : S1x128.Idx → EReal))
          (V c main_arg6 : S128x128.Idx → EReal) (V c main_v17 : S50000x1.Idx → EReal) :=
  (dat2 (F := Ideal) V c).arrAt_eq_of_cover 4
    (Cert.Spec.msg (Cert.Spec.act (V c main_v42 : S50000x128.Idx → EReal) (V c main_v17 : S50000x1.Idx → EReal) (V c main_v43 : S1x128.Idx → EReal))
      (V c main_arg6 : S128x128.Idx → EReal) (V c main_v17 : S50000x1.Idx → EReal))
    (fun t _ => region2_flushed V c t) cover2

end Cert.KernelIdeal.RegionValue

end
-- ==== Proof.RegionA3.lean ====
/-
  The third middle region's output array as one function of its input arrays.

  The region walks 25 grid points; point t reads rows 2000 t … 2000 t + 1999 of the incoming sums and of the column
  of row factors, reads the whole bias row and the whole weight matrix, and writes back rows 2000 t … 2000 t + 1999
  of the output.  Each block entry it writes is the layer's message of the activated incoming sum at the array entry
  the block entry sits at (the shared middle body read at an entry), so every point writes back a block of ONE
  function of the arrays; the 25 row blocks cover the 50000 rows (row r is point r / 2000's), so the output array
  ends holding that function.
-/
import proofs.«170301_j10299331576451_2_alg».proof.Proof.RegionACommon

set_option maxRecDepth 16384

noncomputable section

namespace Cert.KernelIdeal.RegionValue

open Idealize.ShloMosaic Idealize.ShloMosaic.TcCoe Idealize.SL.Sem Idealize.ShloMosaic.ValueIdx
open Cert.KernelIdeal Cert.KernelIdeal.Gen
open Idealize.ShloMosaic.Pipeline (Dat)
open scoped BigOperators

variable (V : (c : Dev nD) → (b : Ref sig .tc) → Buf (Elt Ideal) ((c : Thread nD τ).loc b))

/-- The region's index maps over its grid: the row blocks move with the point, the bias and the weights stay. -/
theorem index_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Entry (p, k) of the block of incoming sums at point t is the array's entry (2000 t + p, k). -/
theorem iblk3_0_apply (c : Dev nD) (t : Fin cfg3.N) (p : Fin 2000) (k : Fin 128) (r : Fin 50000)
    (hr : r.val = t.val * 2000 + p.val) :
    (iblk3 V c 0 t : Vec Ideal S2000x128 .f32) (ix2 p k) = (V c main_v55 : S50000x128.Idx → EReal) (ix2 r k) := by
  obtain ⟨e0, e1, -⟩ := index_facts3 t
  show (V c main_v55 : S50000x128.Idx → EReal) (((cfg3.win 0).blk t).view.emb (ix2 p k)) = _
  refine congrArg _ (funext fun a => Fin.ext ?_)
  match a with
  | ⟨0, _⟩ => show win3_0.index t (0 : Fin 2) * 2000 + 1 * p.val = r.val; omega
  | ⟨1, _⟩ => show win3_0.index t (1 : Fin 2) * 128 + 1 * k.val = k.val; omega

/-- Entry p of the scale block at point t is the scale column's entry 2000 t + p. -/
theorem iblk3_1_apply (c : Dev nD) (t : Fin cfg3.N) (p : Fin 2000) (r : Fin 50000)
    (hr : r.val = t.val * 2000 + p.val) :
    (iblk3 V c 1 t : Vec Ideal S2000x1 .f32) (ix2 p (0 : Fin 1)) = (V c main_v17 : S50000x1.Idx → EReal) (ix2 r (0 : Fin 1)) := by
  obtain ⟨-, -, e0, e1, -⟩ := index_facts3 t
  show (V c main_v17 : S50000x1.Idx → EReal) (((cfg3.win 1).blk t).view.emb (ix2 p (0 : Fin 1))) = _
  refine congrArg _ (funext fun a => Fin.ext ?_)
  match a with
  | ⟨0, _⟩ => show win3_1.index t (0 : Fin 2) * 2000 + 1 * p.val = r.val; omega
  | ⟨1, _⟩ => show win3_1.index t (1 : Fin 2) * 1 + 1 * 0 = 0; omega

/-- The bias block at every point is the bias row. -/
theorem iblk3_2_apply (c : Dev nD) (t : Fin cfg3.N) (k : Fin 128) :
    (iblk3 V c 2 t : Vec Ideal S1x128 .f32) (ix2 (0 : Fin 1) k) = (V c main_v56 : S1x128.Idx → EReal) (ix2 (0 : Fin 1) k) := by
  obtain ⟨-, -, -, -, e0, e1, -⟩ := index_facts3 t
  show (V c main_v56 : S1x128.Idx → EReal) (((cfg3.win 2).blk t).view.emb (ix2 (0 : Fin 1) k)) = _
  refine congrArg _ (funext fun a => Fin.ext ?_)
  match a with
  | ⟨0, _⟩ => show win3_2.index t (0 : Fin 2) * 1 + 1 * 0 = 0; omega
  | ⟨1, _⟩ => show win3_2.index t (1 : Fin 2) * 128 + 1 * k.val = k.val; omega

/-- The weight block at every point is the weight array. -/
theorem iblk3_3_apply (c : Dev nD) (t : Fin cfg3.N) (k : Fin 128) (q : Fin 128) :
    (iblk3 V c 3 t : Vec Ideal S128x128 .f32) (ix2 k q) = (V c main_arg8 : S128x128.Idx → EReal) (ix2 k q) := by
  obtain ⟨-, -, -, -, -, -, e0, e1, -⟩ := index_facts3 t
  show (V c main_arg8 : S128x128.Idx → EReal) (((cfg3.win 3).blk t).view.emb (ix2 k q)) = _
  refine congrArg _ (funext fun a => Fin.ext ?_)
  match a with
  | ⟨0, _⟩ => show win3_3.index t (0 : Fin 2) * 128 + 1 * k.val = k.val; omega
  | ⟨1, _⟩ => show win3_3.index t (1 : Fin 2) * 128 + 1 * q.val = q.val; omega

/-- What point t writes back is block t of the layer's message of the activated incoming sum. -/
theorem region3_flushed (c : Dev nD) (t : Fin cfg3.N) :
    (dat3 (F := Ideal) V c).flushed 4 t
      = ((cfg3.win 4).blk t).view.read (Elt Ideal) (Cert.Spec.msg (Cert.Spec.act (V c main_v55 : S50000x128.Idx → EReal) (V c main_v17 : S50000x1.Idx → EReal) (V c main_v56 : S1x128.Idx → EReal))
          (V c main_arg8 : S128x128.Idx → EReal) (V c main_v17 : S50000x1.Idx → EReal)) := by
  show (cfg3.win 4).cut (grid3.coords t) ((dat3 V c).after 4 t) = _
  rw [after3_4]
  unfold out3_4
  rw [View.canon_unit_zero hz]
  simp only [View.ld_unit_zero (S := S2000x128) hz, View.ld_unit_zero (S := S128x128) hz, View.ld_unit_zero (S := S2000x1) hz,
    View.ld_unit_zero (S := S1x128) hz]
  obtain ⟨-, -, -, -, -, -, -, -, e40, e41⟩ := index_facts3 t
  have ht : t.val < 25 := lt_of_lt_of_eq t.isLt N_3
  funext j
  have hj0 : (j 0).val < 2000 := (j 0).isLt
  have hj1 : (j 1).val < 128 := (j 1).isLt
  show k3_pay1 (iblk3 V c 0 t) (iblk3 V c 1 t) (iblk3 V c 2 t) (iblk3 V c 3 t) (iblk3 V c 1 t) ((cfg3.win 4).xinj (grid3.coords t) j)
      = Cert.Spec.msg (Cert.Spec.act (V c main_v55 : S50000x128.Idx → EReal) (V c main_v17 : S50000x1.Idx → EReal) (V c main_v56 : S1x128.Idx → EReal))
          (V c main_arg8 : S128x128.Idx → EReal) (V c main_v17 : S50000x1.Idx → EReal) (((cfg3.win 4).blk t).view.emb j)
  rw [k3_pay1_eq]
  refine k1_pay1_eq_msg_act (V c main_v55) (V c main_v17) (V c main_v56) (V c main_arg8)
    (iblk3 V c 0 t) (iblk3 V c 1 t) (iblk3 V c 2 t) (iblk3 V c 3 t) (iblk3 V c 1 t) _ _
    ⟨(j 0).val, hj0⟩ ⟨(j 1).val, hj1⟩ ⟨t.val * 2000 + (j 0).val, by omega⟩ ?_ ?_
    (fun k => iblk3_0_apply V c t _ k _ rfl) (iblk3_1_apply V c t _ _ rfl) (fun k => iblk3_2_apply V c t k)
    (fun k => iblk3_3_apply V c t k _) (iblk3_1_apply V c t _ _ rfl)
  · funext a
    match a with
    | ⟨0, _⟩ => rfl
    | ⟨1, _⟩ => rfl
  · funext a
    apply Fin.ext
    match a with
    | ⟨0, _⟩ => show win3_4.index t (0 : Fin 2) * 2000 + 1 * (j 0).val = t.val * 2000 + (j 0).val; omega
    | ⟨1, _⟩ => show win3_4.index t (1 : Fin 2) * 128 + 1 * (j 1).val = (j 1).val; omega

/-- An index of the output array is in point t's block iff each coordinate is in the block's range on its axis. -/
theorem mem_blk3 (t : Fin cfg3.N) (i : S50000x128.Idx) :
    i ∈ ((cfg3.win 4).blk t).view.set ↔ ∀ a : Fin 2, win3_4.index t a * S2000x128.size a ≤ (i a).val ∧ (i a).val < win3_4.index t a * S2000x128.size a + S2000x128.size a := by
  show i ∈ ((View.whole main_v57).slice (win3_4.rect t)).set ↔ _
  rw [View.set_slice_whole, Rect.mem_set_unit]
  exact Iff.rfl

/-- Row r of the output array is written back by point r / 2000. -/
theorem cover3 (i : S50000x128.Idx) : ∃ t : Fin cfg3.N, (cfg3.win 4).flush t = true ∧ i ∈ ((cfg3.win 4).blk t).view.set := by
  have hi0 : (i 0).val < 50000 := (i 0).isLt
  have hi1 : (i 1).val < 128 := (i 1).isLt
  have hN : cfg3.N = 25 := N_3
  obtain ⟨t, htv⟩ : ∃ t : Fin cfg3.N, t.val = (i 0).val / 2000 := ⟨⟨(i 0).val / 2000, by omega⟩, rfl⟩
  obtain ⟨-, -, -, -, -, -, -, -, e40, e41⟩ := index_facts3 t
  refine ⟨t, flush3_4 t, ?_⟩
  rw [mem_blk3]
  intro a
  match a with
  | ⟨0, _⟩ => show win3_4.index t (0 : Fin 2) * 2000 ≤ (i 0).val ∧ (i 0).val < win3_4.index t (0 : Fin 2) * 2000 + 2000; omega
  | ⟨1, _⟩ => show win3_4.index t (1 : Fin 2) * 128 ≤ (i 1).val ∧ (i 1).val < win3_4.index t (1 : Fin 2) * 128 + 128; omega

theorem region3_arr (c : Dev nD) :
    ((dat3 (F := Ideal) V c).arrAt 4 cfg3.N : S50000x128.Idx → EReal)
      = Cert.Spec.msg (Cert.Spec.act (V c main_v55 : S50000x128.Idx → EReal) (V c main_v17 : S50000x1.Idx → EReal) (V c main_v56 : S1x128.Idx → EReal))
          (V c main_arg8 : S128x128.Idx → EReal) (V c main_v17 : S50000x1.Idx → EReal) :=
  (dat3 (F := Ideal) V c).arrAt_eq_of_cover 4
    (Cert.Spec.msg (Cert.Spec.act (V c main_v55 : S50000x128.Idx → EReal) (V c main_v17 : S50000x1.Idx → EReal) (V c main_v56 : S1x128.Idx → EReal))
      (V c main_arg8 : S128x128.Idx → EReal) (V c main_v17 : S50000x1.Idx → EReal))
    (fun t _ => region3_flushed V c t) cover3

end Cert.KernelIdeal.RegionValue

end
-- ==== Proof.RegionA.lean ====
/-
  The four dense regions' output arrays, each as one function of its input arrays (Spec.msg of the node features for
  the first region, Spec.msg of Spec.act of the incoming sums for the three middle ones): the statements
  region0_arr … region3_arr are proved in the four modules imported here, one region each.
-/
import proofs.«170301_j10299331576451_2_alg».proof.Proof.RegionA0
import proofs.«170301_j10299331576451_2_alg».proof.Proof.RegionA1
import proofs.«170301_j10299331576451_2_alg».proof.Proof.RegionA2
import proofs.«170301_j10299331576451_2_alg».proof.Proof.RegionA3
-- ==== Proof.LibUnitAxes.lean ====
/-
  Two leading unit axes dropped or added, and a row maximum, read at an index.

  A block `[1, 1, a, b]` of a rank-4 array and the matrix `[a, b]` it is cast to hold the same entries in the same
  row-major order: entry `(0, 0, i, j)` of the one is entry `(i, j)` of the other, in both directions.  A float
  maximum over the last axis of an `[a, b]` matrix is, at row `i`, the maximum from the starting value over the
  entries `(i, f)` of that row.  Stated for any extents and any element type.
-/
import Idealize.ShloMosaic.Lib.ValueLayout
import Idealize.ShloMosaic.PureOps.Ideal.Laws

noncomputable section

namespace Cert.LibUnitAxes

open Idealize.ShloMosaic Idealize.ShloMosaic.ValueIdx

variable {α : Type}

/-- A block `[1, 1, a, b]` cast to the matrix `[a, b]` reads, at `(i, j)`, the block at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

/-- A matrix `[a, b]` cast to a block `[1, 1, a, b]` reads, at `(u, v, i, j)`, the matrix at `(i, j)`, whatever the unit
    coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]; simp)

/-- On the extended reals a float maximum over the last axis of an `[a, b]` matrix reads, at row `i`, the maximum
    from the starting value over that row's entries. -/
theorem multiReduction_maximumf_lastAxis_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun f : Fin b => src (ix2 i f)) := by
  refine (Ideal.multiReduction_maximumf_single src acc h hφ hacc (ix1 i)).trans ?_
  refine congrArg (fun g => (Finset.univ : Finset (Fin b)).fold max (Ideal.ofBits φ acc) g) ?_
  funext f
  exact congrArg src (funext fun d => Fin.ext (by
    match d with
    | ⟨0, _⟩ => rfl
    | ⟨1, _⟩ => rfl))

end Cert.LibUnitAxes

end
-- ==== Proof.RegionB.lean ====
/-
  The last region's two output arrays, each as ONE function of the region's input arrays.

  The region walks the 50000 nodes in 25 blocks of 2000 rows. At a block it forms the activation of the incoming sum
  (each row scaled by its node's factor, plus the bias row, through the leaky rectifier), subtracts from every row its
  own maximum and takes exponentials (the concepts, first output), and multiplies the concepts by the [128, 10] class
  weights and adds the class bias row (the scores, second output). Every one of these reads, at row p of the block,
  only row p of the block's inputs and the whole weight and bias arrays; row p of block t is row 2000·t + p of the
  arrays. So each block written back is the block of the whole-array function, and the 25 blocks cover the array.
-/
import proofs.«170301_j10299331576451_2_alg».proof.Proof.Gen.KernelIdeal.Frame
import proofs.«170301_j10299331576451_2_alg».proof.Proof.Spec
import proofs.«170301_j10299331576451_2_alg».proof.Proof.LibPlainMatmul
import proofs.«170301_j10299331576451_2_alg».proof.Proof.LibKeepdims
import proofs.«170301_j10299331576451_2_alg».proof.Proof.LibUnitAxes
import proofs.«170301_j10299331576451_2_alg».proof.Proof.LibRowReads
import Idealize.ShloMosaic.Lib.Pipeline.Value
import Idealize.ShloMosaic.Lib.ValueLayout

set_option maxRecDepth 16384

noncomputable section

namespace Cert.KernelIdeal.RegionValue

open Idealize.ShloMosaic Idealize.ShloMosaic.TcCoe Idealize.SL.Sem
open Cert.KernelIdeal Cert.KernelIdeal.Gen
open Idealize.ShloMosaic.Pipeline (Dat)

variable (V : (c : Dev nD) → (b : Ref sig .tc) → Buf (Elt Ideal) ((c : Thread nD τ).loc b))

namespace Final

open Idealize.ShloMosaic.ValueIdx

/-- The activation at an entry written by its coordinates: its own entry of the sum times its row's factor, plus its
    column's bias, through the leaky rectifier. -/
theorem act_apply {M N : ℕ} (a : (⟨2, ![M, N]⟩ : Shape).Idx → EReal) (s : (⟨2, ![M, 1]⟩ : Shape).Idx → EReal)
    (b : (⟨2, ![1, N]⟩ : Shape).Idx → EReal) (p : Fin M) (q : Fin N) :
    Cert.Spec.act a s b (ix2 p q) = Cert.Spec.leaky (a (ix2 p q) * s (ix2 p (0 : Fin 1)) + b (ix2 (0 : Fin 1) q)) := rfl

/-- The block's activation as the body spells it: the incoming sum, each row scaled by its node's factor, plus the
    bias row, through the leaky rectifier. -/
def blockAct (v0 : Vec Ideal S2000x128 .f32) (v2 : Vec Ideal S2000x1 .f32) (v6 : Vec Ideal S1x128 .f32) : FVec Ideal S2000x128 .f32 :=
  have v1 : FVec Ideal S2000x128 .f32 := shapeCast S2000x128 v0 shapeCasts_S2000x128_S2000x128
  have v3 : FVec Ideal S2000x1 .f32 := shapeCast S2000x1 v2 shapeCasts_S2000x1_S2000x1
  have v4 : FVec Ideal S2000x128 .f32 := broadcastTo S2000x128 v3 broadcasts_S2000x1_S2000x128
  have v5 : FVec Ideal S2000x128 .f32 := mulf v1 v4
  have v7 : FVec Ideal S1x128 .f32 := shapeCast S1x128 v6 shapeCasts_S1x128_S1x128
  have v8 : FVec Ideal S2000x128 .f32 := broadcastTo S2000x128 v7 broadcasts_S1x128_S2000x128
  have v9 : FVec Ideal S2000x128 .f32 := addf v5 v8
  have cst : Ideal .f32 := Scalar.ofBits .f32 0x00000000#32
  have v10 : FVec Ideal S2000x128 .f32 := broadcast S2000x128 cst
  have v11 : IVec S2000x128 1 := cmpf .oge v9 v10
  have cst_5 : Ideal .f32 := Scalar.ofBits .f32 0x3C23D70A#32
  have v12 : FVec Ideal S2000x128 .f32 := broadcast S2000x128 cst_5
  have v13 : FVec Ideal S2000x128 .f32 := mulf v9 v12
  select v11 v9 v13

/-- The first payload is the exponential of the block's activation less its row maximum, the maximum kept as a
    column and spread back over the row. -/
theorem concepts_payload_shape (x0 : Vec Ideal S2000x128 .f32) (x1 : Vec Ideal S2000x1 .f32) (x2 : Vec Ideal S1x128 .f32) :
    k4_pay1 x0 x1 x2 = exp (subf (blockAct x0 x1 x2)
      (broadcastTo S2000x128 (shapeCast S2000x1
        (multiReduction (F := Ideal) .maximumf [1] S2000 (blockAct x0 x1 x2) 0xFF800000#32 reduces_S2000x128_S2000 (.inl rfl) rfl)
        shapeCasts_S2000_S2000x1) broadcasts_S2000x1_S2000x128)) := rfl

/-- The block's activation at an entry is the specification's, of the three blocks. -/
theorem blockAct_apply (x0 : Vec Ideal S2000x128 .f32) (x1 : Vec Ideal S2000x1 .f32) (x2 : Vec Ideal S1x128 .f32) (p : Fin 2000) (q : Fin 128) :
    blockAct x0 x1 x2 (ix2 p q) = Cert.Spec.act (x0 : S2000x128.Idx → EReal) (x1 : S2000x1.Idx → EReal) (x2 : S1x128.Idx → EReal) (ix2 p q) := by
  unfold blockAct
  simp only [select_apply, cmpf_apply, addf_apply, mulf_apply, broadcast_apply, shapeCast_self]
  rw [Cert.LibKeepdims.broadcastTo_a1_ac_apply x1 broadcasts_S2000x1_S2000x128 p q,
    broadcastTo_1b_ab_apply x2 broadcasts_S1x128_S2000x128 p q]
  rfl

/-- The first payload at an entry: the specification's concepts of the block's activation. -/
theorem concepts_payload_apply (x0 : Vec Ideal S2000x128 .f32) (x1 : Vec Ideal S2000x1 .f32) (x2 : Vec Ideal S1x128 .f32) (p : Fin 2000) (q : Fin 128) :
    k4_pay1 x0 x1 x2 (ix2 p q) = Cert.Spec.conc (Cert.Spec.act (x0 : S2000x128.Idx → EReal) (x1 : S2000x1.Idx → EReal) (x2 : S1x128.Idx → EReal)) (ix2 p q) := by
  rw [concepts_payload_shape]
  show Ideal.exp (blockAct x0 x1 x2 (ix2 p q) - _) = Ideal.exp (Cert.Spec.act _ _ _ (ix2 p q) - Cert.Spec.rowMax _ p)
  rw [blockAct_apply]
  refine congrArg (fun m : EReal => Ideal.exp (Cert.Spec.act (x0 : S2000x128.Idx → EReal) (x1 : S2000x1.Idx → EReal) (x2 : S1x128.Idx → EReal) (ix2 p q) - m)) ?_
  refine (Cert.LibKeepdims.broadcastTo_a1_ac_apply _ broadcasts_S2000x1_S2000x128 p q).trans ?_
  refine (Cert.LibKeepdims.shapeCast_a_a1_apply _ shapeCasts_S2000_S2000x1 p 0).trans ?_
  refine (Cert.LibUnitAxes.multiReduction_maximumf_lastAxis_apply (blockAct x0 x1 x2) 0xFF800000#32 reduces_S2000x128_S2000 (.inl rfl) rfl p).trans ?_
  unfold Cert.Spec.rowMax
  exact congrArg (fun g => (Finset.univ : Finset (Fin 128)).fold max (Ideal.ofBits .f32 0xFF800000#32) g)
    (funext fun f => blockAct_apply x0 x1 x2 p f)

/-- The second payload at an entry: the dense product of the concepts with the weights plus the bias row. -/
theorem scores_payload_apply (x0 : Vec Ideal S2000x128 .f32) (x1 : Vec Ideal S2000x1 .f32) (x2 : Vec Ideal S1x128 .f32)
    (x3 : Vec Ideal S128x10 .f32) (x4 : Vec Ideal S1x10 .f32) (p : Fin 2000) (e : Fin 10) :
    k4_pay2 x0 x1 x2 x3 x4 (ix2 p e)
      = Cert.Spec.score (Cert.Spec.conc (Cert.Spec.act (x0 : S2000x128.Idx → EReal) (x1 : S2000x1.Idx → EReal) (x2 : S1x128.Idx → EReal)))
          (x3 : S128x10.Idx → EReal) (x4 : S1x10.Idx → EReal) (ix2 p e) := by
  unfold k4_pay2 Cert.Spec.score Cert.Spec.lin
  rw [addf_apply]
  refine congrArg₂ (fun a b : EReal => a + b) ?_
    (Cert.LibRowReads.bias_row_apply x4 shapeCasts_S1x10_S1x10 broadcasts_S1x10_S2000x10 p e)
  refine (matmul_plain_zero_apply dot_S2000x128_S128x10_S2000x10_1_0_0_1_n_n rfl none _ _ p e).trans ?_
  refine Finset.sum_congr rfl fun k _ => ?_
  rw [truncf_apply, truncf_apply, shapeCast_self, concepts_payload_apply]

/-- Every access of the body starts at the origin of its block. -/
theorem zero_offsets : (![0, 0] : Fin 2 → Nat) = fun _ => 0 := funext fun a => by fin_cases a <;> rfl

/-- The printed index maps over the grid: the row blocks of the incoming sum, the node factors and the two outputs
    move together, one block of 2000 rows per point; the bias rows and the weights are whole-array blocks. -/
theorem index_maps : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0
    ∧ win4_6.index t (0 : Fin 2) = t.val ∧ win4_6.index t (1 : Fin 2) = 0 :=
  (by decide +kernel : ∀ t : Fin grid4.N, _)

/-- Row p of point t's block of the incoming sum is row 2000·t + p of the array. -/
theorem sumBlock_apply (c : Dev nD) (t : Fin cfg4.N) (p : Fin 2000) (q : Fin 128) (r : Fin 50000) (hr : r.val = 2000 * t.val + p.val) :
    (iblk4 V c 0 t : Vec Ideal S2000x128 .f32) (ix2 p q) = (V c main_v68 : S50000x128.Idx → EReal) (ix2 r q) := by
  unfold iblk4
  rw [View.read_apply]
  show (V c main_v68 : S50000x128.Idx → EReal) _ = V c main_v68 _
  refine congrArg (V c main_v68 : S50000x128.Idx → EReal) (funext fun a => Fin.ext ?_)
  obtain ⟨e0, e1, -⟩ := index_maps t
  match a with
  | ⟨0, _⟩ => show win4_0.index t (0 : Fin 2) * 2000 + 1 * p.val = r.val; rw [e0, hr]; omega
  | ⟨1, _⟩ => show win4_0.index t (1 : Fin 2) * 128 + 1 * q.val = q.val; rw [e1]; omega

/-- Row p of point t's block of the node factors is row 2000·t + p of the column. -/
theorem factorBlock_apply (c : Dev nD) (t : Fin cfg4.N) (p : Fin 2000) (r : Fin 50000) (hr : r.val = 2000 * t.val + p.val) :
    (iblk4 V c 1 t : Vec Ideal S2000x1 .f32) (ix2 p (0 : Fin 1)) = (V c main_v17 : S50000x1.Idx → EReal) (ix2 r (0 : Fin 1)) := by
  unfold iblk4
  rw [View.read_apply]
  show (V c main_v17 : S50000x1.Idx → EReal) _ = V c main_v17 _
  refine congrArg (V c main_v17 : S50000x1.Idx → EReal) (funext fun a => Fin.ext ?_)
  obtain ⟨-, -, e0, e1, -⟩ := index_maps t
  match a with
  | ⟨0, _⟩ => show win4_1.index t (0 : Fin 2) * 2000 + 1 * p.val = r.val; rw [e0, hr]; omega
  | ⟨1, _⟩ => show win4_1.index t (1 : Fin 2) * 1 + 1 * 0 = 0; rw [e1]

/-- Every point's block of the layer's bias row is the whole row. -/
theorem biasBlock_apply (c : Dev nD) (t : Fin cfg4.N) (q : Fin 128) :
    (iblk4 V c 2 t : Vec Ideal S1x128 .f32) (ix2 (0 : Fin 1) q) = (V c main_v93 : S1x128.Idx → EReal) (ix2 (0 : Fin 1) q) := by
  unfold iblk4
  rw [View.read_apply]
  show (V c main_v93 : S1x128.Idx → EReal) _ = V c main_v93 _
  refine congrArg (V c main_v93 : S1x128.Idx → EReal) (funext fun a => Fin.ext ?_)
  obtain ⟨-, -, -, -, e0, e1, -⟩ := index_maps t
  match a with
  | ⟨0, _⟩ => show win4_2.index t (0 : Fin 2) * 1 + 1 * 0 = 0; rw [e0]
  | ⟨1, _⟩ => show win4_2.index t (1 : Fin 2) * 128 + 1 * q.val = q.val; rw [e1]; omega

/-- Every point's block of the class weights is the whole matrix. -/
theorem weightBlock_apply (c : Dev nD) (t : Fin cfg4.N) (k : Fin 128) (e : Fin 10) :
    (iblk4 V c 3 t : Vec Ideal S128x10 .f32) (ix2 k e) = (V c main_v90 : S128x10.Idx → EReal) (ix2 k e) := by
  unfold iblk4
  rw [View.read_apply]
  show (V c main_v90 : S128x10.Idx → EReal) _ = V c main_v90 _
  refine congrArg (V c main_v90 : S128x10.Idx → EReal) (funext fun a => Fin.ext ?_)
  obtain ⟨-, -, -, -, -, -, e0, e1, -⟩ := index_maps t
  match a with
  | ⟨0, _⟩ => show win4_3.index t (0 : Fin 2) * 128 + 1 * k.val = k.val; rw [e0]; omega
  | ⟨1, _⟩ => show win4_3.index t (1 : Fin 2) * 10 + 1 * e.val = e.val; rw [e1]; omega

/-- Every point's block of the class bias row is the whole row. -/
theorem scoreBiasBlock_apply (c : Dev nD) (t : Fin cfg4.N) (e : Fin 10) :
    (iblk4 V c 4 t : Vec Ideal S1x10 .f32) (ix2 (0 : Fin 1) e) = (V c main_v92 : S1x10.Idx → EReal) (ix2 (0 : Fin 1) e) := by
  unfold iblk4
  rw [View.read_apply]
  show (V c main_v92 : S1x10.Idx → EReal) _ = V c main_v92 _
  refine congrArg (V c main_v92 : S1x10.Idx → EReal) (funext fun a => Fin.ext ?_)
  obtain ⟨-, -, -, -, -, -, -, -, e0, e1, -⟩ := index_maps t
  match a with
  | ⟨0, _⟩ => show win4_4.index t (0 : Fin 2) * 1 + 1 * 0 = 0; rw [e0]
  | ⟨1, _⟩ => show win4_4.index t (1 : Fin 2) * 10 + 1 * e.val = e.val; rw [e1]; omega

/-- The activation of row p of a block is the activation of the array's row r it was cut from: an entry depends on
    its own entry of the sum, its row's factor and its column's bias. -/
theorem act_row (A0 : S50000x128.Idx → EReal) (A1 : S50000x1.Idx → EReal) (A2 : S1x128.Idx → EReal)
    (b0 : S2000x128.Idx → EReal) (b1 : S2000x1.Idx → EReal) (b2 : S1x128.Idx → EReal) (p : Fin 2000) (r : Fin 50000)
    (h0 : ∀ q : Fin 128, b0 (ix2 p q) = A0 (ix2 r q)) (h1 : b1 (ix2 p (0 : Fin 1)) = A1 (ix2 r (0 : Fin 1)))
    (h2 : ∀ q : Fin 128, b2 (ix2 (0 : Fin 1) q) = A2 (ix2 (0 : Fin 1) q)) (q : Fin 128) :
    Cert.Spec.act b0 b1 b2 (ix2 p q) = Cert.Spec.act A0 A1 A2 (ix2 r q) := by
  rw [act_apply, act_apply, h0, h1, h2]

/-- So are its concepts: the row's maximum runs over the same 128 entries. -/
theorem conc_row (A0 : S50000x128.Idx → EReal) (A1 : S50000x1.Idx → EReal) (A2 : S1x128.Idx → EReal)
    (b0 : S2000x128.Idx → EReal) (b1 : S2000x1.Idx → EReal) (b2 : S1x128.Idx → EReal) (p : Fin 2000) (r : Fin 50000)
    (h0 : ∀ q : Fin 128, b0 (ix2 p q) = A0 (ix2 r q)) (h1 : b1 (ix2 p (0 : Fin 1)) = A1 (ix2 r (0 : Fin 1)))
    (h2 : ∀ q : Fin 128, b2 (ix2 (0 : Fin 1) q) = A2 (ix2 (0 : Fin 1) q)) (q : Fin 128) :
    Cert.Spec.conc (Cert.Spec.act b0 b1 b2) (ix2 p q) = Cert.Spec.conc (Cert.Spec.act A0 A1 A2) (ix2 r q) := by
  show Ideal.exp (Cert.Spec.act b0 b1 b2 (ix2 p q) - Cert.Spec.rowMax (Cert.Spec.act b0 b1 b2) p)
    = Ideal.exp (Cert.Spec.act A0 A1 A2 (ix2 r q) - Cert.Spec.rowMax (Cert.Spec.act A0 A1 A2) r)
  unfold Cert.Spec.rowMax
  rw [act_row A0 A1 A2 b0 b1 b2 p r h0 h1 h2 q,
    show (fun f : Fin 128 => Cert.Spec.act b0 b1 b2 (ix2 p f)) = fun f : Fin 128 => Cert.Spec.act A0 A1 A2 (ix2 r f) from
      funext fun f => act_row A0 A1 A2 b0 b1 b2 p r h0 h1 h2 f]

/-- And its scores: the product runs over the row's 128 concepts against the whole weights, plus the whole bias row. -/
theorem score_row (A0 : S50000x128.Idx → EReal) (A1 : S50000x1.Idx → EReal) (A2 : S1x128.Idx → EReal)
    (A3 : S128x10.Idx → EReal) (A4 : S1x10.Idx → EReal)
    (b0 : S2000x128.Idx → EReal) (b1 : S2000x1.Idx → EReal) (b2 : S1x128.Idx → EReal)
    (b3 : S128x10.Idx → EReal) (b4 : S1x10.Idx → EReal) (p : Fin 2000) (r : Fin 50000)
    (h0 : ∀ q : Fin 128, b0 (ix2 p q) = A0 (ix2 r q)) (h1 : b1 (ix2 p (0 : Fin 1)) = A1 (ix2 r (0 : Fin 1)))
    (h2 : ∀ q : Fin 128, b2 (ix2 (0 : Fin 1) q) = A2 (ix2 (0 : Fin 1) q))
    (h3 : ∀ (k : Fin 128) (e : Fin 10), b3 (ix2 k e) = A3 (ix2 k e))
    (h4 : ∀ e : Fin 10, b4 (ix2 (0 : Fin 1) e) = A4 (ix2 (0 : Fin 1) e)) (e : Fin 10) :
    Cert.Spec.score (Cert.Spec.conc (Cert.Spec.act b0 b1 b2)) b3 b4 (ix2 p e)
      = Cert.Spec.score (Cert.Spec.conc (Cert.Spec.act A0 A1 A2)) A3 A4 (ix2 r e) := by
  show (∑ k : Fin 128, Cert.Spec.conc (Cert.Spec.act b0 b1 b2) (ix2 p k) * b3 (ix2 k e)) + b4 (ix2 (0 : Fin 1) e)
    = (∑ k : Fin 128, Cert.Spec.conc (Cert.Spec.act A0 A1 A2) (ix2 r k) * A3 (ix2 k e)) + A4 (ix2 (0 : Fin 1) e)
  rw [h4 e]
  refine congrArg (fun x : EReal => x + A4 (ix2 (0 : Fin 1) e)) (Finset.sum_congr rfl fun k _ => ?_)
  rw [conc_row A0 A1 A2 b0 b1 b2 p r h0 h1 h2 k, h3 k e]

/-- What a point's first payload holds at an entry of its block is the concepts of the whole arrays at the entry of
    the array the block's entry sits at: row 2000·t + its row, the same column. -/
theorem concepts_point (c : Dev nD) (t : Fin cfg4.N) (j : S2000x128.Idx) (i : S50000x128.Idx)
    (hi0 : (i 0).val = 2000 * t.val + (j 0).val) (hi1 : (i 1).val = (j 1).val) :
    k4_pay1 (iblk4 V c 0 t) (iblk4 V c 1 t) (iblk4 V c 2 t) j
      = Cert.Spec.conc (Cert.Spec.act (V c main_v68 : S50000x128.Idx → EReal) (V c main_v17 : S50000x1.Idx → EReal) (V c main_v93 : S1x128.Idx → EReal)) i := by
  obtain ⟨p, q, rfl⟩ : ∃ (p : Fin 2000) (q : Fin 128), j = ix2 p q := ⟨j 0, j 1, eq_ix2 j⟩
  obtain ⟨r, q', rfl⟩ : ∃ (r : Fin 50000) (q' : Fin 128), i = ix2 r q' := ⟨i 0, i 1, eq_ix2 i⟩
  have hr : r.val = 2000 * t.val + p.val := hi0
  obtain rfl : q' = q := Fin.ext hi1
  refine (concepts_payload_apply (iblk4 V c 0 t) (iblk4 V c 1 t) (iblk4 V c 2 t) p q').trans ?_
  exact conc_row _ _ _ _ _ _ p r (fun f => sumBlock_apply V c t p f r hr) (factorBlock_apply V c t p r hr)
    (fun f => biasBlock_apply V c t f) q'

/-- What a point writes back into the concepts' array is its block of the concepts of the whole arrays. -/
theorem concepts_flushed (c : Dev nD) (t : Fin cfg4.N) :
    (dat4 (F := Ideal) V c).flushed 5 t = ((cfg4.win 5).blk t).view.read (Elt Ideal)
      (Cert.Spec.conc (Cert.Spec.act (V c main_v68 : S50000x128.Idx → EReal) (V c main_v17 : S50000x1.Idx → EReal) (V c main_v93 : S1x128.Idx → EReal))) := by
  show (cfg4.win 5).cut (grid4.coords t) ((dat4 V c).after 5 t) = _
  rw [after4_5]
  unfold out4_5
  rw [View.canon_unit_zero zero_offsets]
  simp only [View.ld_unit_zero (S := S2000x128) zero_offsets, View.ld_unit_zero (S := S2000x1) zero_offsets, View.ld_unit_zero (S := S1x128) zero_offsets]
  funext j
  show k4_pay1 (iblk4 V c 0 t) (iblk4 V c 1 t) (iblk4 V c 2 t) j
    = Cert.Spec.conc (Cert.Spec.act (V c main_v68 : S50000x128.Idx → EReal) (V c main_v17 : S50000x1.Idx → EReal) (V c main_v93 : S1x128.Idx → EReal))
        (((cfg4.win 5).blk t).view.emb j)
  obtain ⟨-, -, -, -, -, -, -, -, -, -, e0, e1, -⟩ := index_maps t
  refine concepts_point V c t j _ ?_ ?_
  · show win4_5.index t (0 : Fin 2) * 2000 + 1 * (j 0).val = 2000 * t.val + (j 0).val
    rw [e0]; omega
  · show win4_5.index t (1 : Fin 2) * 128 + 1 * (j 1).val = (j 1).val
    rw [e1]; omega

/-- An index of the concepts' array is in point t's block iff each coordinate is in the block's range on its axis. -/
theorem mem_conceptsBlock (t : Fin cfg4.N) (i : S50000x128.Idx) :
    i ∈ ((cfg4.win 5).blk t).view.set ↔ ∀ a : Fin 2, win4_5.index t a * S2000x128.size a ≤ (i a).val ∧ (i a).val < win4_5.index t a * S2000x128.size a + S2000x128.size a := by
  show i ∈ ((View.whole main_v94_0).slice (win4_5.rect t)).set ↔ _
  rw [View.set_slice_whole, Rect.mem_set_unit]
  exact Iff.rfl

/-- Every row of the concepts' array is in the block of the point its number divided by 2000 names. -/
theorem concepts_cover (i : S50000x128.Idx) :
    ∃ t : Fin cfg4.N, (cfg4.win 5).flush t = true ∧ i ∈ ((cfg4.win 5).blk t).view.set := by
  have hi0 : (i 0).val < 50000 := (i 0).isLt
  have hi1 : (i 1).val < 128 := (i 1).isLt
  have hN : grid4.N = 25 := N_4
  have ht : (i 0).val / 2000 < grid4.N := by rw [hN]; omega
  refine ⟨⟨(i 0).val / 2000, ht⟩, flush4_5 _, ?_⟩
  rw [mem_conceptsBlock]
  obtain ⟨-, -, -, -, -, -, -, -, -, -, e0, e1, -⟩ := index_maps ⟨(i 0).val / 2000, ht⟩
  intro a
  match a with
  | ⟨0, _⟩ =>
    show win4_5.index ⟨(i 0).val / 2000, ht⟩ (0 : Fin 2) * 2000 ≤ (i 0).val
      ∧ (i 0).val < win4_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win4_5.index ⟨(i 0).val / 2000, ht⟩ (1 : Fin 2) * 128 ≤ (i 1).val
      ∧ (i 1).val < win4_5.index ⟨(i 0).val / 2000, ht⟩ (1 : Fin 2) * 128 + 128
    rw [e1]; omega

/-- What a point's second payload holds at an entry of its block is the scores of the whole arrays at row
    2000·t + its row, the same class column. -/
theorem scores_point (c : Dev nD) (t : Fin cfg4.N) (j : S2000x10.Idx) (i : S50000x10.Idx)
    (hi0 : (i 0).val = 2000 * t.val + (j 0).val) (hi1 : (i 1).val = (j 1).val) :
    k4_pay2 (iblk4 V c 0 t) (iblk4 V c 1 t) (iblk4 V c 2 t) (iblk4 V c 3 t) (iblk4 V c 4 t) j
      = Cert.Spec.score (Cert.Spec.conc (Cert.Spec.act (V c main_v68 : S50000x128.Idx → EReal) (V c main_v17 : S50000x1.Idx → EReal) (V c main_v93 : S1x128.Idx → EReal)))
          (V c main_v90 : S128x10.Idx → EReal) (V c main_v92 : S1x10.Idx → EReal) i := by
  obtain ⟨p, e, rfl⟩ : ∃ (p : Fin 2000) (e : Fin 10), j = ix2 p e := ⟨j 0, j 1, eq_ix2 j⟩
  obtain ⟨r, e', rfl⟩ : ∃ (r : Fin 50000) (e' : Fin 10), i = ix2 r e' := ⟨i 0, i 1, eq_ix2 i⟩
  have hr : r.val = 2000 * t.val + p.val := hi0
  obtain rfl : e' = e := Fin.ext hi1
  refine (scores_payload_apply (iblk4 V c 0 t) (iblk4 V c 1 t) (iblk4 V c 2 t) (iblk4 V c 3 t) (iblk4 V c 4 t) p e').trans ?_
  exact score_row _ _ _ _ _ _ _ _ _ _ p r (fun f => sumBlock_apply V c t p f r hr) (factorBlock_apply V c t p r hr)
    (fun f => biasBlock_apply V c t f) (fun k e => weightBlock_apply V c t k e) (fun e => scoreBiasBlock_apply V c t e) e'

/-- What a point writes back into the scores' array is its block of the scores of the whole arrays. -/
theorem scores_flushed (c : Dev nD) (t : Fin cfg4.N) :
    (dat4 (F := Ideal) V c).flushed 6 t = ((cfg4.win 6).blk t).view.read (Elt Ideal)
      (Cert.Spec.score (Cert.Spec.conc (Cert.Spec.act (V c main_v68 : S50000x128.Idx → EReal) (V c main_v17 : S50000x1.Idx → EReal) (V c main_v93 : S1x128.Idx → EReal)))
          (V c main_v90 : S128x10.Idx → EReal) (V c main_v92 : S1x10.Idx → EReal)) := by
  show (cfg4.win 6).cut (grid4.coords t) ((dat4 V c).after 6 t) = _
  rw [after4_6]
  unfold out4_6
  rw [View.canon_unit_zero zero_offsets]
  simp only [View.ld_unit_zero (S := S2000x128) zero_offsets, View.ld_unit_zero (S := S2000x1) zero_offsets, View.ld_unit_zero (S := S1x128) zero_offsets,
    View.ld_unit_zero (S := S128x10) zero_offsets, View.ld_unit_zero (S := S1x10) zero_offsets]
  funext j
  show k4_pay2 (iblk4 V c 0 t) (iblk4 V c 1 t) (iblk4 V c 2 t) (iblk4 V c 3 t) (iblk4 V c 4 t) j
    = Cert.Spec.score (Cert.Spec.conc (Cert.Spec.act (V c main_v68 : S50000x128.Idx → EReal) (V c main_v17 : S50000x1.Idx → EReal) (V c main_v93 : S1x128.Idx → EReal)))
          (V c main_v90 : S128x10.Idx → EReal) (V c main_v92 : S1x10.Idx → EReal)
        (((cfg4.win 6).blk t).view.emb j)
  obtain ⟨-, -, -, -, -, -, -, -, -, -, -, -, e0, e1⟩ := index_maps t
  refine scores_point V c t j _ ?_ ?_
  · show win4_6.index t (0 : Fin 2) * 2000 + 1 * (j 0).val = 2000 * t.val + (j 0).val
    rw [e0]; omega
  · show win4_6.index t (1 : Fin 2) * 10 + 1 * (j 1).val = (j 1).val
    rw [e1]; omega

/-- An index of the scores' array is in point t's block iff each coordinate is in the block's range on its axis. -/
theorem mem_scoresBlock (t : Fin cfg4.N) (i : S50000x10.Idx) :
    i ∈ ((cfg4.win 6).blk t).view.set ↔ ∀ a : Fin 2, win4_6.index t a * S2000x10.size a ≤ (i a).val ∧ (i a).val < win4_6.index t a * S2000x10.size a + S2000x10.size a := by
  show i ∈ ((View.whole main_v94_1).slice (win4_6.rect t)).set ↔ _
  rw [View.set_slice_whole, Rect.mem_set_unit]
  exact Iff.rfl

/-- Every row of the scores' array is in the block of the point its number divided by 2000 names. -/
theorem scores_cover (i : S50000x10.Idx) :
    ∃ t : Fin cfg4.N, (cfg4.win 6).flush t = true ∧ i ∈ ((cfg4.win 6).blk t).view.set := by
  have hi0 : (i 0).val < 50000 := (i 0).isLt
  have hi1 : (i 1).val < 10 := (i 1).isLt
  have hN : grid4.N = 25 := N_4
  have ht : (i 0).val / 2000 < grid4.N := by rw [hN]; omega
  refine ⟨⟨(i 0).val / 2000, ht⟩, flush4_6 _, ?_⟩
  rw [mem_scoresBlock]
  obtain ⟨-, -, -, -, -, -, -, -, -, -, -, -, e0, e1⟩ := index_maps ⟨(i 0).val / 2000, ht⟩
  intro a
  match a with
  | ⟨0, _⟩ =>
    show win4_6.index ⟨(i 0).val / 2000, ht⟩ (0 : Fin 2) * 2000 ≤ (i 0).val
      ∧ (i 0).val < win4_6.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win4_6.index ⟨(i 0).val / 2000, ht⟩ (1 : Fin 2) * 10 ≤ (i 1).val
      ∧ (i 1).val < win4_6.index ⟨(i 0).val / 2000, ht⟩ (1 : Fin 2) * 10 + 10
    rw [e1]; omega

end Final

theorem region4_arr5 (c : Dev nD) :
    ((dat4 (F := Ideal) V c).arrAt 5 cfg4.N : S50000x128.Idx → EReal)
      = Cert.Spec.conc (Cert.Spec.act (V c main_v68 : S50000x128.Idx → EReal) (V c main_v17 : S50000x1.Idx → EReal) (V c main_v93 : S1x128.Idx → EReal)) := by
  exact (dat4 (F := Ideal) V c).arrAt_eq_of_cover 5 _ (fun t _ => Final.concepts_flushed V c t) Final.concepts_cover

theorem region4_arr6 (c : Dev nD) :
    ((dat4 (F := Ideal) V c).arrAt 6 cfg4.N : S50000x10.Idx → EReal)
      = Cert.Spec.score (Cert.Spec.conc (Cert.Spec.act (V c main_v68 : S50000x128.Idx → EReal) (V c main_v17 : S50000x1.Idx → EReal) (V c main_v93 : S1x128.Idx → EReal)))
          (V c main_v90 : S128x10.Idx → EReal) (V c main_v92 : S1x10.Idx → EReal) := by
  exact (dat4 (F := Ideal) V c).arrAt_eq_of_cover 6 _ (fun t _ => Final.scores_flushed V c t) Final.scores_cover

end Cert.KernelIdeal.RegionValue

end
-- ==== Proof.KRun.lean ====
/-
  The idealized kernel program's run with its two results named: every weakly fair execution ends, nothing
  faulting, with the concepts array and the log-probabilities array holding what the last boundary's contents
  hold there (the fold of the thirteen segments from the launch memory), and the twelve arguments as launched.
-/
import proofs.«170301_j10299331576451_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: both result arrays at the last boundary's contents, the arguments unchanged. -/
theorem run : θ_run defs (onTc (τ := τ) (main (F := F))) ⟨m, fun _ => 0, ρ⟩ (fun r => ∀ c : Dev nD,
      r.2.mem ((c.tc : Thread nD τ).loc main_v94_0) = W13 m ρ c (Proc.devRef .tc main_v94_0)
      ∧ r.2.mem ((c.tc : Thread nD τ).loc main_v95) = W13 m ρ c (Proc.devRef .tc main_v95)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v94_0 (by decide)),
       h c _ (mem_uc main_v95 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c)⟩)

end Cert.KernelIdeal.KRun

end
-- ==== Proof.KChainHost.lean ====
/-
  The host stretches of the idealized kernel program as pure functions: what each stretch leaves in the buffers
  the regions read, as a function of the contents it starts from, and which buffers a stretch leaves alone.
  Every statement is over an arbitrary valuation of the buffers.
-/
import proofs.«170301_j10299331576451_2_alg».proof.Proof.Gen.KernelIdeal.Launch
import proofs.«170301_j10299331576451_2_alg».proof.Proof.KTerms

set_option maxRecDepth 16384

noncomputable section

namespace Cert.KernelIdeal.KChain

open Idealize.ShloMosaic Idealize.ShloMosaic.TcCoe Idealize.SL.Sem
open Cert.KernelIdeal Cert.KernelIdeal.Gen

/-! ## What each stretch writes -/

/-- The buffers written before the first region: the edge columns, the degrees and the per-node factor. -/
def wr012 : List (Ref sig .tc) :=
  [main_v0, main_v1, main_v2, main_v3, main_v4, main_v5, main_v6, main_cst, main_v7, main_cst_0, main_v8, main_v9,
   main_v10, main_cst_1, main_v11, main_v12, main_cst_2, main_v13, main_v14, main_v15, main_cst_3,
   main_call0_v0, main_call0_v1, main_v16, main_v17]
/-- The buffers written between regions 0 and 1, 1 and 2, 2 and 3: the aggregation's intermediates, its result and the bias row. -/
def wr1 : List (Ref sig .tc) :=
  [main_c, main_v19, main_v20, main_c_4, main_v21, main_v22, main_v23, main_v24, main_v25, main_v26, main_cst_5,
   main_v27, main_v28, main_v29, main_v30]
def wr2 : List (Ref sig .tc) :=
  [main_c_6, main_v32, main_v33, main_c_7, main_v34, main_v35, main_v36, main_v37, main_v38, main_v39, main_cst_8,
   main_v40, main_v41, main_v42, main_v43]
def wr3 : List (Ref sig .tc) :=
  [main_c_9, main_v45, main_v46, main_c_10, main_v47, main_v48, main_v49, main_v50, main_v51, main_v52, main_cst_11,
   main_v53, main_v54, main_v55, main_v56]
/-- The buffers written before the last region: the aggregation, the class attention and the three rows. -/
def wr4 : List (Ref sig .tc) :=
  [main_c_12, main_v58, main_v59, main_c_13, main_v60, main_v61, main_v62, main_v63, main_v64, main_v65, main_cst_14,
   main_v66, main_v67, main_v68, main_v69, main_cst_15, main_v70, main_cst_16, main_v71, main_v72, main_cst_17, main_v73,
   main_cst_18, main_v74, main_v75, main_v76, main_v77, main_v78, main_v79, main_cst_19, main_v80, main_v81, main_v82,
   main_v83, main_cst_20, main_v84, main_v85, main_v86, main_v87, main_v88, main_v89, main_v90, main_v91, main_v92, main_v93]
/-- The buffers the closing log-softmax writes. -/
def wr5 : List (Ref sig .tc) :=
  [main_call1_cst, main_call1_v0, main_call1_cst_0, main_call1_v1, main_call1_v2, main_call1_v3, main_call1_v4,
   main_call1_v5, main_call1_v6, main_call1_cst_1, main_call1_v7, main_call1_v8, main_call1_v9, main_call1_v10, main_v95]

/-- Every operation of the named stretch writes a buffer of the list in the goal. -/
local macro "writes_listed " ops:ident : tactic => `(tactic| (
  simp only [$ops:ident, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)))

variable (W : Valuation τ sig (Elt Ideal))

/-- A buffer none of the three opening stretches writes holds what it held. -/
theorem keep012 {r : Ref sig .tc} (hr : r ∉ wr012) :
    StableHlo.after (hostOps0_2 (F := Ideal)) (StableHlo.after hostOps0_1 (StableHlo.after hostOps0 W)) (Proc.devRef .tc r)
      = W (Proc.devRef .tc r) :=
  (StableHlo.after_of_writes_sub _ _ (by writes_listed hostOps0_2) hr).trans
    ((StableHlo.after_of_writes_sub _ _ (by writes_listed hostOps0_1) hr).trans
      (StableHlo.after_of_writes_sub _ W (by writes_listed hostOps0) hr))
theorem keep1 {r : Ref sig .tc} (hr : r ∉ wr1) :
    StableHlo.after (hostOps1 (F := Ideal)) W (Proc.devRef .tc r) = W (Proc.devRef .tc r) :=
  StableHlo.after_of_writes_sub _ W (by writes_listed hostOps1) hr
theorem keep2 {r : Ref sig .tc} (hr : r ∉ wr2) :
    StableHlo.after (hostOps2 (F := Ideal)) W (Proc.devRef .tc r) = W (Proc.devRef .tc r) :=
  StableHlo.after_of_writes_sub _ W (by writes_listed hostOps2) hr
theorem keep3 {r : Ref sig .tc} (hr : r ∉ wr3) :
    StableHlo.after (hostOps3 (F := Ideal)) W (Proc.devRef .tc r) = W (Proc.devRef .tc r) :=
  StableHlo.after_of_writes_sub _ W (by writes_listed hostOps3) hr
theorem keep4 {r : Ref sig .tc} (hr : r ∉ wr4) :
    StableHlo.after (hostOps4 (F := Ideal)) W (Proc.devRef .tc r) = W (Proc.devRef .tc r) :=
  StableHlo.after_of_writes_sub _ W (by writes_listed hostOps4) hr
theorem keep5 {r : Ref sig .tc} (hr : r ∉ wr5) :
    StableHlo.after (hostOps5 (F := Ideal)) W (Proc.devRef .tc r) = W (Proc.devRef .tc r) :=
  StableHlo.after_of_writes_sub _ W (by writes_listed hostOps5) hr

/-! ## What each stretch computes -/

/-- What arrives at every node, with the two index columns as variables: the rows of `mk` gathered at the
    (normalised) first column and added up at the second, from zero. -/
def aggOf (mk : FVec Ideal S50000x128 .bf16) (e0 e1 : IVec S850000 32) : FVec Ideal S50000x128 .f32 :=
  Host.scatterAdd scatter_S50000x128_S850000x1_S850000x128_1_0_0_1
    (broadcastInDim S50000x128 ![] bcast_S_S50000x128 (constant S_ .f32 0x00000000#32)) (KValue.col e1)
    (extf .f32 (Host.gather gather_S50000x128_S850000x1_S850000x128_1_0_n_n_0_1_1128 mk (KValue.col (KValue.wrap e0))) bitsLt_bf16_f32)

theorem agg_eq (mk : FVec Ideal S50000x128 .bf16) (a1 : IVec S2x800000 32) :
    KValue.agg mk a1 = aggOf mk (KValue.ends0 a1) (KValue.ends1 a1) := rfl

/-- The first stretch leaves the pieces of the per-node factor: is the degree positive; the reciprocal square root
    of the degree, at least 1; the zero that replaces it at a node of degree 0. -/
theorem h0_v12 :
    (StableHlo.after (hostOps0 (F := Ideal)) W (Proc.devRef .tc main_v12) : IVec S50000 1)
      = cmpf .ogt (KValue.deg (W (Proc.devRef .tc main_arg1))) (broadcastInDim S50000 ![] bcast_S_S50000 (constant S_ .f32 0x00000000#32)) := by
  after_results_simp
  rfl
theorem h0_v15 :
    (StableHlo.after (hostOps0 (F := Ideal)) W (Proc.devRef .tc main_v15) : FVec Ideal S50000 .f32)
      = Host.rsqrt (maximumf (KValue.deg (W (Proc.devRef .tc main_arg1))) (broadcastInDim S50000 ![] bcast_S_S50000 (constant S_ .f32 0x3F800000#32))) := by
  after_results_simp
  rfl
theorem h0_cst3 :
    (StableHlo.after (hostOps0 (F := Ideal)) W (Proc.devRef .tc main_cst_3) : FVec Ideal S_ .f32)
      = constant (F := Ideal) S_ .f32 0x00000000#32 := by
  after_results_simp
/-- The second stretch selects between the two; the third lays the result out as a column. -/
theorem h01_v16 :
    (StableHlo.after (hostOps0_1 (F := Ideal)) W (Proc.devRef .tc main_v16) : FVec Ideal S50000 .f32)
      = select (W (Proc.devRef .tc main_v12) : IVec S50000 1) (W (Proc.devRef .tc main_v15) : FVec Ideal S50000 .f32)
          (broadcastInDim S50000 ![] bcast_S_S50000 (id (W (Proc.devRef .tc main_cst_3) : FVec Ideal S_ .f32))) := by
  after_results_simp
  simp only [StableHlo.TRef.ofBuf, StableHlo.TRef.toBuf, cast_cast, cast_eq]
theorem h02_v17 :
    (StableHlo.after (hostOps0_2 (F := Ideal)) W (Proc.devRef .tc main_v17) : S50000x1.Idx → EReal)
      = shapeCast S50000x1 (W (Proc.devRef .tc main_v16) : FVec Ideal S50000 .f32) shapeCasts_S50000_S50000x1 := by
  after_results_simp
  rfl

/-- Together: the factor column, and the two edge columns, at the first region's entry. -/
theorem open_v17 :
    (StableHlo.after (hostOps0_2 (F := Ideal)) (StableHlo.after hostOps0_1 (StableHlo.after hostOps0 W)) (Proc.devRef .tc main_v17) : S50000x1.Idx → EReal)
      = KValue.dis2 (W (Proc.devRef .tc main_arg1)) := by
  rw [h02_v17, h01_v16, h0_v12, h0_v15, h0_cst3]
  rfl
theorem open_v3 :
    (StableHlo.after (hostOps0_2 (F := Ideal)) (StableHlo.after hostOps0_1 (StableHlo.after hostOps0 W)) (Proc.devRef .tc main_v3) : IVec S850000 32)
      = KValue.ends0 (W (Proc.devRef .tc main_arg1)) := by
  after_results_simp
  rfl
theorem open_v6 :
    (StableHlo.after (hostOps0_2 (F := Ideal)) (StableHlo.after hostOps0_1 (StableHlo.after hostOps0 W)) (Proc.devRef .tc main_v6) : IVec S850000 32)
      = KValue.ends1 (W (Proc.devRef .tc main_arg1)) := by
  after_results_simp
  rfl

/-- Between two regions: the previous region's messages aggregated along the edges, and the next bias as a row. -/
theorem h1_agg :
    (StableHlo.after (hostOps1 (F := Ideal)) W (Proc.devRef .tc main_v29) : S50000x128.Idx → EReal)
      = aggOf (W (Proc.devRef .tc main_v18)) (W (Proc.devRef .tc main_v3)) (W (Proc.devRef .tc main_v6)) := by
  after_results_simp
  rfl
theorem h1_brow :
    (StableHlo.after (hostOps1 (F := Ideal)) W (Proc.devRef .tc main_v30) : S1x128.Idx → EReal)
      = KValue.brow (W (Proc.devRef .tc main_arg3)) := by
  after_results_simp
  rfl
theorem h2_agg :
    (StableHlo.after (hostOps2 (F := Ideal)) W (Proc.devRef .tc main_v42) : S50000x128.Idx → EReal)
      = aggOf (W (Proc.devRef .tc main_v31)) (W (Proc.devRef .tc main_v3)) (W (Proc.devRef .tc main_v6)) := by
  after_results_simp
  rfl
theorem h2_brow :
    (StableHlo.after (hostOps2 (F := Ideal)) W (Proc.devRef .tc main_v43) : S1x128.Idx → EReal)
      = KValue.brow (W (Proc.devRef .tc main_arg5)) := by
  after_results_simp
  rfl
theorem h3_agg :
    (StableHlo.after (hostOps3 (F := Ideal)) W (Proc.devRef .tc main_v55) : S50000x128.Idx → EReal)
      = aggOf (W (Proc.devRef .tc main_v44)) (W (Proc.devRef .tc main_v3)) (W (Proc.devRef .tc main_v6)) := by
  after_results_simp
  rfl
theorem h3_brow :
    (StableHlo.after (hostOps3 (F := Ideal)) W (Proc.devRef .tc main_v56) : S1x128.Idx → EReal)
      = KValue.brow (W (Proc.devRef .tc main_arg7)) := by
  after_results_simp
  rfl

/-- Before the last region: the aggregation once more, the last bias as a row, the class weights under their
    attention (transposed) and the class biases as a row. -/
theorem h4_agg :
    (StableHlo.after (hostOps4 (F := Ideal)) W (Proc.devRef .tc main_v68) : S50000x128.Idx → EReal)
      = aggOf (W (Proc.devRef .tc main_v57)) (W (Proc.devRef .tc main_v3)) (W (Proc.devRef .tc main_v6)) := by
  after_results_simp
  rfl
theorem h4_brow :
    (StableHlo.after (hostOps4 (F := Ideal)) W (Proc.devRef .tc main_v93) : S1x128.Idx → EReal)
      = KValue.brow (W (Proc.devRef .tc main_arg9)) := by
  after_results_simp
  rfl
theorem h4_bias :
    (StableHlo.after (hostOps4 (F := Ideal)) W (Proc.devRef .tc main_v92) : S1x10.Idx → EReal)
      = KValue.biasRow (W (Proc.devRef .tc main_arg11)) := by
  after_results_simp
  rfl
theorem h4_wwT :
    (StableHlo.after (hostOps4 (F := Ideal)) W (Proc.devRef .tc main_v90) : S128x10.Idx → EReal)
      = KValue.wwT (W (Proc.devRef .tc main_arg10)) := by
  after_results_simp
  rfl

/-- The closing stretch: the log-softmax over the nodes of the last region's scores. -/
theorem h5_lsm :
    (StableHlo.after (hostOps5 (F := Ideal)) W (Proc.devRef .tc main_v95) : S50000x10.Idx → EReal)
      = KValue.lsm (W (Proc.devRef .tc main_v94_1)) := by
  after_results_simp
  simp only [StableHlo.TRef.ofBuf, StableHlo.TRef.toBuf, cast_cast, cast_eq]
  rfl

end Cert.KernelIdeal.KChain

end
-- ==== Proof.KChain.lean ====
/-
  The idealized kernel program's two results as functions of its twelve arguments. The buffer contents at the
  thirteen segment boundaries are followed from the launch to the return: the opening host stretches leave the
  edge columns and the per-node factor; each region leaves its output array as the layer function of what it read;
  each host stretch between two regions aggregates the previous messages along the edges and lays out the next
  bias; nothing after the first region's entry writes an argument, an edge column or the factor column.
-/
import proofs.«170301_j10299331576451_2_alg».proof.Proof.Gen.KernelIdeal.Frame
import proofs.«170301_j10299331576451_2_alg».proof.Proof.KTerms
import proofs.«170301_j10299331576451_2_alg».proof.Proof.RegionA
import proofs.«170301_j10299331576451_2_alg».proof.Proof.RegionB
import proofs.«170301_j10299331576451_2_alg».proof.Proof.KRun
import proofs.«170301_j10299331576451_2_alg».proof.Proof.KChainHost

set_option maxRecDepth 16384

noncomputable section

namespace Cert.KernelIdeal.KChain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-! ## Congruences of the layer functions -/

theorem msg_congr {M K N : ℕ} {v v' : (⟨2, ![M, K]⟩ : Shape).Idx → EReal} {w w' : (⟨2, ![K, N]⟩ : Shape).Idx → EReal}
    {s s' : (⟨2, ![M, 1]⟩ : Shape).Idx → EReal} (hv : v = v') (hw : w = w') (hs : s = s') :
    Cert.Spec.msg v w s = Cert.Spec.msg v' w' s' := by rw [hv, hw, hs]
theorem act_congr {M N : ℕ} {a a' : (⟨2, ![M, N]⟩ : Shape).Idx → EReal} {s s' : (⟨2, ![M, 1]⟩ : Shape).Idx → EReal}
    {b b' : (⟨2, ![1, N]⟩ : Shape).Idx → EReal} (ha : a = a') (hs : s = s') (hb : b = b') :
    Cert.Spec.act a s b = Cert.Spec.act a' s' b' := by rw [ha, hs, hb]
theorem score_congr {M K N : ℕ} {x x' : (⟨2, ![M, K]⟩ : Shape).Idx → EReal} {w w' : (⟨2, ![K, N]⟩ : Shape).Idx → EReal}
    {b b' : (⟨2, ![1, N]⟩ : Shape).Idx → EReal} (hx : x = x') (hw : w = w') (hb : b = b') :
    Cert.Spec.score x w b = Cert.Spec.score x' w' b' := by rw [hx, hw, hb]
theorem aggOf_congr {x x' : FVec Ideal S50000x128 .bf16} {e0 e0' e1 e1' : IVec S850000 32}
    (hx : x = x') (h0 : e0 = e0') (h1 : e1 = e1') : aggOf x e0 e1 = aggOf x' e0' e1' := by rw [hx, h0, h1]

/-! ## The buffers nothing writes once the first region is entered -/

/-- The twelve arguments. -/
def args : List (Ref sig .tc) :=
  [main_arg0, main_arg1, main_arg2, main_arg3, main_arg4, main_arg5, main_arg6, main_arg7, main_arg8, main_arg9,
   main_arg10, main_arg11]
/-- The arguments, the two edge columns and the factor column. -/
def stab : List (Ref sig .tc) := args ++ [main_v3, main_v6, main_v17]

theorem args_wr012 : ∀ r ∈ args, r ∉ wr012 := by decide
theorem args_stab : ∀ r ∈ args, r ∈ stab := by decide
theorem stab_wr1 : ∀ r ∈ stab, r ∉ wr1 := by decide
theorem stab_wr2 : ∀ r ∈ stab, r ∉ wr2 := by decide
theorem stab_wr3 : ∀ r ∈ stab, r ∉ wr3 := by decide
theorem stab_wr4 : ∀ r ∈ stab, r ∉ wr4 := by decide

variable (m : (ℓ : Loc nD τ sig) → Buf (Elt Ideal) ℓ) (ρ : Dev nD → PrngReg) (c : Dev nD)

set_option hygiene false in
local macro "stab_cases " h:ident : tactic => `(tactic| (
  simp only [stab, args, List.cons_append, List.nil_append, List.mem_cons, List.not_mem_nil, or_false] at $h:ident
  rcases $h:ident with rfl | rfl | rfl | rfl | rfl | rfl | rfl | rfl | rfl | rfl | rfl | rfl | rfl | rfl | rfl))

/-- A region leaves such a buffer alone: it is none of the region's arrays, or the array of an input window. -/
theorem reg0_keep {r : Ref sig .tc} (hr : r ∈ stab) :
    W4 m ρ c (Proc.devRef .tc r) = W3 m ρ c (Proc.devRef .tc r) := by
  stab_cases hr
  all_goals first
    | exact W4_of_ne m ρ c _ (by decide)
    | exact (W4_arr m ρ c 0).trans (((dat0 (V3 m ρ) c).arrAt_in 0 rfl _).trans (A_eq0 (V3 m ρ) c 0))
    | exact (W4_arr m ρ c 1).trans (((dat0 (V3 m ρ) c).arrAt_in 1 rfl _).trans (A_eq0 (V3 m ρ) c 1))
    | exact (W4_arr m ρ c 2).trans (((dat0 (V3 m ρ) c).arrAt_in 2 rfl _).trans (A_eq0 (V3 m ρ) c 2))
theorem reg1_keep {r : Ref sig .tc} (hr : r ∈ stab) :
    W6 m ρ c (Proc.devRef .tc r) = W5 m ρ c (Proc.devRef .tc r) := by
  stab_cases hr
  all_goals first
    | exact W6_of_ne m ρ c _ (by decide)
    | exact (W6_arr m ρ c 1).trans (((dat1 (V5 m ρ) c).arrAt_in 1 rfl _).trans (A_eq1 (V5 m ρ) c 1))
    | exact (W6_arr m ρ c 3).trans (((dat1 (V5 m ρ) c).arrAt_in 3 rfl _).trans (A_eq1 (V5 m ρ) c 3))
theorem reg2_keep {r : Ref sig .tc} (hr : r ∈ stab) :
    W8 m ρ c (Proc.devRef .tc r) = W7 m ρ c (Proc.devRef .tc r) := by
  stab_cases hr
  all_goals first
    | exact W8_of_ne m ρ c _ (by decide)
    | exact (W8_arr m ρ c 1).trans (((dat2 (V7 m ρ) c).arrAt_in 1 rfl _).trans (A_eq2 (V7 m ρ) c 1))
    | exact (W8_arr m ρ c 3).trans (((dat2 (V7 m ρ) c).arrAt_in 3 rfl _).trans (A_eq2 (V7 m ρ) c 3))
theorem reg3_keep {r : Ref sig .tc} (hr : r ∈ stab) :
    W10 m ρ c (Proc.devRef .tc r) = W9 m ρ c (Proc.devRef .tc r) := by
  stab_cases hr
  all_goals first
    | exact W10_of_ne m ρ c _ (by decide)
    | exact (W10_arr m ρ c 1).trans (((dat3 (V9 m ρ) c).arrAt_in 1 rfl _).trans (A_eq3 (V9 m ρ) c 1))
    | exact (W10_arr m ρ c 3).trans (((dat3 (V9 m ρ) c).arrAt_in 3 rfl _).trans (A_eq3 (V9 m ρ) c 3))

/-! ## Agreement with the first region's entry contents, boundary by boundary -/

/-- The contents `X` hold, in every such buffer, what the first region found there. -/
def Agrees (X : Valuation τ sig (Elt Ideal)) : Prop :=
  ∀ r ∈ stab, X (Proc.devRef .tc r) = W3 m ρ c (Proc.devRef .tc r)

theorem agrees3 : Agrees m ρ c (W3 m ρ c) := fun _ _ => rfl
theorem agrees4 : Agrees m ρ c (W4 m ρ c) := fun r hr => reg0_keep m ρ c hr
theorem agrees5 : Agrees m ρ c (W5 m ρ c) := fun r hr => (keep1 _ (stab_wr1 r hr)).trans (agrees4 m ρ c r hr)
theorem agrees6 : Agrees m ρ c (W6 m ρ c) := fun r hr => (reg1_keep m ρ c hr).trans (agrees5 m ρ c r hr)
theorem agrees7 : Agrees m ρ c (W7 m ρ c) := fun r hr => (keep2 _ (stab_wr2 r hr)).trans (agrees6 m ρ c r hr)
theorem agrees8 : Agrees m ρ c (W8 m ρ c) := fun r hr => (reg2_keep m ρ c hr).trans (agrees7 m ρ c r hr)
theorem agrees9 : Agrees m ρ c (W9 m ρ c) := fun r hr => (keep3 _ (stab_wr3 r hr)).trans (agrees8 m ρ c r hr)
theorem agrees10 : Agrees m ρ c (W10 m ρ c) := fun r hr => (reg3_keep m ρ c hr).trans (agrees9 m ρ c r hr)
theorem agrees11 : Agrees m ρ c (W11 m ρ c) := fun r hr => (keep4 _ (stab_wr4 r hr)).trans (agrees10 m ρ c r hr)

set_option quotPrecheck false in
local notation "a0" => m ((c : Thread nD τ).loc main_arg0)
set_option quotPrecheck false in
local notation "a1" => m ((c : Thread nD τ).loc main_arg1)
set_option quotPrecheck false in
local notation "a2" => m ((c : Thread nD τ).loc main_arg2)
set_option quotPrecheck false in
local notation "a3" => m ((c : Thread nD τ).loc main_arg3)
set_option quotPrecheck false in
local notation "a4" => m ((c : Thread nD τ).loc main_arg4)
set_option quotPrecheck false in
local notation "a5" => m ((c : Thread nD τ).loc main_arg5)
set_option quotPrecheck false in
local notation "a6" => m ((c : Thread nD τ).loc main_arg6)
set_option quotPrecheck false in
local notation "a7" => m ((c : Thread nD τ).loc main_arg7)
set_option quotPrecheck false in
local notation "a8" => m ((c : Thread nD τ).loc main_arg8)
set_option quotPrecheck false in
local notation "a9" => m ((c : Thread nD τ).loc main_arg9)
set_option quotPrecheck false in
local notation "a10" => m ((c : Thread nD τ).loc main_arg10)
set_option quotPrecheck false in
local notation "a11" => m ((c : Thread nD τ).loc main_arg11)

/-- What the first region finds: the arguments as launched, the edge columns and the factor column of the edge list. -/
theorem entry_arg {r : Ref sig .tc} (hr : r ∈ args) :
    W3 m ρ c (Proc.devRef .tc r) = m ((c : Thread nD τ).loc r) :=
  (keep012 (W0 m ρ c) (args_wr012 r hr)).trans rfl
theorem entry_v17 : (W3 m ρ c (Proc.devRef .tc main_v17) : S50000x1.Idx → EReal) = KValue.dis2 a1 := open_v17 (W0 m ρ c)
theorem entry_v3 : (W3 m ρ c (Proc.devRef .tc main_v3) : IVec S850000 32) = KValue.ends0 a1 := open_v3 (W0 m ρ c)
theorem entry_v6 : (W3 m ρ c (Proc.devRef .tc main_v6) : IVec S850000 32) = KValue.ends1 a1 := open_v6 (W0 m ρ c)

variable {m ρ c}

theorem Agrees.arg {X : Valuation τ sig (Elt Ideal)} (h : Agrees m ρ c X) {r : Ref sig .tc} (hr : r ∈ args) :
    X (Proc.devRef .tc r) = m ((c : Thread nD τ).loc r) :=
  (h r (args_stab r hr)).trans (entry_arg m ρ c hr)
theorem Agrees.v17 {X : Valuation τ sig (Elt Ideal)} (h : Agrees m ρ c X) :
    (X (Proc.devRef .tc main_v17) : S50000x1.Idx → EReal) = KValue.dis2 a1 :=
  (h main_v17 (by decide)).trans (entry_v17 m ρ c)
theorem Agrees.v3 {X : Valuation τ sig (Elt Ideal)} (h : Agrees m ρ c X) :
    (X (Proc.devRef .tc main_v3) : IVec S850000 32) = KValue.ends0 a1 :=
  (h main_v3 (by decide)).trans (entry_v3 m ρ c)
theorem Agrees.v6 {X : Valuation τ sig (Elt Ideal)} (h : Agrees m ρ c X) :
    (X (Proc.devRef .tc main_v6) : IVec S850000 32) = KValue.ends1 a1 :=
  (h main_v6 (by decide)).trans (entry_v6 m ρ c)
/-- The aggregation a stretch computes from such contents is the aggregation along the program's own edge list. -/
theorem Agrees.agg {X : Valuation τ sig (Elt Ideal)} (h : Agrees m ρ c X) {x mk : FVec Ideal S50000x128 .bf16} (hx : x = mk) :
    aggOf x (X (Proc.devRef .tc main_v3)) (X (Proc.devRef .tc main_v6)) = KValue.agg mk a1 :=
  (aggOf_congr hx h.v3 h.v6).trans (agg_eq mk a1).symm

variable (m ρ c)

/-! ## The layers -/

set_option quotPrecheck false in
local notation "M0" => KValue.m0 a0 a1 a2
set_option quotPrecheck false in
local notation "M1" => KValue.mid M0 a1 a3 a4
set_option quotPrecheck false in
local notation "M2" => KValue.mid M1 a1 a5 a6
set_option quotPrecheck false in
local notation "M3" => KValue.mid M2 a1 a7 a8

/-- Region 0 leaves layer 0's messages. -/
theorem msg0 : (W4 m ρ c (Proc.devRef .tc main_v18) : S50000x128.Idx → EReal) = M0 :=
  (W4_arr m ρ c 3).trans ((RegionValue.region0_arr (V3 m ρ) c).trans
    (msg_congr ((agrees3 m ρ c).arg (r := main_arg0) (by decide)) ((agrees3 m ρ c).arg (r := main_arg2) (by decide))
      (agrees3 m ρ c).v17))
/-- The stretch after it aggregates them and lays out the first bias; region 1 leaves layer 1's messages. -/
theorem agg1 : (W5 m ρ c (Proc.devRef .tc main_v29) : S50000x128.Idx → EReal) = KValue.agg M0 a1 :=
  (h1_agg (W4 m ρ c)).trans ((agrees4 m ρ c).agg (msg0 m ρ c))
theorem brow1 : (W5 m ρ c (Proc.devRef .tc main_v30) : S1x128.Idx → EReal) = KValue.brow a3 :=
  (h1_brow (W4 m ρ c)).trans (congrArg KValue.brow ((agrees4 m ρ c).arg (r := main_arg3) (by decide)))
theorem msg1 : (W6 m ρ c (Proc.devRef .tc main_v31) : S50000x128.Idx → EReal) = M1 :=
  (W6_arr m ρ c 4).trans ((RegionValue.region1_arr (V5 m ρ) c).trans
    (msg_congr (act_congr (agg1 m ρ c) (agrees5 m ρ c).v17 (brow1 m ρ c))
      ((agrees5 m ρ c).arg (r := main_arg4) (by decide)) (agrees5 m ρ c).v17))
/-- The same for layers 2 and 3. -/
theorem agg2 : (W7 m ρ c (Proc.devRef .tc main_v42) : S50000x128.Idx → EReal) = KValue.agg M1 a1 :=
  (h2_agg (W6 m ρ c)).trans ((agrees6 m ρ c).agg (msg1 m ρ c))
theorem brow2 : (W7 m ρ c (Proc.devRef .tc main_v43) : S1x128.Idx → EReal) = KValue.brow a5 :=
  (h2_brow (W6 m ρ c)).trans (congrArg KValue.brow ((agrees6 m ρ c).arg (r := main_arg5) (by decide)))
theorem msg2 : (W8 m ρ c (Proc.devRef .tc main_v44) : S50000x128.Idx → EReal) = M2 :=
  (W8_arr m ρ c 4).trans ((RegionValue.region2_arr (V7 m ρ) c).trans
    (msg_congr (act_congr (agg2 m ρ c) (agrees7 m ρ c).v17 (brow2 m ρ c))
      ((agrees7 m ρ c).arg (r := main_arg6) (by decide)) (agrees7 m ρ c).v17))
theorem agg3 : (W9 m ρ c (Proc.devRef .tc main_v55) : S50000x128.Idx → EReal) = KValue.agg M2 a1 :=
  (h3_agg (W8 m ρ c)).trans ((agrees8 m ρ c).agg (msg2 m ρ c))
theorem brow3 : (W9 m ρ c (Proc.devRef .tc main_v56) : S1x128.Idx → EReal) = KValue.brow a7 :=
  (h3_brow (W8 m ρ c)).trans (congrArg KValue.brow ((agrees8 m ρ c).arg (r := main_arg7) (by decide)))
theorem msg3 : (W10 m ρ c (Proc.devRef .tc main_v57) : S50000x128.Idx → EReal) = M3 :=
  (W10_arr m ρ c 4).trans ((RegionValue.region3_arr (V9 m ρ) c).trans
    (msg_congr (act_congr (agg3 m ρ c) (agrees9 m ρ c).v17 (brow3 m ρ c))
      ((agrees9 m ρ c).arg (r := main_arg8) (by decide)) (agrees9 m ρ c).v17))
/-- Before the last region: the last aggregation and bias, the class weights and the class biases. -/
theorem agg4 : (W11 m ρ c (Proc.devRef .tc main_v68) : S50000x128.Idx → EReal) = KValue.agg M3 a1 :=
  (h4_agg (W10 m ρ c)).trans ((agrees10 m ρ c).agg (msg3 m ρ c))
theorem brow4 : (W11 m ρ c (Proc.devRef .tc main_v93) : S1x128.Idx → EReal) = KValue.brow a9 :=
  (h4_brow (W10 m ρ c)).trans (congrArg KValue.brow ((agrees10 m ρ c).arg (r := main_arg9) (by decide)))
theorem wwT4 : (W11 m ρ c (Proc.devRef .tc main_v90) : S128x10.Idx → EReal) = KValue.wwT a10 :=
  (h4_wwT (W10 m ρ c)).trans (congrArg KValue.wwT ((agrees10 m ρ c).arg (r := main_arg10) (by decide)))
theorem bias4 : (W11 m ρ c (Proc.devRef .tc main_v92) : S1x10.Idx → EReal) = KValue.biasRow a11 :=
  (h4_bias (W10 m ρ c)).trans (congrArg KValue.biasRow ((agrees10 m ρ c).arg (r := main_arg11) (by decide)))
/-- The last layer's activations, as the last region reads them. -/
theorem act4 :
    Cert.Spec.act (V11 m ρ c main_v68 : S50000x128.Idx → EReal) (V11 m ρ c main_v17 : S50000x1.Idx → EReal)
        (V11 m ρ c main_v93 : S1x128.Idx → EReal)
      = KValue.last M3 a1 a9 :=
  act_congr (agg4 m ρ c) (agrees11 m ρ c).v17 (brow4 m ρ c)

/-! ## The two results -/

/-- The last region leaves the concepts and the class scores. -/
theorem conc5 : (W12 m ρ c (Proc.devRef .tc main_v94_0) : S50000x128.Idx → EReal) = KValue.out0 a0 a1 a2 a3 a4 a5 a6 a7 a8 a9 :=
  (W12_arr m ρ c 5).trans ((RegionValue.region4_arr5 (V11 m ρ) c).trans (congrArg Cert.Spec.conc (act4 m ρ c)))
theorem score5 : (W12 m ρ c (Proc.devRef .tc main_v94_1) : S50000x10.Idx → EReal)
    = Cert.Spec.score (KValue.out0 a0 a1 a2 a3 a4 a5 a6 a7 a8 a9) (KValue.wwT a10) (KValue.biasRow a11) :=
  (W12_arr m ρ c 6).trans ((RegionValue.region4_arr6 (V11 m ρ) c).trans
    (score_congr (congrArg Cert.Spec.conc (act4 m ρ c)) (wwT4 m ρ c) (bias4 m ρ c)))

/-- The first result: the closing stretch does not write the concepts. -/
theorem out0_eq :
    (W13 m ρ c (Proc.devRef .tc main_v94_0) : S50000x128.Idx → EReal) = KValue.out0 a0 a1 a2 a3 a4 a5 a6 a7 a8 a9 :=
  (keep5 (W12 m ρ c) (by decide)).trans (conc5 m ρ c)
/-- The second result: the closing stretch's log-softmax of the scores. -/
theorem out1_eq :
    (W13 m ρ c (Proc.devRef .tc main_v95) : S50000x10.Idx → EReal) = KValue.out1 a0 a1 a2 a3 a4 a5 a6 a7 a8 a9 a10 a11 :=
  (h5_lsm (W12 m ρ c)).trans (congrArg KValue.lsm (score5 m ρ c))

/-! ## The run -/

/-- The run: every weakly fair execution ends, nothing faulting, with the two result arrays holding the two
    functions of the launch's arguments, and the arguments as launched. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v94_0)
        = KValue.out0 (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
      ∧ r.2.mem ((c.tc : Thread nD τ).loc main_v95)
        = KValue.out1 (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
            (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono
    (fun r h c => ⟨(h c).1.trans (out0_eq m ρ c), (h c).2.1.trans (out1_eq m ρ c), (h c).2.2⟩)
    (KRun.run (F := Ideal) m ρ)

end Cert.KernelIdeal.KChain

end
-- ==== Proof.RefOps0.lean ====
/-
  Statements 1 … 60 of the reference's @main as one list of host operations, in the order the
  program runs them. A statement that is an operation contributes that operation; the call of @_where (its three operations over the record main_call0)
  contributes the callee's operations in the callee's order, its arguments the caller's values and its
  results the record's buffers. The window of @main is the straight line of this list; every operation
  touches TensorCore buffers only and determines its result.
-/
import proofs.«170301_j10299331576451_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 62 operations of statements 1 … 60, in order. -/
abbrev ops0 : List (HloOp τ sig (Elt F)) :=
  [ StableHlo.nullary main_v0 (iotaInDim S50000 32 0),
    StableHlo.unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v1 main_v2 rfl shapeCasts_S1x800000_S800000,
    StableHlo.binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v4 main_v5 rfl shapeCasts_S1x800000_S800000,
    StableHlo.binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst (constant S_ .f32 0x3F800000#32),
    StableHlo.unary main_cst main_v7 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S850000x1 ![0] bcast_S850000_S850000x1_0 : (⟨S850000, .i32⟩ : BufTy).Contents (Elt F) → (⟨S850000x1, .i32⟩ : BufTy).Contents (Elt F)),
    StableHlo.ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x00000000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v10 main_v11 main_v12 (cmpf .ogt : (⟨S50000, .f32⟩ : BufTy).Contents (Elt F) → (⟨S50000, .f32⟩ : BufTy).Contents (Elt F) → (⟨S50000, .i1⟩ : BufTy).Contents (Elt F)),
    StableHlo.nullary main_cst_2 (constant S_ .f32 0x3F800000#32),
    StableHlo.unary main_cst_2 main_v13 (broadcastInDim S50000 ![] bcast_S_S50000 : (⟨S_, .f32⟩ : BufTy).Contents (Elt F) → (⟨S50000, .f32⟩ : BufTy).Contents (Elt F)),
    StableHlo.binary main_v10 main_v13 main_v14 (maximumf : (⟨S50000, .f32⟩ : BufTy).Contents (Elt F) → (⟨S50000, .f32⟩ : BufTy).Contents (Elt F) → (⟨S50000, .f32⟩ : BufTy).Contents (Elt F)),
    StableHlo.unary main_v14 main_v15 (Host.rsqrt : (⟨S50000, .f32⟩ : BufTy).Contents (Elt F) → (⟨S50000, .f32⟩ : BufTy).Contents (Elt F)),
    StableHlo.nullary main_cst_3 (constant S_ .f32 0x00000000#32),
    StableHlo.TRef.unary (.of main_cst_3 : StableHlo.TRef sig ⟨S_, .f32⟩) main_call0.v0 id,
    StableHlo.TRef.unary main_call0.v0 main_call0.v1 (broadcastInDim S50000 ![] bcast_S_S50000),
    StableHlo.TRef.ternary (.of main_v12 : StableHlo.TRef sig ⟨S50000, .i1⟩) (.of main_v15 : StableHlo.TRef sig ⟨S50000, .f32⟩) main_call0.v1 main_call0.v2 select,
    StableHlo.nullary main_c (constantI S_ 32 0#32),
    StableHlo.unary main_c main_v17 (broadcastInDim S850000 ![] bcast_S_S850000 : (⟨S_, .i32⟩ : BufTy).Contents (Elt F) → (⟨S850000, .i32⟩ : BufTy).Contents (Elt F)),
    StableHlo.binary main_v3 main_v17 main_v18 (cmpi .slt : (⟨S850000, .i32⟩ : BufTy).Contents (Elt F) → (⟨S850000, .i32⟩ : BufTy).Contents (Elt F) → (⟨S850000, .i1⟩ : BufTy).Contents (Elt F)),
    StableHlo.nullary main_c_4 (constantI S_ 32 50000#32),
    StableHlo.unary main_c_4 main_v19 (broadcastInDim S850000 ![] bcast_S_S850000 : (⟨S_, .i32⟩ : BufTy).Contents (Elt F) → (⟨S850000, .i32⟩ : BufTy).Contents (Elt F)),
    StableHlo.binary main_v3 main_v19 main_v20 (addi : (⟨S850000, .i32⟩ : BufTy).Contents (Elt F) → (⟨S850000, .i32⟩ : BufTy).Contents (Elt F) → (⟨S850000, .i32⟩ : BufTy).Contents (Elt F)),
    StableHlo.ternary main_v18 main_v20 main_v3 main_v21 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v21 main_v22 (broadcastInDim S850000x1 ![0] bcast_S850000_S850000x1_0 : (⟨S850000, .i32⟩ : BufTy).Contents (Elt F) → (⟨S850000x1, .i32⟩ : BufTy).Contents (Elt F)),
    StableHlo.binary main_v16 main_v22 main_v23 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_5 (constantI S_ 32 0#32),
    StableHlo.unary main_c_5 main_v24 (broadcastInDim S850000 ![] bcast_S_S850000 : (⟨S_, .i32⟩ : BufTy).Contents (Elt F) → (⟨S850000, .i32⟩ : BufTy).Contents (Elt F)),
    StableHlo.binary main_v6 main_v24 main_v25 (cmpi .slt : (⟨S850000, .i32⟩ : BufTy).Contents (Elt F) → (⟨S850000, .i32⟩ : BufTy).Contents (Elt F) → (⟨S850000, .i1⟩ : BufTy).Contents (Elt F)),
    StableHlo.nullary main_c_6 (constantI S_ 32 50000#32),
    StableHlo.unary main_c_6 main_v26 (broadcastInDim S850000 ![] bcast_S_S850000 : (⟨S_, .i32⟩ : BufTy).Contents (Elt F) → (⟨S850000, .i32⟩ : BufTy).Contents (Elt F)),
    StableHlo.binary main_v6 main_v26 main_v27 (addi : (⟨S850000, .i32⟩ : BufTy).Contents (Elt F) → (⟨S850000, .i32⟩ : BufTy).Contents (Elt F) → (⟨S850000, .i32⟩ : BufTy).Contents (Elt F)),
    StableHlo.ternary main_v25 main_v27 main_v6 main_v28 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v28 main_v29 (broadcastInDim S850000x1 ![0] bcast_S850000_S850000x1_0 : (⟨S850000, .i32⟩ : BufTy).Contents (Elt F) → (⟨S850000x1, .i32⟩ : BufTy).Contents (Elt F)),
    StableHlo.binary main_v16 main_v29 main_v30 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v23 main_v30 main_v31 (mulf : (⟨S850000, .f32⟩ : BufTy).Contents (Elt F) → (⟨S850000, .f32⟩ : BufTy).Contents (Elt F) → (⟨S850000, .f32⟩ : BufTy).Contents (Elt F)),
    StableHlo.binary main_arg0 main_arg2 main_v32 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_7 (constantI S_ 32 0#32),
    StableHlo.unary main_c_7 main_v33 (broadcastInDim S850000 ![] bcast_S_S850000 : (⟨S_, .i32⟩ : BufTy).Contents (Elt F) → (⟨S850000, .i32⟩ : BufTy).Contents (Elt F)),
    StableHlo.binary main_v3 main_v33 main_v34 (cmpi .slt : (⟨S850000, .i32⟩ : BufTy).Contents (Elt F) → (⟨S850000, .i32⟩ : BufTy).Contents (Elt F) → (⟨S850000, .i1⟩ : BufTy).Contents (Elt F)),
    StableHlo.nullary main_c_8 (constantI S_ 32 50000#32),
    StableHlo.unary main_c_8 main_v35 (broadcastInDim S850000 ![] bcast_S_S850000 : (⟨S_, .i32⟩ : BufTy).Contents (Elt F) → (⟨S850000, .i32⟩ : BufTy).Contents (Elt F)),
    StableHlo.binary main_v3 main_v35 main_v36 (addi : (⟨S850000, .i32⟩ : BufTy).Contents (Elt F) → (⟨S850000, .i32⟩ : BufTy).Contents (Elt F) → (⟨S850000, .i32⟩ : BufTy).Contents (Elt F)),
    StableHlo.ternary main_v34 main_v36 main_v3 main_v37 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v37 main_v38 (broadcastInDim S850000x1 ![0] bcast_S850000_S850000x1_0 : (⟨S850000, .i32⟩ : BufTy).Contents (Elt F) → (⟨S850000x1, .i32⟩ : BufTy).Contents (Elt F)),
    StableHlo.binary main_v32 main_v38 main_v39 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v31 main_v40 (broadcastInDim S850000x1 ![0] bcast_S850000_S850000x1_0 : (⟨S850000, .f32⟩ : BufTy).Contents (Elt F) → (⟨S850000x1, .f32⟩ : BufTy).Contents (Elt F)),
    StableHlo.unary main_v40 main_v41 (broadcastInDim S850000x128 ![0, 1] bcast_S850000x1_S850000x128_0_1 : (⟨S850000x1, .f32⟩ : BufTy).Contents (Elt F) → (⟨S850000x128, .f32⟩ : BufTy).Contents (Elt F)),
    StableHlo.binary main_v39 main_v41 main_v42 (mulf : (⟨S850000x128, .f32⟩ : BufTy).Contents (Elt F) → (⟨S850000x128, .f32⟩ : BufTy).Contents (Elt F) → (⟨S850000x128, .f32⟩ : BufTy).Contents (Elt F)),
    StableHlo.nullary main_cst_9 (constant S_ .f32 0x00000000#32),
    StableHlo.unary main_cst_9 main_v43 (broadcastInDim S50000x128 ![] bcast_S_S50000x128 : (⟨S_, .f32⟩ : BufTy).Contents (Elt F) → (⟨S50000x128, .f32⟩ : BufTy).Contents (Elt F)),
    StableHlo.unary main_v6 main_v44 (broadcastInDim S850000x1 ![0] bcast_S850000_S850000x1_0 : (⟨S850000, .i32⟩ : BufTy).Contents (Elt F) → (⟨S850000x1, .i32⟩ : BufTy).Contents (Elt F)),
    StableHlo.ternary main_v43 main_v44 main_v42 main_v45 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_arg3 main_v46 (broadcastInDim S1x128 ![1] bcast_S128_S1x128_1 : (⟨S128, .f32⟩ : BufTy).Contents (Elt F) → (⟨S1x128, .f32⟩ : BufTy).Contents (Elt F)),
    StableHlo.unary main_v46 main_v47 (broadcastInDim S50000x128 ![0, 1] bcast_S1x128_S50000x128_0_1 : (⟨S1x128, .f32⟩ : BufTy).Contents (Elt F) → (⟨S50000x128, .f32⟩ : BufTy).Contents (Elt F)) ]

/-- The window is the straight line of these operations: each callee's definition unfolds at its call and the
    record at its fields, and sequencing re-associates by computation. -/
theorem part0_eq (c : Dev nD) : main_part0 (F := F) c = seq ops0 := rfl

/-- Each operation touches TensorCore buffers only. -/
theorem ops0_sub : (ops0 : List (HloOp τ sig (Elt F))).Forall fun op => op.bufs ⊆ tcRefs τ sig :=
  ⟨nullary_bufs_sub .., unary_bufs_sub .., reshape_bufs_sub .., binary_bufs_sub .., unary_bufs_sub .., reshape_bufs_sub ..,
    binary_bufs_sub .., nullary_bufs_sub .., unary_bufs_sub .., nullary_bufs_sub .., unary_bufs_sub .., unary_bufs_sub ..,
    ternary_bufs_sub .., nullary_bufs_sub .., unary_bufs_sub .., binary_bufs_sub .., nullary_bufs_sub .., unary_bufs_sub ..,
    binary_bufs_sub .., unary_bufs_sub .., nullary_bufs_sub .., unary_bufs_sub .., unary_bufs_sub .., ternary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    unary_bufs_sub .., binary_bufs_sub .., nullary_bufs_sub .., unary_bufs_sub .., unary_bufs_sub .., ternary_bufs_sub ..,
    unary_bufs_sub .., unary_bufs_sub ..⟩

/-- Each operation determines its result: none allocates. -/
theorem ops0_fresh : ∀ op ∈ (ops0 : List (HloOp τ sig (Elt F))), op.fresh = ∅ := by
  intro _ h; (repeat (cases h with | head => rfl | tail _ h => ?_)); exact nomatch h

end Cert.ReferenceIdeal.RefRun

end
-- ==== Proof.RefArgs0.lean ====
/-
  No operation of statements 1 … 60 of the reference's @main writes an argument of @main: each
  operation writes exactly its result buffer, and every result buffer is a reference other than the twelve
  argument references. So the contents of an argument buffer after these operations, from any contents,
  are what they were.
-/
import proofs.«170301_j10299331576451_2_alg».proof.Proof.RefOps0

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem ops0_arg0 (V : Valuation τ sig (Elt F)) :
    after ops0 V (Proc.devRef .tc main_arg0) = V (Proc.devRef .tc main_arg0) :=
  after_of_forall_not_mem (b := Proc.devRef .tc main_arg0) _ _ (List.forall_iff_forall_mem.mp (by
    simp only [List.Forall, nullary_writes, unary_writes, binary_writes, ternary_writes, reshape_writes, Finset.mem_singleton]
    repeat' apply And.intro
    all_goals exact devRef_ne_of_ne (by decide)))

theorem ops0_arg1 (V : Valuation τ sig (Elt F)) :
    after ops0 V (Proc.devRef .tc main_arg1) = V (Proc.devRef .tc main_arg1) :=
  after_of_forall_not_mem (b := Proc.devRef .tc main_arg1) _ _ (List.forall_iff_forall_mem.mp (by
    simp only [List.Forall, nullary_writes, unary_writes, binary_writes, ternary_writes, reshape_writes, Finset.mem_singleton]
    repeat' apply And.intro
    all_goals exact devRef_ne_of_ne (by decide)))

theorem ops0_arg2 (V : Valuation τ sig (Elt F)) :
    after ops0 V (Proc.devRef .tc main_arg2) = V (Proc.devRef .tc main_arg2) :=
  after_of_forall_not_mem (b := Proc.devRef .tc main_arg2) _ _ (List.forall_iff_forall_mem.mp (by
    simp only [List.Forall, nullary_writes, unary_writes, binary_writes, ternary_writes, reshape_writes, Finset.mem_singleton]
    repeat' apply And.intro
    all_goals exact devRef_ne_of_ne (by decide)))

theorem ops0_arg3 (V : Valuation τ sig (Elt F)) :
    after ops0 V (Proc.devRef .tc main_arg3) = V (Proc.devRef .tc main_arg3) :=
  after_of_forall_not_mem (b := Proc.devRef .tc main_arg3) _ _ (List.forall_iff_forall_mem.mp (by
    simp only [List.Forall, nullary_writes, unary_writes, binary_writes, ternary_writes, reshape_writes, Finset.mem_singleton]
    repeat' apply And.intro
    all_goals exact devRef_ne_of_ne (by decide)))

theorem ops0_arg4 (V : Valuation τ sig (Elt F)) :
    after ops0 V (Proc.devRef .tc main_arg4) = V (Proc.devRef .tc main_arg4) :=
  after_of_forall_not_mem (b := Proc.devRef .tc main_arg4) _ _ (List.forall_iff_forall_mem.mp (by
    simp only [List.Forall, nullary_writes, unary_writes, binary_writes, ternary_writes, reshape_writes, Finset.mem_singleton]
    repeat' apply And.intro
    all_goals exact devRef_ne_of_ne (by decide)))

theorem ops0_arg5 (V : Valuation τ sig (Elt F)) :
    after ops0 V (Proc.devRef .tc main_arg5) = V (Proc.devRef .tc main_arg5) :=
  after_of_forall_not_mem (b := Proc.devRef .tc main_arg5) _ _ (List.forall_iff_forall_mem.mp (by
    simp only [List.Forall, nullary_writes, unary_writes, binary_writes, ternary_writes, reshape_writes, Finset.mem_singleton]
    repeat' apply And.intro
    all_goals exact devRef_ne_of_ne (by decide)))

theorem ops0_arg6 (V : Valuation τ sig (Elt F)) :
    after ops0 V (Proc.devRef .tc main_arg6) = V (Proc.devRef .tc main_arg6) :=
  after_of_forall_not_mem (b := Proc.devRef .tc main_arg6) _ _ (List.forall_iff_forall_mem.mp (by
    simp only [List.Forall, nullary_writes, unary_writes, binary_writes, ternary_writes, reshape_writes, Finset.mem_singleton]
    repeat' apply And.intro
    all_goals exact devRef_ne_of_ne (by decide)))

theorem ops0_arg7 (V : Valuation τ sig (Elt F)) :
    after ops0 V (Proc.devRef .tc main_arg7) = V (Proc.devRef .tc main_arg7) :=
  after_of_forall_not_mem (b := Proc.devRef .tc main_arg7) _ _ (List.forall_iff_forall_mem.mp (by
    simp only [List.Forall, nullary_writes, unary_writes, binary_writes, ternary_writes, reshape_writes, Finset.mem_singleton]
    repeat' apply And.intro
    all_goals exact devRef_ne_of_ne (by decide)))

theorem ops0_arg8 (V : Valuation τ sig (Elt F)) :
    after ops0 V (Proc.devRef .tc main_arg8) = V (Proc.devRef .tc main_arg8) :=
  after_of_forall_not_mem (b := Proc.devRef .tc main_arg8) _ _ (List.forall_iff_forall_mem.mp (by
    simp only [List.Forall, nullary_writes, unary_writes, binary_writes, ternary_writes, reshape_writes, Finset.mem_singleton]
    repeat' apply And.intro
    all_goals exact devRef_ne_of_ne (by decide)))

theorem ops0_arg9 (V : Valuation τ sig (Elt F)) :
    after ops0 V (Proc.devRef .tc main_arg9) = V (Proc.devRef .tc main_arg9) :=
  after_of_forall_not_mem (b := Proc.devRef .tc main_arg9) _ _ (List.forall_iff_forall_mem.mp (by
    simp only [List.Forall, nullary_writes, unary_writes, binary_writes, ternary_writes, reshape_writes, Finset.mem_singleton]
    repeat' apply And.intro
    all_goals exact devRef_ne_of_ne (by decide)))

theorem ops0_arg10 (V : Valuation τ sig (Elt F)) :
    after ops0 V (Proc.devRef .tc main_arg10) = V (Proc.devRef .tc main_arg10) :=
  after_of_forall_not_mem (b := Proc.devRef .tc main_arg10) _ _ (List.forall_iff_forall_mem.mp (by
    simp only [List.Forall, nullary_writes, unary_writes, binary_writes, ternary_writes, reshape_writes, Finset.mem_singleton]
    repeat' apply And.intro
    all_goals exact devRef_ne_of_ne (by decide)))

theorem ops0_arg11 (V : Valuation τ sig (Elt F)) :
    after ops0 V (Proc.devRef .tc main_arg11) = V (Proc.devRef .tc main_arg11) :=
  after_of_forall_not_mem (b := Proc.devRef .tc main_arg11) _ _ (List.forall_iff_forall_mem.mp (by
    simp only [List.Forall, nullary_writes, unary_writes, binary_writes, ternary_writes, reshape_writes, Finset.mem_singleton]
    repeat' apply And.intro
    all_goals exact devRef_ne_of_ne (by decide)))

end Cert.ReferenceIdeal.RefRun

end
-- ==== Proof.RefOps1.lean ====
/-
  Statements 61 … 120 of the reference's @main as one list of host operations, in the order the
  program runs them. A statement that is an operation contributes that operation; the three calls of @leaky_relu (each seven operations over its record main_call1 … main_call3, the last of them the one select of the nested @_where_0 over the record's own nested record)
  contributes the callee's operations in the callee's order, its arguments the caller's values and its
  results the record's buffers. The window of @main is the straight line of this list; every operation
  touches TensorCore buffers only and determines its result.
-/
import proofs.«170301_j10299331576451_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 78 operations of statements 61 … 120, in order. -/
abbrev ops1 : List (HloOp τ sig (Elt F)) :=
  [ StableHlo.binary main_v45 main_v47 main_v48 (addf : (⟨S50000x128, .f32⟩ : BufTy).Contents (Elt F) → (⟨S50000x128, .f32⟩ : BufTy).Contents (Elt F) → (⟨S50000x128, .f32⟩ : BufTy).Contents (Elt F)),
    StableHlo.nullary main_cst_10 (constant S_ .f32 0x3C23D70A#32),
    StableHlo.TRef.nullary main_call1.cst (constant S_ .f32 0x00000000#32),
    StableHlo.TRef.unary main_call1.cst main_call1.v0 (broadcastInDim S50000x128 ![] bcast_S_S50000x128),
    StableHlo.TRef.binary (.of main_v48 : StableHlo.TRef sig ⟨S50000x128, .f32⟩) main_call1.v0 main_call1.v1 (cmpf .oge),
    StableHlo.TRef.unary (.of main_cst_10 : StableHlo.TRef sig ⟨S_, .f32⟩) main_call1.v2 id,
    StableHlo.TRef.unary main_call1.v2 main_call1.v3 (broadcastInDim S50000x128 ![] bcast_S_S50000x128),
    StableHlo.TRef.binary main_call1.v3 (.of main_v48 : StableHlo.TRef sig ⟨S50000x128, .f32⟩) main_call1.v4 mulf,
    StableHlo.TRef.ternary main_call1.v1 (.of main_v48 : StableHlo.TRef sig ⟨S50000x128, .f32⟩) main_call1.v4 main_call1.call0.v0 select,
    StableHlo.binary main_v49 main_arg4 main_v50 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_11 (constantI S_ 32 0#32),
    StableHlo.unary main_c_11 main_v51 (broadcastInDim S850000 ![] bcast_S_S850000 : (⟨S_, .i32⟩ : BufTy).Contents (Elt F) → (⟨S850000, .i32⟩ : BufTy).Contents (Elt F)),
    StableHlo.binary main_v3 main_v51 main_v52 (cmpi .slt : (⟨S850000, .i32⟩ : BufTy).Contents (Elt F) → (⟨S850000, .i32⟩ : BufTy).Contents (Elt F) → (⟨S850000, .i1⟩ : BufTy).Contents (Elt F)),
    StableHlo.nullary main_c_12 (constantI S_ 32 50000#32),
    StableHlo.unary main_c_12 main_v53 (broadcastInDim S850000 ![] bcast_S_S850000 : (⟨S_, .i32⟩ : BufTy).Contents (Elt F) → (⟨S850000, .i32⟩ : BufTy).Contents (Elt F)),
    StableHlo.binary main_v3 main_v53 main_v54 (addi : (⟨S850000, .i32⟩ : BufTy).Contents (Elt F) → (⟨S850000, .i32⟩ : BufTy).Contents (Elt F) → (⟨S850000, .i32⟩ : BufTy).Contents (Elt F)),
    StableHlo.ternary main_v52 main_v54 main_v3 main_v55 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v55 main_v56 (broadcastInDim S850000x1 ![0] bcast_S850000_S850000x1_0 : (⟨S850000, .i32⟩ : BufTy).Contents (Elt F) → (⟨S850000x1, .i32⟩ : BufTy).Contents (Elt F)),
    StableHlo.binary main_v50 main_v56 main_v57 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v31 main_v58 (broadcastInDim S850000x1 ![0] bcast_S850000_S850000x1_0 : (⟨S850000, .f32⟩ : BufTy).Contents (Elt F) → (⟨S850000x1, .f32⟩ : BufTy).Contents (Elt F)),
    StableHlo.unary main_v58 main_v59 (broadcastInDim S850000x128 ![0, 1] bcast_S850000x1_S850000x128_0_1 : (⟨S850000x1, .f32⟩ : BufTy).Contents (Elt F) → (⟨S850000x128, .f32⟩ : BufTy).Contents (Elt F)),
    StableHlo.binary main_v57 main_v59 main_v60 (mulf : (⟨S850000x128, .f32⟩ : BufTy).Contents (Elt F) → (⟨S850000x128, .f32⟩ : BufTy).Contents (Elt F) → (⟨S850000x128, .f32⟩ : BufTy).Contents (Elt F)),
    StableHlo.nullary main_cst_13 (constant S_ .f32 0x00000000#32),
    StableHlo.unary main_cst_13 main_v61 (broadcastInDim S50000x128 ![] bcast_S_S50000x128 : (⟨S_, .f32⟩ : BufTy).Contents (Elt F) → (⟨S50000x128, .f32⟩ : BufTy).Contents (Elt F)),
    StableHlo.unary main_v6 main_v62 (broadcastInDim S850000x1 ![0] bcast_S850000_S850000x1_0 : (⟨S850000, .i32⟩ : BufTy).Contents (Elt F) → (⟨S850000x1, .i32⟩ : BufTy).Contents (Elt F)),
    StableHlo.ternary main_v61 main_v62 main_v60 main_v63 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_arg5 main_v64 (broadcastInDim S1x128 ![1] bcast_S128_S1x128_1 : (⟨S128, .f32⟩ : BufTy).Contents (Elt F) → (⟨S1x128, .f32⟩ : BufTy).Contents (Elt F)),
    StableHlo.unary main_v64 main_v65 (broadcastInDim S50000x128 ![0, 1] bcast_S1x128_S50000x128_0_1 : (⟨S1x128, .f32⟩ : BufTy).Contents (Elt F) → (⟨S50000x128, .f32⟩ : BufTy).Contents (Elt F)),
    StableHlo.binary main_v63 main_v65 main_v66 (addf : (⟨S50000x128, .f32⟩ : BufTy).Contents (Elt F) → (⟨S50000x128, .f32⟩ : BufTy).Contents (Elt F) → (⟨S50000x128, .f32⟩ : BufTy).Contents (Elt F)),
    StableHlo.nullary main_cst_14 (constant S_ .f32 0x3C23D70A#32),
    StableHlo.TRef.nullary main_call2.cst (constant S_ .f32 0x00000000#32),
    StableHlo.TRef.unary main_call2.cst main_call2.v0 (broadcastInDim S50000x128 ![] bcast_S_S50000x128),
    StableHlo.TRef.binary (.of main_v66 : StableHlo.TRef sig ⟨S50000x128, .f32⟩) main_call2.v0 main_call2.v1 (cmpf .oge),
    StableHlo.TRef.unary (.of main_cst_14 : StableHlo.TRef sig ⟨S_, .f32⟩) main_call2.v2 id,
    StableHlo.TRef.unary main_call2.v2 main_call2.v3 (broadcastInDim S50000x128 ![] bcast_S_S50000x128),
    StableHlo.TRef.binary main_call2.v3 (.of main_v66 : StableHlo.TRef sig ⟨S50000x128, .f32⟩) main_call2.v4 mulf,
    StableHlo.TRef.ternary main_call2.v1 (.of main_v66 : StableHlo.TRef sig ⟨S50000x128, .f32⟩) main_call2.v4 main_call2.call0.v0 select,
    StableHlo.binary main_v67 main_arg6 main_v68 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_15 (constantI S_ 32 0#32),
    StableHlo.unary main_c_15 main_v69 (broadcastInDim S850000 ![] bcast_S_S850000 : (⟨S_, .i32⟩ : BufTy).Contents (Elt F) → (⟨S850000, .i32⟩ : BufTy).Contents (Elt F)),
    StableHlo.binary main_v3 main_v69 main_v70 (cmpi .slt : (⟨S850000, .i32⟩ : BufTy).Contents (Elt F) → (⟨S850000, .i32⟩ : BufTy).Contents (Elt F) → (⟨S850000, .i1⟩ : BufTy).Contents (Elt F)),
    StableHlo.nullary main_c_16 (constantI S_ 32 50000#32),
    StableHlo.unary main_c_16 main_v71 (broadcastInDim S850000 ![] bcast_S_S850000 : (⟨S_, .i32⟩ : BufTy).Contents (Elt F) → (⟨S850000, .i32⟩ : BufTy).Contents (Elt F)),
    StableHlo.binary main_v3 main_v71 main_v72 (addi : (⟨S850000, .i32⟩ : BufTy).Contents (Elt F) → (⟨S850000, .i32⟩ : BufTy).Contents (Elt F) → (⟨S850000, .i32⟩ : BufTy).Contents (Elt F)),
    StableHlo.ternary main_v70 main_v72 main_v3 main_v73 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v73 main_v74 (broadcastInDim S850000x1 ![0] bcast_S850000_S850000x1_0 : (⟨S850000, .i32⟩ : BufTy).Contents (Elt F) → (⟨S850000x1, .i32⟩ : BufTy).Contents (Elt F)),
    StableHlo.binary main_v68 main_v74 main_v75 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v31 main_v76 (broadcastInDim S850000x1 ![0] bcast_S850000_S850000x1_0 : (⟨S850000, .f32⟩ : BufTy).Contents (Elt F) → (⟨S850000x1, .f32⟩ : BufTy).Contents (Elt F)),
    StableHlo.unary main_v76 main_v77 (broadcastInDim S850000x128 ![0, 1] bcast_S850000x1_S850000x128_0_1 : (⟨S850000x1, .f32⟩ : BufTy).Contents (Elt F) → (⟨S850000x128, .f32⟩ : BufTy).Contents (Elt F)),
    StableHlo.binary main_v75 main_v77 main_v78 (mulf : (⟨S850000x128, .f32⟩ : BufTy).Contents (Elt F) → (⟨S850000x128, .f32⟩ : BufTy).Contents (Elt F) → (⟨S850000x128, .f32⟩ : BufTy).Contents (Elt F)),
    StableHlo.nullary main_cst_17 (constant S_ .f32 0x00000000#32),
    StableHlo.unary main_cst_17 main_v79 (broadcastInDim S50000x128 ![] bcast_S_S50000x128 : (⟨S_, .f32⟩ : BufTy).Contents (Elt F) → (⟨S50000x128, .f32⟩ : BufTy).Contents (Elt F)),
    StableHlo.unary main_v6 main_v80 (broadcastInDim S850000x1 ![0] bcast_S850000_S850000x1_0 : (⟨S850000, .i32⟩ : BufTy).Contents (Elt F) → (⟨S850000x1, .i32⟩ : BufTy).Contents (Elt F)),
    StableHlo.ternary main_v79 main_v80 main_v78 main_v81 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_arg7 main_v82 (broadcastInDim S1x128 ![1] bcast_S128_S1x128_1 : (⟨S128, .f32⟩ : BufTy).Contents (Elt F) → (⟨S1x128, .f32⟩ : BufTy).Contents (Elt F)),
    StableHlo.unary main_v82 main_v83 (broadcastInDim S50000x128 ![0, 1] bcast_S1x128_S50000x128_0_1 : (⟨S1x128, .f32⟩ : BufTy).Contents (Elt F) → (⟨S50000x128, .f32⟩ : BufTy).Contents (Elt F)),
    StableHlo.binary main_v81 main_v83 main_v84 (addf : (⟨S50000x128, .f32⟩ : BufTy).Contents (Elt F) → (⟨S50000x128, .f32⟩ : BufTy).Contents (Elt F) → (⟨S50000x128, .f32⟩ : BufTy).Contents (Elt F)),
    StableHlo.nullary main_cst_18 (constant S_ .f32 0x3C23D70A#32),
    StableHlo.TRef.nullary main_call3.cst (constant S_ .f32 0x00000000#32),
    StableHlo.TRef.unary main_call3.cst main_call3.v0 (broadcastInDim S50000x128 ![] bcast_S_S50000x128),
    StableHlo.TRef.binary (.of main_v84 : StableHlo.TRef sig ⟨S50000x128, .f32⟩) main_call3.v0 main_call3.v1 (cmpf .oge),
    StableHlo.TRef.unary (.of main_cst_18 : StableHlo.TRef sig ⟨S_, .f32⟩) main_call3.v2 id,
    StableHlo.TRef.unary main_call3.v2 main_call3.v3 (broadcastInDim S50000x128 ![] bcast_S_S50000x128),
    StableHlo.TRef.binary main_call3.v3 (.of main_v84 : StableHlo.TRef sig ⟨S50000x128, .f32⟩) main_call3.v4 mulf,
    StableHlo.TRef.ternary main_call3.v1 (.of main_v84 : StableHlo.TRef sig ⟨S50000x128, .f32⟩) main_call3.v4 main_call3.call0.v0 select,
    StableHlo.binary main_v85 main_arg8 main_v86 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_19 (constantI S_ 32 0#32),
    StableHlo.unary main_c_19 main_v87 (broadcastInDim S850000 ![] bcast_S_S850000 : (⟨S_, .i32⟩ : BufTy).Contents (Elt F) → (⟨S850000, .i32⟩ : BufTy).Contents (Elt F)),
    StableHlo.binary main_v3 main_v87 main_v88 (cmpi .slt : (⟨S850000, .i32⟩ : BufTy).Contents (Elt F) → (⟨S850000, .i32⟩ : BufTy).Contents (Elt F) → (⟨S850000, .i1⟩ : BufTy).Contents (Elt F)),
    StableHlo.nullary main_c_20 (constantI S_ 32 50000#32),
    StableHlo.unary main_c_20 main_v89 (broadcastInDim S850000 ![] bcast_S_S850000 : (⟨S_, .i32⟩ : BufTy).Contents (Elt F) → (⟨S850000, .i32⟩ : BufTy).Contents (Elt F)),
    StableHlo.binary main_v3 main_v89 main_v90 (addi : (⟨S850000, .i32⟩ : BufTy).Contents (Elt F) → (⟨S850000, .i32⟩ : BufTy).Contents (Elt F) → (⟨S850000, .i32⟩ : BufTy).Contents (Elt F)),
    StableHlo.ternary main_v88 main_v90 main_v3 main_v91 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v91 main_v92 (broadcastInDim S850000x1 ![0] bcast_S850000_S850000x1_0 : (⟨S850000, .i32⟩ : BufTy).Contents (Elt F) → (⟨S850000x1, .i32⟩ : BufTy).Contents (Elt F)),
    StableHlo.binary main_v86 main_v92 main_v93 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v31 main_v94 (broadcastInDim S850000x1 ![0] bcast_S850000_S850000x1_0 : (⟨S850000, .f32⟩ : BufTy).Contents (Elt F) → (⟨S850000x1, .f32⟩ : BufTy).Contents (Elt F)),
    StableHlo.unary main_v94 main_v95 (broadcastInDim S850000x128 ![0, 1] bcast_S850000x1_S850000x128_0_1 : (⟨S850000x1, .f32⟩ : BufTy).Contents (Elt F) → (⟨S850000x128, .f32⟩ : BufTy).Contents (Elt F)),
    StableHlo.binary main_v93 main_v95 main_v96 (mulf : (⟨S850000x128, .f32⟩ : BufTy).Contents (Elt F) → (⟨S850000x128, .f32⟩ : BufTy).Contents (Elt F) → (⟨S850000x128, .f32⟩ : BufTy).Contents (Elt F)) ]

/-- The window is the straight line of these operations: each callee's definition unfolds at its call and the
    record at its fields, and sequencing re-associates by computation. -/
theorem part1_eq (c : Dev nD) : main_part1 (F := F) c = seq ops1 := rfl

/-- Each operation touches TensorCore buffers only. -/
theorem ops1_sub : (ops1 : List (HloOp τ sig (Elt F))).Forall fun op => op.bufs ⊆ tcRefs τ sig :=
  ⟨binary_bufs_sub .., nullary_bufs_sub .., nullary_bufs_sub .., unary_bufs_sub .., binary_bufs_sub .., unary_bufs_sub ..,
    unary_bufs_sub .., binary_bufs_sub .., ternary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., unary_bufs_sub .., binary_bufs_sub .., nullary_bufs_sub .., unary_bufs_sub ..,
    unary_bufs_sub .., ternary_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    unary_bufs_sub .., binary_bufs_sub .., nullary_bufs_sub .., unary_bufs_sub .., unary_bufs_sub .., ternary_bufs_sub ..,
    unary_bufs_sub .., unary_bufs_sub .., binary_bufs_sub .., nullary_bufs_sub .., nullary_bufs_sub .., unary_bufs_sub ..,
    binary_bufs_sub .., unary_bufs_sub .., unary_bufs_sub .., binary_bufs_sub .., ternary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., binary_bufs_sub ..⟩

/-- Each operation determines its result: none allocates. -/
theorem ops1_fresh : ∀ op ∈ (ops1 : List (HloOp τ sig (Elt F))), op.fresh = ∅ := by
  intro _ h; (repeat (cases h with | head => rfl | tail _ h => ?_)); exact nomatch h

end Cert.ReferenceIdeal.RefRun

end
-- ==== Proof.RefArgs1.lean ====
/-
  No operation of statements 61 … 120 of the reference's @main writes an argument of @main: each
  operation writes exactly its result buffer, and every result buffer is a reference other than the twelve
  argument references. So the contents of an argument buffer after these operations, from any contents,
  are what they were.
-/
import proofs.«170301_j10299331576451_2_alg».proof.Proof.RefOps1

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem ops1_arg0 (V : Valuation τ sig (Elt F)) :
    after ops1 V (Proc.devRef .tc main_arg0) = V (Proc.devRef .tc main_arg0) :=
  after_of_forall_not_mem (b := Proc.devRef .tc main_arg0) _ _ (List.forall_iff_forall_mem.mp (by
    simp only [List.Forall, nullary_writes, unary_writes, binary_writes, ternary_writes, reshape_writes, Finset.mem_singleton]
    repeat' apply And.intro
    all_goals exact devRef_ne_of_ne (by decide)))

theorem ops1_arg1 (V : Valuation τ sig (Elt F)) :
    after ops1 V (Proc.devRef .tc main_arg1) = V (Proc.devRef .tc main_arg1) :=
  after_of_forall_not_mem (b := Proc.devRef .tc main_arg1) _ _ (List.forall_iff_forall_mem.mp (by
    simp only [List.Forall, nullary_writes, unary_writes, binary_writes, ternary_writes, reshape_writes, Finset.mem_singleton]
    repeat' apply And.intro
    all_goals exact devRef_ne_of_ne (by decide)))

theorem ops1_arg2 (V : Valuation τ sig (Elt F)) :
    after ops1 V (Proc.devRef .tc main_arg2) = V (Proc.devRef .tc main_arg2) :=
  after_of_forall_not_mem (b := Proc.devRef .tc main_arg2) _ _ (List.forall_iff_forall_mem.mp (by
    simp only [List.Forall, nullary_writes, unary_writes, binary_writes, ternary_writes, reshape_writes, Finset.mem_singleton]
    repeat' apply And.intro
    all_goals exact devRef_ne_of_ne (by decide)))

theorem ops1_arg3 (V : Valuation τ sig (Elt F)) :
    after ops1 V (Proc.devRef .tc main_arg3) = V (Proc.devRef .tc main_arg3) :=
  after_of_forall_not_mem (b := Proc.devRef .tc main_arg3) _ _ (List.forall_iff_forall_mem.mp (by
    simp only [List.Forall, nullary_writes, unary_writes, binary_writes, ternary_writes, reshape_writes, Finset.mem_singleton]
    repeat' apply And.intro
    all_goals exact devRef_ne_of_ne (by decide)))

theorem ops1_arg4 (V : Valuation τ sig (Elt F)) :
    after ops1 V (Proc.devRef .tc main_arg4) = V (Proc.devRef .tc main_arg4) :=
  after_of_forall_not_mem (b := Proc.devRef .tc main_arg4) _ _ (List.forall_iff_forall_mem.mp (by
    simp only [List.Forall, nullary_writes, unary_writes, binary_writes, ternary_writes, reshape_writes, Finset.mem_singleton]
    repeat' apply And.intro
    all_goals exact devRef_ne_of_ne (by decide)))

theorem ops1_arg5 (V : Valuation τ sig (Elt F)) :
    after ops1 V (Proc.devRef .tc main_arg5) = V (Proc.devRef .tc main_arg5) :=
  after_of_forall_not_mem (b := Proc.devRef .tc main_arg5) _ _ (List.forall_iff_forall_mem.mp (by
    simp only [List.Forall, nullary_writes, unary_writes, binary_writes, ternary_writes, reshape_writes, Finset.mem_singleton]
    repeat' apply And.intro
    all_goals exact devRef_ne_of_ne (by decide)))

theorem ops1_arg6 (V : Valuation τ sig (Elt F)) :
    after ops1 V (Proc.devRef .tc main_arg6) = V (Proc.devRef .tc main_arg6) :=
  after_of_forall_not_mem (b := Proc.devRef .tc main_arg6) _ _ (List.forall_iff_forall_mem.mp (by
    simp only [List.Forall, nullary_writes, unary_writes, binary_writes, ternary_writes, reshape_writes, Finset.mem_singleton]
    repeat' apply And.intro
    all_goals exact devRef_ne_of_ne (by decide)))

theorem ops1_arg7 (V : Valuation τ sig (Elt F)) :
    after ops1 V (Proc.devRef .tc main_arg7) = V (Proc.devRef .tc main_arg7) :=
  after_of_forall_not_mem (b := Proc.devRef .tc main_arg7) _ _ (List.forall_iff_forall_mem.mp (by
    simp only [List.Forall, nullary_writes, unary_writes, binary_writes, ternary_writes, reshape_writes, Finset.mem_singleton]
    repeat' apply And.intro
    all_goals exact devRef_ne_of_ne (by decide)))

theorem ops1_arg8 (V : Valuation τ sig (Elt F)) :
    after ops1 V (Proc.devRef .tc main_arg8) = V (Proc.devRef .tc main_arg8) :=
  after_of_forall_not_mem (b := Proc.devRef .tc main_arg8) _ _ (List.forall_iff_forall_mem.mp (by
    simp only [List.Forall, nullary_writes, unary_writes, binary_writes, ternary_writes, reshape_writes, Finset.mem_singleton]
    repeat' apply And.intro
    all_goals exact devRef_ne_of_ne (by decide)))

theorem ops1_arg9 (V : Valuation τ sig (Elt F)) :
    after ops1 V (Proc.devRef .tc main_arg9) = V (Proc.devRef .tc main_arg9) :=
  after_of_forall_not_mem (b := Proc.devRef .tc main_arg9) _ _ (List.forall_iff_forall_mem.mp (by
    simp only [List.Forall, nullary_writes, unary_writes, binary_writes, ternary_writes, reshape_writes, Finset.mem_singleton]
    repeat' apply And.intro
    all_goals exact devRef_ne_of_ne (by decide)))

theorem ops1_arg10 (V : Valuation τ sig (Elt F)) :
    after ops1 V (Proc.devRef .tc main_arg10) = V (Proc.devRef .tc main_arg10) :=
  after_of_forall_not_mem (b := Proc.devRef .tc main_arg10) _ _ (List.forall_iff_forall_mem.mp (by
    simp only [List.Forall, nullary_writes, unary_writes, binary_writes, ternary_writes, reshape_writes, Finset.mem_singleton]
    repeat' apply And.intro
    all_goals exact devRef_ne_of_ne (by decide)))

theorem ops1_arg11 (V : Valuation τ sig (Elt F)) :
    after ops1 V (Proc.devRef .tc main_arg11) = V (Proc.devRef .tc main_arg11) :=
  after_of_forall_not_mem (b := Proc.devRef .tc main_arg11) _ _ (List.forall_iff_forall_mem.mp (by
    simp only [List.Forall, nullary_writes, unary_writes, binary_writes, ternary_writes, reshape_writes, Finset.mem_singleton]
    repeat' apply And.intro
    all_goals exact devRef_ne_of_ne (by decide)))

end Cert.ReferenceIdeal.RefRun

end
-- ==== Proof.RefOps2.lean ====
/-
  Statements 121 … 180 of the reference's @main as one list of host operations, in the order the
  program runs them. A statement that is an operation contributes that operation; the call of @leaky_relu (seven operations over the record main_call4, the last the one select of the nested @_where_0)
  contributes the callee's operations in the callee's order, its arguments the caller's values and its
  results the record's buffers. The window of @main is the straight line of this list; every operation
  touches TensorCore buffers only and determines its result.
-/
import proofs.«170301_j10299331576451_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 66 operations of statements 121 … 180, in order. -/
abbrev ops2 : List (HloOp τ sig (Elt F)) :=
  [ StableHlo.nullary main_cst_21 (constant S_ .f32 0x00000000#32),
    StableHlo.unary main_cst_21 main_v97 (broadcastInDim S50000x128 ![] bcast_S_S50000x128 : (⟨S_, .f32⟩ : BufTy).Contents (Elt F) → (⟨S50000x128, .f32⟩ : BufTy).Contents (Elt F)),
    StableHlo.unary main_v6 main_v98 (broadcastInDim S850000x1 ![0] bcast_S850000_S850000x1_0 : (⟨S850000, .i32⟩ : BufTy).Contents (Elt F) → (⟨S850000x1, .i32⟩ : BufTy).Contents (Elt F)),
    StableHlo.ternary main_v97 main_v98 main_v96 main_v99 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_arg9 main_v100 (broadcastInDim S1x128 ![1] bcast_S128_S1x128_1 : (⟨S128, .f32⟩ : BufTy).Contents (Elt F) → (⟨S1x128, .f32⟩ : BufTy).Contents (Elt F)),
    StableHlo.unary main_v100 main_v101 (broadcastInDim S50000x128 ![0, 1] bcast_S1x128_S50000x128_0_1 : (⟨S1x128, .f32⟩ : BufTy).Contents (Elt F) → (⟨S50000x128, .f32⟩ : BufTy).Contents (Elt F)),
    StableHlo.binary main_v99 main_v101 main_v102 (addf : (⟨S50000x128, .f32⟩ : BufTy).Contents (Elt F) → (⟨S50000x128, .f32⟩ : BufTy).Contents (Elt F) → (⟨S50000x128, .f32⟩ : BufTy).Contents (Elt F)),
    StableHlo.nullary main_cst_22 (constant S_ .f32 0x3C23D70A#32),
    StableHlo.TRef.nullary main_call4.cst (constant S_ .f32 0x00000000#32),
    StableHlo.TRef.unary main_call4.cst main_call4.v0 (broadcastInDim S50000x128 ![] bcast_S_S50000x128),
    StableHlo.TRef.binary (.of main_v102 : StableHlo.TRef sig ⟨S50000x128, .f32⟩) main_call4.v0 main_call4.v1 (cmpf .oge),
    StableHlo.TRef.unary (.of main_cst_22 : StableHlo.TRef sig ⟨S_, .f32⟩) main_call4.v2 id,
    StableHlo.TRef.unary main_call4.v2 main_call4.v3 (broadcastInDim S50000x128 ![] bcast_S_S50000x128),
    StableHlo.TRef.binary main_call4.v3 (.of main_v102 : StableHlo.TRef sig ⟨S50000x128, .f32⟩) main_call4.v4 mulf,
    StableHlo.TRef.ternary main_call4.v1 (.of main_v102 : StableHlo.TRef sig ⟨S50000x128, .f32⟩) main_call4.v4 main_call4.call0.v0 select,
    StableHlo.nullary main_cst_23 (constant S_ .f32 0xFF800000#32),
    StableHlo.binary main_v103 main_cst_23 main_v104 ((fun x v => Host.reduce FloatOps.maximumf x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.nullary main_cst_24 (constant S_ .f32 0xFF800000#32),
    StableHlo.unary main_cst_24 main_v105 (broadcastInDim S50000 ![] bcast_S_S50000 : (⟨S_, .f32⟩ : BufTy).Contents (Elt F) → (⟨S50000, .f32⟩ : BufTy).Contents (Elt F)),
    StableHlo.binary main_v105 main_v104 main_v106 (maximumf : (⟨S50000, .f32⟩ : BufTy).Contents (Elt F) → (⟨S50000, .f32⟩ : BufTy).Contents (Elt F) → (⟨S50000, .f32⟩ : BufTy).Contents (Elt F)),
    StableHlo.unary main_v106 main_v107 (broadcastInDim S50000x1 ![0] bcast_S50000_S50000x1_0 : (⟨S50000, .f32⟩ : BufTy).Contents (Elt F) → (⟨S50000x1, .f32⟩ : BufTy).Contents (Elt F)),
    StableHlo.unary main_v107 main_v108 (broadcastInDim S50000x128 ![0, 1] bcast_S50000x1_S50000x128_0_1 : (⟨S50000x1, .f32⟩ : BufTy).Contents (Elt F) → (⟨S50000x128, .f32⟩ : BufTy).Contents (Elt F)),
    StableHlo.binary main_v103 main_v108 main_v109 (subf : (⟨S50000x128, .f32⟩ : BufTy).Contents (Elt F) → (⟨S50000x128, .f32⟩ : BufTy).Contents (Elt F) → (⟨S50000x128, .f32⟩ : BufTy).Contents (Elt F)),
    StableHlo.unary main_v109 main_v110 (Host.exp : (⟨S50000x128, .f32⟩ : BufTy).Contents (Elt F) → (⟨S50000x128, .f32⟩ : BufTy).Contents (Elt F)),
    StableHlo.nullary main_cst_25 (constant S_ .f32 0x00000000#32),
    StableHlo.binary main_v110 main_cst_25 main_v111 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v111 main_v112 (broadcastInDim S50000x1 ![0] bcast_S50000_S50000x1_0 : (⟨S50000, .f32⟩ : BufTy).Contents (Elt F) → (⟨S50000x1, .f32⟩ : BufTy).Contents (Elt F)),
    StableHlo.unary main_v112 main_v113 (broadcastInDim S50000x128 ![0, 1] bcast_S50000x1_S50000x128_0_1 : (⟨S50000x1, .f32⟩ : BufTy).Contents (Elt F) → (⟨S50000x128, .f32⟩ : BufTy).Contents (Elt F)),
    StableHlo.binary main_v110 main_v113 main_v114 (Host.divf : (⟨S50000x128, .f32⟩ : BufTy).Contents (Elt F) → (⟨S50000x128, .f32⟩ : BufTy).Contents (Elt F) → (⟨S50000x128, .f32⟩ : BufTy).Contents (Elt F)),
    StableHlo.nullary main_cst_26 (constant S_ .f32 0xFF800000#32),
    StableHlo.binary main_v114 main_cst_26 main_v115 ((fun x v => Host.reduce FloatOps.maximumf x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v115 main_v116 (broadcastInDim S50000x1 ![0] bcast_S50000_S50000x1_0 : (⟨S50000, .f32⟩ : BufTy).Contents (Elt F) → (⟨S50000x1, .f32⟩ : BufTy).Contents (Elt F)),
    StableHlo.unary main_v116 main_v117 (broadcastInDim S50000x128 ![0, 1] bcast_S50000x1_S50000x128_0_1 : (⟨S50000x1, .f32⟩ : BufTy).Contents (Elt F) → (⟨S50000x128, .f32⟩ : BufTy).Contents (Elt F)),
    StableHlo.binary main_v114 main_v117 main_v118 (Host.divf : (⟨S50000x128, .f32⟩ : BufTy).Contents (Elt F) → (⟨S50000x128, .f32⟩ : BufTy).Contents (Elt F) → (⟨S50000x128, .f32⟩ : BufTy).Contents (Elt F)),
    StableHlo.unary main_arg10 main_v119 (Host.absf : (⟨S10x1x128, .f32⟩ : BufTy).Contents (Elt F) → (⟨S10x1x128, .f32⟩ : BufTy).Contents (Elt F)),
    StableHlo.nullary main_cst_27 (constant S_ .f32 0x00000000#32),
    StableHlo.binary main_v119 main_cst_27 main_v120 ((fun x v => Host.reduceAdd x v reducesTo_S10x1x128_S10x128_d1 h_S_) : (⟨S10x1x128, .f32⟩ : BufTy).Contents (Elt F) → (⟨S_, .f32⟩ : BufTy).Contents (Elt F) → (⟨S10x128, .f32⟩ : BufTy).Contents (Elt F)),
    StableHlo.nullary main_cst_28 (constant S_ .f32 0x3F19999A#32),
    StableHlo.unary main_cst_28 main_v121 (broadcastInDim S10x128 ![] bcast_S_S10x128 : (⟨S_, .f32⟩ : BufTy).Contents (Elt F) → (⟨S10x128, .f32⟩ : BufTy).Contents (Elt F)),
    StableHlo.binary main_v120 main_v121 main_v122 (Host.divf : (⟨S10x128, .f32⟩ : BufTy).Contents (Elt F) → (⟨S10x128, .f32⟩ : BufTy).Contents (Elt F) → (⟨S10x128, .f32⟩ : BufTy).Contents (Elt F)),
    StableHlo.nullary main_cst_29 (constant S_ .f32 0xFF800000#32),
    StableHlo.binary main_v122 main_cst_29 main_v123 ((fun x v => Host.reduce FloatOps.maximumf x v reducesTo_S10x128_S10_d1 h_S_) : (⟨S10x128, .f32⟩ : BufTy).Contents (Elt F) → (⟨S_, .f32⟩ : BufTy).Contents (Elt F) → (⟨S10, .f32⟩ : BufTy).Contents (Elt F)),
    StableHlo.nullary main_cst_30 (constant S_ .f32 0xFF800000#32),
    StableHlo.unary main_cst_30 main_v124 (broadcastInDim S10 ![] bcast_S_S10 : (⟨S_, .f32⟩ : BufTy).Contents (Elt F) → (⟨S10, .f32⟩ : BufTy).Contents (Elt F)),
    StableHlo.binary main_v124 main_v123 main_v125 (maximumf : (⟨S10, .f32⟩ : BufTy).Contents (Elt F) → (⟨S10, .f32⟩ : BufTy).Contents (Elt F) → (⟨S10, .f32⟩ : BufTy).Contents (Elt F)),
    StableHlo.unary main_v125 main_v126 (broadcastInDim S10x1 ![0] bcast_S10_S10x1_0 : (⟨S10, .f32⟩ : BufTy).Contents (Elt F) → (⟨S10x1, .f32⟩ : BufTy).Contents (Elt F)),
    StableHlo.unary main_v126 main_v127 (broadcastInDim S10x128 ![0, 1] bcast_S10x1_S10x128_0_1 : (⟨S10x1, .f32⟩ : BufTy).Contents (Elt F) → (⟨S10x128, .f32⟩ : BufTy).Contents (Elt F)),
    StableHlo.binary main_v122 main_v127 main_v128 (subf : (⟨S10x128, .f32⟩ : BufTy).Contents (Elt F) → (⟨S10x128, .f32⟩ : BufTy).Contents (Elt F) → (⟨S10x128, .f32⟩ : BufTy).Contents (Elt F)),
    StableHlo.unary main_v128 main_v129 (Host.exp : (⟨S10x128, .f32⟩ : BufTy).Contents (Elt F) → (⟨S10x128, .f32⟩ : BufTy).Contents (Elt F)),
    StableHlo.nullary main_cst_31 (constant S_ .f32 0x00000000#32),
    StableHlo.binary main_v129 main_cst_31 main_v130 ((fun x v => Host.reduceAdd x v reducesTo_S10x128_S10_d1 h_S_) : (⟨S10x128, .f32⟩ : BufTy).Contents (Elt F) → (⟨S_, .f32⟩ : BufTy).Contents (Elt F) → (⟨S10, .f32⟩ : BufTy).Contents (Elt F)),
    StableHlo.unary main_v130 main_v131 (broadcastInDim S10x1 ![0] bcast_S10_S10x1_0 : (⟨S10, .f32⟩ : BufTy).Contents (Elt F) → (⟨S10x1, .f32⟩ : BufTy).Contents (Elt F)),
    StableHlo.unary main_v131 main_v132 (broadcastInDim S10x128 ![0, 1] bcast_S10x1_S10x128_0_1 : (⟨S10x1, .f32⟩ : BufTy).Contents (Elt F) → (⟨S10x128, .f32⟩ : BufTy).Contents (Elt F)),
    StableHlo.binary main_v129 main_v132 main_v133 (Host.divf : (⟨S10x128, .f32⟩ : BufTy).Contents (Elt F) → (⟨S10x128, .f32⟩ : BufTy).Contents (Elt F) → (⟨S10x128, .f32⟩ : BufTy).Contents (Elt F)),
    StableHlo.nullary main_cst_32 (constant S_ .f32 0xFF800000#32),
    StableHlo.binary main_v133 main_cst_32 main_v134 ((fun x v => Host.reduce FloatOps.maximumf x v reducesTo_S10x128_S10_d1 h_S_) : (⟨S10x128, .f32⟩ : BufTy).Contents (Elt F) → (⟨S_, .f32⟩ : BufTy).Contents (Elt F) → (⟨S10, .f32⟩ : BufTy).Contents (Elt F)),
    StableHlo.unary main_v134 main_v135 (broadcastInDim S10x1 ![0] bcast_S10_S10x1_0 : (⟨S10, .f32⟩ : BufTy).Contents (Elt F) → (⟨S10x1, .f32⟩ : BufTy).Contents (Elt F)),
    StableHlo.unary main_v135 main_v136 (broadcastInDim S10x128 ![0, 1] bcast_S10x1_S10x128_0_1 : (⟨S10x1, .f32⟩ : BufTy).Contents (Elt F) → (⟨S10x128, .f32⟩ : BufTy).Contents (Elt F)),
    StableHlo.binary main_v133 main_v136 main_v137 (Host.divf : (⟨S10x128, .f32⟩ : BufTy).Contents (Elt F) → (⟨S10x128, .f32⟩ : BufTy).Contents (Elt F) → (⟨S10x128, .f32⟩ : BufTy).Contents (Elt F)),
    StableHlo.unary main_v118 main_v138 (broadcastInDim S1x50000x128 ![1, 2] bcast_S50000x128_S1x50000x128_1_2 : (⟨S50000x128, .f32⟩ : BufTy).Contents (Elt F) → (⟨S1x50000x128, .f32⟩ : BufTy).Contents (Elt F)),
    StableHlo.unary main_v137 main_v139 (broadcastInDim S10x1x128 ![0, 2] bcast_S10x128_S10x1x128_0_2 : (⟨S10x128, .f32⟩ : BufTy).Contents (Elt F) → (⟨S10x1x128, .f32⟩ : BufTy).Contents (Elt F)),
    StableHlo.unary main_v138 main_v140 (broadcastInDim S10x50000x128 ![0, 1, 2] bcast_S1x50000x128_S10x50000x128_0_1_2 : (⟨S1x50000x128, .f32⟩ : BufTy).Contents (Elt F) → (⟨S10x50000x128, .f32⟩ : BufTy).Contents (Elt F)),
    StableHlo.unary main_v139 main_v141 (broadcastInDim S10x50000x128 ![0, 1, 2] bcast_S10x1x128_S10x50000x128_0_1_2 : (⟨S10x1x128, .f32⟩ : BufTy).Contents (Elt F) → (⟨S10x50000x128, .f32⟩ : BufTy).Contents (Elt F)),
    StableHlo.binary main_v140 main_v141 main_v142 (mulf : (⟨S10x50000x128, .f32⟩ : BufTy).Contents (Elt F) → (⟨S10x50000x128, .f32⟩ : BufTy).Contents (Elt F) → (⟨S10x50000x128, .f32⟩ : BufTy).Contents (Elt F)),
    StableHlo.binary main_v142 main_arg10 main_v143 ((fun l r => Host.dotGeneral dot_S10x50000x128_S10x1x128_S10x50000x1_2_2_1_1_0_0 none l r) : (⟨S10x50000x128, .f32⟩ : BufTy).Contents (Elt F) → (⟨S10x1x128, .f32⟩ : BufTy).Contents (Elt F) → (⟨S10x50000x1, .f32⟩ : BufTy).Contents (Elt F)),
    StableHlo.unary main_arg11 main_v144 (broadcastInDim S10x50000x1 ![0, 1, 2] bcast_S10x1x1_S10x50000x1_0_1_2 : (⟨S10x1x1, .f32⟩ : BufTy).Contents (Elt F) → (⟨S10x50000x1, .f32⟩ : BufTy).Contents (Elt F)) ]

/-- The window is the straight line of these operations: each callee's definition unfolds at its call and the
    record at its fields, and sequencing re-associates by computation. -/
theorem part2_eq (c : Dev nD) : main_part2 (F := F) c = seq ops2 := rfl

/-- Each operation touches TensorCore buffers only. -/
theorem ops2_sub : (ops2 : List (HloOp τ sig (Elt F))).Forall fun op => op.bufs ⊆ tcRefs τ sig :=
  ⟨nullary_bufs_sub .., unary_bufs_sub .., unary_bufs_sub .., ternary_bufs_sub .., unary_bufs_sub .., unary_bufs_sub ..,
    binary_bufs_sub .., nullary_bufs_sub .., nullary_bufs_sub .., unary_bufs_sub .., binary_bufs_sub .., unary_bufs_sub ..,
    unary_bufs_sub .., binary_bufs_sub .., ternary_bufs_sub .., nullary_bufs_sub .., binary_bufs_sub .., nullary_bufs_sub ..,
    unary_bufs_sub .., binary_bufs_sub .., unary_bufs_sub .., unary_bufs_sub .., binary_bufs_sub .., unary_bufs_sub ..,
    nullary_bufs_sub .., binary_bufs_sub .., unary_bufs_sub .., unary_bufs_sub .., binary_bufs_sub .., nullary_bufs_sub ..,
    binary_bufs_sub .., unary_bufs_sub .., unary_bufs_sub .., binary_bufs_sub .., unary_bufs_sub .., nullary_bufs_sub ..,
    binary_bufs_sub .., nullary_bufs_sub .., unary_bufs_sub .., binary_bufs_sub .., nullary_bufs_sub .., binary_bufs_sub ..,
    nullary_bufs_sub .., unary_bufs_sub .., binary_bufs_sub .., unary_bufs_sub .., unary_bufs_sub .., binary_bufs_sub ..,
    unary_bufs_sub .., nullary_bufs_sub .., binary_bufs_sub .., unary_bufs_sub .., unary_bufs_sub .., binary_bufs_sub ..,
    nullary_bufs_sub .., binary_bufs_sub .., unary_bufs_sub .., unary_bufs_sub .., binary_bufs_sub .., unary_bufs_sub ..,
    unary_bufs_sub .., unary_bufs_sub .., unary_bufs_sub .., binary_bufs_sub .., binary_bufs_sub .., unary_bufs_sub ..⟩

/-- Each operation determines its result: none allocates. -/
theorem ops2_fresh : ∀ op ∈ (ops2 : List (HloOp τ sig (Elt F))), op.fresh = ∅ := by
  intro _ h; (repeat (cases h with | head => rfl | tail _ h => ?_)); exact nomatch h

end Cert.ReferenceIdeal.RefRun

end
-- ==== Proof.RefArgs2.lean ====
/-
  No operation of statements 121 … 180 of the reference's @main writes an argument of @main: each
  operation writes exactly its result buffer, and every result buffer is a reference other than the twelve
  argument references. So the contents of an argument buffer after these operations, from any contents,
  are what they were.
-/
import proofs.«170301_j10299331576451_2_alg».proof.Proof.RefOps2

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem ops2_arg0 (V : Valuation τ sig (Elt F)) :
    after ops2 V (Proc.devRef .tc main_arg0) = V (Proc.devRef .tc main_arg0) :=
  after_of_forall_not_mem (b := Proc.devRef .tc main_arg0) _ _ (List.forall_iff_forall_mem.mp (by
    simp only [List.Forall, nullary_writes, unary_writes, binary_writes, ternary_writes, reshape_writes, Finset.mem_singleton]
    repeat' apply And.intro
    all_goals exact devRef_ne_of_ne (by decide)))

theorem ops2_arg1 (V : Valuation τ sig (Elt F)) :
    after ops2 V (Proc.devRef .tc main_arg1) = V (Proc.devRef .tc main_arg1) :=
  after_of_forall_not_mem (b := Proc.devRef .tc main_arg1) _ _ (List.forall_iff_forall_mem.mp (by
    simp only [List.Forall, nullary_writes, unary_writes, binary_writes, ternary_writes, reshape_writes, Finset.mem_singleton]
    repeat' apply And.intro
    all_goals exact devRef_ne_of_ne (by decide)))

theorem ops2_arg2 (V : Valuation τ sig (Elt F)) :
    after ops2 V (Proc.devRef .tc main_arg2) = V (Proc.devRef .tc main_arg2) :=
  after_of_forall_not_mem (b := Proc.devRef .tc main_arg2) _ _ (List.forall_iff_forall_mem.mp (by
    simp only [List.Forall, nullary_writes, unary_writes, binary_writes, ternary_writes, reshape_writes, Finset.mem_singleton]
    repeat' apply And.intro
    all_goals exact devRef_ne_of_ne (by decide)))

theorem ops2_arg3 (V : Valuation τ sig (Elt F)) :
    after ops2 V (Proc.devRef .tc main_arg3) = V (Proc.devRef .tc main_arg3) :=
  after_of_forall_not_mem (b := Proc.devRef .tc main_arg3) _ _ (List.forall_iff_forall_mem.mp (by
    simp only [List.Forall, nullary_writes, unary_writes, binary_writes, ternary_writes, reshape_writes, Finset.mem_singleton]
    repeat' apply And.intro
    all_goals exact devRef_ne_of_ne (by decide)))

theorem ops2_arg4 (V : Valuation τ sig (Elt F)) :
    after ops2 V (Proc.devRef .tc main_arg4) = V (Proc.devRef .tc main_arg4) :=
  after_of_forall_not_mem (b := Proc.devRef .tc main_arg4) _ _ (List.forall_iff_forall_mem.mp (by
    simp only [List.Forall, nullary_writes, unary_writes, binary_writes, ternary_writes, reshape_writes, Finset.mem_singleton]
    repeat' apply And.intro
    all_goals exact devRef_ne_of_ne (by decide)))

theorem ops2_arg5 (V : Valuation τ sig (Elt F)) :
    after ops2 V (Proc.devRef .tc main_arg5) = V (Proc.devRef .tc main_arg5) :=
  after_of_forall_not_mem (b := Proc.devRef .tc main_arg5) _ _ (List.forall_iff_forall_mem.mp (by
    simp only [List.Forall, nullary_writes, unary_writes, binary_writes, ternary_writes, reshape_writes, Finset.mem_singleton]
    repeat' apply And.intro
    all_goals exact devRef_ne_of_ne (by decide)))

theorem ops2_arg6 (V : Valuation τ sig (Elt F)) :
    after ops2 V (Proc.devRef .tc main_arg6) = V (Proc.devRef .tc main_arg6) :=
  after_of_forall_not_mem (b := Proc.devRef .tc main_arg6) _ _ (List.forall_iff_forall_mem.mp (by
    simp only [List.Forall, nullary_writes, unary_writes, binary_writes, ternary_writes, reshape_writes, Finset.mem_singleton]
    repeat' apply And.intro
    all_goals exact devRef_ne_of_ne (by decide)))

theorem ops2_arg7 (V : Valuation τ sig (Elt F)) :
    after ops2 V (Proc.devRef .tc main_arg7) = V (Proc.devRef .tc main_arg7) :=
  after_of_forall_not_mem (b := Proc.devRef .tc main_arg7) _ _ (List.forall_iff_forall_mem.mp (by
    simp only [List.Forall, nullary_writes, unary_writes, binary_writes, ternary_writes, reshape_writes, Finset.mem_singleton]
    repeat' apply And.intro
    all_goals exact devRef_ne_of_ne (by decide)))

theorem ops2_arg8 (V : Valuation τ sig (Elt F)) :
    after ops2 V (Proc.devRef .tc main_arg8) = V (Proc.devRef .tc main_arg8) :=
  after_of_forall_not_mem (b := Proc.devRef .tc main_arg8) _ _ (List.forall_iff_forall_mem.mp (by
    simp only [List.Forall, nullary_writes, unary_writes, binary_writes, ternary_writes, reshape_writes, Finset.mem_singleton]
    repeat' apply And.intro
    all_goals exact devRef_ne_of_ne (by decide)))

theorem ops2_arg9 (V : Valuation τ sig (Elt F)) :
    after ops2 V (Proc.devRef .tc main_arg9) = V (Proc.devRef .tc main_arg9) :=
  after_of_forall_not_mem (b := Proc.devRef .tc main_arg9) _ _ (List.forall_iff_forall_mem.mp (by
    simp only [List.Forall, nullary_writes, unary_writes, binary_writes, ternary_writes, reshape_writes, Finset.mem_singleton]
    repeat' apply And.intro
    all_goals exact devRef_ne_of_ne (by decide)))

theorem ops2_arg10 (V : Valuation τ sig (Elt F)) :
    after ops2 V (Proc.devRef .tc main_arg10) = V (Proc.devRef .tc main_arg10) :=
  after_of_forall_not_mem (b := Proc.devRef .tc main_arg10) _ _ (List.forall_iff_forall_mem.mp (by
    simp only [List.Forall, nullary_writes, unary_writes, binary_writes, ternary_writes, reshape_writes, Finset.mem_singleton]
    repeat' apply And.intro
    all_goals exact devRef_ne_of_ne (by decide)))

theorem ops2_arg11 (V : Valuation τ sig (Elt F)) :
    after ops2 V (Proc.devRef .tc main_arg11) = V (Proc.devRef .tc main_arg11) :=
  after_of_forall_not_mem (b := Proc.devRef .tc main_arg11) _ _ (List.forall_iff_forall_mem.mp (by
    simp only [List.Forall, nullary_writes, unary_writes, binary_writes, ternary_writes, reshape_writes, Finset.mem_singleton]
    repeat' apply And.intro
    all_goals exact devRef_ne_of_ne (by decide)))

end Cert.ReferenceIdeal.RefRun

end
-- ==== Proof.RefOps3.lean ====
/-
  Statements 181 … 185 of the reference's @main as one list of host operations, in the order the
  program runs them. A statement that is an operation contributes that operation; the call of @log_softmax (its fifteen operations over the record main_call5)
  contributes the callee's operations in the callee's order, its arguments the caller's values and its
  results the record's buffers. The window of @main is the straight line of this list; every operation
  touches TensorCore buffers only and determines its result.
-/
import proofs.«170301_j10299331576451_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 18 operations of statements 181 … 185, in order. -/
abbrev ops3 : List (HloOp τ sig (Elt F)) :=
  [ StableHlo.binary main_v143 main_v144 main_v145 (addf : (⟨S10x50000x1, .f32⟩ : BufTy).Contents (Elt F) → (⟨S10x50000x1, .f32⟩ : BufTy).Contents (Elt F) → (⟨S10x50000x1, .f32⟩ : BufTy).Contents (Elt F)),
    StableHlo.unary main_v145 main_v146 ((transpose S50000x10x1 [1, 0, 2] · transposes_S10x50000x1_S50000x10x1_1_0_2) : (⟨S10x50000x1, .f32⟩ : BufTy).Contents (Elt F) → (⟨S50000x10x1, .f32⟩ : BufTy).Contents (Elt F)),
    StableHlo.TRef.nullary main_call5.cst (constant S_ .f32 0xFF800000#32),
    StableHlo.TRef.binary (.of main_v146 : StableHlo.TRef sig ⟨S50000x10x1, .f32⟩) main_call5.cst main_call5.v0 (fun x v => Host.reduce FloatOps.maximumf x v reducesTo_S50000x10x1_S10x1_d0 h_S_),
    StableHlo.TRef.nullary main_call5.cst_0 (constant S_ .f32 0xFF800000#32),
    StableHlo.TRef.unary main_call5.cst_0 main_call5.v1 (broadcastInDim S10x1 ![] bcast_S_S10x1),
    StableHlo.TRef.binary main_call5.v1 main_call5.v0 main_call5.v2 maximumf,
    StableHlo.TRef.unary main_call5.v2 main_call5.v3 (broadcastInDim S1x10x1 ![1, 2] bcast_S10x1_S1x10x1_1_2),
    StableHlo.TRef.unary main_call5.v3 main_call5.v4 (broadcastInDim S50000x10x1 ![0, 1, 2] bcast_S1x10x1_S50000x10x1_0_1_2),
    StableHlo.TRef.binary (.of main_v146 : StableHlo.TRef sig ⟨S50000x10x1, .f32⟩) main_call5.v4 main_call5.v5 subf,
    StableHlo.TRef.unary main_call5.v5 main_call5.v6 Host.exp,
    StableHlo.TRef.nullary main_call5.cst_1 (constant S_ .f32 0x00000000#32),
    StableHlo.TRef.binary main_call5.v6 main_call5.cst_1 main_call5.v7 (fun x v => Host.reduceAdd x v reducesTo_S50000x10x1_S10x1_d0 h_S_),
    StableHlo.TRef.unary main_call5.v7 main_call5.v8 (broadcastInDim S1x10x1 ![1, 2] bcast_S10x1_S1x10x1_1_2),
    StableHlo.TRef.unary main_call5.v8 main_call5.v9 Host.log,
    StableHlo.TRef.unary main_call5.v9 main_call5.v10 (broadcastInDim S50000x10x1 ![0, 1, 2] bcast_S1x10x1_S50000x10x1_0_1_2),
    StableHlo.TRef.binary main_call5.v5 main_call5.v10 main_call5.v11 subf,
    StableHlo.reshape main_v147 main_v148 rfl shapeCasts_S50000x10x1_S50000x10 ]

/-- The window is the straight line of these operations: the callee's definition unfolds at its call and the
    record at its fields, and sequencing re-associates by computation. -/
theorem part3_eq (c : Dev nD) : main_part3 (F := F) c = seq ops3 := rfl

/-- Each operation touches TensorCore buffers only. -/
theorem ops3_sub : (ops3 : List (HloOp τ sig (Elt F))).Forall fun op => op.bufs ⊆ tcRefs τ sig :=
  ⟨binary_bufs_sub .., unary_bufs_sub .., nullary_bufs_sub .., binary_bufs_sub .., nullary_bufs_sub .., unary_bufs_sub ..,
    binary_bufs_sub .., unary_bufs_sub .., unary_bufs_sub .., binary_bufs_sub .., unary_bufs_sub .., nullary_bufs_sub ..,
    binary_bufs_sub .., unary_bufs_sub .., unary_bufs_sub .., unary_bufs_sub .., binary_bufs_sub .., reshape_bufs_sub ..⟩

/-- Each operation determines its result: none allocates. -/
theorem ops3_fresh : ∀ op ∈ (ops3 : List (HloOp τ sig (Elt F))), op.fresh = ∅ := by
  intro _ h; (repeat (cases h with | head => rfl | tail _ h => ?_)); exact nomatch h

end Cert.ReferenceIdeal.RefRun

end
-- ==== Proof.RefArgs3.lean ====
/-
  No operation of statements 181 … 185 of the reference's @main writes an argument of @main: each
  operation writes exactly its result buffer, and every result buffer is a reference other than the twelve
  argument references. So the contents of an argument buffer after these operations, from any contents,
  are what they were.
-/
import proofs.«170301_j10299331576451_2_alg».proof.Proof.RefOps3

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem ops3_arg0 (V : Valuation τ sig (Elt F)) :
    after ops3 V (Proc.devRef .tc main_arg0) = V (Proc.devRef .tc main_arg0) :=
  after_of_forall_not_mem (b := Proc.devRef .tc main_arg0) _ _ (List.forall_iff_forall_mem.mp (by
    simp only [List.Forall, nullary_writes, unary_writes, binary_writes, ternary_writes, reshape_writes, Finset.mem_singleton]
    repeat' apply And.intro
    all_goals exact devRef_ne_of_ne (by decide)))

theorem ops3_arg1 (V : Valuation τ sig (Elt F)) :
    after ops3 V (Proc.devRef .tc main_arg1) = V (Proc.devRef .tc main_arg1) :=
  after_of_forall_not_mem (b := Proc.devRef .tc main_arg1) _ _ (List.forall_iff_forall_mem.mp (by
    simp only [List.Forall, nullary_writes, unary_writes, binary_writes, ternary_writes, reshape_writes, Finset.mem_singleton]
    repeat' apply And.intro
    all_goals exact devRef_ne_of_ne (by decide)))

theorem ops3_arg2 (V : Valuation τ sig (Elt F)) :
    after ops3 V (Proc.devRef .tc main_arg2) = V (Proc.devRef .tc main_arg2) :=
  after_of_forall_not_mem (b := Proc.devRef .tc main_arg2) _ _ (List.forall_iff_forall_mem.mp (by
    simp only [List.Forall, nullary_writes, unary_writes, binary_writes, ternary_writes, reshape_writes, Finset.mem_singleton]
    repeat' apply And.intro
    all_goals exact devRef_ne_of_ne (by decide)))

theorem ops3_arg3 (V : Valuation τ sig (Elt F)) :
    after ops3 V (Proc.devRef .tc main_arg3) = V (Proc.devRef .tc main_arg3) :=
  after_of_forall_not_mem (b := Proc.devRef .tc main_arg3) _ _ (List.forall_iff_forall_mem.mp (by
    simp only [List.Forall, nullary_writes, unary_writes, binary_writes, ternary_writes, reshape_writes, Finset.mem_singleton]
    repeat' apply And.intro
    all_goals exact devRef_ne_of_ne (by decide)))

theorem ops3_arg4 (V : Valuation τ sig (Elt F)) :
    after ops3 V (Proc.devRef .tc main_arg4) = V (Proc.devRef .tc main_arg4) :=
  after_of_forall_not_mem (b := Proc.devRef .tc main_arg4) _ _ (List.forall_iff_forall_mem.mp (by
    simp only [List.Forall, nullary_writes, unary_writes, binary_writes, ternary_writes, reshape_writes, Finset.mem_singleton]
    repeat' apply And.intro
    all_goals exact devRef_ne_of_ne (by decide)))

theorem ops3_arg5 (V : Valuation τ sig (Elt F)) :
    after ops3 V (Proc.devRef .tc main_arg5) = V (Proc.devRef .tc main_arg5) :=
  after_of_forall_not_mem (b := Proc.devRef .tc main_arg5) _ _ (List.forall_iff_forall_mem.mp (by
    simp only [List.Forall, nullary_writes, unary_writes, binary_writes, ternary_writes, reshape_writes, Finset.mem_singleton]
    repeat' apply And.intro
    all_goals exact devRef_ne_of_ne (by decide)))

theorem ops3_arg6 (V : Valuation τ sig (Elt F)) :
    after ops3 V (Proc.devRef .tc main_arg6) = V (Proc.devRef .tc main_arg6) :=
  after_of_forall_not_mem (b := Proc.devRef .tc main_arg6) _ _ (List.forall_iff_forall_mem.mp (by
    simp only [List.Forall, nullary_writes, unary_writes, binary_writes, ternary_writes, reshape_writes, Finset.mem_singleton]
    repeat' apply And.intro
    all_goals exact devRef_ne_of_ne (by decide)))

theorem ops3_arg7 (V : Valuation τ sig (Elt F)) :
    after ops3 V (Proc.devRef .tc main_arg7) = V (Proc.devRef .tc main_arg7) :=
  after_of_forall_not_mem (b := Proc.devRef .tc main_arg7) _ _ (List.forall_iff_forall_mem.mp (by
    simp only [List.Forall, nullary_writes, unary_writes, binary_writes, ternary_writes, reshape_writes, Finset.mem_singleton]
    repeat' apply And.intro
    all_goals exact devRef_ne_of_ne (by decide)))

theorem ops3_arg8 (V : Valuation τ sig (Elt F)) :
    after ops3 V (Proc.devRef .tc main_arg8) = V (Proc.devRef .tc main_arg8) :=
  after_of_forall_not_mem (b := Proc.devRef .tc main_arg8) _ _ (List.forall_iff_forall_mem.mp (by
    simp only [List.Forall, nullary_writes, unary_writes, binary_writes, ternary_writes, reshape_writes, Finset.mem_singleton]
    repeat' apply And.intro
    all_goals exact devRef_ne_of_ne (by decide)))

theorem ops3_arg9 (V : Valuation τ sig (Elt F)) :
    after ops3 V (Proc.devRef .tc main_arg9) = V (Proc.devRef .tc main_arg9) :=
  after_of_forall_not_mem (b := Proc.devRef .tc main_arg9) _ _ (List.forall_iff_forall_mem.mp (by
    simp only [List.Forall, nullary_writes, unary_writes, binary_writes, ternary_writes, reshape_writes, Finset.mem_singleton]
    repeat' apply And.intro
    all_goals exact devRef_ne_of_ne (by decide)))

theorem ops3_arg10 (V : Valuation τ sig (Elt F)) :
    after ops3 V (Proc.devRef .tc main_arg10) = V (Proc.devRef .tc main_arg10) :=
  after_of_forall_not_mem (b := Proc.devRef .tc main_arg10) _ _ (List.forall_iff_forall_mem.mp (by
    simp only [List.Forall, nullary_writes, unary_writes, binary_writes, ternary_writes, reshape_writes, Finset.mem_singleton]
    repeat' apply And.intro
    all_goals exact devRef_ne_of_ne (by decide)))

theorem ops3_arg11 (V : Valuation τ sig (Elt F)) :
    after ops3 V (Proc.devRef .tc main_arg11) = V (Proc.devRef .tc main_arg11) :=
  after_of_forall_not_mem (b := Proc.devRef .tc main_arg11) _ _ (List.forall_iff_forall_mem.mp (by
    simp only [List.Forall, nullary_writes, unary_writes, binary_writes, ternary_writes, reshape_writes, Finset.mem_singleton]
    repeat' apply And.intro
    all_goals exact devRef_ne_of_ne (by decide)))

end Cert.ReferenceIdeal.RefRun

end
-- ==== Proof.RefRun.lean ====
/-
  The run of the reference's @main. @main is its four windows of statements in order; each window is the
  straight line of its list of host operations, so @main is the straight line of the four lists in a row,
  224 operations, the calls of the module-local functions unfolded at their sites. A straight line of
  operations that touch TensorCore buffers only and allocate nothing runs, on every device and from any
  memory with zero counters, to the state whose every TensorCore buffer holds the fold of the operations'
  results over the launch contents. No operation writes an argument of @main, so the fold at an argument
  buffer is the launch contents there: the arguments end unchanged.
-/
import proofs.«170301_j10299331576451_2_alg».proof.Proof.RefArgs0
import proofs.«170301_j10299331576451_2_alg».proof.Proof.RefArgs1
import proofs.«170301_j10299331576451_2_alg».proof.Proof.RefArgs2
import proofs.«170301_j10299331576451_2_alg».proof.Proof.RefArgs3
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 224 operations, in order: the four windows' lists in a row. -/
abbrev ops : List (HloOp τ sig (Elt F)) := ops0 ++ (ops1 ++ (ops2 ++ ops3))

/-- @main is the straight line of its operations: the four windows in order, each the line of its list, and lines in
    a row are the line of the lists in a row. -/
theorem main_eq (c : Dev nD) : main (F := F) c = seq ops := by
  show (main_part0 (F := F) c >>= fun _ => main_part1 (F := F) c >>= fun _ => main_part2 (F := F) c >>= fun _ =>
      main_part3 (F := F) c) = seq (ops0 ++ (ops1 ++ (ops2 ++ ops3)))
  rw [seq_append, seq_append, seq_append, part0_eq, part1_eq, part2_eq, part3_eq]

/-- The signature scopes no TensorCore buffer and no semaphore: the program has no kernel. -/
theorem scopedRefs_eq : (Finset.univ.filter fun b : Ref sig .tc => b.isScoped) = ∅ := by decide
theorem scopedSems_eq : (Finset.univ.filter fun sm : SemLoc sig => sm.isScoped .tc) = ∅ := by decide

/-- Each operation touches TensorCore buffers only: window by window. -/
theorem ops_sub : (ops : List (HloOp τ sig (Elt F))).Forall fun op => op.bufs ⊆ tcRefs τ sig :=
  List.forall_iff_forall_mem.2 fun op h => by
    rcases List.mem_append.1 h with h | h
    · exact List.forall_iff_forall_mem.1 ops0_sub op h
    rcases List.mem_append.1 h with h | h
    · exact List.forall_iff_forall_mem.1 ops1_sub op h
    rcases List.mem_append.1 h with h | h
    · exact List.forall_iff_forall_mem.1 ops2_sub op h
    · exact List.forall_iff_forall_mem.1 ops3_sub op h

/-- Each operation determines its result: window by window. -/
theorem ops_fresh : ∀ op ∈ (ops : List (HloOp τ sig (Elt F))), op.fresh = ∅ := fun op h => by
  rcases List.mem_append.1 h with h | h
  · exact ops0_fresh op h
  rcases List.mem_append.1 h with h | h
  · exact ops1_fresh op h
  rcases List.mem_append.1 h with h | h
  · exact ops2_fresh op h
  · exact ops3_fresh op h

/-- On every device, for any float values, from any memory with zero counters: every weakly fair execution of @main
    terminates, and every final state has each TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-! ## The arguments

The fold over the four lists in a row is the four folds in turn, and each leaves an argument buffer as it found it. -/

theorem arg0_eq (V : Valuation τ sig (Elt F)) :
    after ops V (main_arg0 : DevRef τ sig) = V (main_arg0 : DevRef τ sig) := by
  rw [StableHlo.after_append, StableHlo.after_append, StableHlo.after_append, ops3_arg0, ops2_arg0, ops1_arg0, ops0_arg0]

theorem arg1_eq (V : Valuation τ sig (Elt F)) :
    after ops V (main_arg1 : DevRef τ sig) = V (main_arg1 : DevRef τ sig) := by
  rw [StableHlo.after_append, StableHlo.after_append, StableHlo.after_append, ops3_arg1, ops2_arg1, ops1_arg1, ops0_arg1]

theorem arg2_eq (V : Valuation τ sig (Elt F)) :
    after ops V (main_arg2 : DevRef τ sig) = V (main_arg2 : DevRef τ sig) := by
  rw [StableHlo.after_append, StableHlo.after_append, StableHlo.after_append, ops3_arg2, ops2_arg2, ops1_arg2, ops0_arg2]

theorem arg3_eq (V : Valuation τ sig (Elt F)) :
    after ops V (main_arg3 : DevRef τ sig) = V (main_arg3 : DevRef τ sig) := by
  rw [StableHlo.after_append, StableHlo.after_append, StableHlo.after_append, ops3_arg3, ops2_arg3, ops1_arg3, ops0_arg3]

theorem arg4_eq (V : Valuation τ sig (Elt F)) :
    after ops V (main_arg4 : DevRef τ sig) = V (main_arg4 : DevRef τ sig) := by
  rw [StableHlo.after_append, StableHlo.after_append, StableHlo.after_append, ops3_arg4, ops2_arg4, ops1_arg4, ops0_arg4]

theorem arg5_eq (V : Valuation τ sig (Elt F)) :
    after ops V (main_arg5 : DevRef τ sig) = V (main_arg5 : DevRef τ sig) := by
  rw [StableHlo.after_append, StableHlo.after_append, StableHlo.after_append, ops3_arg5, ops2_arg5, ops1_arg5, ops0_arg5]

theorem arg6_eq (V : Valuation τ sig (Elt F)) :
    after ops V (main_arg6 : DevRef τ sig) = V (main_arg6 : DevRef τ sig) := by
  rw [StableHlo.after_append, StableHlo.after_append, StableHlo.after_append, ops3_arg6, ops2_arg6, ops1_arg6, ops0_arg6]

theorem arg7_eq (V : Valuation τ sig (Elt F)) :
    after ops V (main_arg7 : DevRef τ sig) = V (main_arg7 : DevRef τ sig) := by
  rw [StableHlo.after_append, StableHlo.after_append, StableHlo.after_append, ops3_arg7, ops2_arg7, ops1_arg7, ops0_arg7]

theorem arg8_eq (V : Valuation τ sig (Elt F)) :
    after ops V (main_arg8 : DevRef τ sig) = V (main_arg8 : DevRef τ sig) := by
  rw [StableHlo.after_append, StableHlo.after_append, StableHlo.after_append, ops3_arg8, ops2_arg8, ops1_arg8, ops0_arg8]

theorem arg9_eq (V : Valuation τ sig (Elt F)) :
    after ops V (main_arg9 : DevRef τ sig) = V (main_arg9 : DevRef τ sig) := by
  rw [StableHlo.after_append, StableHlo.after_append, StableHlo.after_append, ops3_arg9, ops2_arg9, ops1_arg9, ops0_arg9]

theorem arg10_eq (V : Valuation τ sig (Elt F)) :
    after ops V (main_arg10 : DevRef τ sig) = V (main_arg10 : DevRef τ sig) := by
  rw [StableHlo.after_append, StableHlo.after_append, StableHlo.after_append, ops3_arg10, ops2_arg10, ops1_arg10, ops0_arg10]

theorem arg11_eq (V : Valuation τ sig (Elt F)) :
    after ops V (main_arg11 : DevRef τ sig) = V (main_arg11 : DevRef τ sig) := by
  rw [StableHlo.after_append, StableHlo.after_append, StableHlo.after_append, ops3_arg11, ops2_arg11, ops1_arg11, ops0_arg11]

/-- @main runs and its twelve argument arrays end unchanged. -/
theorem frame_args (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c =>
    ⟨(h c main_arg0).trans (arg0_eq _),
     (h c main_arg1).trans (arg1_eq _),
     (h c main_arg2).trans (arg2_eq _),
     (h c main_arg3).trans (arg3_eq _),
     (h c main_arg4).trans (arg4_eq _),
     (h c main_arg5).trans (arg5_eq _),
     (h c main_arg6).trans (arg6_eq _),
     (h c main_arg7).trans (arg7_eq _),
     (h c main_arg8).trans (arg8_eq _),
     (h c main_arg9).trans (arg9_eq _),
     (h c main_arg10).trans (arg10_eq _),
     (h c main_arg11).trans (arg11_eq _)⟩)
    (run_main m ρ)

end Cert.ReferenceIdeal.RefRun

end
-- ==== Proof.RTerms.lean ====
/-
  The idealized reference program's two results as pure functions of its twelve arguments: its host
  operations composed as the program spells them (the outlined leaky rectifier and log-softmax inline).
-/
import proofs.«170301_j10299331576451_2_alg».proof.ReferenceIdeal
import Idealize.ShloMosaic.PureOps.Ideal

noncomputable section

namespace Cert.ReferenceIdeal.RValue

open Idealize.ShloMosaic Cert.ReferenceIdeal
variable [Cert.ReferenceIdeal.Facts]
open Cert.ReferenceIdeal.Facts₀ Cert.ReferenceIdeal.Facts

/-- The node numbers 0 … 49999: every node's self-loop. -/
def loops : IVec S50000 32 := iotaInDim S50000 32 0

/-- Row r of the edge list (r = 0 the sources, r = 1 the destinations) followed by the self-loops. -/
def ends0 (a1 : IVec S2x800000 32) : IVec S850000 32 :=
  concatenate S850000 0 [⟨S800000, shapeCast S800000 (extractStridedSlice S1x800000 ![0, 0] a1 slices_S2x800000_S1x800000_0_0) shapeCasts_S1x800000_S800000⟩, ⟨S50000, loops⟩] concatenates_S800000_S50000_S850000_d0
def ends1 (a1 : IVec S2x800000 32) : IVec S850000 32 :=
  concatenate S850000 0 [⟨S800000, shapeCast S800000 (extractStridedSlice S1x800000 ![1, 0] a1 slices_S2x800000_S1x800000_1_0) shapeCasts_S1x800000_S800000⟩, ⟨S50000, loops⟩] concatenates_S800000_S50000_S850000_d0

/-- A column of node numbers as an index column [E, 1]. -/
def col (x : IVec S850000 32) : IVec S850000x1 32 := broadcastInDim S850000x1 ![0] bcast_S850000_S850000x1_0 x

/-- A negative node number counted from the end (jnp's index normalisation): x + 50000 where x < 0. -/
def wrap (x : IVec S850000 32) : IVec S850000 32 :=
  select (cmpi .slt x (broadcastInDim S850000 ![] bcast_S_S850000 (constantI S_ 32 0#32)))
    (addi x (broadcastInDim S850000 ![] bcast_S_S850000 (constantI S_ 32 50000#32))) x

/-- Every node's degree: ones added up at the destinations. -/
def deg (a1 : IVec S2x800000 32) : FVec Ideal S50000 .f32 :=
  Host.scatterAdd scatter_S50000_S850000x1_S850000_n_0_0_1
    (broadcastInDim S50000 ![] bcast_S_S50000 (constant S_ .f32 0x00000000#32)) (col (ends1 a1))
    (broadcastInDim S850000 ![] bcast_S_S850000 (constant S_ .f32 0x3F800000#32))

/-- The per-node factor: the reciprocal square root of the degree (at least 1), 0 at a node of degree 0. -/
def dis (a1 : IVec S2x800000 32) : FVec Ideal S50000 .f32 :=
  select (cmpf .ogt (deg a1) (broadcastInDim S50000 ![] bcast_S_S50000 (constant S_ .f32 0x00000000#32)))
    (Host.rsqrt (maximumf (deg a1) (broadcastInDim S50000 ![] bcast_S_S50000 (constant S_ .f32 0x3F800000#32))))
    (broadcastInDim S50000 ![] bcast_S_S50000 (id (constant S_ .f32 0x00000000#32)))

/-- Every edge's weight: the factor at its source times the factor at its destination. -/
def norm (a1 : IVec S2x800000 32) : FVec Ideal S850000 .f32 :=
  mulf (Host.gather gather_S50000_S850000x1_S850000_n_0_n_n_0_1_1 (dis a1) (col (wrap (ends0 a1))))
    (Host.gather gather_S50000_S850000x1_S850000_n_0_n_n_0_1_1 (dis a1) (col (wrap (ends1 a1))))

/-- The edge weights spread over the 128 features of a message. -/
def normRows (a1 : IVec S2x800000 32) : FVec Ideal S850000x128 .f32 :=
  broadcastInDim S850000x128 ![0, 1] bcast_S850000x1_S850000x128_0_1 (broadcastInDim S850000x1 ![0] bcast_S850000_S850000x1_0 (norm a1))

/-- The leaky rectifier as the outlined function spells it. -/
def leakyR (x : FVec Ideal S50000x128 .f32) (sl : FVec Ideal S_ .f32) : FVec Ideal S50000x128 .f32 :=
  select (cmpf .oge x (broadcastInDim S50000x128 ![] bcast_S_S50000x128 (constant S_ .f32 0x00000000#32))) x
    (mulf (broadcastInDim S50000x128 ![] bcast_S_S50000x128 (id sl)) x)

/-- One graph-convolution layer: the dense product, gathered at the sources, weighted per edge, added up at the
    destinations from zero, plus the bias, through the leaky rectifier. -/
def conv (h : FVec Ideal S50000x128 .f32) (a1 : IVec S2x800000 32) (W : FVec Ideal S128x128 .f32) (b : FVec Ideal S128 .f32) :
    FVec Ideal S50000x128 .f32 :=
  addf (Host.scatterAdd scatter_S50000x128_S850000x1_S850000x128_1_0_0_1
      (broadcastInDim S50000x128 ![] bcast_S_S50000x128 (constant S_ .f32 0x00000000#32)) (col (ends1 a1))
      (mulf (Host.gather gather_S50000x128_S850000x1_S850000x128_1_0_n_n_0_1_1128
          (Host.dotGeneral dot_S50000x128_S128x128_S50000x128_1_0_0_1_n_n none h W) (col (wrap (ends0 a1)))) (normRows a1)))
    (broadcastInDim S50000x128 ![0, 1] bcast_S1x128_S50000x128_0_1 (broadcastInDim S1x128 ![1] bcast_S128_S1x128_1 b))
def layer (h : FVec Ideal S50000x128 .f32) (a1 : IVec S2x800000 32) (W : FVec Ideal S128x128 .f32) (b : FVec Ideal S128 .f32) :
    FVec Ideal S50000x128 .f32 :=
  leakyR (conv h a1 W b) (constant S_ .f32 0x3C23D70A#32)

/-- The concepts: the row softmax divided by its own row maximum. -/
def rspread (x : FVec Ideal S50000 .f32) : FVec Ideal S50000x128 .f32 :=
  broadcastInDim S50000x128 ![0, 1] bcast_S50000x1_S50000x128_0_1 (broadcastInDim S50000x1 ![0] bcast_S50000_S50000x1_0 x)
def rmax (h : FVec Ideal S50000x128 .f32) : FVec Ideal S50000 .f32 :=
  maximumf (broadcastInDim S50000 ![] bcast_S_S50000 (constant S_ .f32 0xFF800000#32)) (Host.reduce FloatOps.maximumf h (constant S_ .f32 0xFF800000#32) reducesTo_S50000x128_S50000_d1 h_S_)
def rexp (h : FVec Ideal S50000x128 .f32) : FVec Ideal S50000x128 .f32 := Host.exp (subf h (rspread (rmax h)))
def rsoft (h : FVec Ideal S50000x128 .f32) : FVec Ideal S50000x128 .f32 :=
  Host.divf (rexp h) (rspread (Host.reduceAdd (rexp h) (constant S_ .f32 0x00000000#32) reducesTo_S50000x128_S50000_d1 h_S_))
def concepts (h : FVec Ideal S50000x128 .f32) : FVec Ideal S50000x128 .f32 :=
  Host.divf (rsoft h) (rspread (Host.reduce FloatOps.maximumf (rsoft h) (constant S_ .f32 0xFF800000#32) reducesTo_S50000x128_S50000_d1 h_S_))

/-- The per-class attention over the features: |w| summed over the unit axis, over the temperature, soft-maxed
    along the features and divided by its own maximum. -/
def gam (a10 : FVec Ideal S10x1x128 .f32) : FVec Ideal S10x128 .f32 :=
  Host.divf (Host.reduceAdd (Host.absf a10) (constant S_ .f32 0x00000000#32) reducesTo_S10x1x128_S10x128_d1 h_S_)
    (broadcastInDim S10x128 ![] bcast_S_S10x128 (constant S_ .f32 0x3F19999A#32))
def gmax (g : FVec Ideal S10x128 .f32) : FVec Ideal S10 .f32 :=
  maximumf (broadcastInDim S10 ![] bcast_S_S10 (constant S_ .f32 0xFF800000#32)) (Host.reduce FloatOps.maximumf g (constant S_ .f32 0xFF800000#32) reducesTo_S10x128_S10_d1 h_S_)
def spread (x : FVec Ideal S10 .f32) : FVec Ideal S10x128 .f32 :=
  broadcastInDim S10x128 ![0, 1] bcast_S10x1_S10x128_0_1 (broadcastInDim S10x1 ![0] bcast_S10_S10x1_0 x)
def gexp (g : FVec Ideal S10x128 .f32) : FVec Ideal S10x128 .f32 := Host.exp (subf g (spread (gmax g)))
def gsoft (g : FVec Ideal S10x128 .f32) : FVec Ideal S10x128 .f32 :=
  Host.divf (gexp g) (spread (Host.reduceAdd (gexp g) (constant S_ .f32 0x00000000#32) reducesTo_S10x128_S10_d1 h_S_))
def alphaNorm (a10 : FVec Ideal S10x1x128 .f32) : FVec Ideal S10x128 .f32 :=
  Host.divf (gsoft (gam a10)) (spread (Host.reduce FloatOps.maximumf (gsoft (gam a10)) (constant S_ .f32 0xFF800000#32) reducesTo_S10x128_S10_d1 h_S_))

/-- The class scores as the reference spells them: concepts times attention, contracted with the weights per
    class, plus the class bias, as [50000, 10, 1]. -/
def scores (cpt : FVec Ideal S50000x128 .f32) (a10 : FVec Ideal S10x1x128 .f32) (a11 : FVec Ideal S10x1x1 .f32) : FVec Ideal S50000x10x1 .f32 :=
  transpose S50000x10x1 [1, 0, 2]
    (addf (Host.dotGeneral dot_S10x50000x128_S10x1x128_S10x50000x1_2_2_1_1_0_0 none
        (mulf (broadcastInDim S10x50000x128 ![0, 1, 2] bcast_S1x50000x128_S10x50000x128_0_1_2 (broadcastInDim S1x50000x128 ![1, 2] bcast_S50000x128_S1x50000x128_1_2 cpt))
          (broadcastInDim S10x50000x128 ![0, 1, 2] bcast_S10x1x128_S10x50000x128_0_1_2 (broadcastInDim S10x1x128 ![0, 2] bcast_S10x128_S10x1x128_0_2 (alphaNorm a10))))
        a10)
      (broadcastInDim S10x50000x1 ![0, 1, 2] bcast_S10x1x1_S10x50000x1_0_1_2 a11))
    transposes_S10x50000x1_S50000x10x1_1_0_2

/-- The log-softmax over the NODES (axis 0) of the [50000, 10, 1] scores, as the outlined function spells it. -/
def lmax (x : FVec Ideal S50000x10x1 .f32) : FVec Ideal S10x1 .f32 :=
  maximumf (broadcastInDim S10x1 ![] bcast_S_S10x1 (constant S_ .f32 0xFF800000#32)) (Host.reduce FloatOps.maximumf x (constant S_ .f32 0xFF800000#32) reducesTo_S50000x10x1_S10x1_d0 h_S_)
def lspread (x : FVec Ideal S10x1 .f32) : FVec Ideal S50000x10x1 .f32 :=
  broadcastInDim S50000x10x1 ![0, 1, 2] bcast_S1x10x1_S50000x10x1_0_1_2 (broadcastInDim S1x10x1 ![1, 2] bcast_S10x1_S1x10x1_1_2 x)
def lshift (x : FVec Ideal S50000x10x1 .f32) : FVec Ideal S50000x10x1 .f32 := subf x (lspread (lmax x))
def lsm (x : FVec Ideal S50000x10x1 .f32) : FVec Ideal S50000x10x1 .f32 :=
  subf (lshift x) (broadcastInDim S50000x10x1 ![0, 1, 2] bcast_S1x10x1_S50000x10x1_0_1_2 (Host.log (broadcastInDim S1x10x1 ![1, 2] bcast_S10x1_S1x10x1_1_2
    (Host.reduceAdd (Host.exp (lshift x)) (constant S_ .f32 0x00000000#32) reducesTo_S50000x10x1_S10x1_d0 h_S_))))

/-- The four layers' output. -/
def h4 (a0 : FVec Ideal S50000x128 .f32) (a1 : IVec S2x800000 32) (a2 : FVec Ideal S128x128 .f32) (a3 : FVec Ideal S128 .f32)
    (a4 : FVec Ideal S128x128 .f32) (a5 : FVec Ideal S128 .f32) (a6 : FVec Ideal S128x128 .f32) (a7 : FVec Ideal S128 .f32)
    (a8 : FVec Ideal S128x128 .f32) (a9 : FVec Ideal S128 .f32) : FVec Ideal S50000x128 .f32 :=
  layer (layer (layer (layer a0 a1 a2 a3) a1 a4 a5) a1 a6 a7) a1 a8 a9

/-- The program's first result (main_v118): the concepts. -/
def out0 (a0 : FVec Ideal S50000x128 .f32) (a1 : IVec S2x800000 32) (a2 : FVec Ideal S128x128 .f32) (a3 : FVec Ideal S128 .f32)
    (a4 : FVec Ideal S128x128 .f32) (a5 : FVec Ideal S128 .f32) (a6 : FVec Ideal S128x128 .f32) (a7 : FVec Ideal S128 .f32)
    (a8 : FVec Ideal S128x128 .f32) (a9 : FVec Ideal S128 .f32) : FVec Ideal S50000x128 .f32 :=
  concepts (h4 a0 a1 a2 a3 a4 a5 a6 a7 a8 a9)

/-- The program's second result (main_v148): the log-probabilities over the nodes, as [50000, 10]. -/
def out1 (a0 : FVec Ideal S50000x128 .f32) (a1 : IVec S2x800000 32) (a2 : FVec Ideal S128x128 .f32) (a3 : FVec Ideal S128 .f32)
    (a4 : FVec Ideal S128x128 .f32) (a5 : FVec Ideal S128 .f32) (a6 : FVec Ideal S128x128 .f32) (a7 : FVec Ideal S128 .f32)
    (a8 : FVec Ideal S128x128 .f32) (a9 : FVec Ideal S128 .f32) (a10 : FVec Ideal S10x1x128 .f32) (a11 : FVec Ideal S10x1x1 .f32) :
    FVec Ideal S50000x10 .f32 :=
  shapeCast S50000x10 (lsm (scores (out0 a0 a1 a2 a3 a4 a5 a6 a7 a8 a9) a10 a11)) shapeCasts_S50000x10x1_S50000x10

end Cert.ReferenceIdeal.RValue

end
-- ==== Proof.RefValLib.lean ====
/-
  Shared vocabulary for reading the reference's run window by window. A typed reference of a module-local
  function's body carries contents to its buffer and back along one equality of buffer types and its inverse,
  so the round trip is the identity. One graph-convolution layer is cut where the program's windows cut it:
  the per-edge messages (the dense product gathered at the sources and weighted), their sum at the
  destinations from zero, and the bias spread over the rows; the class scores likewise into the contraction
  with the class weights and the class bias spread over the nodes.
-/
import proofs.«170301_j10299331576451_2_alg».proof.Proof.RTerms
import proofs.«170301_j10299331576451_2_alg».proof.Proof.Gen.ReferenceIdeal
import Idealize.ShloMosaic.Lib.StableHlo.Run

noncomputable section

namespace Cert.ReferenceIdeal.RefVal

open Cert.ReferenceIdeal Cert.ReferenceIdeal.Gen Idealize.ShloMosaic Idealize.ShloMosaic.TcCoe Idealize.SL.Sem Idealize.ShloMosaic.StableHlo

variable {Val : EltTy → Type}

/-- Contents carried to a typed reference's buffer and back are the contents. -/
theorem ofBuf_toBuf {T : BufTy} (x : TRef sig T) (v : T.Contents Val) : x.ofBuf (x.toBuf v) = v := by
  simp only [TRef.ofBuf, TRef.toBuf, cast_cast, cast_eq]

/-- The per-edge messages of a layer: the dense product gathered at the edges' sources, times the edge weights. -/
def msg (h : FVec Ideal S50000x128 .f32) (a1 : IVec S2x800000 32) (Wt : FVec Ideal S128x128 .f32) : FVec Ideal S850000x128 .f32 :=
  mulf (Host.gather gather_S50000x128_S850000x1_S850000x128_1_0_n_n_0_1_1128
      (Host.dotGeneral dot_S50000x128_S128x128_S50000x128_1_0_0_1_n_n none h Wt) (RValue.col (RValue.wrap (RValue.ends0 a1))))
    (RValue.normRows a1)

/-- The messages added up at the edges' destinations, from zero. -/
def agg (h : FVec Ideal S50000x128 .f32) (a1 : IVec S2x800000 32) (Wt : FVec Ideal S128x128 .f32) : FVec Ideal S50000x128 .f32 :=
  Host.scatterAdd scatter_S50000x128_S850000x1_S850000x128_1_0_0_1
    (broadcastInDim S50000x128 ![] bcast_S_S50000x128 (constant S_ .f32 0x00000000#32)) (RValue.col (RValue.ends1 a1)) (msg h a1 Wt)

/-- A bias row spread over the 50000 rows. -/
def bias (b : FVec Ideal S128 .f32) : FVec Ideal S50000x128 .f32 :=
  broadcastInDim S50000x128 ![0, 1] bcast_S1x128_S50000x128_0_1 (broadcastInDim S1x128 ![1] bcast_S128_S1x128_1 b)

/-- A layer before its rectifier is the aggregated messages plus the spread bias. -/
theorem conv_eq (h : FVec Ideal S50000x128 .f32) (a1 : IVec S2x800000 32) (Wt : FVec Ideal S128x128 .f32) (b : FVec Ideal S128 .f32) :
    RValue.conv h a1 Wt b = addf (agg h a1 Wt) (bias b) := rfl

/-- The concepts times the attention, contracted with the class weights: the class scores before the class bias. -/
def scoreDot (cpt : FVec Ideal S50000x128 .f32) (a10 : FVec Ideal S10x1x128 .f32) : FVec Ideal S10x50000x1 .f32 :=
  Host.dotGeneral dot_S10x50000x128_S10x1x128_S10x50000x1_2_2_1_1_0_0 none
    (mulf (broadcastInDim S10x50000x128 ![0, 1, 2] bcast_S1x50000x128_S10x50000x128_0_1_2 (broadcastInDim S1x50000x128 ![1, 2] bcast_S50000x128_S1x50000x128_1_2 cpt))
      (broadcastInDim S10x50000x128 ![0, 1, 2] bcast_S10x1x128_S10x50000x128_0_1_2 (broadcastInDim S10x1x128 ![0, 2] bcast_S10x128_S10x1x128_0_2 (RValue.alphaNorm a10))))
    a10

/-- The class bias spread over the nodes. -/
def scoreBias (a11 : FVec Ideal S10x1x1 .f32) : FVec Ideal S10x50000x1 .f32 :=
  broadcastInDim S10x50000x1 ![0, 1, 2] bcast_S10x1x1_S10x50000x1_0_1_2 a11

/-- The class scores are the transposed sum of the two. -/
theorem scores_eq (cpt : FVec Ideal S50000x128 .f32) (a10 : FVec Ideal S10x1x128 .f32) (a11 : FVec Ideal S10x1x1 .f32) :
    RValue.scores cpt a10 a11
      = transpose S50000x10x1 [1, 0, 2] (addf (scoreDot cpt a10) (scoreBias a11)) transposes_S10x50000x1_S50000x10x1_1_0_2 := rfl

end Cert.ReferenceIdeal.RefVal

end
-- ==== Proof.RefVal0.lean ====
/-
  Statements 1 … 60 of the reference's @main read at the buffers the later statements use, from any contents:
  the two rows of the edge list each followed by the self-loops, the per-edge weights (the reciprocal square
  roots of the degrees at the two ends, multiplied), the first layer's messages added up at the destinations,
  and the first layer's bias spread over the rows — each the composition of the operations that feed it. The
  window is read in two stretches: its first seven operations, which build the two rows of edge ends, and the
  rest, which only reads them; a concatenation's list of pieces is read piece by piece in the first stretch.
-/
import proofs.«170301_j10299331576451_2_alg».proof.Proof.RefValLib
import proofs.«170301_j10299331576451_2_alg».proof.Proof.RefOps0
import Idealize.ShloMosaic.Lib.Pipeline.Frame

noncomputable section

namespace Cert.ReferenceIdeal.RefVal

open Cert.ReferenceIdeal Cert.ReferenceIdeal.Gen Cert.ReferenceIdeal.RefRun Idealize.ShloMosaic Idealize.ShloMosaic.TcCoe Idealize.SL.Sem Idealize.ShloMosaic.StableHlo

/-- The window's operations with each module-local function's operation written at its buffers directly: a typed
    reference of a literal buffer transports contents along an equality that holds by computation, so the two
    lists are the same list. -/
abbrev ops0p {F : FTy → Type} [FloatOps F] : List (HloOp τ sig (Elt F)) :=
  [ StableHlo.nullary main_v0 (iotaInDim S50000 32 0),
    StableHlo.unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v1 main_v2 rfl shapeCasts_S1x800000_S800000,
    StableHlo.binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v4 main_v5 rfl shapeCasts_S1x800000_S800000,
    StableHlo.binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst (constant S_ .f32 0x3F800000#32),
    StableHlo.unary main_cst main_v7 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S850000x1 ![0] bcast_S850000_S850000x1_0 : (⟨S850000, .i32⟩ : BufTy).Contents (Elt F) → (⟨S850000x1, .i32⟩ : BufTy).Contents (Elt F)),
    StableHlo.ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x00000000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v10 main_v11 main_v12 (cmpf .ogt : (⟨S50000, .f32⟩ : BufTy).Contents (Elt F) → (⟨S50000, .f32⟩ : BufTy).Contents (Elt F) → (⟨S50000, .i1⟩ : BufTy).Contents (Elt F)),
    StableHlo.nullary main_cst_2 (constant S_ .f32 0x3F800000#32),
    StableHlo.unary main_cst_2 main_v13 (broadcastInDim S50000 ![] bcast_S_S50000 : (⟨S_, .f32⟩ : BufTy).Contents (Elt F) → (⟨S50000, .f32⟩ : BufTy).Contents (Elt F)),
    StableHlo.binary main_v10 main_v13 main_v14 (maximumf : (⟨S50000, .f32⟩ : BufTy).Contents (Elt F) → (⟨S50000, .f32⟩ : BufTy).Contents (Elt F) → (⟨S50000, .f32⟩ : BufTy).Contents (Elt F)),
    StableHlo.unary main_v14 main_v15 (Host.rsqrt : (⟨S50000, .f32⟩ : BufTy).Contents (Elt F) → (⟨S50000, .f32⟩ : BufTy).Contents (Elt F)),
    StableHlo.nullary main_cst_3 (constant S_ .f32 0x00000000#32),
    StableHlo.unary main_cst_3 main_call0_v0 (id : (⟨S_, .f32⟩ : BufTy).Contents (Elt F) → (⟨S_, .f32⟩ : BufTy).Contents (Elt F)),
    StableHlo.unary main_call0_v0 main_call0_v1 (broadcastInDim S50000 ![] bcast_S_S50000 : (⟨S_, .f32⟩ : BufTy).Contents (Elt F) → (⟨S50000, .f32⟩ : BufTy).Contents (Elt F)),
    StableHlo.ternary main_v12 main_v15 main_call0_v1 main_v16 (select : (⟨S50000, .i1⟩ : BufTy).Contents (Elt F) → (⟨S50000, .f32⟩ : BufTy).Contents (Elt F) → (⟨S50000, .f32⟩ : BufTy).Contents (Elt F) → (⟨S50000, .f32⟩ : BufTy).Contents (Elt F)),
    StableHlo.nullary main_c (constantI S_ 32 0#32),
    StableHlo.unary main_c main_v17 (broadcastInDim S850000 ![] bcast_S_S850000 : (⟨S_, .i32⟩ : BufTy).Contents (Elt F) → (⟨S850000, .i32⟩ : BufTy).Contents (Elt F)),
    StableHlo.binary main_v3 main_v17 main_v18 (cmpi .slt : (⟨S850000, .i32⟩ : BufTy).Contents (Elt F) → (⟨S850000, .i32⟩ : BufTy).Contents (Elt F) → (⟨S850000, .i1⟩ : BufTy).Contents (Elt F)),
    StableHlo.nullary main_c_4 (constantI S_ 32 50000#32),
    StableHlo.unary main_c_4 main_v19 (broadcastInDim S850000 ![] bcast_S_S850000 : (⟨S_, .i32⟩ : BufTy).Contents (Elt F) → (⟨S850000, .i32⟩ : BufTy).Contents (Elt F)),
    StableHlo.binary main_v3 main_v19 main_v20 (addi : (⟨S850000, .i32⟩ : BufTy).Contents (Elt F) → (⟨S850000, .i32⟩ : BufTy).Contents (Elt F) → (⟨S850000, .i32⟩ : BufTy).Contents (Elt F)),
    StableHlo.ternary main_v18 main_v20 main_v3 main_v21 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v21 main_v22 (broadcastInDim S850000x1 ![0] bcast_S850000_S850000x1_0 : (⟨S850000, .i32⟩ : BufTy).Contents (Elt F) → (⟨S850000x1, .i32⟩ : BufTy).Contents (Elt F)),
    StableHlo.binary main_v16 main_v22 main_v23 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_5 (constantI S_ 32 0#32),
    StableHlo.unary main_c_5 main_v24 (broadcastInDim S850000 ![] bcast_S_S850000 : (⟨S_, .i32⟩ : BufTy).Contents (Elt F) → (⟨S850000, .i32⟩ : BufTy).Contents (Elt F)),
    StableHlo.binary main_v6 main_v24 main_v25 (cmpi .slt : (⟨S850000, .i32⟩ : BufTy).Contents (Elt F) → (⟨S850000, .i32⟩ : BufTy).Contents (Elt F) → (⟨S850000, .i1⟩ : BufTy).Contents (Elt F)),
    StableHlo.nullary main_c_6 (constantI S_ 32 50000#32),
    StableHlo.unary main_c_6 main_v26 (broadcastInDim S850000 ![] bcast_S_S850000 : (⟨S_, .i32⟩ : BufTy).Contents (Elt F) → (⟨S850000, .i32⟩ : BufTy).Contents (Elt F)),
    StableHlo.binary main_v6 main_v26 main_v27 (addi : (⟨S850000, .i32⟩ : BufTy).Contents (Elt F) → (⟨S850000, .i32⟩ : BufTy).Contents (Elt F) → (⟨S850000, .i32⟩ : BufTy).Contents (Elt F)),
    StableHlo.ternary main_v25 main_v27 main_v6 main_v28 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v28 main_v29 (broadcastInDim S850000x1 ![0] bcast_S850000_S850000x1_0 : (⟨S850000, .i32⟩ : BufTy).Contents (Elt F) → (⟨S850000x1, .i32⟩ : BufTy).Contents (Elt F)),
    StableHlo.binary main_v16 main_v29 main_v30 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v23 main_v30 main_v31 (mulf : (⟨S850000, .f32⟩ : BufTy).Contents (Elt F) → (⟨S850000, .f32⟩ : BufTy).Contents (Elt F) → (⟨S850000, .f32⟩ : BufTy).Contents (Elt F)),
    StableHlo.binary main_arg0 main_arg2 main_v32 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_7 (constantI S_ 32 0#32),
    StableHlo.unary main_c_7 main_v33 (broadcastInDim S850000 ![] bcast_S_S850000 : (⟨S_, .i32⟩ : BufTy).Contents (Elt F) → (⟨S850000, .i32⟩ : BufTy).Contents (Elt F)),
    StableHlo.binary main_v3 main_v33 main_v34 (cmpi .slt : (⟨S850000, .i32⟩ : BufTy).Contents (Elt F) → (⟨S850000, .i32⟩ : BufTy).Contents (Elt F) → (⟨S850000, .i1⟩ : BufTy).Contents (Elt F)),
    StableHlo.nullary main_c_8 (constantI S_ 32 50000#32),
    StableHlo.unary main_c_8 main_v35 (broadcastInDim S850000 ![] bcast_S_S850000 : (⟨S_, .i32⟩ : BufTy).Contents (Elt F) → (⟨S850000, .i32⟩ : BufTy).Contents (Elt F)),
    StableHlo.binary main_v3 main_v35 main_v36 (addi : (⟨S850000, .i32⟩ : BufTy).Contents (Elt F) → (⟨S850000, .i32⟩ : BufTy).Contents (Elt F) → (⟨S850000, .i32⟩ : BufTy).Contents (Elt F)),
    StableHlo.ternary main_v34 main_v36 main_v3 main_v37 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v37 main_v38 (broadcastInDim S850000x1 ![0] bcast_S850000_S850000x1_0 : (⟨S850000, .i32⟩ : BufTy).Contents (Elt F) → (⟨S850000x1, .i32⟩ : BufTy).Contents (Elt F)),
    StableHlo.binary main_v32 main_v38 main_v39 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v31 main_v40 (broadcastInDim S850000x1 ![0] bcast_S850000_S850000x1_0 : (⟨S850000, .f32⟩ : BufTy).Contents (Elt F) → (⟨S850000x1, .f32⟩ : BufTy).Contents (Elt F)),
    StableHlo.unary main_v40 main_v41 (broadcastInDim S850000x128 ![0, 1] bcast_S850000x1_S850000x128_0_1 : (⟨S850000x1, .f32⟩ : BufTy).Contents (Elt F) → (⟨S850000x128, .f32⟩ : BufTy).Contents (Elt F)),
    StableHlo.binary main_v39 main_v41 main_v42 (mulf : (⟨S850000x128, .f32⟩ : BufTy).Contents (Elt F) → (⟨S850000x128, .f32⟩ : BufTy).Contents (Elt F) → (⟨S850000x128, .f32⟩ : BufTy).Contents (Elt F)),
    StableHlo.nullary main_cst_9 (constant S_ .f32 0x00000000#32),
    StableHlo.unary main_cst_9 main_v43 (broadcastInDim S50000x128 ![] bcast_S_S50000x128 : (⟨S_, .f32⟩ : BufTy).Contents (Elt F) → (⟨S50000x128, .f32⟩ : BufTy).Contents (Elt F)),
    StableHlo.unary main_v6 main_v44 (broadcastInDim S850000x1 ![0] bcast_S850000_S850000x1_0 : (⟨S850000, .i32⟩ : BufTy).Contents (Elt F) → (⟨S850000x1, .i32⟩ : BufTy).Contents (Elt F)),
    StableHlo.ternary main_v43 main_v44 main_v42 main_v45 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_arg3 main_v46 (broadcastInDim S1x128 ![1] bcast_S128_S1x128_1 : (⟨S128, .f32⟩ : BufTy).Contents (Elt F) → (⟨S1x128, .f32⟩ : BufTy).Contents (Elt F)),
    StableHlo.unary main_v46 main_v47 (broadcastInDim S50000x128 ![0, 1] bcast_S1x128_S50000x128_0_1 : (⟨S1x128, .f32⟩ : BufTy).Contents (Elt F) → (⟨S50000x128, .f32⟩ : BufTy).Contents (Elt F)) ]

theorem ops0_eq {F : FTy → Type} [FloatOps F] : (ops0 (F := F)) = ops0p := rfl

/-- The first seven operations: the node numbers and the two rows of the edge list, each followed by the self-loops. -/
abbrev ops0a : List (HloOp τ sig (Elt Ideal)) := (ops0p (F := Ideal)).take 7
/-- The rest of the window. -/
abbrev ops0b : List (HloOp τ sig (Elt Ideal)) := (ops0p (F := Ideal)).drop 7
theorem ops0_split : (ops0 (F := Ideal)) = ops0a ++ ops0b := ops0_eq.trans (List.take_append_drop 7 _).symm

/-! ## The first stretch -/

set_option maxRecDepth 65536 in
set_option maxHeartbeats 4000000 in
/-- The sources followed by the self-loops. -/
theorem a_v3 (V : Valuation τ sig (Elt Ideal)) :
    (after ops0a V (main_v3 : DevRef τ sig) : IVec S850000 32) = RValue.ends0 (V (main_arg1 : DevRef τ sig)) := by
  simp only [ops0a, ops0p, List.take_succ_cons, List.take_zero]
  after_results
  simp only [RValue.ends0, RValue.loops]
  first | done | rfl | fail "the composed term is not the stated one"

set_option maxRecDepth 65536 in
set_option maxHeartbeats 4000000 in
/-- The destinations followed by the self-loops. -/
theorem a_v6 (V : Valuation τ sig (Elt Ideal)) :
    (after ops0a V (main_v6 : DevRef τ sig) : IVec S850000 32) = RValue.ends1 (V (main_arg1 : DevRef τ sig)) := by
  simp only [ops0a, ops0p, List.take_succ_cons, List.take_zero]
  after_results
  simp only [RValue.ends1, RValue.loops]
  first | done | rfl | fail "the composed term is not the stated one"

/-- The first stretch leaves argument 0 as it finds it. -/
theorem a_keep_arg0 (W : Valuation τ sig (Elt Ideal)) : after ops0a W (Proc.devRef .tc main_arg0) = W (Proc.devRef .tc main_arg0) :=
  after_of_forall_not_mem (b := Proc.devRef .tc main_arg0) _ _ (List.forall_iff_forall_mem.mp (by
    simp only [ops0a, ops0p, List.take_succ_cons, List.take_zero, List.Forall, nullary_writes, unary_writes, binary_writes, ternary_writes, reshape_writes, Finset.mem_singleton]
    repeat' apply And.intro
    all_goals exact devRef_ne_of_ne (by decide)))

/-- The first stretch leaves argument 2 as it finds it. -/
theorem a_keep_arg2 (W : Valuation τ sig (Elt Ideal)) : after ops0a W (Proc.devRef .tc main_arg2) = W (Proc.devRef .tc main_arg2) :=
  after_of_forall_not_mem (b := Proc.devRef .tc main_arg2) _ _ (List.forall_iff_forall_mem.mp (by
    simp only [ops0a, ops0p, List.take_succ_cons, List.take_zero, List.Forall, nullary_writes, unary_writes, binary_writes, ternary_writes, reshape_writes, Finset.mem_singleton]
    repeat' apply And.intro
    all_goals exact devRef_ne_of_ne (by decide)))

/-- The first stretch leaves argument 3 as it finds it. -/
theorem a_keep_arg3 (W : Valuation τ sig (Elt Ideal)) : after ops0a W (Proc.devRef .tc main_arg3) = W (Proc.devRef .tc main_arg3) :=
  after_of_forall_not_mem (b := Proc.devRef .tc main_arg3) _ _ (List.forall_iff_forall_mem.mp (by
    simp only [ops0a, ops0p, List.take_succ_cons, List.take_zero, List.Forall, nullary_writes, unary_writes, binary_writes, ternary_writes, reshape_writes, Finset.mem_singleton]
    repeat' apply And.intro
    all_goals exact devRef_ne_of_ne (by decide)))

/-! ## The second stretch, from contents holding the two rows of edge ends -/

set_option maxRecDepth 65536 in
set_option maxHeartbeats 4000000 in
/-- The per-edge weights. -/
theorem b_v31 (W : Valuation τ sig (Elt Ideal)) (a1 : IVec S2x800000 32)
    (h3 : (W (main_v3 : DevRef τ sig) : IVec S850000 32) = RValue.ends0 a1)
    (h6 : (W (main_v6 : DevRef τ sig) : IVec S850000 32) = RValue.ends1 a1) :
    (after ops0b W (main_v31 : DevRef τ sig) : FVec Ideal S850000 .f32) = RValue.norm a1 := by
  simp only [ops0b, ops0p, List.drop_succ_cons, List.drop_zero]
  after_results_simp
  simp only [h3, h6]
  simp only [RValue.out0, RValue.out1, RValue.h4, RValue.layer, RValue.conv, RValue.leakyR, RValue.concepts, RValue.rsoft, RValue.rexp, RValue.rmax, RValue.rspread, RValue.normRows, RValue.norm, RValue.dis, RValue.deg, RValue.wrap, RValue.col, RValue.ends0, RValue.ends1, RValue.loops, RValue.gam, RValue.gmax, RValue.spread, RValue.gexp, RValue.gsoft, RValue.alphaNorm, RValue.scores, RValue.lmax, RValue.lspread, RValue.lshift, RValue.lsm]
  first | done | rfl | fail "the composed term is not the stated one"

set_option maxRecDepth 65536 in
set_option maxHeartbeats 4000000 in
/-- The first layer's aggregated messages. -/
theorem b_v45 (W : Valuation τ sig (Elt Ideal)) (a1 : IVec S2x800000 32)
    (h3 : (W (main_v3 : DevRef τ sig) : IVec S850000 32) = RValue.ends0 a1)
    (h6 : (W (main_v6 : DevRef τ sig) : IVec S850000 32) = RValue.ends1 a1) :
    (after ops0b W (main_v45 : DevRef τ sig) : FVec Ideal S50000x128 .f32) = agg (W (main_arg0 : DevRef τ sig)) a1 (W (main_arg2 : DevRef τ sig)) := by
  simp only [ops0b, ops0p, List.drop_succ_cons, List.drop_zero]
  after_results_simp
  simp only [h3, h6]
  simp only [agg, msg, RValue.out0, RValue.out1, RValue.h4, RValue.layer, RValue.conv, RValue.leakyR, RValue.concepts, RValue.rsoft, RValue.rexp, RValue.rmax, RValue.rspread, RValue.normRows, RValue.norm, RValue.dis, RValue.deg, RValue.wrap, RValue.col, RValue.ends0, RValue.ends1, RValue.loops, RValue.gam, RValue.gmax, RValue.spread, RValue.gexp, RValue.gsoft, RValue.alphaNorm, RValue.scores, RValue.lmax, RValue.lspread, RValue.lshift, RValue.lsm]
  first | done | rfl | fail "the composed term is not the stated one"

set_option maxRecDepth 65536 in
set_option maxHeartbeats 4000000 in
/-- The first layer's bias, spread. -/
theorem b_v47 (W : Valuation τ sig (Elt Ideal)) :
    (after ops0b W (main_v47 : DevRef τ sig) : FVec Ideal S50000x128 .f32) = bias (W (main_arg3 : DevRef τ sig)) := by
  simp only [ops0b, ops0p, List.drop_succ_cons, List.drop_zero]
  after_results_simp
  simp only [bias, RValue.out0, RValue.out1, RValue.h4, RValue.layer, RValue.conv, RValue.leakyR, RValue.concepts, RValue.rsoft, RValue.rexp, RValue.rmax, RValue.rspread, RValue.normRows, RValue.norm, RValue.dis, RValue.deg, RValue.wrap, RValue.col, RValue.ends0, RValue.ends1, RValue.loops, RValue.gam, RValue.gmax, RValue.spread, RValue.gexp, RValue.gsoft, RValue.alphaNorm, RValue.scores, RValue.lmax, RValue.lspread, RValue.lshift, RValue.lsm]
  first | done | rfl | fail "the composed term is not the stated one"

/-- The second stretch leaves the sources' buffer as it finds it. -/
theorem b_keep_v3 (W : Valuation τ sig (Elt Ideal)) : after ops0b W (Proc.devRef .tc main_v3) = W (Proc.devRef .tc main_v3) :=
  after_of_forall_not_mem (b := Proc.devRef .tc main_v3) _ _ (List.forall_iff_forall_mem.mp (by
    simp only [ops0b, ops0p, List.drop_succ_cons, List.drop_zero, List.Forall, nullary_writes, unary_writes, binary_writes, ternary_writes, reshape_writes, Finset.mem_singleton]
    repeat' apply And.intro
    all_goals exact devRef_ne_of_ne (by decide)))

/-- The second stretch leaves the destinations' buffer as it finds it. -/
theorem b_keep_v6 (W : Valuation τ sig (Elt Ideal)) : after ops0b W (Proc.devRef .tc main_v6) = W (Proc.devRef .tc main_v6) :=
  after_of_forall_not_mem (b := Proc.devRef .tc main_v6) _ _ (List.forall_iff_forall_mem.mp (by
    simp only [ops0b, ops0p, List.drop_succ_cons, List.drop_zero, List.Forall, nullary_writes, unary_writes, binary_writes, ternary_writes, reshape_writes, Finset.mem_singleton]
    repeat' apply And.intro
    all_goals exact devRef_ne_of_ne (by decide)))

/-! ## The window -/

theorem w0_v3 (V : Valuation τ sig (Elt Ideal)) :
    (after (ops0 (F := Ideal)) V (main_v3 : DevRef τ sig) : IVec S850000 32) = RValue.ends0 (V (main_arg1 : DevRef τ sig)) := by
  rw [ops0_split, StableHlo.after_append, b_keep_v3, a_v3]

theorem w0_v6 (V : Valuation τ sig (Elt Ideal)) :
    (after (ops0 (F := Ideal)) V (main_v6 : DevRef τ sig) : IVec S850000 32) = RValue.ends1 (V (main_arg1 : DevRef τ sig)) := by
  rw [ops0_split, StableHlo.after_append, b_keep_v6, a_v6]

theorem w0_v31 (V : Valuation τ sig (Elt Ideal)) :
    (after (ops0 (F := Ideal)) V (main_v31 : DevRef τ sig) : FVec Ideal S850000 .f32) = RValue.norm (V (main_arg1 : DevRef τ sig)) := by
  rw [ops0_split, StableHlo.after_append, b_v31 _ (V (main_arg1 : DevRef τ sig)) (a_v3 V) (a_v6 V)]

theorem w0_v45 (V : Valuation τ sig (Elt Ideal)) :
    (after (ops0 (F := Ideal)) V (main_v45 : DevRef τ sig) : FVec Ideal S50000x128 .f32)
      = agg (V (main_arg0 : DevRef τ sig)) (V (main_arg1 : DevRef τ sig)) (V (main_arg2 : DevRef τ sig)) := by
  rw [ops0_split, StableHlo.after_append, b_v45 _ (V (main_arg1 : DevRef τ sig)) (a_v3 V) (a_v6 V), a_keep_arg0, a_keep_arg2]

theorem w0_v47 (V : Valuation τ sig (Elt Ideal)) :
    (after (ops0 (F := Ideal)) V (main_v47 : DevRef τ sig) : FVec Ideal S50000x128 .f32) = bias (V (main_arg3 : DevRef τ sig)) := by
  rw [ops0_split, StableHlo.after_append, b_v47, a_keep_arg3]

end Cert.ReferenceIdeal.RefVal

end
-- ==== Proof.RefVal1.lean ====
/-
  Statements 61 … 120 of the reference's @main read at the fourth layer's messages, from any contents in which
  the buffers of the earlier statements hold the edge ends and the per-edge weights of an edge list: the first
  layer's sum plus bias through its rectifier, the second and third layers whole, and the fourth layer's dense
  product gathered at the sources and weighted. These statements do not write the destinations' buffer.
-/
import proofs.«170301_j10299331576451_2_alg».proof.Proof.RefValLib
import proofs.«170301_j10299331576451_2_alg».proof.Proof.RefOps1

noncomputable section

namespace Cert.ReferenceIdeal.RefVal

open Cert.ReferenceIdeal Cert.ReferenceIdeal.Gen Cert.ReferenceIdeal.RefRun Idealize.ShloMosaic Idealize.ShloMosaic.TcCoe Idealize.SL.Sem Idealize.ShloMosaic.StableHlo

/-- The window's operations with each module-local function's operation written at its buffers directly: a typed
    reference of a literal buffer transports contents along an equality that holds by computation, so the two
    lists are the same list. -/
abbrev ops1p {F : FTy → Type} [FloatOps F] : List (HloOp τ sig (Elt F)) :=
  [ StableHlo.binary main_v45 main_v47 main_v48 (addf : (⟨S50000x128, .f32⟩ : BufTy).Contents (Elt F) → (⟨S50000x128, .f32⟩ : BufTy).Contents (Elt F) → (⟨S50000x128, .f32⟩ : BufTy).Contents (Elt F)),
    StableHlo.nullary main_cst_10 (constant S_ .f32 0x3C23D70A#32),
    StableHlo.nullary main_call1_cst (constant S_ .f32 0x00000000#32),
    StableHlo.unary main_call1_cst main_call1_v0 (broadcastInDim S50000x128 ![] bcast_S_S50000x128 : (⟨S_, .f32⟩ : BufTy).Contents (Elt F) → (⟨S50000x128, .f32⟩ : BufTy).Contents (Elt F)),
    StableHlo.binary main_v48 main_call1_v0 main_call1_v1 (cmpf .oge : (⟨S50000x128, .f32⟩ : BufTy).Contents (Elt F) → (⟨S50000x128, .f32⟩ : BufTy).Contents (Elt F) → (⟨S50000x128, .i1⟩ : BufTy).Contents (Elt F)),
    StableHlo.unary main_cst_10 main_call1_v2 (id : (⟨S_, .f32⟩ : BufTy).Contents (Elt F) → (⟨S_, .f32⟩ : BufTy).Contents (Elt F)),
    StableHlo.unary main_call1_v2 main_call1_v3 (broadcastInDim S50000x128 ![] bcast_S_S50000x128 : (⟨S_, .f32⟩ : BufTy).Contents (Elt F) → (⟨S50000x128, .f32⟩ : BufTy).Contents (Elt F)),
    StableHlo.binary main_call1_v3 main_v48 main_call1_v4 (mulf : (⟨S50000x128, .f32⟩ : BufTy).Contents (Elt F) → (⟨S50000x128, .f32⟩ : BufTy).Contents (Elt F) → (⟨S50000x128, .f32⟩ : BufTy).Contents (Elt F)),
    StableHlo.ternary main_call1_v1 main_v48 main_call1_v4 main_v49 (select : (⟨S50000x128, .i1⟩ : BufTy).Contents (Elt F) → (⟨S50000x128, .f32⟩ : BufTy).Contents (Elt F) → (⟨S50000x128, .f32⟩ : BufTy).Contents (Elt F) → (⟨S50000x128, .f32⟩ : BufTy).Contents (Elt F)),
    StableHlo.binary main_v49 main_arg4 main_v50 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_11 (constantI S_ 32 0#32),
    StableHlo.unary main_c_11 main_v51 (broadcastInDim S850000 ![] bcast_S_S850000 : (⟨S_, .i32⟩ : BufTy).Contents (Elt F) → (⟨S850000, .i32⟩ : BufTy).Contents (Elt F)),
    StableHlo.binary main_v3 main_v51 main_v52 (cmpi .slt : (⟨S850000, .i32⟩ : BufTy).Contents (Elt F) → (⟨S850000, .i32⟩ : BufTy).Contents (Elt F) → (⟨S850000, .i1⟩ : BufTy).Contents (Elt F)),
    StableHlo.nullary main_c_12 (constantI S_ 32 50000#32),
    StableHlo.unary main_c_12 main_v53 (broadcastInDim S850000 ![] bcast_S_S850000 : (⟨S_, .i32⟩ : BufTy).Contents (Elt F) → (⟨S850000, .i32⟩ : BufTy).Contents (Elt F)),
    StableHlo.binary main_v3 main_v53 main_v54 (addi : (⟨S850000, .i32⟩ : BufTy).Contents (Elt F) → (⟨S850000, .i32⟩ : BufTy).Contents (Elt F) → (⟨S850000, .i32⟩ : BufTy).Contents (Elt F)),
    StableHlo.ternary main_v52 main_v54 main_v3 main_v55 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v55 main_v56 (broadcastInDim S850000x1 ![0] bcast_S850000_S850000x1_0 : (⟨S850000, .i32⟩ : BufTy).Contents (Elt F) → (⟨S850000x1, .i32⟩ : BufTy).Contents (Elt F)),
    StableHlo.binary main_v50 main_v56 main_v57 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v31 main_v58 (broadcastInDim S850000x1 ![0] bcast_S850000_S850000x1_0 : (⟨S850000, .f32⟩ : BufTy).Contents (Elt F) → (⟨S850000x1, .f32⟩ : BufTy).Contents (Elt F)),
    StableHlo.unary main_v58 main_v59 (broadcastInDim S850000x128 ![0, 1] bcast_S850000x1_S850000x128_0_1 : (⟨S850000x1, .f32⟩ : BufTy).Contents (Elt F) → (⟨S850000x128, .f32⟩ : BufTy).Contents (Elt F)),
    StableHlo.binary main_v57 main_v59 main_v60 (mulf : (⟨S850000x128, .f32⟩ : BufTy).Contents (Elt F) → (⟨S850000x128, .f32⟩ : BufTy).Contents (Elt F) → (⟨S850000x128, .f32⟩ : BufTy).Contents (Elt F)),
    StableHlo.nullary main_cst_13 (constant S_ .f32 0x00000000#32),
    StableHlo.unary main_cst_13 main_v61 (broadcastInDim S50000x128 ![] bcast_S_S50000x128 : (⟨S_, .f32⟩ : BufTy).Contents (Elt F) → (⟨S50000x128, .f32⟩ : BufTy).Contents (Elt F)),
    StableHlo.unary main_v6 main_v62 (broadcastInDim S850000x1 ![0] bcast_S850000_S850000x1_0 : (⟨S850000, .i32⟩ : BufTy).Contents (Elt F) → (⟨S850000x1, .i32⟩ : BufTy).Contents (Elt F)),
    StableHlo.ternary main_v61 main_v62 main_v60 main_v63 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_arg5 main_v64 (broadcastInDim S1x128 ![1] bcast_S128_S1x128_1 : (⟨S128, .f32⟩ : BufTy).Contents (Elt F) → (⟨S1x128, .f32⟩ : BufTy).Contents (Elt F)),
    StableHlo.unary main_v64 main_v65 (broadcastInDim S50000x128 ![0, 1] bcast_S1x128_S50000x128_0_1 : (⟨S1x128, .f32⟩ : BufTy).Contents (Elt F) → (⟨S50000x128, .f32⟩ : BufTy).Contents (Elt F)),
    StableHlo.binary main_v63 main_v65 main_v66 (addf : (⟨S50000x128, .f32⟩ : BufTy).Contents (Elt F) → (⟨S50000x128, .f32⟩ : BufTy).Contents (Elt F) → (⟨S50000x128, .f32⟩ : BufTy).Contents (Elt F)),
    StableHlo.nullary main_cst_14 (constant S_ .f32 0x3C23D70A#32),
    StableHlo.nullary main_call2_cst (constant S_ .f32 0x00000000#32),
    StableHlo.unary main_call2_cst main_call2_v0 (broadcastInDim S50000x128 ![] bcast_S_S50000x128 : (⟨S_, .f32⟩ : BufTy).Contents (Elt F) → (⟨S50000x128, .f32⟩ : BufTy).Contents (Elt F)),
    StableHlo.binary main_v66 main_call2_v0 main_call2_v1 (cmpf .oge : (⟨S50000x128, .f32⟩ : BufTy).Contents (Elt F) → (⟨S50000x128, .f32⟩ : BufTy).Contents (Elt F) → (⟨S50000x128, .i1⟩ : BufTy).Contents (Elt F)),
    StableHlo.unary main_cst_14 main_call2_v2 (id : (⟨S_, .f32⟩ : BufTy).Contents (Elt F) → (⟨S_, .f32⟩ : BufTy).Contents (Elt F)),
    StableHlo.unary main_call2_v2 main_call2_v3 (broadcastInDim S50000x128 ![] bcast_S_S50000x128 : (⟨S_, .f32⟩ : BufTy).Contents (Elt F) → (⟨S50000x128, .f32⟩ : BufTy).Contents (Elt F)),
    StableHlo.binary main_call2_v3 main_v66 main_call2_v4 (mulf : (⟨S50000x128, .f32⟩ : BufTy).Contents (Elt F) → (⟨S50000x128, .f32⟩ : BufTy).Contents (Elt F) → (⟨S50000x128, .f32⟩ : BufTy).Contents (Elt F)),
    StableHlo.ternary main_call2_v1 main_v66 main_call2_v4 main_v67 (select : (⟨S50000x128, .i1⟩ : BufTy).Contents (Elt F) → (⟨S50000x128, .f32⟩ : BufTy).Contents (Elt F) → (⟨S50000x128, .f32⟩ : BufTy).Contents (Elt F) → (⟨S50000x128, .f32⟩ : BufTy).Contents (Elt F)),
    StableHlo.binary main_v67 main_arg6 main_v68 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_15 (constantI S_ 32 0#32),
    StableHlo.unary main_c_15 main_v69 (broadcastInDim S850000 ![] bcast_S_S850000 : (⟨S_, .i32⟩ : BufTy).Contents (Elt F) → (⟨S850000, .i32⟩ : BufTy).Contents (Elt F)),
    StableHlo.binary main_v3 main_v69 main_v70 (cmpi .slt : (⟨S850000, .i32⟩ : BufTy).Contents (Elt F) → (⟨S850000, .i32⟩ : BufTy).Contents (Elt F) → (⟨S850000, .i1⟩ : BufTy).Contents (Elt F)),
    StableHlo.nullary main_c_16 (constantI S_ 32 50000#32),
    StableHlo.unary main_c_16 main_v71 (broadcastInDim S850000 ![] bcast_S_S850000 : (⟨S_, .i32⟩ : BufTy).Contents (Elt F) → (⟨S850000, .i32⟩ : BufTy).Contents (Elt F)),
    StableHlo.binary main_v3 main_v71 main_v72 (addi : (⟨S850000, .i32⟩ : BufTy).Contents (Elt F) → (⟨S850000, .i32⟩ : BufTy).Contents (Elt F) → (⟨S850000, .i32⟩ : BufTy).Contents (Elt F)),
    StableHlo.ternary main_v70 main_v72 main_v3 main_v73 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v73 main_v74 (broadcastInDim S850000x1 ![0] bcast_S850000_S850000x1_0 : (⟨S850000, .i32⟩ : BufTy).Contents (Elt F) → (⟨S850000x1, .i32⟩ : BufTy).Contents (Elt F)),
    StableHlo.binary main_v68 main_v74 main_v75 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v31 main_v76 (broadcastInDim S850000x1 ![0] bcast_S850000_S850000x1_0 : (⟨S850000, .f32⟩ : BufTy).Contents (Elt F) → (⟨S850000x1, .f32⟩ : BufTy).Contents (Elt F)),
    StableHlo.unary main_v76 main_v77 (broadcastInDim S850000x128 ![0, 1] bcast_S850000x1_S850000x128_0_1 : (⟨S850000x1, .f32⟩ : BufTy).Contents (Elt F) → (⟨S850000x128, .f32⟩ : BufTy).Contents (Elt F)),
    StableHlo.binary main_v75 main_v77 main_v78 (mulf : (⟨S850000x128, .f32⟩ : BufTy).Contents (Elt F) → (⟨S850000x128, .f32⟩ : BufTy).Contents (Elt F) → (⟨S850000x128, .f32⟩ : BufTy).Contents (Elt F)),
    StableHlo.nullary main_cst_17 (constant S_ .f32 0x00000000#32),
    StableHlo.unary main_cst_17 main_v79 (broadcastInDim S50000x128 ![] bcast_S_S50000x128 : (⟨S_, .f32⟩ : BufTy).Contents (Elt F) → (⟨S50000x128, .f32⟩ : BufTy).Contents (Elt F)),
    StableHlo.unary main_v6 main_v80 (broadcastInDim S850000x1 ![0] bcast_S850000_S850000x1_0 : (⟨S850000, .i32⟩ : BufTy).Contents (Elt F) → (⟨S850000x1, .i32⟩ : BufTy).Contents (Elt F)),
    StableHlo.ternary main_v79 main_v80 main_v78 main_v81 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_arg7 main_v82 (broadcastInDim S1x128 ![1] bcast_S128_S1x128_1 : (⟨S128, .f32⟩ : BufTy).Contents (Elt F) → (⟨S1x128, .f32⟩ : BufTy).Contents (Elt F)),
    StableHlo.unary main_v82 main_v83 (broadcastInDim S50000x128 ![0, 1] bcast_S1x128_S50000x128_0_1 : (⟨S1x128, .f32⟩ : BufTy).Contents (Elt F) → (⟨S50000x128, .f32⟩ : BufTy).Contents (Elt F)),
    StableHlo.binary main_v81 main_v83 main_v84 (addf : (⟨S50000x128, .f32⟩ : BufTy).Contents (Elt F) → (⟨S50000x128, .f32⟩ : BufTy).Contents (Elt F) → (⟨S50000x128, .f32⟩ : BufTy).Contents (Elt F)),
    StableHlo.nullary main_cst_18 (constant S_ .f32 0x3C23D70A#32),
    StableHlo.nullary main_call3_cst (constant S_ .f32 0x00000000#32),
    StableHlo.unary main_call3_cst main_call3_v0 (broadcastInDim S50000x128 ![] bcast_S_S50000x128 : (⟨S_, .f32⟩ : BufTy).Contents (Elt F) → (⟨S50000x128, .f32⟩ : BufTy).Contents (Elt F)),
    StableHlo.binary main_v84 main_call3_v0 main_call3_v1 (cmpf .oge : (⟨S50000x128, .f32⟩ : BufTy).Contents (Elt F) → (⟨S50000x128, .f32⟩ : BufTy).Contents (Elt F) → (⟨S50000x128, .i1⟩ : BufTy).Contents (Elt F)),
    StableHlo.unary main_cst_18 main_call3_v2 (id : (⟨S_, .f32⟩ : BufTy).Contents (Elt F) → (⟨S_, .f32⟩ : BufTy).Contents (Elt F)),
    StableHlo.unary main_call3_v2 main_call3_v3 (broadcastInDim S50000x128 ![] bcast_S_S50000x128 : (⟨S_, .f32⟩ : BufTy).Contents (Elt F) → (⟨S50000x128, .f32⟩ : BufTy).Contents (Elt F)),
    StableHlo.binary main_call3_v3 main_v84 main_call3_v4 (mulf : (⟨S50000x128, .f32⟩ : BufTy).Contents (Elt F) → (⟨S50000x128, .f32⟩ : BufTy).Contents (Elt F) → (⟨S50000x128, .f32⟩ : BufTy).Contents (Elt F)),
    StableHlo.ternary main_call3_v1 main_v84 main_call3_v4 main_v85 (select : (⟨S50000x128, .i1⟩ : BufTy).Contents (Elt F) → (⟨S50000x128, .f32⟩ : BufTy).Contents (Elt F) → (⟨S50000x128, .f32⟩ : BufTy).Contents (Elt F) → (⟨S50000x128, .f32⟩ : BufTy).Contents (Elt F)),
    StableHlo.binary main_v85 main_arg8 main_v86 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_19 (constantI S_ 32 0#32),
    StableHlo.unary main_c_19 main_v87 (broadcastInDim S850000 ![] bcast_S_S850000 : (⟨S_, .i32⟩ : BufTy).Contents (Elt F) → (⟨S850000, .i32⟩ : BufTy).Contents (Elt F)),
    StableHlo.binary main_v3 main_v87 main_v88 (cmpi .slt : (⟨S850000, .i32⟩ : BufTy).Contents (Elt F) → (⟨S850000, .i32⟩ : BufTy).Contents (Elt F) → (⟨S850000, .i1⟩ : BufTy).Contents (Elt F)),
    StableHlo.nullary main_c_20 (constantI S_ 32 50000#32),
    StableHlo.unary main_c_20 main_v89 (broadcastInDim S850000 ![] bcast_S_S850000 : (⟨S_, .i32⟩ : BufTy).Contents (Elt F) → (⟨S850000, .i32⟩ : BufTy).Contents (Elt F)),
    StableHlo.binary main_v3 main_v89 main_v90 (addi : (⟨S850000, .i32⟩ : BufTy).Contents (Elt F) → (⟨S850000, .i32⟩ : BufTy).Contents (Elt F) → (⟨S850000, .i32⟩ : BufTy).Contents (Elt F)),
    StableHlo.ternary main_v88 main_v90 main_v3 main_v91 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v91 main_v92 (broadcastInDim S850000x1 ![0] bcast_S850000_S850000x1_0 : (⟨S850000, .i32⟩ : BufTy).Contents (Elt F) → (⟨S850000x1, .i32⟩ : BufTy).Contents (Elt F)),
    StableHlo.binary main_v86 main_v92 main_v93 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v31 main_v94 (broadcastInDim S850000x1 ![0] bcast_S850000_S850000x1_0 : (⟨S850000, .f32⟩ : BufTy).Contents (Elt F) → (⟨S850000x1, .f32⟩ : BufTy).Contents (Elt F)),
    StableHlo.unary main_v94 main_v95 (broadcastInDim S850000x128 ![0, 1] bcast_S850000x1_S850000x128_0_1 : (⟨S850000x1, .f32⟩ : BufTy).Contents (Elt F) → (⟨S850000x128, .f32⟩ : BufTy).Contents (Elt F)),
    StableHlo.binary main_v93 main_v95 main_v96 (mulf : (⟨S850000x128, .f32⟩ : BufTy).Contents (Elt F) → (⟨S850000x128, .f32⟩ : BufTy).Contents (Elt F) → (⟨S850000x128, .f32⟩ : BufTy).Contents (Elt F)) ]

theorem ops1_eq {F : FTy → Type} [FloatOps F] : (ops1 (F := F)) = ops1p := rfl

set_option maxRecDepth 65536 in
set_option maxHeartbeats 4000000 in
/-- The fourth layer's messages from the first layer's two summands and the edge data. -/
theorem w1_v96 (W : Valuation τ sig (Elt Ideal)) (a1 : IVec S2x800000 32)
    (h3 : (W (main_v3 : DevRef τ sig) : IVec S850000 32) = RValue.ends0 a1)
    (h6 : (W (main_v6 : DevRef τ sig) : IVec S850000 32) = RValue.ends1 a1)
    (h31 : (W (main_v31 : DevRef τ sig) : FVec Ideal S850000 .f32) = RValue.norm a1) :
    (after (ops1 (F := Ideal)) W (main_v96 : DevRef τ sig) : FVec Ideal S850000x128 .f32)
      = msg (RValue.layer (RValue.layer
            (RValue.leakyR (addf (W (main_v45 : DevRef τ sig) : FVec Ideal S50000x128 .f32) (W (main_v47 : DevRef τ sig))) (constant (F := Ideal) S_ .f32 0x3C23D70A#32))
            a1 (W (main_arg4 : DevRef τ sig)) (W (main_arg5 : DevRef τ sig))) a1 (W (main_arg6 : DevRef τ sig)) (W (main_arg7 : DevRef τ sig)))
          a1 (W (main_arg8 : DevRef τ sig)) := by
  rw [ops1_eq]
  after_results_simp
  simp only [h3, h6, h31]
  simp only [msg, RValue.out0, RValue.out1, RValue.h4, RValue.layer, RValue.conv, RValue.leakyR, RValue.concepts, RValue.rsoft, RValue.rexp, RValue.rmax, RValue.rspread, RValue.normRows, RValue.norm, RValue.dis, RValue.deg, RValue.wrap, RValue.col, RValue.ends0, RValue.ends1, RValue.loops, RValue.gam, RValue.gmax, RValue.spread, RValue.gexp, RValue.gsoft, RValue.alphaNorm, RValue.scores, RValue.lmax, RValue.lspread, RValue.lshift, RValue.lsm]
  first | done | rfl | fail "the composed term is not the stated one"

/-- These statements leave the destinations' buffer as they find it. -/
theorem ops1_keep_v6 (W : Valuation τ sig (Elt Ideal)) : after (ops1 (F := Ideal)) W (Proc.devRef .tc main_v6) = W (Proc.devRef .tc main_v6) :=
  after_of_forall_not_mem (b := Proc.devRef .tc main_v6) _ _ (List.forall_iff_forall_mem.mp (by
    simp only [List.Forall, nullary_writes, unary_writes, binary_writes, ternary_writes, reshape_writes, Finset.mem_singleton]
    repeat' apply And.intro
    all_goals exact devRef_ne_of_ne (by decide)))

end Cert.ReferenceIdeal.RefVal

end
-- ==== Proof.RefVal2.lean ====
/-
  Statements 121 … 180 of the reference's @main read at the first result buffer and at the two summands of the
  class scores, from any contents in which the earlier statements' buffers hold the destinations of an edge
  list and the fourth layer's messages: the fourth layer's sum, bias and rectifier, the concepts of its output,
  the attention over the features, their product contracted with the class weights, and the class bias spread.
-/
import proofs.«170301_j10299331576451_2_alg».proof.Proof.RefValLib
import proofs.«170301_j10299331576451_2_alg».proof.Proof.RefOps2

noncomputable section

namespace Cert.ReferenceIdeal.RefVal

open Cert.ReferenceIdeal Cert.ReferenceIdeal.Gen Cert.ReferenceIdeal.RefRun Idealize.ShloMosaic Idealize.ShloMosaic.TcCoe Idealize.SL.Sem Idealize.ShloMosaic.StableHlo

/-- The window's operations with each module-local function's operation written at its buffers directly: a typed
    reference of a literal buffer transports contents along an equality that holds by computation, so the two
    lists are the same list. -/
abbrev ops2p {F : FTy → Type} [FloatOps F] : List (HloOp τ sig (Elt F)) :=
  [ StableHlo.nullary main_cst_21 (constant S_ .f32 0x00000000#32),
    StableHlo.unary main_cst_21 main_v97 (broadcastInDim S50000x128 ![] bcast_S_S50000x128 : (⟨S_, .f32⟩ : BufTy).Contents (Elt F) → (⟨S50000x128, .f32⟩ : BufTy).Contents (Elt F)),
    StableHlo.unary main_v6 main_v98 (broadcastInDim S850000x1 ![0] bcast_S850000_S850000x1_0 : (⟨S850000, .i32⟩ : BufTy).Contents (Elt F) → (⟨S850000x1, .i32⟩ : BufTy).Contents (Elt F)),
    StableHlo.ternary main_v97 main_v98 main_v96 main_v99 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_arg9 main_v100 (broadcastInDim S1x128 ![1] bcast_S128_S1x128_1 : (⟨S128, .f32⟩ : BufTy).Contents (Elt F) → (⟨S1x128, .f32⟩ : BufTy).Contents (Elt F)),
    StableHlo.unary main_v100 main_v101 (broadcastInDim S50000x128 ![0, 1] bcast_S1x128_S50000x128_0_1 : (⟨S1x128, .f32⟩ : BufTy).Contents (Elt F) → (⟨S50000x128, .f32⟩ : BufTy).Contents (Elt F)),
    StableHlo.binary main_v99 main_v101 main_v102 (addf : (⟨S50000x128, .f32⟩ : BufTy).Contents (Elt F) → (⟨S50000x128, .f32⟩ : BufTy).Contents (Elt F) → (⟨S50000x128, .f32⟩ : BufTy).Contents (Elt F)),
    StableHlo.nullary main_cst_22 (constant S_ .f32 0x3C23D70A#32),
    StableHlo.nullary main_call4_cst (constant S_ .f32 0x00000000#32),
    StableHlo.unary main_call4_cst main_call4_v0 (broadcastInDim S50000x128 ![] bcast_S_S50000x128 : (⟨S_, .f32⟩ : BufTy).Contents (Elt F) → (⟨S50000x128, .f32⟩ : BufTy).Contents (Elt F)),
    StableHlo.binary main_v102 main_call4_v0 main_call4_v1 (cmpf .oge : (⟨S50000x128, .f32⟩ : BufTy).Contents (Elt F) → (⟨S50000x128, .f32⟩ : BufTy).Contents (Elt F) → (⟨S50000x128, .i1⟩ : BufTy).Contents (Elt F)),
    StableHlo.unary main_cst_22 main_call4_v2 (id : (⟨S_, .f32⟩ : BufTy).Contents (Elt F) → (⟨S_, .f32⟩ : BufTy).Contents (Elt F)),
    StableHlo.unary main_call4_v2 main_call4_v3 (broadcastInDim S50000x128 ![] bcast_S_S50000x128 : (⟨S_, .f32⟩ : BufTy).Contents (Elt F) → (⟨S50000x128, .f32⟩ : BufTy).Contents (Elt F)),
    StableHlo.binary main_call4_v3 main_v102 main_call4_v4 (mulf : (⟨S50000x128, .f32⟩ : BufTy).Contents (Elt F) → (⟨S50000x128, .f32⟩ : BufTy).Contents (Elt F) → (⟨S50000x128, .f32⟩ : BufTy).Contents (Elt F)),
    StableHlo.ternary main_call4_v1 main_v102 main_call4_v4 main_v103 (select : (⟨S50000x128, .i1⟩ : BufTy).Contents (Elt F) → (⟨S50000x128, .f32⟩ : BufTy).Contents (Elt F) → (⟨S50000x128, .f32⟩ : BufTy).Contents (Elt F) → (⟨S50000x128, .f32⟩ : BufTy).Contents (Elt F)),
    StableHlo.nullary main_cst_23 (constant S_ .f32 0xFF800000#32),
    StableHlo.binary main_v103 main_cst_23 main_v104 ((fun x v => Host.reduce FloatOps.maximumf x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.nullary main_cst_24 (constant S_ .f32 0xFF800000#32),
    StableHlo.unary main_cst_24 main_v105 (broadcastInDim S50000 ![] bcast_S_S50000 : (⟨S_, .f32⟩ : BufTy).Contents (Elt F) → (⟨S50000, .f32⟩ : BufTy).Contents (Elt F)),
    StableHlo.binary main_v105 main_v104 main_v106 (maximumf : (⟨S50000, .f32⟩ : BufTy).Contents (Elt F) → (⟨S50000, .f32⟩ : BufTy).Contents (Elt F) → (⟨S50000, .f32⟩ : BufTy).Contents (Elt F)),
    StableHlo.unary main_v106 main_v107 (broadcastInDim S50000x1 ![0] bcast_S50000_S50000x1_0 : (⟨S50000, .f32⟩ : BufTy).Contents (Elt F) → (⟨S50000x1, .f32⟩ : BufTy).Contents (Elt F)),
    StableHlo.unary main_v107 main_v108 (broadcastInDim S50000x128 ![0, 1] bcast_S50000x1_S50000x128_0_1 : (⟨S50000x1, .f32⟩ : BufTy).Contents (Elt F) → (⟨S50000x128, .f32⟩ : BufTy).Contents (Elt F)),
    StableHlo.binary main_v103 main_v108 main_v109 (subf : (⟨S50000x128, .f32⟩ : BufTy).Contents (Elt F) → (⟨S50000x128, .f32⟩ : BufTy).Contents (Elt F) → (⟨S50000x128, .f32⟩ : BufTy).Contents (Elt F)),
    StableHlo.unary main_v109 main_v110 (Host.exp : (⟨S50000x128, .f32⟩ : BufTy).Contents (Elt F) → (⟨S50000x128, .f32⟩ : BufTy).Contents (Elt F)),
    StableHlo.nullary main_cst_25 (constant S_ .f32 0x00000000#32),
    StableHlo.binary main_v110 main_cst_25 main_v111 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v111 main_v112 (broadcastInDim S50000x1 ![0] bcast_S50000_S50000x1_0 : (⟨S50000, .f32⟩ : BufTy).Contents (Elt F) → (⟨S50000x1, .f32⟩ : BufTy).Contents (Elt F)),
    StableHlo.unary main_v112 main_v113 (broadcastInDim S50000x128 ![0, 1] bcast_S50000x1_S50000x128_0_1 : (⟨S50000x1, .f32⟩ : BufTy).Contents (Elt F) → (⟨S50000x128, .f32⟩ : BufTy).Contents (Elt F)),
    StableHlo.binary main_v110 main_v113 main_v114 (Host.divf : (⟨S50000x128, .f32⟩ : BufTy).Contents (Elt F) → (⟨S50000x128, .f32⟩ : BufTy).Contents (Elt F) → (⟨S50000x128, .f32⟩ : BufTy).Contents (Elt F)),
    StableHlo.nullary main_cst_26 (constant S_ .f32 0xFF800000#32),
    StableHlo.binary main_v114 main_cst_26 main_v115 ((fun x v => Host.reduce FloatOps.maximumf x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v115 main_v116 (broadcastInDim S50000x1 ![0] bcast_S50000_S50000x1_0 : (⟨S50000, .f32⟩ : BufTy).Contents (Elt F) → (⟨S50000x1, .f32⟩ : BufTy).Contents (Elt F)),
    StableHlo.unary main_v116 main_v117 (broadcastInDim S50000x128 ![0, 1] bcast_S50000x1_S50000x128_0_1 : (⟨S50000x1, .f32⟩ : BufTy).Contents (Elt F) → (⟨S50000x128, .f32⟩ : BufTy).Contents (Elt F)),
    StableHlo.binary main_v114 main_v117 main_v118 (Host.divf : (⟨S50000x128, .f32⟩ : BufTy).Contents (Elt F) → (⟨S50000x128, .f32⟩ : BufTy).Contents (Elt F) → (⟨S50000x128, .f32⟩ : BufTy).Contents (Elt F)),
    StableHlo.unary main_arg10 main_v119 (Host.absf : (⟨S10x1x128, .f32⟩ : BufTy).Contents (Elt F) → (⟨S10x1x128, .f32⟩ : BufTy).Contents (Elt F)),
    StableHlo.nullary main_cst_27 (constant S_ .f32 0x00000000#32),
    StableHlo.binary main_v119 main_cst_27 main_v120 ((fun x v => Host.reduceAdd x v reducesTo_S10x1x128_S10x128_d1 h_S_) : (⟨S10x1x128, .f32⟩ : BufTy).Contents (Elt F) → (⟨S_, .f32⟩ : BufTy).Contents (Elt F) → (⟨S10x128, .f32⟩ : BufTy).Contents (Elt F)),
    StableHlo.nullary main_cst_28 (constant S_ .f32 0x3F19999A#32),
    StableHlo.unary main_cst_28 main_v121 (broadcastInDim S10x128 ![] bcast_S_S10x128 : (⟨S_, .f32⟩ : BufTy).Contents (Elt F) → (⟨S10x128, .f32⟩ : BufTy).Contents (Elt F)),
    StableHlo.binary main_v120 main_v121 main_v122 (Host.divf : (⟨S10x128, .f32⟩ : BufTy).Contents (Elt F) → (⟨S10x128, .f32⟩ : BufTy).Contents (Elt F) → (⟨S10x128, .f32⟩ : BufTy).Contents (Elt F)),
    StableHlo.nullary main_cst_29 (constant S_ .f32 0xFF800000#32),
    StableHlo.binary main_v122 main_cst_29 main_v123 ((fun x v => Host.reduce FloatOps.maximumf x v reducesTo_S10x128_S10_d1 h_S_) : (⟨S10x128, .f32⟩ : BufTy).Contents (Elt F) → (⟨S_, .f32⟩ : BufTy).Contents (Elt F) → (⟨S10, .f32⟩ : BufTy).Contents (Elt F)),
    StableHlo.nullary main_cst_30 (constant S_ .f32 0xFF800000#32),
    StableHlo.unary main_cst_30 main_v124 (broadcastInDim S10 ![] bcast_S_S10 : (⟨S_, .f32⟩ : BufTy).Contents (Elt F) → (⟨S10, .f32⟩ : BufTy).Contents (Elt F)),
    StableHlo.binary main_v124 main_v123 main_v125 (maximumf : (⟨S10, .f32⟩ : BufTy).Contents (Elt F) → (⟨S10, .f32⟩ : BufTy).Contents (Elt F) → (⟨S10, .f32⟩ : BufTy).Contents (Elt F)),
    StableHlo.unary main_v125 main_v126 (broadcastInDim S10x1 ![0] bcast_S10_S10x1_0 : (⟨S10, .f32⟩ : BufTy).Contents (Elt F) → (⟨S10x1, .f32⟩ : BufTy).Contents (Elt F)),
    StableHlo.unary main_v126 main_v127 (broadcastInDim S10x128 ![0, 1] bcast_S10x1_S10x128_0_1 : (⟨S10x1, .f32⟩ : BufTy).Contents (Elt F) → (⟨S10x128, .f32⟩ : BufTy).Contents (Elt F)),
    StableHlo.binary main_v122 main_v127 main_v128 (subf : (⟨S10x128, .f32⟩ : BufTy).Contents (Elt F) → (⟨S10x128, .f32⟩ : BufTy).Contents (Elt F) → (⟨S10x128, .f32⟩ : BufTy).Contents (Elt F)),
    StableHlo.unary main_v128 main_v129 (Host.exp : (⟨S10x128, .f32⟩ : BufTy).Contents (Elt F) → (⟨S10x128, .f32⟩ : BufTy).Contents (Elt F)),
    StableHlo.nullary main_cst_31 (constant S_ .f32 0x00000000#32),
    StableHlo.binary main_v129 main_cst_31 main_v130 ((fun x v => Host.reduceAdd x v reducesTo_S10x128_S10_d1 h_S_) : (⟨S10x128, .f32⟩ : BufTy).Contents (Elt F) → (⟨S_, .f32⟩ : BufTy).Contents (Elt F) → (⟨S10, .f32⟩ : BufTy).Contents (Elt F)),
    StableHlo.unary main_v130 main_v131 (broadcastInDim S10x1 ![0] bcast_S10_S10x1_0 : (⟨S10, .f32⟩ : BufTy).Contents (Elt F) → (⟨S10x1, .f32⟩ : BufTy).Contents (Elt F)),
    StableHlo.unary main_v131 main_v132 (broadcastInDim S10x128 ![0, 1] bcast_S10x1_S10x128_0_1 : (⟨S10x1, .f32⟩ : BufTy).Contents (Elt F) → (⟨S10x128, .f32⟩ : BufTy).Contents (Elt F)),
    StableHlo.binary main_v129 main_v132 main_v133 (Host.divf : (⟨S10x128, .f32⟩ : BufTy).Contents (Elt F) → (⟨S10x128, .f32⟩ : BufTy).Contents (Elt F) → (⟨S10x128, .f32⟩ : BufTy).Contents (Elt F)),
    StableHlo.nullary main_cst_32 (constant S_ .f32 0xFF800000#32),
    StableHlo.binary main_v133 main_cst_32 main_v134 ((fun x v => Host.reduce FloatOps.maximumf x v reducesTo_S10x128_S10_d1 h_S_) : (⟨S10x128, .f32⟩ : BufTy).Contents (Elt F) → (⟨S_, .f32⟩ : BufTy).Contents (Elt F) → (⟨S10, .f32⟩ : BufTy).Contents (Elt F)),
    StableHlo.unary main_v134 main_v135 (broadcastInDim S10x1 ![0] bcast_S10_S10x1_0 : (⟨S10, .f32⟩ : BufTy).Contents (Elt F) → (⟨S10x1, .f32⟩ : BufTy).Contents (Elt F)),
    StableHlo.unary main_v135 main_v136 (broadcastInDim S10x128 ![0, 1] bcast_S10x1_S10x128_0_1 : (⟨S10x1, .f32⟩ : BufTy).Contents (Elt F) → (⟨S10x128, .f32⟩ : BufTy).Contents (Elt F)),
    StableHlo.binary main_v133 main_v136 main_v137 (Host.divf : (⟨S10x128, .f32⟩ : BufTy).Contents (Elt F) → (⟨S10x128, .f32⟩ : BufTy).Contents (Elt F) → (⟨S10x128, .f32⟩ : BufTy).Contents (Elt F)),
    StableHlo.unary main_v118 main_v138 (broadcastInDim S1x50000x128 ![1, 2] bcast_S50000x128_S1x50000x128_1_2 : (⟨S50000x128, .f32⟩ : BufTy).Contents (Elt F) → (⟨S1x50000x128, .f32⟩ : BufTy).Contents (Elt F)),
    StableHlo.unary main_v137 main_v139 (broadcastInDim S10x1x128 ![0, 2] bcast_S10x128_S10x1x128_0_2 : (⟨S10x128, .f32⟩ : BufTy).Contents (Elt F) → (⟨S10x1x128, .f32⟩ : BufTy).Contents (Elt F)),
    StableHlo.unary main_v138 main_v140 (broadcastInDim S10x50000x128 ![0, 1, 2] bcast_S1x50000x128_S10x50000x128_0_1_2 : (⟨S1x50000x128, .f32⟩ : BufTy).Contents (Elt F) → (⟨S10x50000x128, .f32⟩ : BufTy).Contents (Elt F)),
    StableHlo.unary main_v139 main_v141 (broadcastInDim S10x50000x128 ![0, 1, 2] bcast_S10x1x128_S10x50000x128_0_1_2 : (⟨S10x1x128, .f32⟩ : BufTy).Contents (Elt F) → (⟨S10x50000x128, .f32⟩ : BufTy).Contents (Elt F)),
    StableHlo.binary main_v140 main_v141 main_v142 (mulf : (⟨S10x50000x128, .f32⟩ : BufTy).Contents (Elt F) → (⟨S10x50000x128, .f32⟩ : BufTy).Contents (Elt F) → (⟨S10x50000x128, .f32⟩ : BufTy).Contents (Elt F)),
    StableHlo.binary main_v142 main_arg10 main_v143 ((fun l r => Host.dotGeneral dot_S10x50000x128_S10x1x128_S10x50000x1_2_2_1_1_0_0 none l r) : (⟨S10x50000x128, .f32⟩ : BufTy).Contents (Elt F) → (⟨S10x1x128, .f32⟩ : BufTy).Contents (Elt F) → (⟨S10x50000x1, .f32⟩ : BufTy).Contents (Elt F)),
    StableHlo.unary main_arg11 main_v144 (broadcastInDim S10x50000x1 ![0, 1, 2] bcast_S10x1x1_S10x50000x1_0_1_2 : (⟨S10x1x1, .f32⟩ : BufTy).Contents (Elt F) → (⟨S10x50000x1, .f32⟩ : BufTy).Contents (Elt F)) ]

theorem ops2_eq {F : FTy → Type} [FloatOps F] : (ops2 (F := F)) = ops2p := rfl

set_option maxRecDepth 65536 in
set_option maxHeartbeats 4000000 in
/-- The first result: the concepts of the fourth layer's output. -/
theorem w2_v118 (W : Valuation τ sig (Elt Ideal)) (a1 : IVec S2x800000 32) (h : FVec Ideal S50000x128 .f32) (W8 : FVec Ideal S128x128 .f32)
    (h6 : (W (main_v6 : DevRef τ sig) : IVec S850000 32) = RValue.ends1 a1)
    (h96 : (W (main_v96 : DevRef τ sig) : FVec Ideal S850000x128 .f32) = msg h a1 W8) :
    (after (ops2 (F := Ideal)) W (main_v118 : DevRef τ sig) : FVec Ideal S50000x128 .f32)
      = RValue.concepts (RValue.layer h a1 W8 (W (main_arg9 : DevRef τ sig))) := by
  rw [ops2_eq]
  after_results_simp
  simp only [h6, h96]
  simp only [msg, RValue.out0, RValue.out1, RValue.h4, RValue.layer, RValue.conv, RValue.leakyR, RValue.concepts, RValue.rsoft, RValue.rexp, RValue.rmax, RValue.rspread, RValue.normRows, RValue.norm, RValue.dis, RValue.deg, RValue.wrap, RValue.col, RValue.ends0, RValue.ends1, RValue.loops, RValue.gam, RValue.gmax, RValue.spread, RValue.gexp, RValue.gsoft, RValue.alphaNorm, RValue.scores, RValue.lmax, RValue.lspread, RValue.lshift, RValue.lsm]
  first | done | rfl | fail "the composed term is not the stated one"

set_option maxRecDepth 65536 in
set_option maxHeartbeats 4000000 in
/-- The class scores before the class bias. -/
theorem w2_v143 (W : Valuation τ sig (Elt Ideal)) (a1 : IVec S2x800000 32) (h : FVec Ideal S50000x128 .f32) (W8 : FVec Ideal S128x128 .f32)
    (h6 : (W (main_v6 : DevRef τ sig) : IVec S850000 32) = RValue.ends1 a1)
    (h96 : (W (main_v96 : DevRef τ sig) : FVec Ideal S850000x128 .f32) = msg h a1 W8) :
    (after (ops2 (F := Ideal)) W (main_v143 : DevRef τ sig) : FVec Ideal S10x50000x1 .f32)
      = scoreDot (RValue.concepts (RValue.layer h a1 W8 (W (main_arg9 : DevRef τ sig)))) (W (main_arg10 : DevRef τ sig)) := by
  rw [ops2_eq]
  after_results_simp
  simp only [h6, h96]
  simp only [msg, scoreDot, RValue.out0, RValue.out1, RValue.h4, RValue.layer, RValue.conv, RValue.leakyR, RValue.concepts, RValue.rsoft, RValue.rexp, RValue.rmax, RValue.rspread, RValue.normRows, RValue.norm, RValue.dis, RValue.deg, RValue.wrap, RValue.col, RValue.ends0, RValue.ends1, RValue.loops, RValue.gam, RValue.gmax, RValue.spread, RValue.gexp, RValue.gsoft, RValue.alphaNorm, RValue.scores, RValue.lmax, RValue.lspread, RValue.lshift, RValue.lsm]
  first | done | rfl | fail "the composed term is not the stated one"

set_option maxRecDepth 65536 in
set_option maxHeartbeats 4000000 in
/-- The class bias, spread. -/
theorem w2_v144 (W : Valuation τ sig (Elt Ideal)) :
    (after (ops2 (F := Ideal)) W (main_v144 : DevRef τ sig) : FVec Ideal S10x50000x1 .f32) = scoreBias (W (main_arg11 : DevRef τ sig)) := by
  rw [ops2_eq]
  after_results_simp
  simp only [scoreBias, RValue.out0, RValue.out1, RValue.h4, RValue.layer, RValue.conv, RValue.leakyR, RValue.concepts, RValue.rsoft, RValue.rexp, RValue.rmax, RValue.rspread, RValue.normRows, RValue.norm, RValue.dis, RValue.deg, RValue.wrap, RValue.col, RValue.ends0, RValue.ends1, RValue.loops, RValue.gam, RValue.gmax, RValue.spread, RValue.gexp, RValue.gsoft, RValue.alphaNorm, RValue.scores, RValue.lmax, RValue.lspread, RValue.lshift, RValue.lsm]
  first | done | rfl | fail "the composed term is not the stated one"

end Cert.ReferenceIdeal.RefVal

end
-- ==== Proof.RefVal3.lean ====
/-
  Statements 181 … 185 of the reference's @main read at the second result buffer, from any contents: the class
  scores' two summands added and transposed, through the log-softmax over the nodes, reshaped to [50000, 10].
  These statements write neither the first result buffer nor any buffer read before them.
-/
import proofs.«170301_j10299331576451_2_alg».proof.Proof.RefValLib
import proofs.«170301_j10299331576451_2_alg».proof.Proof.RefOps3

noncomputable section

namespace Cert.ReferenceIdeal.RefVal

open Cert.ReferenceIdeal Cert.ReferenceIdeal.Gen Cert.ReferenceIdeal.RefRun Idealize.ShloMosaic Idealize.ShloMosaic.TcCoe Idealize.SL.Sem Idealize.ShloMosaic.StableHlo

set_option maxRecDepth 65536 in
set_option maxHeartbeats 4000000 in
/-- The second result from the two summands of the class scores. -/
theorem w3_v148 (W : Valuation τ sig (Elt Ideal)) :
    (after (ops3 (F := Ideal)) W (main_v148 : DevRef τ sig) : FVec Ideal S50000x10 .f32)
      = shapeCast S50000x10 (RValue.lsm (transpose S50000x10x1 [1, 0, 2]
          (addf (W (main_v143 : DevRef τ sig)) (W (main_v144 : DevRef τ sig))) transposes_S10x50000x1_S50000x10x1_1_0_2)) shapeCasts_S50000x10x1_S50000x10 := by
  after_results_simp
  try simp only [ofBuf_toBuf]
  try simp only [TRef.toBuf, TRef.ofBuf, cast_eq]
  simp only [RValue.out0, RValue.out1, RValue.h4, RValue.layer, RValue.conv, RValue.leakyR, RValue.concepts, RValue.rsoft, RValue.rexp, RValue.rmax, RValue.rspread, RValue.normRows, RValue.norm, RValue.dis, RValue.deg, RValue.wrap, RValue.col, RValue.ends0, RValue.ends1, RValue.loops, RValue.gam, RValue.gmax, RValue.spread, RValue.gexp, RValue.gsoft, RValue.alphaNorm, RValue.scores, RValue.lmax, RValue.lspread, RValue.lshift, RValue.lsm]
  first | rfl | fail "the composed term is not the stated one"

/-- The last statements leave the first result buffer as they find it. -/
theorem ops3_keep_v118 (W : Valuation τ sig (Elt Ideal)) :
    after (ops3 (F := Ideal)) W (Proc.devRef .tc main_v118) = W (Proc.devRef .tc main_v118) :=
  after_of_forall_not_mem (b := Proc.devRef .tc main_v118) _ _ (List.forall_iff_forall_mem.mp (by
    simp only [List.Forall, nullary_writes, unary_writes, binary_writes, ternary_writes, reshape_writes, Finset.mem_singleton]
    repeat' apply And.intro
    all_goals exact devRef_ne_of_ne (by decide)))

end Cert.ReferenceIdeal.RefVal

end
-- ==== Proof.RefVal.lean ====
/-
  The two results of the idealized reference's run as pure functions of its twelve arguments. The fold of
  @main's operations is the four windows' folds in turn. Read window by window: the first leaves the edge ends,
  the per-edge weights and the first layer's two summands; the second, from those, the fourth layer's messages
  after three whole layers; the third, from those, the concepts — the first result — and the two summands of
  the class scores; the last, from those, the log-probabilities over the nodes — the second result — and does
  not touch the first. The arguments are never written, so each window reads them as the launch left them.
-/
import proofs.«170301_j10299331576451_2_alg».proof.Proof.RefRun
import proofs.«170301_j10299331576451_2_alg».proof.Proof.RefVal0
import proofs.«170301_j10299331576451_2_alg».proof.Proof.RefVal1
import proofs.«170301_j10299331576451_2_alg».proof.Proof.RefVal2
import proofs.«170301_j10299331576451_2_alg».proof.Proof.RefVal3

noncomputable section

namespace Cert.ReferenceIdeal.RefVal

open Cert.ReferenceIdeal Cert.ReferenceIdeal.Gen Cert.ReferenceIdeal.RefRun Idealize.ShloMosaic Idealize.ShloMosaic.TcCoe Idealize.SL.Sem Idealize.ShloMosaic.StableHlo

/-- After the first two windows the destinations' buffer holds the destinations followed by the self-loops. -/
theorem dest (V : Valuation τ sig (Elt Ideal)) :
    (after (ops1 (F := Ideal)) (after (ops0 (F := Ideal)) V) (main_v6 : DevRef τ sig) : IVec S850000 32) = RValue.ends1 (V (main_arg1 : DevRef τ sig)) :=
  (ops1_keep_v6 _).trans (w0_v6 V)

/-- After the first two windows the fourth layer's messages are those of the third layer's output. -/
theorem msgs4 (V : Valuation τ sig (Elt Ideal)) :
    (after (ops1 (F := Ideal)) (after (ops0 (F := Ideal)) V) (main_v96 : DevRef τ sig) : FVec Ideal S850000x128 .f32)
      = msg (RValue.layer (RValue.layer (RValue.layer (V (main_arg0 : DevRef τ sig)) (V (main_arg1 : DevRef τ sig)) (V (main_arg2 : DevRef τ sig)) (V (main_arg3 : DevRef τ sig))) (V (main_arg1 : DevRef τ sig)) (V (main_arg4 : DevRef τ sig)) (V (main_arg5 : DevRef τ sig))) (V (main_arg1 : DevRef τ sig)) (V (main_arg6 : DevRef τ sig)) (V (main_arg7 : DevRef τ sig))) (V (main_arg1 : DevRef τ sig)) (V (main_arg8 : DevRef τ sig)) := by
  rw [w1_v96 (after (ops0 (F := Ideal)) V) (V (main_arg1 : DevRef τ sig)) (w0_v3 V) (w0_v6 V) (w0_v31 V), w0_v45, w0_v47, ← conv_eq,
    ops0_arg4, ops0_arg5, ops0_arg6, ops0_arg7, ops0_arg8]
  first | done | rfl

/-- The first result buffer after the run's fold: the concepts of the four layers' output. -/
theorem res0 (V : Valuation τ sig (Elt Ideal)) :
    (after (ops (F := Ideal)) V (main_v118 : DevRef τ sig) : FVec Ideal S50000x128 .f32)
      = RValue.out0 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) := by
  rw [StableHlo.after_append, StableHlo.after_append, StableHlo.after_append, ops3_keep_v118,
    w2_v118 _ (V (main_arg1 : DevRef τ sig)) _ (V (main_arg8 : DevRef τ sig)) (dest V) (msgs4 V), ops1_arg9, ops0_arg9]
  first | done | rfl

/-- The second result buffer after the run's fold: the log-probabilities over the nodes, as [50000, 10]. -/
theorem res1 (V : Valuation τ sig (Elt Ideal)) :
    (after (ops (F := Ideal)) V (main_v148 : DevRef τ sig) : FVec Ideal S50000x10 .f32)
      = RValue.out1 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [StableHlo.after_append, StableHlo.after_append, StableHlo.after_append, w3_v148,
    w2_v143 _ (V (main_arg1 : DevRef τ sig)) _ (V (main_arg8 : DevRef τ sig)) (dest V) (msgs4 V), w2_v144,
    ops1_arg9, ops0_arg9, ops1_arg10, ops0_arg10, ops1_arg11, ops0_arg11, ← scores_eq]
  first | done | rfl

/-- At the ideal instance, on every device, from any memory with zero counters: every weakly fair execution of @main
    terminates with the first result at the concepts, the second at the log-probabilities, both as functions of the
    launch contents of the arguments, and the twelve arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v118) = RValue.out0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v148) = RValue.out1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c =>
    ⟨(h c main_v118).trans (res0 _), (h c main_v148).trans (res1 _),
     (h c main_arg0).trans (arg0_eq _),
     (h c main_arg1).trans (arg1_eq _),
     (h c main_arg2).trans (arg2_eq _),
     (h c main_arg3).trans (arg3_eq _),
     (h c main_arg4).trans (arg4_eq _),
     (h c main_arg5).trans (arg5_eq _),
     (h c main_arg6).trans (arg6_eq _),
     (h c main_arg7).trans (arg7_eq _),
     (h c main_arg8).trans (arg8_eq _),
     (h c main_arg9).trans (arg9_eq _),
     (h c main_arg10).trans (arg10_eq _),
     (h c main_arg11).trans (arg11_eq _)⟩)
    (run_main m ρ)

end Cert.ReferenceIdeal.RefVal

end
-- ==== Proof.LibEdgeReads.lean ====
/-
  GENERAL LEMMAS: the three host operations of a message-passing layer, READ AT AN INDEX.

  A layer that sends a message along every edge of a graph with N nodes and E edges, features of width C, reads its
  node arrays through a column  idx : [E, 1]  of node numbers (one per edge) and writes its messages back through such
  a column. For ANY extents N, E, C, any index width w and any element type:

  * ROW GATHER  h[idx]  of  h : [N, C]  (stablehlo.gather with offset_dims [1], collapsed_slice_dims [0],
    start_index_map [0], index_vector_dim 1, slice_sizes [1, C]): result entry (e, f) is h at row
    min (idx[e, 0] read signed).toNat (N − 1)  and column f. On operand axis 0 the slice has size 1, so the start
    index is clamped into [0, N − 1], and the axis is collapsed, so nothing is added to it; operand axis 1 is not in
    the start index map, so its start is 0, and it is the one offset axis, read by result axis 1.
  * ELEMENT GATHER  v[idx]  of  v : [N]  (offset_dims [], collapsed_slice_dims [0], start_index_map [0],
    index_vector_dim 1, slice_sizes [1]): result entry e is v at that same clamped row.
  * ROW SCATTER into an [N, C] operand from updates [E, C] (update_window_dims [1], inserted_window_dims [0],
    scatter_dims_to_operand_dims [0], index_vector_dim 1): when update index j lands on operand index i, then
    idx[j 0, 0] read signed IS i 0 — a scatter index is not clamped; an update whose row leaves the operand is
    dropped — and the columns agree, j 1 = i 1: operand axis 0 is inserted (window coordinate 0) and is the axis the
    scatter index names; operand axis 1 is the one window axis (start 0), read by update axis 1.

  In each case the start-indices index the operation reads for edge e is (e, 0): result (update) axis 0 is the one
  batch (scatter) axis and reads start-indices axis 0; axis 1 of the start indices is the index vector's, of size 1.
  Nothing here enumerates an axis: every step is over the variables N, E, C, coordinates by the axis literal.
-/
import Idealize.ShloMosaic.Lib.ValueIdx

noncomputable section

namespace Cert.LibEdgeReads

open Idealize.ShloMosaic Idealize.ShloMosaic.ValueIdx

/-! ## Row gather `h[idx]` of an `[N, C]` operand at an `[E, 1]` column of start indices -/

section RowGather
variable {α : Type}

/-- The dimension numbers of a row gather: operand `[N, C]`, start indices `[E, 1]`, result `[E, C]`; their
    conditions `wf` are decided on a program's literal shapes. -/
abbrev rowGatherDims (N E C : ℕ)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, f)`: the operand at row `idx[e, 0]`, read signed and clamped into `[0, N − 1]`, and
    column `f`. -/
theorem gather_rows_apply {N E C w : ℕ} (hN : 0 < N)
    (wf : GatherDims.WF ⟨2, ![N, C]⟩ ⟨2, ![E, 1]⟩ ⟨2, ![E, C]⟩ [1] [0] [] [0] [] 1 ![1, C])
    (d : GatherDims ⟨2, ![N, C]⟩ ⟨2, ![E, 1]⟩ ⟨2, ![E, C]⟩) (hd : d = rowGatherDims N E C wf)
    (x : (⟨2, ![N, C]⟩ : Shape).Idx → α) (idx : IVec ⟨2, ![E, 1]⟩ w) (e : Fin E) (f : Fin C) :
    Host.gather d x idx (ix2 e f)
      = x (ix2 ⟨min (idx (ix2 e (0 : Fin 1))).toInt.toNat (N - 1), by omega⟩ f) := by
  subst hd
  unfold Host.gather
  congr 1
  funext a
  refine Fin.ext ?_
  match a with
  | ⟨0, _⟩ =>
    -- axis 0: the clamped start index; no batching coordinate, and no offset (the axis is collapsed)
    show (rowGatherDims N E C wf).start (ix2 e f) idx 0 + (rowGatherDims N E C wf).batchCoord (ix2 e f) 0
      + (rowGatherDims N E C wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e f) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- axis 1: start 0 (not in the start index map), no batching coordinate; the offset is result coordinate 1
    show (rowGatherDims N E C wf).start (ix2 e f) idx 1 + (rowGatherDims N E C wf).batchCoord (ix2 e f) 1
      + (rowGatherDims N E C wf).offCoord (ix2 e f) 1 = f.val
    rw [GatherDims.batchCoord_eq_zero _ _ _ List.not_mem_nil]
    have hst : (rowGatherDims N E C wf).start (ix2 e f) idx 1 = 0 := by
      unfold GatherDims.start
      rw [dif_neg (fun h => absurd (List.mem_singleton.mp h) (by decide : (1 : Fin 2) ≠ 0))]
    rw [hst]
    simp only [Nat.add_zero, Nat.zero_add]
    have hk : (1 : Fin 2) ∈ (rowGatherDims N E C wf).sKept :=
      (GatherDims.mem_sKept _ _).mpr ⟨fun h => absurd (List.mem_singleton.mp h) (by decide : (1 : Fin 2) ≠ 0), List.not_mem_nil⟩
    unfold GatherDims.offCoord
    rw [dif_pos hk]
    rfl

end RowGather

/-! ## Element gather `v[idx]` of an `[N]` operand at an `[E, 1]` column of start indices -/

section EltGather
variable {α : Type}

/-- The dimension numbers of an element gather: operand `[N]`, start indices `[E, 1]`, result `[E]`. -/
abbrev eltGatherDims (N E : ℕ)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE ELEMENT GATHER READ AT `e`: the operand at `idx[e, 0]`, read signed and clamped into `[0, N − 1]`. -/
theorem gather_elts_apply {N E w : ℕ} (hN : 0 < N)
    (wf : GatherDims.WF ⟨1, ![N]⟩ ⟨2, ![E, 1]⟩ ⟨1, ![E]⟩ [] [0] [] [0] [] 1 ![1])
    (d : GatherDims ⟨1, ![N]⟩ ⟨2, ![E, 1]⟩ ⟨1, ![E]⟩) (hd : d = eltGatherDims N E wf)
    (v : (⟨1, ![N]⟩ : Shape).Idx → α) (idx : IVec ⟨2, ![E, 1]⟩ w) (e : Fin E) :
    Host.gather d v idx (ix1 e)
      = v (ix1 ⟨min (idx (ix2 e (0 : Fin 1))).toInt.toNat (N - 1), by omega⟩) := by
  subst hd
  unfold Host.gather
  congr 1
  funext a
  obtain rfl : a = 0 := Subsingleton.elim _ _
  refine Fin.ext ?_
  show (eltGatherDims N E wf).start (ix1 e) idx 0 + (eltGatherDims N E wf).batchCoord (ix1 e) 0
    + (eltGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (eltGatherDims N E wf).startIndexMap from List.mem_singleton.mpr rfl)]
  have hsi : (eltGatherDims N E wf).siIdx (ix1 e) ⟨List.idxOf (0 : Fin 1) (eltGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end EltGather

/-! ## Row scatter into an `[N, C]` operand from `[E, C]` updates at an `[E, 1]` column of scatter indices -/

section RowScatter

/-- The dimension numbers of a row scatter: operand `[N, C]`, scatter indices `[E, 1]`, updates `[E, C]`. -/
abbrev rowScatterDims (N E C : ℕ)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- WHERE AN UPDATE LANDS: if update index `j` lands on operand index `i`, its scatter index `idx[j 0, 0]`, read
    signed (not clamped), is the row `i 0`, and the columns agree. -/
theorem scatter_rows_lands {N E C w : ℕ}
    (wf : ScatterDims.WF ⟨2, ![N, C]⟩ ⟨2, ![E, 1]⟩ ⟨2, ![E, C]⟩ [1] [0] [0] 1)
    (d : ScatterDims ⟨2, ![N, C]⟩ ⟨2, ![E, 1]⟩ ⟨2, ![E, C]⟩) (hd : d = rowScatterDims N E C wf)
    (idx : IVec ⟨2, ![E, 1]⟩ w) (j : (⟨2, ![E, C]⟩ : Shape).Idx) (i : (⟨2, ![N, C]⟩ : Shape).Idx)
    (h : d.resultIdx? j idx = some i) :
    (idx (ix2 (j 0) (0 : Fin 1))).toInt = ((i 0).val : ℤ) ∧ (j 1).val = (i 1).val := by
  subst hd
  have h0 : (0 : Fin 2) ∈ (rowScatterDims N E C wf).scatterDimsToOperandDims := List.mem_singleton.mpr rfl
  have hst0 : (rowScatterDims N E C wf).start j idx 0 = (idx (ix2 (j 0) (0 : Fin 1))).toInt := by
    unfold ScatterDims.start
    rw [dif_pos h0]
    have hsi : (rowScatterDims N E C wf).siIdx j ⟨List.idxOf (0 : Fin 2) (rowScatterDims N E C wf).scatterDimsToOperandDims,
        List.idxOf_lt_length_iff.2 h0⟩ = ix2 (j 0) (0 : Fin 1) := by
      funext b; refine Fin.ext ?_
      match b with
      | ⟨0, _⟩ => rfl
      | ⟨1, _⟩ => rfl
    rw [hsi]
    rfl
  have hst1 : (rowScatterDims N E C wf).start j idx 1 = 0 := by
    unfold ScatterDims.start
    rw [dif_neg (fun hm => absurd (List.mem_singleton.mp hm) (by decide : (1 : Fin 2) ≠ 0))]
  have hw0 : (rowScatterDims N E C wf).window j 0 = 0 := by
    unfold ScatterDims.window
    rw [dif_neg (fun hm => by
      have := (List.mem_filter.mp hm).2
      simp at this)]
  have hw1 : (rowScatterDims N E C wf).window j 1 = (j 1).val := by
    unfold ScatterDims.window
    rw [dif_pos (show (1 : Fin 2) ∈ (rowScatterDims N E C wf).sKept from
      List.mem_filter.mpr ⟨List.mem_finRange _, by simp⟩)]
    rfl
  -- landing inside the operand: i is start + window on each axis, a natural number there
  unfold ScatterDims.resultIdx? at h
  split at h
  · rename_i hin
    have hi := Option.some.inj h
    subst hi
    have a0 := hin 0
    have a1 := hin 1
    rw [hst0, hw0] at a0
    constructor
    · show _ = (((rowScatterDims N E C wf).start j idx 0 + ((rowScatterDims N E C wf).window j 0 : ℕ)).toNat : ℤ)
      rw [hst0, hw0]
      omega
    · show _ = ((rowScatterDims N E C wf).start j idx 1 + ((rowScatterDims N E C wf).window j 1 : ℕ)).toNat
      rw [hst1, hw1]
      omega
  · exact absurd h (by simp)

end RowScatter

end Cert.LibEdgeReads

end
-- ==== Proof.LibScaledAggregate.lean ====
/-
  GENERAL LEMMA: a per-node scaling of a message-passing layer's aggregation MOVES ONTO THE EDGES.

  In a layer over a graph with N nodes and E edges, features of width C, every edge e carries the row of its source
  node  src e  to its destination node  dst e, where the rows that arrive are added up: a row gather  H[src]  followed
  by an accumulating row scatter, from zero, through the column  dst. Let  s : [N]  be a per-node factor. Scaling the
  rows per SOURCE node before they travel and the sum per DESTINATION node after it,

      s p · Σ_{e : dst e = p}  H[src e, q] · s[src e],

  is the same as scattering the unscaled rows, each multiplied by its edge's weight  s[src e] · s[dst e]:

      Σ_{e : dst e = p}  H[src e, q] · (s[src e] · s[dst e]).

  Here  s[dst e]  is itself gathered, through a second column  dwrap  that agrees with the scatter's column  dcol
  wherever the scatter's index is in range [0, N) — which is every edge that contributes: a scatter index is not
  clamped, an update whose row leaves the operand is dropped, so for a contributing edge  dcol e = p  exactly, the
  gather of  s  at  dwrap e = dcol e  is not clamped either, and it reads  s p.

  On the extended reals this needs only that every  s i  is a nonnegative real: such a factor distributes over any
  finite sum, infinite terms included (by induction on the sum, from the two-term law); multiplication there is
  commutative and associative. No finiteness of  H  is assumed. Any extents N, E, C, any index width w.
-/
import proofs.«170301_j10299331576451_2_alg».proof.Proof.LibEdgeReads

noncomputable section

namespace Cert.LibScaledAggregate

open Idealize.ShloMosaic Idealize.ShloMosaic.ValueIdx Cert.LibEdgeReads
open scoped BigOperators

/-- A nonnegative real factor distributes over any finite sum of extended reals (infinite terms included). -/
theorem mul_sum_of_nonneg_of_ne_top {ι : Type} (c : EReal) (hc : 0 ≤ c) (hc' : c ≠ ⊤) (S : Finset ι) (f : ι → EReal) :
    c * ∑ j ∈ S, f j = ∑ j ∈ S, c * f j := by
  classical
  induction S using Finset.induction_on with
  | empty => simp
  | insert a S ha ih =>
    rw [Finset.sum_insert ha, Finset.sum_insert ha, EReal.left_distrib_of_nonneg_of_ne_top hc hc', ih]

/-- SCALING OUT OF THE AGGREGATION: the destination's factor times the scattered sum of source-scaled gathered rows is
    the scattered sum of the gathered rows each times its edge weight `s[src e] · s[dwrap e]`, for a nonnegative real
    factor `s` and a column `dwrap` that agrees with the scatter's column wherever that one is in range. -/
theorem aggregate_scale_out {N E C w : ℕ} (hN : 0 < N)
    (wfS wfS' : ScatterDims.WF ⟨2, ![N, C]⟩ ⟨2, ![E, 1]⟩ ⟨2, ![E, C]⟩ [1] [0] [0] 1)
    (wfG wfG' : GatherDims.WF ⟨2, ![N, C]⟩ ⟨2, ![E, 1]⟩ ⟨2, ![E, C]⟩ [1] [0] [] [0] [] 1 ![1, C])
    (wfg : GatherDims.WF ⟨1, ![N]⟩ ⟨2, ![E, 1]⟩ ⟨1, ![E]⟩ [] [0] [] [0] [] 1 ![1])
    (dS dS' : ScatterDims ⟨2, ![N, C]⟩ ⟨2, ![E, 1]⟩ ⟨2, ![E, C]⟩)
    (hS : dS = rowScatterDims N E C wfS) (hS' : dS' = rowScatterDims N E C wfS')
    (dG dG' : GatherDims ⟨2, ![N, C]⟩ ⟨2, ![E, 1]⟩ ⟨2, ![E, C]⟩)
    (hG : dG = rowGatherDims N E C wfG) (hG' : dG' = rowGatherDims N E C wfG')
    (dg : GatherDims ⟨1, ![N]⟩ ⟨2, ![E, 1]⟩ ⟨1, ![E]⟩) (hg : dg = eltGatherDims N E wfg)
    (H : (⟨2, ![N, C]⟩ : Shape).Idx → EReal) (s : (⟨1, ![N]⟩ : Shape).Idx → EReal)
    (hs : ∀ i, 0 ≤ s i ∧ s i ≠ ⊤)
    (z z' : (⟨2, ![N, C]⟩ : Shape).Idx → EReal) (hz : ∀ i, z i = 0) (hz' : ∀ i, z' i = 0)
    (src dcol dwrap : IVec ⟨2, ![E, 1]⟩ w)
    (hwrap : ∀ e : Fin E, 0 ≤ (dcol (ix2 e (0 : Fin 1))).toInt → (dcol (ix2 e (0 : Fin 1))).toInt < (N : ℤ) →
      dwrap (ix2 e (0 : Fin 1)) = dcol (ix2 e (0 : Fin 1)))
    (p : Fin N) (q : Fin C) :
    s (ix1 p) * Ideal.hostScatterAdd dS z dcol (Host.gather dG (fun i => H i * s (ix1 (i 0))) src) (ix2 p q)
      = Ideal.hostScatterAdd dS' z' dcol (fun j => Host.gather dG' H src j
          * (Host.gather dg s src (ix1 (j 0)) * Host.gather dg s dwrap (ix1 (j 0)))) (ix2 p q) := by
  subst hS hS' hG hG' hg
  -- both sides: zero plus the sum over the updates that land on (p, q); the factor goes inside the sum
  unfold Ideal.hostScatterAdd
  rw [hz, hz', zero_add, zero_add, mul_sum_of_nonneg_of_ne_top _ (hs _).1 (hs _).2]
  refine Finset.sum_congr rfl ?_
  intro j hj
  -- an update that lands on row p has scatter index exactly p: in range, so the second column agrees there
  obtain ⟨hrow, -⟩ := scatter_rows_lands wfS _ rfl dcol j (ix2 p q) (Finset.mem_filter.mp hj).2
  have hrow' : (dcol (ix2 (j 0) (0 : Fin 1))).toInt = (p.val : ℤ) := hrow
  have hp := p.isLt
  have hw := hwrap (j 0) (by rw [hrow']; omega) (by rw [hrow']; omega)
  -- the two row gathers and the two element gathers, read at the update's index
  have g1 := (congrArg (Host.gather (rowGatherDims N E C wfG) (fun i => H i * s (ix1 (i 0))) src) (eq_ix2 j)).trans
    (gather_rows_apply hN wfG _ rfl (fun i => H i * s (ix1 (i 0))) src (j 0) (j 1))
  have g2 := (congrArg (Host.gather (rowGatherDims N E C wfG') H src) (eq_ix2 j)).trans
    (gather_rows_apply hN wfG' _ rfl H src (j 0) (j 1))
  have g3 := gather_elts_apply hN wfg _ rfl s src (j 0)
  have g4 := gather_elts_apply hN wfg _ rfl s dwrap (j 0)
  -- the clamped row of the second column is p itself
  have hrowp : (⟨min (dwrap (ix2 (j 0) (0 : Fin 1))).toInt.toNat (N - 1), by omega⟩ : Fin N) = p := by
    refine Fin.ext ?_
    show min (dwrap (ix2 (j 0) (0 : Fin 1))).toInt.toNat (N - 1) = p.val
    rw [hw, hrow']
    omega
  rw [hrowp] at g4
  beta_reduce
  rw [g1, g2, g3, g4]
  show s (ix1 p) * (H _ * s _) = H _ * (s _ * s (ix1 p))
  rw [mul_comm (s (ix1 p)), mul_assoc]
  rfl

end Cert.LibScaledAggregate

end
-- ==== Proof.LibHostAggregate.lean ====
/-
  GENERAL LEMMA: a per-node scaling of a message-passing layer's aggregation moves onto the edges, with both
  aggregations spelt as the host's accumulating scatter `Host.scatterAdd`.

  In a layer over a graph with N nodes and E edges, features of width C, a row gather `H[src]` is followed by an
  accumulating row scatter, from zero, through the destination column. For a per-node factor `s` that is a nonnegative
  real,

      s p · Σ_{e : dst e = p}  (H · s)[src e, q]   =   Σ_{e : dst e = p}  H[src e, q] · (s[src e] · s[dst e]),

  where the right side gathers `s` at the destinations through a second column that agrees with the scatter's wherever
  that one is in range [0, N). This is LibScaledAggregate's `aggregate_scale_out` with the two sums written as a
  printed host program writes them, `Host.scatterAdd d x idx upd`, and not as the extended reals' `Ideal.hostScatterAdd`.
  The two spellings are the same function by definition; the point of stating the law in this one, over VARIABLE
  extents N, E, C and index width w, is that it then applies to a program's scatter at literal extents by matching
  the statement as written, with nothing to unfold at those extents.
-/
import proofs.«170301_j10299331576451_2_alg».proof.Proof.LibScaledAggregate

noncomputable section

namespace Cert.LibHostAggregate

open Idealize.ShloMosaic Idealize.ShloMosaic.ValueIdx Cert.LibEdgeReads Cert.LibScaledAggregate

/-- The aggregation law with both aggregations spelt as the host's accumulating scatter: the destination's factor
    times the scattered sum of source-scaled gathered rows is the scattered sum of the gathered rows each times its
    edge's weight, for a nonnegative real per-node factor and a second destination column that agrees with the
    scatter's wherever that one is in range. -/
theorem layer_law {N E C w : ℕ} (hN : 0 < N)
    (wfS wfS' : ScatterDims.WF ⟨2, ![N, C]⟩ ⟨2, ![E, 1]⟩ ⟨2, ![E, C]⟩ [1] [0] [0] 1)
    (wfG wfG' : GatherDims.WF ⟨2, ![N, C]⟩ ⟨2, ![E, 1]⟩ ⟨2, ![E, C]⟩ [1] [0] [] [0] [] 1 ![1, C])
    (wfg : GatherDims.WF ⟨1, ![N]⟩ ⟨2, ![E, 1]⟩ ⟨1, ![E]⟩ [] [0] [] [0] [] 1 ![1])
    (dS dS' : ScatterDims ⟨2, ![N, C]⟩ ⟨2, ![E, 1]⟩ ⟨2, ![E, C]⟩)
    (hS : dS = rowScatterDims N E C wfS) (hS' : dS' = rowScatterDims N E C wfS')
    (dG dG' : GatherDims ⟨2, ![N, C]⟩ ⟨2, ![E, 1]⟩ ⟨2, ![E, C]⟩)
    (hG : dG = rowGatherDims N E C wfG) (hG' : dG' = rowGatherDims N E C wfG')
    (dg : GatherDims ⟨1, ![N]⟩ ⟨2, ![E, 1]⟩ ⟨1, ![E]⟩) (hg : dg = eltGatherDims N E wfg)
    (H : FVec Ideal ⟨2, ![N, C]⟩ .f32) (s : FVec Ideal ⟨1, ![N]⟩ .f32)
    (hs : ∀ i, 0 ≤ s i ∧ s i ≠ ⊤)
    (z z' : FVec Ideal ⟨2, ![N, C]⟩ .f32) (hz : ∀ i, z i = 0) (hz' : ∀ i, z' i = 0)
    (src dcol dwrap : IVec ⟨2, ![E, 1]⟩ w)
    (hwrap : ∀ e : Fin E, 0 ≤ (dcol (ix2 e (0 : Fin 1))).toInt → (dcol (ix2 e (0 : Fin 1))).toInt < (N : ℤ) →
      dwrap (ix2 e (0 : Fin 1)) = dcol (ix2 e (0 : Fin 1)))
    (p : Fin N) (q : Fin C) :
    s (ix1 p) * Host.scatterAdd (F := Ideal) dS z dcol (Host.gather dG (fun i => H i * s (ix1 (i 0))) src) (ix2 p q)
      = Host.scatterAdd (F := Ideal) dS' z' dcol (fun j => Host.gather dG' H src j
          * (Host.gather dg s src (ix1 (j 0)) * Host.gather dg s dwrap (ix1 (j 0)))) (ix2 p q) :=
  aggregate_scale_out hN wfS wfS' wfG wfG' wfg dS dS' hS hS' dG dG' hG hG' dg hg H s hs z z' hz hz' src dcol dwrap hwrap p q

end Cert.LibHostAggregate

end
-- ==== Proof.LibAxisReads.lean ====
/-
  Broadcasts of scalars, vectors, rows and columns, and sums over either axis of a matrix, read at an index on the
  extended reals, for any extents.

  * A scalar (a rank-0 array) broadcast to any shape reads, at every index, its one entry; a constant scalar reads the
    value its word denotes.
  * A vector [a] made a column [a, 1] reads its entry of the row; a column [a, 1] spread over c columns reads the
    column's entry of the row. A vector [b] made a row [1, b] reads its entry of the column; a row [1, b] spread over
    a rows reads the row's entry of the column. (The host's `broadcast_in_dim` spellings: what `jnp.mean(axis=0)`,
    `jnp.var`, a bias add and a softmax's keepdims print as.)
  * A host sum of an [a, b] matrix over its first axis reads, at column e, the initial value plus the sum of the
    column's entries; over its last axis, at row i, the initial value plus the sum of the row's entries: the index
    with the summed coordinate put back is (r, e), respectively (i, f).
  * A vector sum (`multi_reduction <add>`) over the LEADING axis of an [a, b] matrix reads, at column e, the sum of
    that column (the accumulator word being the sum's neutral element, no initial term appears).
-/
import Idealize.ShloMosaic.Lib.ValueIdx
import Idealize.ShloMosaic.Lib.Pipeline.Value
import Idealize.ShloMosaic.PureOps.Ideal.Laws

noncomputable section

open scoped BigOperators

namespace Cert.LibAxisReads

open Idealize.ShloMosaic Idealize.ShloMosaic.ValueIdx

variable {α : Type}

/-- A rank-0 array broadcast to any shape reads its one entry everywhere. -/
theorem scalar_broadcast_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 (fun a => a.elim0)

/-- A constant scalar broadcast to any shape reads, at every index, the value the constant's word denotes. -/
theorem const_broadcast_apply {t : Shape} {φ : FTy} (dims : Fin 0 → Fin t.rank) (h : (⟨0, ![]⟩ : Shape).BroadcastsInDim t dims)
    (b : BitVec φ.bits) (j : t.Idx) :
    broadcastInDim t dims h (constant (F := Ideal) ⟨0, ![]⟩ φ b) j = Ideal.ofBits φ b :=
  scalar_broadcast_apply dims h _ j

/-- A vector [a] made a column [a, 1] reads, at (r, u), the vector at r. -/
theorem vec_column_apply {a : ℕ} (v : (⟨1, ![a]⟩ : Shape).Idx → α)
    (h : (⟨1, ![a]⟩ : Shape).BroadcastsInDim ⟨2, ![a, 1]⟩ ![0]) (r : Fin a) (u : Fin 1) :
    broadcastInDim ⟨2, ![a, 1]⟩ ![0] h v (ix2 r u) = v (ix1 r) :=
  broadcastInDim_apply ![0] h v (ix2 r u) (ix1 r) (fun d => by
    match d with
    | ⟨0, _⟩ =>
      show r.val = if a = 1 then 0 else r.val
      split
      · have := r.isLt; omega
      · rfl)

/-- A vector [b] made a row [1, b] reads, at (u, e), the vector at e. -/
theorem vec_row_apply {b : ℕ} (v : (⟨1, ![b]⟩ : Shape).Idx → α)
    (h : (⟨1, ![b]⟩ : Shape).BroadcastsInDim ⟨2, ![1, b]⟩ ![1]) (u : Fin 1) (e : Fin b) :
    broadcastInDim ⟨2, ![1, b]⟩ ![1] h v (ix2 u e) = v (ix1 e) :=
  broadcastInDim_apply ![1] h v (ix2 u e) (ix1 e) (fun d => by
    match d with
    | ⟨0, _⟩ =>
      show e.val = if b = 1 then 0 else e.val
      split
      · have := e.isLt; omega
      · rfl)

/-- A row [1, b] spread over a rows reads, at (r, e), the row's entry of column e. -/
theorem row_spread_apply {a b : ℕ} (v : (⟨2, ![1, b]⟩ : Shape).Idx → α)
    (h : (⟨2, ![1, b]⟩ : Shape).BroadcastsInDim ⟨2, ![a, b]⟩ ![0, 1]) (r : Fin a) (e : Fin b) :
    broadcastInDim ⟨2, ![a, b]⟩ ![0, 1] h v (ix2 r e) = v (ix2 (0 : Fin 1) e) :=
  broadcastInDim_apply ![0, 1] h v (ix2 r e) (ix2 (0 : Fin 1) e) (fun d => by
    match d with
    | ⟨0, _⟩ =>
      show (0 : ℕ) = if (1 : ℕ) = 1 then 0 else r.val
      rw [if_pos rfl]
    | ⟨1, _⟩ =>
      show e.val = if b = 1 then 0 else e.val
      split
      · have := e.isLt; omega
      · rfl)

/-- A column [a, 1] spread over c columns reads, at (r, e), the column's entry of row r. -/
theorem column_spread_apply {a c : ℕ} (v : (⟨2, ![a, 1]⟩ : Shape).Idx → α)
    (h : (⟨2, ![a, 1]⟩ : Shape).BroadcastsInDim ⟨2, ![a, c]⟩ ![0, 1]) (r : Fin a) (e : Fin c) :
    broadcastInDim ⟨2, ![a, c]⟩ ![0, 1] h v (ix2 r e) = v (ix2 r (0 : Fin 1)) :=
  broadcastInDim_apply ![0, 1] h v (ix2 r e) (ix2 r (0 : Fin 1)) (fun d => by
    match d with
    | ⟨0, _⟩ =>
      show r.val = if a = 1 then 0 else r.val
      split
      · have := r.isLt; omega
      · rfl
    | ⟨1, _⟩ =>
      show (0 : ℕ) = if (1 : ℕ) = 1 then 0 else e.val
      rw [if_pos rfl])

/-- A host sum over the first axis of an [a, b] matrix reads, at column e, the initial value plus the sum of the
    column's entries. -/
theorem hostReduceAdd_firstAxis_apply {a b : ℕ} {φ : FTy} {u : Shape} (x : FVec Ideal ⟨2, ![a, b]⟩ φ) (init : u.Idx → Ideal φ)
    (h' : (⟨2, ![a, b]⟩ : Shape).ReducesTo [0] ⟨1, ![b]⟩) (h : (⟨2, ![a, b]⟩ : Shape).Reduces [0] ⟨1, ![b]⟩)
    (hu : 0 < u.numel) (e : Fin b) :
    Host.reduceAdd (F := Ideal) x init h' hu (ix1 e) = init (Shape.Idx.first hu) + ∑ r : Fin a, x (ix2 r e) := by
  refine (Ideal.hostReduceAdd_single h' h x (init (Shape.Idx.first hu)) (ix1 e)).trans ?_
  refine congrArg (fun z => init (Shape.Idx.first hu) + z) ?_
  exact Finset.sum_congr rfl fun r _ => congrArg x (funext fun d => Fin.ext (by
    match d with
    | ⟨0, _⟩ => rfl
    | ⟨1, _⟩ => rfl))

/-- A host sum over the last axis of an [a, b] matrix reads, at row i, the initial value plus the sum of the row's
    entries. -/
theorem hostReduceAdd_lastAxis_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduceAdd (F := Ideal) x init h' hu (ix1 i) = init (Shape.Idx.first hu) + ∑ f : Fin b, x (ix2 i f) := by
  refine (Ideal.hostReduceAdd_single h' h x (init (Shape.Idx.first hu)) (ix1 i)).trans ?_
  refine congrArg (fun z => init (Shape.Idx.first hu) + z) ?_
  exact Finset.sum_congr rfl fun f _ => congrArg x (funext fun d => Fin.ext (by
    match d with
    | ⟨0, _⟩ => rfl
    | ⟨1, _⟩ => rfl))

/-- On the extended reals a vector sum over the leading axis of an `[a, b]` matrix reads, at column `e`, the sum of
    that column's entries: the index over `e` with coordinate `r` put back on the summed axis is `(r, e)`. -/
theorem multiReduction_add_firstAxis_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (e : Fin b) :
    multiReduction .add [0] ⟨1, ![b]⟩ src acc h hφ hacc (ix1 e) = ∑ r : Fin a, src (ix2 r e) := by
  refine (Ideal.multiReduction_add_single src acc h hφ hacc (ix1 e)).trans ?_
  exact Finset.sum_congr rfl fun r _ => congrArg src (funext fun d => Fin.ext (by
    match d with
    | ⟨0, _⟩ => rfl
    | ⟨1, _⟩ => rfl))

end Cert.LibAxisReads

end
-- ==== Proof.LibDenseRows.lean ====
/-
  A dense layer x ↦ x·W + b and a ReLU, read row by row on the extended reals, for any extents.

  A matrix [M, N] is taken apart into its rows (`rows v r : Fin N → EReal`). On rows,
  `matvec W x` is the row vector x·W (entry e is ∑ k, x k · W k e), `dense W b x` adds the bias b to it, and
  `relu x` is the entrywise maximum with 0. The lemmas below read the vector operations a kernel body spells such a layer
  with, row by row: a plain [M, K] × [K, N] matrix product into the zero accumulator is `matvec` of each row of the
  left operand; adding a [1, N] row broadcast over the M rows adds that one row to every row; the maximum with the splat
  of the zero word is `relu` of every row; a change of float format is the identity. No finiteness is used anywhere:
  every statement is an equation between the same sums and maxima of extended reals, term by term.
-/
import Idealize.ShloMosaic.Lib.ValueIdx
import Idealize.ShloMosaic.Lib.ValueLayout
import Idealize.ShloMosaic.PureOps.Ideal.Laws
import proofs.«170301_j10299331576451_2_alg».proof.Proof.LibPlainMatmul

noncomputable section

namespace Cert.LibDenseRows

open Idealize.ShloMosaic Idealize.ShloMosaic.ValueIdx

/-! ## Rows, and the layer on a row -/

/-- Row `r` of an [M, N] matrix, as a function of the column. -/
def rows {M N : ℕ} (v : (⟨2, ![M, N]⟩ : Shape).Idx → EReal) (r : Fin M) : Fin N → EReal := fun e => v (ix2 r e)

theorem rows_apply {M N : ℕ} (v : (⟨2, ![M, N]⟩ : Shape).Idx → EReal) (r : Fin M) (e : Fin N) :
    rows v r e = v (ix2 r e) := rfl

/-- A rank-1 array [N] as a function of its one coordinate. -/
def vec {N : ℕ} (b : (⟨1, ![N]⟩ : Shape).Idx → EReal) : Fin N → EReal := fun e => b (ix1 e)

/-- The row vector x·W: entry `e` is ∑ k, x k · W k e. -/
def matvec {K N : ℕ} (W : Fin K → Fin N → EReal) (x : Fin K → EReal) : Fin N → EReal := fun e => ∑ k : Fin K, x k * W k e

/-- A dense layer on a row: x·W + b. -/
def dense {K N : ℕ} (W : Fin K → Fin N → EReal) (b : Fin N → EReal) (x : Fin K → EReal) : Fin N → EReal :=
  fun e => matvec W x e + b e

/-- ReLU on a row: the entrywise maximum with 0. -/
def relu {N : ℕ} (x : Fin N → EReal) : Fin N → EReal := fun e => max (x e) 0

/-! ## A kernel body's vector operations, row by row -/

/-- A plain [M, K] × [K, N] product into the zero accumulator: row `r` of the product is row `r` of the left operand
    times the right operand. -/
theorem rows_matmul_zero {M K N : ℕ} {φ₁ φ₂ : FTy} (d : DotDims ⟨2, ![M, K]⟩ ⟨2, ![K, N]⟩ ⟨2, ![M, N]⟩)
    (hd : d = DotDims.plain M K N) (prec : Option ContractPrecision)
    (x : FVec Ideal ⟨2, ![M, K]⟩ φ₁) (w : FVec Ideal ⟨2, ![K, N]⟩ φ₂) (r : Fin M) :
    rows (matmul d prec x w (constant (F := Ideal) ⟨2, ![M, N]⟩ .f32 0x00000000#32)) r = matvec (rows w) (rows x r) :=
  funext fun e => matmul_plain_zero_apply d hd prec x w r e

/-- Adding a [1, N] row broadcast over the M rows adds that row to every row. -/
theorem rows_add_broadcast_row {M N : ℕ} {φ : FTy} (u : FVec Ideal ⟨2, ![M, N]⟩ φ) (b : FVec Ideal ⟨2, ![1, N]⟩ φ)
    (h : (⟨2, ![1, N]⟩ : Shape).Broadcasts ⟨2, ![M, N]⟩) (r : Fin M) :
    rows (addf u (broadcastTo ⟨2, ![M, N]⟩ b h)) r = fun e => rows u r e + rows b 0 e :=
  funext fun e => by
    show u (ix2 r e) + broadcastTo ⟨2, ![M, N]⟩ b h (ix2 r e) = u (ix2 r e) + b (ix2 (0 : Fin 1) e)
    rw [broadcastTo_1b_ab_apply]

/-- The maximum with the splat of the zero word is ReLU of every row. -/
theorem rows_max_zero {M N : ℕ} (v : FVec Ideal ⟨2, ![M, N]⟩ .f32) (r : Fin M) :
    rows (maximumf v (broadcast ⟨2, ![M, N]⟩ (Scalar.ofBits (F := Ideal) .f32 0x00000000#32))) r = relu (rows v r) :=
  funext fun e => by
    show max (v (ix2 r e)) (Ideal.ofBits .f32 0x00000000#32) = max (v (ix2 r e)) 0
    rw [Ideal.ofBits_zero_f32]

/-- A narrowing of the float format is the identity on the extended reals. -/
theorem truncf_eq {s : Shape} {φ ψ : FTy} (a : FVec Ideal s φ) (h : ψ.bits < φ.bits) : (truncf ψ a h : FVec Ideal s ψ) = a := rfl

/-- The kernel's whole layer: a plain product into the zero accumulator plus a broadcast bias row is `dense` of every
    row. -/
theorem rows_matmul_bias {M K N : ℕ} {φ₁ φ₂ : FTy} (d : DotDims ⟨2, ![M, K]⟩ ⟨2, ![K, N]⟩ ⟨2, ![M, N]⟩)
    (hd : d = DotDims.plain M K N) (prec : Option ContractPrecision)
    (x : FVec Ideal ⟨2, ![M, K]⟩ φ₁) (w : FVec Ideal ⟨2, ![K, N]⟩ φ₂) (b : FVec Ideal ⟨2, ![1, N]⟩ .f32)
    (h : (⟨2, ![1, N]⟩ : Shape).Broadcasts ⟨2, ![M, N]⟩) (r : Fin M) :
    rows (addf (matmul d prec x w (constant (F := Ideal) ⟨2, ![M, N]⟩ .f32 0x00000000#32)) (broadcastTo ⟨2, ![M, N]⟩ b h)) r
      = dense (rows w) (rows b 0) (rows x r) :=
  (rows_add_broadcast_row _ b h r).trans (funext fun e => by
    show rows (matmul d prec x w (constant (F := Ideal) ⟨2, ![M, N]⟩ .f32 0x00000000#32)) r e + rows b 0 e = matvec (rows w) (rows x r) e + rows b 0 e
    rw [rows_matmul_zero d hd prec x w r])

end Cert.LibDenseRows

end
-- ==== Proof.LibHostDenseRows.lean ====
/-
  A dense layer x ↦ x·W + b and a ReLU as a host program spells them, read row by row on the extended reals, for any
  extents.

  On the host the layer is a `dot_general` of an [M, K] matrix with a [K, N] matrix contracted row by column, plus a
  bias vector [N] broadcast first to one row [1, N] and then over the M rows; the ReLU is the entrywise maximum with
  the zero constant broadcast to the whole matrix. On the extended reals the product's entry (r, e) is
  ∑ k < K, x[r, k] · W[k, e] with nothing else added, so row r of the layer is `dense W b` of row r of x, and the
  maximum is `relu` of every row: the same sums and maxima, term by term, with no finiteness used. The last lemma
  reads a vector [N] recast as the one row of a [1, N] matrix, which is how a kernel body spells the same bias.
-/
import Idealize.ShloMosaic.Lib.ValueIdx
import Idealize.ShloMosaic.Lib.ValueLayout
import Idealize.ShloMosaic.Lib.Pipeline.Value
import Idealize.ShloMosaic.PureOps.Ideal.Laws
import proofs.«170301_j10299331576451_2_alg».proof.Proof.LibDenseRows

noncomputable section

namespace Cert.LibHostDenseRows

open Idealize.ShloMosaic Idealize.ShloMosaic.ValueIdx Cert.LibDenseRows

/-- Entry (r, e) of a plain host product [M, K] × [K, N] is ∑ k, lhs[r, k] · rhs[k, e]. The dimension record may be
    any record equal to the plain one. -/
theorem hostDot_plain_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (e : Fin N) :
    Host.dotGeneral (F := Ideal) d prec lhs rhs (ix2 r e) = ∑ k : Fin K, lhs (ix2 r k) * rhs (ix2 k e) := by
  subst hd
  show FloatOps.dotGeneral (DotDims.plain M K N) prec .single lhs rhs (ix2 r e) = _
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r e) ((contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r e) ((contrEquiv1 (DotDims.plain M K N) K rfl rfl).symm k) = ix2 k e :=
    funext fun a => Fin.ext (by
      match a with
      | ⟨0, _⟩ => exact hk
      | ⟨1, _⟩ => rfl)
  rw [el, er]

/-- Row `r` of a plain host product is row `r` of the left operand times the right operand. -/
theorem rows_hostDot {M K N : ℕ} {φ₁ φ₂ : FTy} (d : DotDims ⟨2, ![M, K]⟩ ⟨2, ![K, N]⟩ ⟨2, ![M, N]⟩)
    (hd : d = DotDims.plain M K N) (prec : Option ContractPrecision)
    (x : FVec Ideal ⟨2, ![M, K]⟩ φ₁) (w : FVec Ideal ⟨2, ![K, N]⟩ φ₂) (r : Fin M) :
    rows (Host.dotGeneral (F := Ideal) d prec x w) r = matvec (rows w) (rows x r) :=
  funext fun e => hostDot_plain_apply d hd prec x w r e

/-- A vector [N] broadcast to one row [1, N] and that row over M rows: every row is the vector. -/
theorem rows_broadcast_vec {M N : ℕ} (b : (⟨1, ![N]⟩ : Shape).Idx → EReal)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) :
    rows (broadcastInDim ⟨2, ![M, N]⟩ ![0, 1] h2 (broadcastInDim ⟨2, ![1, N]⟩ ![1] h1 b)) r = vec b :=
  funext fun e => by
    show broadcastInDim ⟨2, ![M, N]⟩ ![0, 1] h2 (broadcastInDim ⟨2, ![1, N]⟩ ![1] h1 b) (ix2 r e) = b (ix1 e)
    rw [broadcastInDim_apply ![0, 1] h2 _ (ix2 r e) (ix2 (0 : Fin 1) e) (fun a => by
      match a with
      | ⟨0, _⟩ => show (0 : ℕ) = if (1 : ℕ) = 1 then 0 else r.val; rw [if_pos rfl]
      | ⟨1, _⟩ =>
        show e.val = if N = 1 then 0 else e.val
        split
        · have := e.isLt; omega
        · rfl)]
    exact broadcastInDim_apply ![1] h1 b (ix2 (0 : Fin 1) e) (ix1 e) (fun a => by
      match a with
      | ⟨0, _⟩ =>
        show e.val = if N = 1 then 0 else e.val
        split
        · have := e.isLt; omega
        · rfl)

/-- The host's whole layer: a plain product plus the bias vector broadcast over the rows is `dense` of every row. -/
theorem rows_hostDense {M K N : ℕ} {φ₁ φ₂ : FTy} (d : DotDims ⟨2, ![M, K]⟩ ⟨2, ![K, N]⟩ ⟨2, ![M, N]⟩)
    (hd : d = DotDims.plain M K N) (prec : Option ContractPrecision)
    (x : FVec Ideal ⟨2, ![M, K]⟩ φ₁) (w : FVec Ideal ⟨2, ![K, N]⟩ φ₂) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) :
    rows (addf (Host.dotGeneral (F := Ideal) d prec x w)
        (broadcastInDim ⟨2, ![M, N]⟩ ![0, 1] h2 (broadcastInDim ⟨2, ![1, N]⟩ ![1] h1 b))) r
      = dense (rows w) (vec b) (rows x r) :=
  funext fun e => by
    show rows (Host.dotGeneral (F := Ideal) d prec x w) r e
        + rows (broadcastInDim ⟨2, ![M, N]⟩ ![0, 1] h2 (broadcastInDim ⟨2, ![1, N]⟩ ![1] h1 b)) r e
      = matvec (rows w) (rows x r) e + vec b e
    rw [rows_hostDot d hd prec x w r, rows_broadcast_vec b h1 h2 r]

/-- The maximum with the zero constant broadcast to the whole matrix is ReLU of every row. -/
theorem rows_max_zero_const {M N : ℕ} (v : FVec Ideal ⟨2, ![M, N]⟩ .f32)
    (h : (⟨0, ![]⟩ : Shape).BroadcastsInDim ⟨2, ![M, N]⟩ ![]) (r : Fin M) :
    rows (maximumf v (broadcastInDim ⟨2, ![M, N]⟩ ![] h (constant (F := Ideal) ⟨0, ![]⟩ .f32 0x00000000#32))) r
      = relu (rows v r) :=
  funext fun e => by
    show max (v (ix2 r e)) (broadcastInDim ⟨2, ![M, N]⟩ ![] h (constant (F := Ideal) ⟨0, ![]⟩ .f32 0x00000000#32) (ix2 r e))
      = max (v (ix2 r e)) 0
    have hz : broadcastInDim ⟨2, ![M, N]⟩ ![] h (constant (F := Ideal) ⟨0, ![]⟩ .f32 0x00000000#32) (ix2 r e)
        = Ideal.ofBits .f32 0x00000000#32 :=
      broadcastInDim_apply _ h _ (ix2 r e) (fun a => a.elim0) (fun a => a.elim0)
    rw [hz, Ideal.ofBits_zero_f32]

/-- A vector [N] recast as the one row of a [1, N] matrix: that row is the vector. -/
theorem rows_shapeCast_vec {N : ℕ} (b : (⟨1, ![N]⟩ : Shape).Idx → EReal)
    (h : (⟨1, ![N]⟩ : Shape).ShapeCasts ⟨2, ![1, N]⟩) :
    rows (shapeCast ⟨2, ![1, N]⟩ b h) (0 : Fin 1) = vec b :=
  funext fun e => shapeCast_a_1a_apply b h 0 e

end Cert.LibHostDenseRows

end
-- ==== Proof.BridgeLayer.lean ====
import proofs.«170301_j10299331576451_2_alg».proof.Proof.KTerms
import proofs.«170301_j10299331576451_2_alg».proof.Proof.RTerms
import proofs.«170301_j10299331576451_2_alg».proof.Proof.Gen.KernelIdeal
import proofs.«170301_j10299331576451_2_alg».proof.Proof.Gen.ReferenceIdeal
import proofs.«170301_j10299331576451_2_alg».proof.Proof.LibHostAggregate
import proofs.«170301_j10299331576451_2_alg».proof.Proof.LibAxisReads
import proofs.«170301_j10299331576451_2_alg».proof.Proof.LibKeepdims
import proofs.«170301_j10299331576451_2_alg».proof.Proof.LibHostDenseRows

noncomputable section

namespace Cert.Proof.Layer

open Idealize.ShloMosaic Idealize.ShloMosaic.ValueIdx
open Cert.KernelIdeal.Gen Cert.ReferenceIdeal.Gen

/-!
  One graph-convolution layer of the two programs is the same function of the node features.

  The kernel program scales the dense product's rows by the per-node factor s before they travel along the
  edges, adds up what arrives at every node, and scales the sum by s again at the destination; the reference
  gathers the unscaled rows, multiplies each by its edge's weight s[src]·s[dst], and adds those up. A factor
  that is a nonnegative real distributes over any finite sum of extended reals, so the two sums agree with no
  finiteness of the features; the bias and the leaky rectifier then act on equal numbers.
-/

/-- Both programs build the edge ends, the index columns and the per-node factor by the same operations. -/
theorem ends0_eq (a1 : IVec Cert.KernelIdeal.S2x800000 32) : Cert.KernelIdeal.KValue.ends0 a1 = Cert.ReferenceIdeal.RValue.ends0 a1 := rfl
theorem ends1_eq (a1 : IVec Cert.KernelIdeal.S2x800000 32) : Cert.KernelIdeal.KValue.ends1 a1 = Cert.ReferenceIdeal.RValue.ends1 a1 := rfl
theorem col_eq (x : IVec Cert.KernelIdeal.S850000 32) : Cert.KernelIdeal.KValue.col x = Cert.ReferenceIdeal.RValue.col x := rfl
theorem wrap_eq (x : IVec Cert.KernelIdeal.S850000 32) : Cert.KernelIdeal.KValue.wrap x = Cert.ReferenceIdeal.RValue.wrap x := rfl
theorem dis_eq (a1 : IVec Cert.KernelIdeal.S2x800000 32) : Cert.KernelIdeal.KValue.dis a1 = Cert.ReferenceIdeal.RValue.dis a1 := rfl

/-! ## Reads at an index -/

/-- The factor column [50000, 1] at row p is the factor at node p. -/
theorem dis2_apply (a1 : IVec Cert.KernelIdeal.S2x800000 32) (p : Fin 50000) :
    Cert.KernelIdeal.KValue.dis2 a1 (ix2 p (0 : Fin 1)) = Cert.KernelIdeal.KValue.dis a1 (ix1 p) := by
  unfold Cert.KernelIdeal.KValue.dis2
  exact Cert.LibKeepdims.shapeCast_a_a1_apply (Cert.KernelIdeal.KValue.dis a1) _ p 0

/-- The bias row [1, 128] at column q is the bias at q. -/
theorem brow_apply (b : FVec Ideal Cert.KernelIdeal.S128 .f32) (q : Fin 128) :
    Cert.KernelIdeal.KValue.brow b (ix2 (0 : Fin 1) q) = b (ix1 q) := by
  unfold Cert.KernelIdeal.KValue.brow
  exact congrFun (Cert.LibHostDenseRows.rows_shapeCast_vec b _) q

/-- The reference's bias, broadcast over the rows, at (p, q). -/
theorem bias_apply (b : FVec Ideal Cert.ReferenceIdeal.S128 .f32) (p : Fin 50000) (q : Fin 128) :
    broadcastInDim Cert.ReferenceIdeal.S50000x128 ![0, 1] Cert.ReferenceIdeal.Facts₀.bcast_S1x128_S50000x128_0_1 (broadcastInDim Cert.ReferenceIdeal.S1x128 ![1] Cert.ReferenceIdeal.Facts₀.bcast_S128_S1x128_1 b) (ix2 p q) = b (ix1 q) := by
  rw [Cert.LibAxisReads.row_spread_apply, Cert.LibAxisReads.vec_row_apply]

/-- The edge weights spread over the features, at (e, f): the factor gathered at the edge's source times the
    factor gathered at its destination. -/
theorem normRows_apply (a1 : IVec Cert.ReferenceIdeal.S2x800000 32) (e : Fin 850000) (f : Fin 128) :
    Cert.ReferenceIdeal.RValue.normRows a1 (ix2 e f)
      = Host.gather Cert.ReferenceIdeal.gather_S50000_S850000x1_S850000_n_0_n_n_0_1_1 (Cert.ReferenceIdeal.RValue.dis a1) (Cert.ReferenceIdeal.RValue.col (Cert.ReferenceIdeal.RValue.wrap (Cert.ReferenceIdeal.RValue.ends0 a1))) (ix1 e)
        * Host.gather Cert.ReferenceIdeal.gather_S50000_S850000x1_S850000_n_0_n_n_0_1_1 (Cert.ReferenceIdeal.RValue.dis a1) (Cert.ReferenceIdeal.RValue.col (Cert.ReferenceIdeal.RValue.wrap (Cert.ReferenceIdeal.RValue.ends1 a1))) (ix1 e) := by
  unfold Cert.ReferenceIdeal.RValue.normRows
  rw [Cert.LibAxisReads.column_spread_apply, Cert.LibAxisReads.vec_column_apply]
  unfold Cert.ReferenceIdeal.RValue.norm
  rw [ValueIdx.mulf_apply]

/-- A layer's messages at (p, q): the host's dense product there, times the factor column at row p. -/
theorem msg_apply (h : FVec Ideal Cert.KernelIdeal.S50000x128 .f32) (s2 : FVec Ideal Cert.KernelIdeal.S50000x1 .f32) (W : FVec Ideal Cert.KernelIdeal.S128x128 .f32) (p : Fin 50000) (q : Fin 128) :
    Cert.Spec.msg h W s2 (ix2 p q)
      = Host.dotGeneral (F := Ideal) Cert.ReferenceIdeal.dot_S50000x128_S128x128_S50000x128_1_0_0_1_n_n none h W (ix2 p q) * s2 (ix2 p (0 : Fin 1)) := by
  rw [Cert.LibHostDenseRows.hostDot_plain_apply Cert.ReferenceIdeal.dot_S50000x128_S128x128_S50000x128_1_0_0_1_n_n rfl none h W p q]
  unfold Cert.Spec.msg Cert.Spec.scaleRows Cert.Spec.lin
  rfl

/-- A change of float format is the identity on extended reals. -/
theorem extf_id {s : Shape} (X : FVec Ideal s .bf16) (hb : FTy.bits .bf16 < FTy.bits .f32) :
    (extf .f32 X hb : FVec Ideal s .f32) = X := rfl

/-- A broadcast zero is zero everywhere. -/
theorem zeros_apply {t : Shape} (hb : (⟨0, ![]⟩ : Shape).BroadcastsInDim t ![]) (i : t.Idx) :
    broadcastInDim t ![] hb (constant (F := Ideal) ⟨0, ![]⟩ .f32 0x00000000#32) i = 0 := by
  rw [Cert.LibAxisReads.const_broadcast_apply]; exact Ideal.ofBits_zero_f32

/-- Where a node number is not negative, counting it from the end leaves it as it is. -/
theorem wrap_of_nonneg (x : IVec Cert.ReferenceIdeal.S850000 32) (e : Fin 850000) (h0 : 0 ≤ (x (ix1 e)).toInt) :
    Cert.ReferenceIdeal.RValue.wrap x (ix1 e) = x (ix1 e) := by
  unfold Cert.ReferenceIdeal.RValue.wrap
  rw [ValueIdx.select_apply]
  have hc : cmpi .slt x (broadcastInDim Cert.ReferenceIdeal.S850000 ![] Cert.ReferenceIdeal.Facts₀.bcast_S_S850000 (constantI Cert.ReferenceIdeal.S_ 32 0#32)) (ix1 e) = 0#1 := by
    show IntOp.cmpi .slt (x (ix1 e)) (broadcastInDim Cert.ReferenceIdeal.S850000 ![] Cert.ReferenceIdeal.Facts₀.bcast_S_S850000 (constantI Cert.ReferenceIdeal.S_ 32 0#32) (ix1 e)) = 0#1
    rw [Cert.LibAxisReads.scalar_broadcast_apply]
    show BitVec.ofBool ((x (ix1 e)).slt 0#32) = 0#1
    have : (x (ix1 e)).slt 0#32 = false := by
      rw [BitVec.slt]; simp only [decide_eq_false_iff_not, not_lt]; exact h0
    rw [this]; rfl
  rw [hc, ValueIdx.select_zero]

/-! ## The aggregation law for these programs' operations -/

/-- The kernel program's scaled sum at node p equals the reference's weighted sum there: the destination's
    factor times the sum of the source-scaled rows that arrive is the sum of the rows each times its edge weight. -/
theorem agg_scaled (h : FVec Ideal Cert.KernelIdeal.S50000x128 .f32) (a1 : IVec Cert.KernelIdeal.S2x800000 32) (W : FVec Ideal Cert.KernelIdeal.S128x128 .f32)
    (hs : ∀ i, 0 ≤ Cert.ReferenceIdeal.RValue.dis a1 i ∧ Cert.ReferenceIdeal.RValue.dis a1 i ≠ ⊤) (p : Fin 50000) (q : Fin 128) :
    Cert.KernelIdeal.KValue.agg (Cert.Spec.msg h W (Cert.KernelIdeal.KValue.dis2 a1)) a1 (ix2 p q) * Cert.ReferenceIdeal.RValue.dis a1 (ix1 p)
      = Host.scatterAdd (F := Ideal) Cert.ReferenceIdeal.scatter_S50000x128_S850000x1_S850000x128_1_0_0_1
          (broadcastInDim Cert.ReferenceIdeal.S50000x128 ![] Cert.ReferenceIdeal.Facts₀.bcast_S_S50000x128 (constant Cert.ReferenceIdeal.S_ .f32 0x00000000#32)) (Cert.ReferenceIdeal.RValue.col (Cert.ReferenceIdeal.RValue.ends1 a1))
          (mulf (Host.gather Cert.ReferenceIdeal.gather_S50000x128_S850000x1_S850000x128_1_0_n_n_0_1_1128 (Host.dotGeneral (F := Ideal) Cert.ReferenceIdeal.dot_S50000x128_S128x128_S50000x128_1_0_0_1_n_n none h W) (Cert.ReferenceIdeal.RValue.col (Cert.ReferenceIdeal.RValue.wrap (Cert.ReferenceIdeal.RValue.ends0 a1)))) (Cert.ReferenceIdeal.RValue.normRows a1))
          (ix2 p q) := by
  -- the messages as the host's dense product with every row scaled by its node's factor
  have hM : Cert.Spec.msg h W (Cert.KernelIdeal.KValue.dis2 a1)
      = fun i => Host.dotGeneral (F := Ideal) Cert.ReferenceIdeal.dot_S50000x128_S128x128_S50000x128_1_0_0_1_n_n none h W i * Cert.ReferenceIdeal.RValue.dis a1 (ix1 (i 0)) := by
    funext i
    obtain ⟨r, e, rfl⟩ : ∃ (r : Fin 50000) (e : Fin 128), i = ix2 r e := ⟨i 0, i 1, eq_ix2 i⟩
    rw [msg_apply, dis2_apply, dis_eq]
  -- the reference's updates: every gathered row entry times its edge's weight
  have hU : mulf (Host.gather Cert.ReferenceIdeal.gather_S50000x128_S850000x1_S850000x128_1_0_n_n_0_1_1128 (Host.dotGeneral (F := Ideal) Cert.ReferenceIdeal.dot_S50000x128_S128x128_S50000x128_1_0_0_1_n_n none h W) (Cert.ReferenceIdeal.RValue.col (Cert.ReferenceIdeal.RValue.wrap (Cert.ReferenceIdeal.RValue.ends0 a1)))) (Cert.ReferenceIdeal.RValue.normRows a1)
      = fun j => Host.gather Cert.ReferenceIdeal.gather_S50000x128_S850000x1_S850000x128_1_0_n_n_0_1_1128 (Host.dotGeneral (F := Ideal) Cert.ReferenceIdeal.dot_S50000x128_S128x128_S50000x128_1_0_0_1_n_n none h W) (Cert.ReferenceIdeal.RValue.col (Cert.ReferenceIdeal.RValue.wrap (Cert.ReferenceIdeal.RValue.ends0 a1))) j
          * (Host.gather Cert.ReferenceIdeal.gather_S50000_S850000x1_S850000_n_0_n_n_0_1_1 (Cert.ReferenceIdeal.RValue.dis a1) (Cert.ReferenceIdeal.RValue.col (Cert.ReferenceIdeal.RValue.wrap (Cert.ReferenceIdeal.RValue.ends0 a1))) (ix1 (j 0))
            * Host.gather Cert.ReferenceIdeal.gather_S50000_S850000x1_S850000_n_0_n_n_0_1_1 (Cert.ReferenceIdeal.RValue.dis a1) (Cert.ReferenceIdeal.RValue.col (Cert.ReferenceIdeal.RValue.wrap (Cert.ReferenceIdeal.RValue.ends1 a1))) (ix1 (j 0))) := by
    funext j
    obtain ⟨e, f, rfl⟩ : ∃ (e : Fin 850000) (f : Fin 128), j = ix2 e f := ⟨j 0, j 1, eq_ix2 j⟩
    rw [ValueIdx.mulf_apply, normRows_apply]
  unfold Cert.KernelIdeal.KValue.agg
  rw [extf_id, hM, hU, ends0_eq, ends1_eq, col_eq, col_eq, wrap_eq, mul_comm]
  refine Cert.LibHostAggregate.layer_law (N := 50000) (E := 850000) (C := 128) (w := 32) (by norm_num)
    (Cert.KernelIdeal.scatter_S50000x128_S850000x1_S850000x128_1_0_0_1).wf (Cert.ReferenceIdeal.scatter_S50000x128_S850000x1_S850000x128_1_0_0_1).wf (Cert.KernelIdeal.gather_S50000x128_S850000x1_S850000x128_1_0_n_n_0_1_1128).wf (Cert.ReferenceIdeal.gather_S50000x128_S850000x1_S850000x128_1_0_n_n_0_1_1128).wf (Cert.ReferenceIdeal.gather_S50000_S850000x1_S850000_n_0_n_n_0_1_1).wf
    Cert.KernelIdeal.scatter_S50000x128_S850000x1_S850000x128_1_0_0_1 Cert.ReferenceIdeal.scatter_S50000x128_S850000x1_S850000x128_1_0_0_1 rfl rfl Cert.KernelIdeal.gather_S50000x128_S850000x1_S850000x128_1_0_n_n_0_1_1128 Cert.ReferenceIdeal.gather_S50000x128_S850000x1_S850000x128_1_0_n_n_0_1_1128 rfl rfl Cert.ReferenceIdeal.gather_S50000_S850000x1_S850000_n_0_n_n_0_1_1 rfl
    (Host.dotGeneral (F := Ideal) Cert.ReferenceIdeal.dot_S50000x128_S128x128_S50000x128_1_0_0_1_n_n none h W) (Cert.ReferenceIdeal.RValue.dis a1) hs _ _ (fun i => zeros_apply _ i) (fun i => zeros_apply _ i)
    (Cert.ReferenceIdeal.RValue.col (Cert.ReferenceIdeal.RValue.wrap (Cert.ReferenceIdeal.RValue.ends0 a1))) (Cert.ReferenceIdeal.RValue.col (Cert.ReferenceIdeal.RValue.ends1 a1)) (Cert.ReferenceIdeal.RValue.col (Cert.ReferenceIdeal.RValue.wrap (Cert.ReferenceIdeal.RValue.ends1 a1))) ?_ p q
  intro e h0 _
  unfold Cert.ReferenceIdeal.RValue.col at h0 ⊢
  rw [Cert.LibAxisReads.vec_column_apply] at h0 ⊢
  rw [Cert.LibAxisReads.vec_column_apply]
  exact wrap_of_nonneg _ e h0

/-! ## One layer, and the four layers -/

/-- The reference's leaky rectifier at an index is the leaky rectifier of the entry. -/
theorem leakyR_apply (x : FVec Ideal Cert.ReferenceIdeal.S50000x128 .f32) (i : Cert.ReferenceIdeal.S50000x128.Idx) :
    Cert.ReferenceIdeal.RValue.leakyR x (constant Cert.ReferenceIdeal.S_ .f32 0x3C23D70A#32) i = Cert.Spec.leaky (x i) := by
  unfold Cert.ReferenceIdeal.RValue.leakyR Cert.Spec.leaky Cert.Spec.slope
  rw [ValueIdx.select_apply, ValueIdx.cmpf_apply, ValueIdx.mulf_apply, Cert.LibAxisReads.const_broadcast_apply,
    Cert.LibAxisReads.scalar_broadcast_apply, mul_comm]
  rfl

/-- ONE LAYER: rescaling the kernel program's sum at its destination, adding the bias and rectifying gives the
    reference's layer of the same features. -/
theorem layer_eq (h : FVec Ideal Cert.KernelIdeal.S50000x128 .f32) (a1 : IVec Cert.KernelIdeal.S2x800000 32) (W : FVec Ideal Cert.KernelIdeal.S128x128 .f32)
    (b : FVec Ideal Cert.KernelIdeal.S128 .f32) (hs : ∀ i, 0 ≤ Cert.ReferenceIdeal.RValue.dis a1 i ∧ Cert.ReferenceIdeal.RValue.dis a1 i ≠ ⊤) :
    Cert.Spec.act (Cert.KernelIdeal.KValue.agg (Cert.Spec.msg h W (Cert.KernelIdeal.KValue.dis2 a1)) a1) (Cert.KernelIdeal.KValue.dis2 a1) (Cert.KernelIdeal.KValue.brow b)
      = Cert.ReferenceIdeal.RValue.layer h a1 W b := by
  funext i
  obtain ⟨p, q, rfl⟩ : ∃ (p : Fin 50000) (q : Fin 128), i = ix2 p q := ⟨i 0, i 1, eq_ix2 i⟩
  unfold Cert.ReferenceIdeal.RValue.layer
  rw [leakyR_apply]
  unfold Cert.Spec.act
  refine congrArg Cert.Spec.leaky ?_
  show Cert.KernelIdeal.KValue.agg _ a1 (ix2 p q) * Cert.KernelIdeal.KValue.dis2 a1 (ix2 p (0 : Fin 1)) + Cert.KernelIdeal.KValue.brow b (ix2 (0 : Fin 1) q) = _
  rw [dis2_apply, dis_eq, brow_apply, agg_scaled h a1 W hs p q]
  unfold Cert.ReferenceIdeal.RValue.conv
  rw [ValueIdx.addf_apply, bias_apply]

/-- THE FOUR LAYERS: the kernel program's last activations are the reference's. -/
theorem v4_eq (a0 : FVec Ideal Cert.KernelIdeal.S50000x128 .f32) (a1 : IVec Cert.KernelIdeal.S2x800000 32) (a2 : FVec Ideal Cert.KernelIdeal.S128x128 .f32) (a3 : FVec Ideal Cert.KernelIdeal.S128 .f32)
    (a4 : FVec Ideal Cert.KernelIdeal.S128x128 .f32) (a5 : FVec Ideal Cert.KernelIdeal.S128 .f32) (a6 : FVec Ideal Cert.KernelIdeal.S128x128 .f32) (a7 : FVec Ideal Cert.KernelIdeal.S128 .f32)
    (a8 : FVec Ideal Cert.KernelIdeal.S128x128 .f32) (a9 : FVec Ideal Cert.KernelIdeal.S128 .f32) (hs : ∀ i, 0 ≤ Cert.ReferenceIdeal.RValue.dis a1 i ∧ Cert.ReferenceIdeal.RValue.dis a1 i ≠ ⊤) :
    Cert.KernelIdeal.KValue.v4 a0 a1 a2 a3 a4 a5 a6 a7 a8 a9 = Cert.ReferenceIdeal.RValue.h4 a0 a1 a2 a3 a4 a5 a6 a7 a8 a9 := by
  unfold Cert.KernelIdeal.KValue.v4 Cert.KernelIdeal.KValue.last Cert.KernelIdeal.KValue.mid Cert.KernelIdeal.KValue.m0 Cert.ReferenceIdeal.RValue.h4
  rw [layer_eq a0 a1 a2 a3 hs, layer_eq _ a1 a4 a5 hs, layer_eq _ a1 a6 a7 hs, layer_eq _ a1 a8 a9 hs]

end Cert.Proof.Layer

end
-- ==== Proof.RealDef.lean ====
/-
  An array of extended reals all of whose entries are real numbers.
-/
import Mathlib.Data.EReal.Basic
import Idealize.ShloMosaic.PureOps.Values

namespace Cert.Spec

open Idealize.ShloMosaic

/-- Every entry is a real number (neither infinity). -/
def IsReal {S : Shape} (x : S.Idx → EReal) : Prop := ∀ i, ∃ r : ℝ, x i = (r : EReal)

end Cert.Spec
-- ==== Proof.LibHostRowFold.lean ====
/-
  A host reduction over the last axis of a matrix, read at a row.

  A one-operand reduction of an `[a, b]` matrix over its last axis with a commutative and associative body `op`
  (a maximum, a minimum) holds, at row `i`, the fold of `op` from the initial value over that row's entries
  `(i, f)`, `f < b`. Stated for any extents, any element type and any such body.
-/
import Idealize.ShloMosaic.Lib.ValueIdx
import Idealize.ShloMosaic.PureOps.Reduce

noncomputable section

namespace Cert.LibHostRowFold

open Idealize.ShloMosaic Idealize.ShloMosaic.ValueIdx

/-- The host's reduce over the last axis of an `[a, b]` matrix reads, at row `i`, the fold of the body from the
    initial value over the row's entries. -/
theorem hostReduce_lastAxis_apply {α : Type} {a b : ℕ} {u : Shape} (op : α → α → α) [Std.Commutative op] [Std.Associative op]
    (x : (⟨2, ![a, b]⟩ : Shape).Idx → α) (init : u.Idx → α)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduce op x init h' hu (ix1 i)
      = (Finset.univ : Finset (Fin b)).fold op (init (Shape.Idx.first hu)) (fun f : Fin b => x (ix2 i f)) := by
  refine (Host.reduce_eq_fold_single op x init h' h hu (ix1 i)).trans ?_
  refine congrArg (fun g => (Finset.univ : Finset (Fin b)).fold op (init (Shape.Idx.first hu)) g) ?_
  funext f
  exact congrArg x (funext fun d => Fin.ext (by
    match d with
    | ⟨0, _⟩ => rfl
    | ⟨1, _⟩ => rfl))

end Cert.LibHostRowFold

end
-- ==== Proof.LibRealSums.lean ====
/-
  Finite sums of extended reals that are all real numbers.

  The coercion of the reals into the extended reals is additive, so it commutes with a sum over any finite set; hence a
  finite sum of extended reals each of which is (the image of) a real number is itself one. This is what lets an
  equation between finite sums and products on the extended reals, whose entries are known to be finite, be proved over
  the reals, where distributivity and cancellation hold.
-/
import Mathlib.Data.EReal.Basic
import Mathlib.Algebra.BigOperators.Group.Finset.Basic

open scoped BigOperators

namespace Cert.LibRealSums

/-- The coercion of the reals into the extended reals commutes with finite sums. -/
theorem coe_finset_sum {ι : Type*} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- A finite sum of extended reals that are all real numbers is a real number. -/
theorem exists_real_sum {ι : Type*} (s : Finset ι) (f : ι → EReal) (h : ∀ i, ∃ r : ℝ, f i = r) :
    ∃ r : ℝ, ∑ i ∈ s, f i = r := by
  choose g hg using h
  exact ⟨∑ i ∈ s, g i, by rw [coe_finset_sum]; exact Finset.sum_congr rfl fun i _ => hg i⟩

end Cert.LibRealSums
-- ==== Proof.BridgeConcepts.lean ====
/-
  The concepts of a row of real numbers: the row softmax divided by its own row maximum is the exponential of the
  entry less the row's maximum.

  For a row x of real numbers with maximum μ, put e_f = exp (x_f − μ) and σ = ∑ e_f.  Every e_f is at most 1 and the
  entry where the maximum is attained has e_f = 1, so σ > 0, the softmax of the row is e_f / σ and its largest entry
  is 1 / σ; the softmax divided by that entry is e_f again.  On the extended reals every step stays among the reals:
  the fold of max from −∞ over the row is μ, the exponential, the sum from 0 and both divisions (by σ and by 1 / σ,
  neither of them 0) are the reals' own.  Read entry by entry, the reference's composed host operations are exactly
  these steps, and the specification's concepts are exp (x_f − μ) by definition.
-/
import proofs.«170301_j10299331576451_2_alg».proof.Proof.Spec
import proofs.«170301_j10299331576451_2_alg».proof.Proof.RealDef
import proofs.«170301_j10299331576451_2_alg».proof.Proof.RTerms
import proofs.«170301_j10299331576451_2_alg».proof.Proof.Gen.ReferenceIdeal
import proofs.«170301_j10299331576451_2_alg».proof.Proof.LibHostRowFold
import proofs.«170301_j10299331576451_2_alg».proof.Proof.LibAxisReads
import proofs.«170301_j10299331576451_2_alg».proof.Proof.LibRealSums

noncomputable section

namespace Cert.Proof.Concepts

open Idealize.ShloMosaic Idealize.ShloMosaic.ValueIdx
open Cert.ReferenceIdeal
open scoped BigOperators

/-- The fold of max from −∞ over finitely many reals, one of which is the largest, is that largest real. -/
theorem fold_max_coe_eq {ι : Type*} (s : Finset ι) (g : ι → ℝ) (μ : ℝ) (hle : ∀ f ∈ s, g f ≤ μ) (f₀ : ι) (hf₀ : f₀ ∈ s)
    (h₀ : g f₀ = μ) : s.fold max (⊥ : EReal) (fun f => (g f : EReal)) = (μ : EReal) := by
  apply le_antisymm
  · exact (Finset.fold_max_le _).mpr ⟨bot_le, fun f hf => EReal.coe_le_coe_iff.mpr (hle f hf)⟩
  · exact (Finset.le_fold_max _).mpr (Or.inr ⟨f₀, hf₀, by rw [h₀]⟩)

/-- On a row of real numbers, the row's softmax divided by its own maximum is the exponential of the entry less the
    row's maximum: every operation read on the extended reals, the maxima folded from b = −∞ and the sum taken from
    z = 0. -/
theorem row_concepts {ι : Type*} [Fintype ι] [Nonempty ι] (x : ι → EReal) (hx : ∀ f, ∃ r : ℝ, x f = r) (b z : EReal)
    (hb : b = ⊥) (hz : z = 0) (j : ι) :
    Ideal.exp (x j - Finset.univ.fold max b x)
      = Ideal.div
          (Ideal.div (Ideal.exp (x j - max b (Finset.univ.fold max b x)))
            (z + ∑ f, Ideal.exp (x f - max b (Finset.univ.fold max b x))))
          (Finset.univ.fold max b fun f' =>
            Ideal.div (Ideal.exp (x f' - max b (Finset.univ.fold max b x)))
              (z + ∑ f, Ideal.exp (x f - max b (Finset.univ.fold max b x)))) := by
  subst hb hz
  choose g hg using hx
  obtain rfl : x = fun f => (g f : EReal) := funext hg
  obtain ⟨f₀, -, hmax⟩ := Finset.exists_max_image Finset.univ g Finset.univ_nonempty
  have hle : ∀ f, g f ≤ g f₀ := fun f => hmax f (Finset.mem_univ f)
  have hM : Finset.univ.fold max (⊥ : EReal) (fun f => (g f : EReal)) = (g f₀ : EReal) :=
    fold_max_coe_eq Finset.univ g (g f₀) (fun f _ => hle f) f₀ (Finset.mem_univ f₀) rfl
  have hE : ∀ f, Ideal.exp ((g f : EReal) - (g f₀ : EReal)) = ((Real.exp (g f - g f₀) : ℝ) : EReal) := fun f => by
    rw [← EReal.coe_sub, Ideal.exp_coe]
  have hσpos : 0 < ∑ f, Real.exp (g f - g f₀) := Finset.sum_pos (fun f _ => Real.exp_pos _) Finset.univ_nonempty
  have hS : ∀ f, Ideal.div ((Real.exp (g f - g f₀) : ℝ) : EReal) ((∑ f, Real.exp (g f - g f₀) : ℝ) : EReal)
      = ((Real.exp (g f - g f₀) / ∑ f, Real.exp (g f - g f₀) : ℝ) : EReal) := fun f => by
    rw [Ideal.div_coe hσpos.ne', ← EReal.coe_mul, mul_one_div]
  have hSmax : Finset.univ.fold max (⊥ : EReal) (fun f => ((Real.exp (g f - g f₀) / ∑ f, Real.exp (g f - g f₀) : ℝ) : EReal))
      = ((1 / ∑ f, Real.exp (g f - g f₀) : ℝ) : EReal) := by
    refine fold_max_coe_eq Finset.univ _ _ (fun f _ => ?_) f₀ (Finset.mem_univ f₀) (by rw [sub_self, Real.exp_zero])
    have h1 : Real.exp (g f - g f₀) ≤ 1 := by
      rw [← Real.exp_zero]; exact Real.exp_le_exp.mpr (sub_nonpos.mpr (hle f))
    exact div_le_div_of_nonneg_right h1 hσpos.le
  rw [hM, max_eq_right bot_le]
  simp only [hE]
  rw [zero_add, ← Cert.LibRealSums.coe_finset_sum]
  simp only [hS]
  rw [hSmax, Ideal.div_coe (one_div_ne_zero hσpos.ne'), ← EReal.coe_mul]
  congr 1
  field_simp

/-- The words of −∞ and of 0 as extended reals. -/
theorem neg_inf_word : Ideal.ofBits .f32 0xFF800000#32 = (⊥ : EReal) := by simp [Ideal.ofBits, Ideal.ieee]

/-- The host's division and exponential read entry by entry on the extended reals. -/
theorem host_divf_apply {s : Shape} (a b : FVec Ideal s .f32) (i : s.Idx) : Host.divf a b i = Ideal.div (a i) (b i) := rfl
theorem host_exp_apply {s : Shape} (a : FVec Ideal s .f32) (i : s.Idx) : Host.exp a i = Ideal.exp (a i) := rfl

/-- A per-row value made a column and spread over the row's 128 entries reads the row's value. -/
theorem rspread_apply (x : FVec Ideal S50000 .f32) (n : Fin 50000) (j : Fin 128) :
    RValue.rspread x (ix2 n j) = x (ix1 n) := by
  unfold RValue.rspread
  exact (Cert.LibAxisReads.column_spread_apply _ _ n j).trans (Cert.LibAxisReads.vec_column_apply _ _ n 0)

/-- The host's maximum over the last axis, from −∞, reads at row n the fold of max over the row. -/
theorem reduce_max_apply (h : FVec Ideal S50000x128 .f32) (hr : S50000x128.ReducesTo [1] S50000) (hu : 0 < S_.numel) (n : Fin 50000) :
    Host.reduce FloatOps.maximumf h (constant S_ .f32 0xFF800000#32) hr hu (ix1 n)
      = Finset.univ.fold max (Ideal.ofBits .f32 0xFF800000#32) (fun f : Fin 128 => h (ix2 n f)) := by
  haveI : Std.Commutative (FloatOps.maximumf (F := Ideal) (φ := .f32)) := ⟨fun a b => max_comm a b⟩
  haveI : Std.Associative (FloatOps.maximumf (F := Ideal) (φ := .f32)) := ⟨fun a b c => max_assoc a b c⟩
  exact Cert.LibHostRowFold.hostReduce_lastAxis_apply FloatOps.maximumf h _ hr (by decide) hu n

/-- The reference's row maximum: the larger of −∞ and the fold of max over the row. -/
theorem rmax_apply (h : FVec Ideal S50000x128 .f32) (n : Fin 50000) :
    RValue.rmax h (ix1 n) = max (Ideal.ofBits .f32 0xFF800000#32) (Cert.Spec.rowMax h n) := by
  unfold RValue.rmax
  rw [maximumf_apply, Cert.LibAxisReads.const_broadcast_apply, reduce_max_apply]
  rfl

/-- The reference's shifted exponential at an entry. -/
theorem rexp_apply (h : FVec Ideal S50000x128 .f32) (n : Fin 50000) (j : Fin 128) :
    RValue.rexp h (ix2 n j)
      = Ideal.exp (h (ix2 n j) - max (Ideal.ofBits .f32 0xFF800000#32) (Cert.Spec.rowMax h n)) := by
  unfold RValue.rexp
  rw [host_exp_apply, subf_apply, rspread_apply, rmax_apply]

/-- The reference's row softmax at an entry: the exponential over 0 plus the row's sum of exponentials. -/
theorem rsoft_apply (h : FVec Ideal S50000x128 .f32) (n : Fin 50000) (j : Fin 128) :
    RValue.rsoft h (ix2 n j)
      = Ideal.div (RValue.rexp h (ix2 n j)) (Ideal.ofBits .f32 0x00000000#32 + ∑ f : Fin 128, RValue.rexp h (ix2 n f)) := by
  unfold RValue.rsoft
  rw [host_divf_apply, rspread_apply, Cert.LibAxisReads.hostReduceAdd_lastAxis_apply _ _ _ (by decide) _ n]
  rfl

/-- The reference's concepts at an entry: the softmax over the fold of max, from −∞, of the row's softmax. -/
theorem concepts_apply (h : FVec Ideal S50000x128 .f32) (n : Fin 50000) (j : Fin 128) :
    RValue.concepts h (ix2 n j)
      = Ideal.div (RValue.rsoft h (ix2 n j))
          (Finset.univ.fold max (Ideal.ofBits .f32 0xFF800000#32) (fun f : Fin 128 => RValue.rsoft h (ix2 n f))) := by
  unfold RValue.concepts
  rw [host_divf_apply, rspread_apply, reduce_max_apply]

/-- On an array of real numbers the specification's concepts are the reference's. -/
theorem conc_eq (v : FVec Ideal Cert.ReferenceIdeal.S50000x128 .f32) (hv : Cert.Spec.IsReal v) :
    Cert.Spec.conc v = Cert.ReferenceIdeal.RValue.concepts v := by
  funext i
  obtain ⟨n, j, rfl⟩ : ∃ (n : Fin 50000) (j : Fin 128), i = ix2 n j := ⟨i 0, i 1, eq_ix2 i⟩
  rw [concepts_apply]
  simp only [rsoft_apply, rexp_apply]
  exact row_concepts (fun f : Fin 128 => v (ix2 n f)) (fun f => hv _) _ _ neg_inf_word Ideal.ofBits_zero_f32 j

end Cert.Proof.Concepts

end
-- ==== Proof.LibLeadingAxis.lean ====
/-
  Reductions over the LEADING axis, read at an index.

  A one-operand host reduction of an `[a, b]` matrix over its first axis with a commutative and associative body
  `op` (a maximum, a minimum) holds, at column `e`, the fold of `op` from the initial value over the column's entries
  `(r, e)`, `r < a`.  The same for an `[a, b, c]` array reduced over its first axis to `[b, c]`: at `(e, f)` the fold
  over the entries `(r, e, f)`; and a host float sum of an `[a, b, c]` array over its first axis reads, at `(e, f)`,
  the initial value plus the sum of those entries.  Stated for any extents (the folds for any element type and any
  such body): the source index over a result index with coordinate `r` put back on the reduced axis is `(r, e)`,
  respectively `(r, e, f)`.
-/
import Idealize.ShloMosaic.Lib.ValueIdx
import Idealize.ShloMosaic.PureOps.Reduce
import Idealize.ShloMosaic.PureOps.Ideal.Laws

noncomputable section

open scoped BigOperators

namespace Cert.LibLeadingAxis

open Idealize.ShloMosaic Idealize.ShloMosaic.ValueIdx

/-- The host's reduce over the first axis of an `[a, b]` matrix reads, at column `e`, the fold of the body from the
    initial value over the column's entries. -/
theorem hostReduce_firstAxis_apply {α : Type} {a b : ℕ} {u : Shape} (op : α → α → α) [Std.Commutative op] [Std.Associative op]
    (x : (⟨2, ![a, b]⟩ : Shape).Idx → α) (init : u.Idx → α)
    (h' : (⟨2, ![a, b]⟩ : Shape).ReducesTo [0] ⟨1, ![b]⟩) (h : (⟨2, ![a, b]⟩ : Shape).Reduces [0] ⟨1, ![b]⟩)
    (hu : 0 < u.numel) (e : Fin b) :
    Host.reduce op x init h' hu (ix1 e)
      = (Finset.univ : Finset (Fin a)).fold op (init (Shape.Idx.first hu)) (fun r : Fin a => x (ix2 r e)) := by
  refine (Host.reduce_eq_fold_single op x init h' h hu (ix1 e)).trans ?_
  refine congrArg (fun g => (Finset.univ : Finset (Fin a)).fold op (init (Shape.Idx.first hu)) g) ?_
  funext r
  exact congrArg x (funext fun d => Fin.ext (by
    match d with
    | ⟨0, _⟩ => rfl
    | ⟨1, _⟩ => rfl))

/-- The host's reduce over the first axis of an `[a, b, c]` array reads, at `(e, f)`, the fold of the body from the
    initial value over the entries `(r, e, f)`. -/
theorem hostReduce_firstAxis3_apply {α : Type} {a b c : ℕ} {u : Shape} (op : α → α → α) [Std.Commutative op] [Std.Associative op]
    (x : (⟨3, ![a, b, c]⟩ : Shape).Idx → α) (init : u.Idx → α)
    (h' : (⟨3, ![a, b, c]⟩ : Shape).ReducesTo [0] ⟨2, ![b, c]⟩) (h : (⟨3, ![a, b, c]⟩ : Shape).Reduces [0] ⟨2, ![b, c]⟩)
    (hu : 0 < u.numel) (e : Fin b) (f : Fin c) :
    Host.reduce op x init h' hu (ix2 e f)
      = (Finset.univ : Finset (Fin a)).fold op (init (Shape.Idx.first hu)) (fun r : Fin a => x (ix3 r e f)) := by
  refine (Host.reduce_eq_fold_single op x init h' h hu (ix2 e f)).trans ?_
  refine congrArg (fun g => (Finset.univ : Finset (Fin a)).fold op (init (Shape.Idx.first hu)) g) ?_
  funext r
  exact congrArg x (funext fun d => Fin.ext (by
    match d with
    | ⟨0, _⟩ => rfl
    | ⟨1, _⟩ => rfl
    | ⟨2, _⟩ => rfl))

/-- A host sum over the first axis of an `[a, b, c]` array reads, at `(e, f)`, the initial value plus the sum of the
    entries `(r, e, f)`. -/
theorem hostReduceAdd_firstAxis3_apply {a b c : ℕ} {φ : FTy} {u : Shape} (x : FVec Ideal ⟨3, ![a, b, c]⟩ φ) (init : u.Idx → Ideal φ)
    (h' : (⟨3, ![a, b, c]⟩ : Shape).ReducesTo [0] ⟨2, ![b, c]⟩) (h : (⟨3, ![a, b, c]⟩ : Shape).Reduces [0] ⟨2, ![b, c]⟩)
    (hu : 0 < u.numel) (e : Fin b) (f : Fin c) :
    Host.reduceAdd (F := Ideal) x init h' hu (ix2 e f) = init (Shape.Idx.first hu) + ∑ r : Fin a, x (ix3 r e f) := by
  refine (Ideal.hostReduceAdd_single h' h x (init (Shape.Idx.first hu)) (ix2 e f)).trans ?_
  refine congrArg (fun z => init (Shape.Idx.first hu) + z) ?_
  exact Finset.sum_congr rfl fun r _ => congrArg x (funext fun d => Fin.ext (by
    match d with
    | ⟨0, _⟩ => rfl
    | ⟨1, _⟩ => rfl
    | ⟨2, _⟩ => rfl))

end Cert.LibLeadingAxis

end
-- ==== Proof.LibRank3Reads.lean ====
/-
  Rank-3 layout operations read at an index, for any extents and any element type.

  * A matrix `[a, b]` given a new unit axis in front (`[1, a, b]`) or in the middle (`[a, 1, b]`) by a
    `broadcast_in_dim` reads the matrix's entry of the other two coordinates.
  * A `[1, a, b]` array spread over `m` leading copies, and an `[a, 1, b]` array spread over `m` middle copies, read
    the operand with `0` on the spread axis.
  * A rank-3 transpose exchanging the first two axes reads the operand with those two coordinates exchanged.
  * The casts `[a, 1, b] → [a, b]`, `[a, b, 1] → [a, b]` and `[a, 1, 1] → [a]` keep the row-major order: each reads the
    operand with `0` on the dropped unit axes.
-/
import Idealize.ShloMosaic.Lib.ValueIdx
import Idealize.ShloMosaic.Lib.Pipeline.Value

noncomputable section

namespace Cert.LibRank3Reads

open Idealize.ShloMosaic Idealize.ShloMosaic.ValueIdx

variable {α : Type}

/-- A matrix `[a, b]` given a new leading unit axis (`broadcast_in_dim` with dimensions `[1, 2]`) reads, at
    `(u, i, j)`, the matrix at `(i, j)`. -/
theorem bcast_ab_1ab_apply {a b : ℕ} (x : (⟨2, ![a, b]⟩ : Shape).Idx → α)
    (h : (⟨2, ![a, b]⟩ : Shape).BroadcastsInDim ⟨3, ![1, a, b]⟩ ![1, 2]) (u : Fin 1) (i : Fin a) (j : Fin b) :
    broadcastInDim ⟨3, ![1, a, b]⟩ ![1, 2] h x (ix3 u i j) = x (ix2 i j) :=
  broadcastInDim_apply ![1, 2] h x (ix3 u i j) (ix2 i j) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl)

/-- A matrix `[a, b]` given a new middle unit axis (`broadcast_in_dim` with dimensions `[0, 2]`) reads, at
    `(i, u, j)`, the matrix at `(i, j)`. -/
theorem bcast_ab_a1b_apply {a b : ℕ} (x : (⟨2, ![a, b]⟩ : Shape).Idx → α)
    (h : (⟨2, ![a, b]⟩ : Shape).BroadcastsInDim ⟨3, ![a, 1, b]⟩ ![0, 2]) (i : Fin a) (u : Fin 1) (j : Fin b) :
    broadcastInDim ⟨3, ![a, 1, b]⟩ ![0, 2] h x (ix3 i u j) = x (ix2 i j) :=
  broadcastInDim_apply ![0, 2] h x (ix3 i u j) (ix2 i j) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl)

/-- A `[1, a, b]` array spread over `m` leading copies reads, at `(k, i, j)`, its one slab at `(i, j)`. -/
theorem bcast_1ab_mab_apply {m a b : ℕ} (x : (⟨3, ![1, a, b]⟩ : Shape).Idx → α)
    (h : (⟨3, ![1, a, b]⟩ : Shape).BroadcastsInDim ⟨3, ![m, a, b]⟩ ![0, 1, 2]) (k : Fin m) (i : Fin a) (j : Fin b) :
    broadcastInDim ⟨3, ![m, a, b]⟩ ![0, 1, 2] h x (ix3 k i j) = x (ix3 (0 : Fin 1) i j) :=
  broadcastInDim_apply ![0, 1, 2] h x (ix3 k i j) (ix3 (0 : Fin 1) i j) (fun d => by
    match d with
    | ⟨0, _⟩ =>
      show (0 : ℕ) = if (1 : ℕ) = 1 then 0 else k.val
      rw [if_pos rfl]
    | ⟨1, _⟩ =>
      show i.val = if a = 1 then 0 else i.val
      split
      · have := i.isLt; omega
      · rfl
    | ⟨2, _⟩ =>
      show j.val = if b = 1 then 0 else j.val
      split
      · have := j.isLt; omega
      · rfl)

/-- An `[a, 1, b]` array spread over `m` middle copies reads, at `(i, k, j)`, its entry `(i, 0, j)`. -/
theorem bcast_a1b_amb_apply {a m b : ℕ} (x : (⟨3, ![a, 1, b]⟩ : Shape).Idx → α)
    (h : (⟨3, ![a, 1, b]⟩ : Shape).BroadcastsInDim ⟨3, ![a, m, b]⟩ ![0, 1, 2]) (i : Fin a) (k : Fin m) (j : Fin b) :
    broadcastInDim ⟨3, ![a, m, b]⟩ ![0, 1, 2] h x (ix3 i k j) = x (ix3 i (0 : Fin 1) j) :=
  broadcastInDim_apply ![0, 1, 2] h x (ix3 i k j) (ix3 i (0 : Fin 1) j) (fun d => by
    match d with
    | ⟨0, _⟩ =>
      show i.val = if a = 1 then 0 else i.val
      split
      · have := i.isLt; omega
      · rfl
    | ⟨1, _⟩ =>
      show (0 : ℕ) = if (1 : ℕ) = 1 then 0 else k.val
      rw [if_pos rfl]
    | ⟨2, _⟩ =>
      show j.val = if b = 1 then 0 else j.val
      split
      · have := j.isLt; omega
      · rfl)

/-- A rank-3 array with its first two axes exchanged (permutation `[1, 0, 2]`) reads, at `(j, i, k)`, the operand at
    `(i, j, k)`. -/
theorem transpose_ix3_102_apply {a b c : ℕ} (x : (⟨3, ![a, b, c]⟩ : Shape).Idx → α)
    (h : (⟨3, ![a, b, c]⟩ : Shape).Transposes [1, 0, 2] ⟨3, ![b, a, c]⟩) (j : Fin b) (i : Fin a) (k : Fin c) :
    transpose ⟨3, ![b, a, c]⟩ [1, 0, 2] x h (ix3 j i k) = x (ix3 i j k) :=
  transpose_apply _ x h _ _ fun d => match d with | ⟨0, _⟩ => rfl | ⟨1, _⟩ => rfl | ⟨2, _⟩ => rfl

/-- An `[a, 1, b]` array cast to the matrix `[a, b]` reads, at `(i, j)`, the array at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a, b, 1]` array cast to the matrix `[a, b]` reads, at `(i, j)`, the array at `(i, j, 0)`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

/-- An `[a, 1, 1]` array cast to the vector `[a]` reads, at `i`, the array at `(i, 0, 0)`. -/
theorem shapeCast_a11_a_apply {a : ℕ} (x : (⟨3, ![a, 1, 1]⟩ : Shape).Idx → α)
    (h : (⟨3, ![a, 1, 1]⟩ : Shape).ShapeCasts ⟨1, ![a]⟩) (i : Fin a) :
    shapeCast ⟨1, ![a]⟩ x h (ix1 i) = x (ix3 i (0 : Fin 1) (0 : Fin 1)) :=
  shapeCast_apply x h _ _ (by
    rw [Shape.rowMajor_val_three, Shape.rowMajor_val_one]
    show (i.val * 1 + 0) * 1 + 0 = i.val
    omega)

end Cert.LibRank3Reads

end
-- ==== Proof.BridgeScores.lean ====
/-
  The class scores and the log-probabilities over the nodes, in the two programs' spellings.

  Both programs end with scores  s(n, c) = ∑ k, concepts(n, k) · α(c, k) · w(c, k) + b(c)  — α the per-class attention
  over the features, one function of the class weights in both — and with the log-softmax of s over the NODES,
      s(n, c) − M(c) − log (0 + ∑ r, exp (s(r, c) − M(c))),   M(c) = max (−∞, max over r of s(r, c)).
  The kernel program multiplies the attention into the weights first, transposes them to [128, 10] and takes a plain
  product with the concepts plus a bias row; the reference spreads concepts and attention to [10, 50000, 128],
  multiplies, contracts the features against the [10, 1, 128] weights class by class, adds the [10, 1, 1] bias and
  transposes to [50000, 10, 1].  Entry by entry the two are the same sum of products grouped
  (x · α) · w  against  x · (α · w): associativity of the product of extended reals, nothing distributed or cancelled, so
  no finiteness is used.  The log-softmax reads the same function of the entries in the layouts [50000, 10] and
  [50000, 10, 1]: the maxima and sums over the nodes stay folded and are compared entry by entry.
-/
import proofs.«170301_j10299331576451_2_alg».proof.Proof.KTerms
import proofs.«170301_j10299331576451_2_alg».proof.Proof.RTerms
import proofs.«170301_j10299331576451_2_alg».proof.Proof.Spec
import proofs.«170301_j10299331576451_2_alg».proof.Proof.Gen.KernelIdeal
import proofs.«170301_j10299331576451_2_alg».proof.Proof.Gen.ReferenceIdeal
import proofs.«170301_j10299331576451_2_alg».proof.Proof.LibLeadingAxis
import proofs.«170301_j10299331576451_2_alg».proof.Proof.LibAxisReads
import proofs.«170301_j10299331576451_2_alg».proof.Proof.LibRank3Reads
import Idealize.ShloMosaic.Lib.ValueIdx
import Idealize.ShloMosaic.Lib.ValueLayout
import Idealize.ShloMosaic.Lib.Pipeline.Value
import Idealize.ShloMosaic.PureOps.Ideal.Laws

noncomputable section

namespace Cert.Proof.Scores

open Idealize.ShloMosaic Idealize.ShloMosaic.ValueIdx
open Cert.LibRank3Reads Cert.LibAxisReads Cert.LibLeadingAxis
open scoped BigOperators

/-- The attention weights are one function of the class weights in the two programs: the same operations. -/
theorem alphaNorm_eq (a10 : FVec Ideal Cert.KernelIdeal.S10x1x128 .f32) :
    Cert.KernelIdeal.KValue.alphaNorm a10 = Cert.ReferenceIdeal.RValue.alphaNorm a10 := rfl

/-- The class weights the last region reads, entry (k, c): the attention of class c at feature k times the weight. -/
theorem wwT_apply (a10 : FVec Ideal Cert.KernelIdeal.S10x1x128 .f32) (k : Fin 128) (c : Fin 10) :
    Cert.KernelIdeal.KValue.wwT a10 (ix2 k c)
      = Cert.KernelIdeal.KValue.alphaNorm a10 (ix2 c k) * a10 (ix3 c (0 : Fin 1) k) := by
  unfold Cert.KernelIdeal.KValue.wwT
  refine (transpose_ix2_apply (a := 10) (b := 128) _ _ k c).trans ?_
  refine (mulf_apply _ _ _).trans ?_
  exact congrArg (fun z => Cert.KernelIdeal.KValue.alphaNorm a10 (ix2 c k) * z)
    (shapeCast_a1b_ab_apply (a := 10) (b := 128) a10 _ c k)

/-- The class biases as a row, entry (0, c). -/
theorem biasRow_apply (a11 : FVec Ideal Cert.KernelIdeal.S10x1x1 .f32) (c : Fin 10) :
    Cert.KernelIdeal.KValue.biasRow a11 (ix2 (0 : Fin 1) c) = a11 (ix3 c (0 : Fin 1) (0 : Fin 1)) := by
  unfold Cert.KernelIdeal.KValue.biasRow
  refine (shapeCast_a_1a_apply (a := 10) _ _ (0 : Fin 1) c).trans ?_
  exact shapeCast_a11_a_apply (a := 10) a11 _ c

/-- The kernel program's class scores, entry (n, c). -/
theorem kscore_apply (cpt : FVec Ideal Cert.KernelIdeal.S50000x128 .f32) (a10 : FVec Ideal Cert.KernelIdeal.S10x1x128 .f32)
    (a11 : FVec Ideal Cert.KernelIdeal.S10x1x1 .f32) (n : Fin 50000) (c : Fin 10) :
    Cert.Spec.score cpt (Cert.KernelIdeal.KValue.wwT a10) (Cert.KernelIdeal.KValue.biasRow a11) (ix2 n c)
      = (∑ k : Fin 128, cpt (ix2 n k) * (Cert.KernelIdeal.KValue.alphaNorm a10 (ix2 c k) * a10 (ix3 c (0 : Fin 1) k)))
        + a11 (ix3 c (0 : Fin 1) (0 : Fin 1)) := by
  show (∑ k : Fin 128, cpt (ix2 n k) * Cert.KernelIdeal.KValue.wwT a10 (ix2 k c))
      + Cert.KernelIdeal.KValue.biasRow a11 (ix2 (0 : Fin 1) c) = _
  rw [biasRow_apply]
  refine congrArg (fun z => z + a11 (ix3 c (0 : Fin 1) (0 : Fin 1))) ?_
  exact Finset.sum_congr rfl fun k _ => congrArg (fun z => cpt (ix2 n k) * z) (wwT_apply a10 k c)

/-- The reference's batched product, entry (c, n, 0): class c's weights contracted with row n of its slab. -/
theorem rdot_apply (P : FVec Ideal Cert.ReferenceIdeal.S10x50000x128 .f32) (w : FVec Ideal Cert.ReferenceIdeal.S10x1x128 .f32)
    (c : Fin 10) (n : Fin 50000) :
    Host.dotGeneral (F := Ideal) Cert.ReferenceIdeal.dot_S10x50000x128_S10x1x128_S10x50000x1_2_2_1_1_0_0 none P w
        (ix3 c n (0 : Fin 1))
      = ∑ k : Fin 128, P (ix3 c n k) * w (ix3 c (0 : Fin 1) k) := by
  show FloatOps.dotGeneral Cert.ReferenceIdeal.dot_S10x50000x128_S10x1x128_S10x50000x1_2_2_1_1_0_0 none .single P w
      (ix3 c n (0 : Fin 1)) = _
  rw [Ideal.dotGeneral_apply,
    ← Equiv.sum_comp (contrEquiv1 Cert.ReferenceIdeal.dot_S10x50000x128_S10x1x128_S10x50000x1_2_2_1_1_0_0 128 rfl rfl).symm]
  refine Finset.sum_congr rfl fun k _ => ?_
  have hk := contrEquiv1_symm_val Cert.ReferenceIdeal.dot_S10x50000x128_S10x1x128_S10x50000x1_2_2_1_1_0_0 128 rfl rfl k
  have el : Cert.ReferenceIdeal.dot_S10x50000x128_S10x1x128_S10x50000x1_2_2_1_1_0_0.lhsIdx (ix3 c n (0 : Fin 1))
      ((contrEquiv1 Cert.ReferenceIdeal.dot_S10x50000x128_S10x1x128_S10x50000x1_2_2_1_1_0_0 128 rfl rfl).symm k) = ix3 c n k :=
    funext fun a => Fin.ext (by
      match a with
      | ⟨0, _⟩ => rfl
      | ⟨1, _⟩ => rfl
      | ⟨2, _⟩ => exact hk)
  have er : Cert.ReferenceIdeal.dot_S10x50000x128_S10x1x128_S10x50000x1_2_2_1_1_0_0.rhsIdx (ix3 c n (0 : Fin 1))
      ((contrEquiv1 Cert.ReferenceIdeal.dot_S10x50000x128_S10x1x128_S10x50000x1_2_2_1_1_0_0 128 rfl rfl).symm k) = ix3 c (0 : Fin 1) k :=
    funext fun a => Fin.ext (by
      match a with
      | ⟨0, _⟩ => rfl
      | ⟨1, _⟩ => rfl
      | ⟨2, _⟩ => exact hk)
  rw [el, er]

/-- The reference's class scores, entry (n, c, 0). -/
theorem rscores_apply (cpt : FVec Ideal Cert.ReferenceIdeal.S50000x128 .f32) (a10 : FVec Ideal Cert.ReferenceIdeal.S10x1x128 .f32)
    (a11 : FVec Ideal Cert.ReferenceIdeal.S10x1x1 .f32) (n : Fin 50000) (c : Fin 10) :
    Cert.ReferenceIdeal.RValue.scores cpt a10 a11 (ix3 n c (0 : Fin 1))
      = (∑ k : Fin 128, (cpt (ix2 n k) * Cert.ReferenceIdeal.RValue.alphaNorm a10 (ix2 c k)) * a10 (ix3 c (0 : Fin 1) k))
        + a11 (ix3 c (0 : Fin 1) (0 : Fin 1)) := by
  unfold Cert.ReferenceIdeal.RValue.scores
  refine (transpose_ix3_102_apply (a := 10) (b := 50000) (c := 1) _ _ n c (0 : Fin 1)).trans ?_
  refine (addf_apply _ _ _).trans ?_
  refine congrArg₂ (fun y z => y + z) ?_ ?_
  · refine (rdot_apply _ a10 c n).trans ?_
    refine Finset.sum_congr rfl fun k _ => congrArg (fun z => z * a10 (ix3 c (0 : Fin 1) k)) ?_
    refine (mulf_apply _ _ _).trans ?_
    refine congrArg₂ (fun y z => y * z) ?_ ?_
    · refine (bcast_1ab_mab_apply (m := 10) (a := 50000) (b := 128) _ _ c n k).trans ?_
      exact bcast_ab_1ab_apply (a := 50000) (b := 128) cpt _ (0 : Fin 1) n k
    · refine (bcast_a1b_amb_apply (a := 10) (m := 50000) (b := 128) _ _ c n k).trans ?_
      exact bcast_ab_a1b_apply (a := 10) (b := 128) _ _ c (0 : Fin 1) k
  · exact bcast_a1b_amb_apply (a := 10) (m := 50000) (b := 1) a11 _ c n (0 : Fin 1)

/-- The two programs' class scores agree entry by entry: the same sum of products, grouped differently. -/
theorem score_entry_eq (cpt : FVec Ideal Cert.KernelIdeal.S50000x128 .f32) (a10 : FVec Ideal Cert.KernelIdeal.S10x1x128 .f32)
    (a11 : FVec Ideal Cert.KernelIdeal.S10x1x1 .f32) (n : Fin 50000) (c : Fin 10) :
    Cert.Spec.score cpt (Cert.KernelIdeal.KValue.wwT a10) (Cert.KernelIdeal.KValue.biasRow a11) (ix2 n c)
      = Cert.ReferenceIdeal.RValue.scores cpt a10 a11 (ix3 n c (0 : Fin 1)) := by
  rw [kscore_apply, rscores_apply, alphaNorm_eq]
  refine congrArg (fun z => z + a11 (ix3 c (0 : Fin 1) (0 : Fin 1))) ?_
  exact Finset.sum_congr rfl fun k _ => (mul_assoc _ _ _).symm

/-- The host's logarithm and exponential read at an index: the extended reals' functions of the entry. -/
theorem hostLog_apply {s : Shape} {φ : FTy} (v : FVec Ideal s φ) (i : s.Idx) : Host.log v i = Ideal.log (v i) := rfl
theorem hostExp_apply {s : Shape} {φ : FTy} (v : FVec Ideal s φ) (i : s.Idx) : Host.exp v i = Ideal.exp (v i) := rfl

/-- Class c's maximum over the nodes as both programs take it: the fold of the maximum from −∞ over the column,
    then once more against −∞. -/
def colMax (f : Fin 50000 → Fin 10 → EReal) (c : Fin 10) : EReal :=
  max (Ideal.ofBits .f32 0xFF800000#32)
    ((Finset.univ : Finset (Fin 50000)).fold (FloatOps.maximumf (F := Ideal) (φ := .f32)) (Ideal.ofBits .f32 0xFF800000#32)
      (fun r : Fin 50000 => f r c))

/-- The log-softmax over the NODES of a table of scores, entry (n, c): the score less its class's maximum, less the
    logarithm of the sum over the nodes of the exponentials of the class's shifted scores (added to the zero word). -/
def logSoftmaxNodes (f : Fin 50000 → Fin 10 → EReal) (n : Fin 50000) (c : Fin 10) : EReal :=
  (f n c - colMax f c)
    - Ideal.log (Ideal.ofBits .f32 0x00000000#32 + ∑ r : Fin 50000, Ideal.exp (f r c - colMax f c))

/-! ### The kernel program's spelling, over [50000, 10] -/

theorem klmax_apply (x : FVec Ideal Cert.KernelIdeal.S50000x10 .f32) (c : Fin 10) :
    Cert.KernelIdeal.KValue.lmax x (ix1 c) = colMax (fun r e => x (ix2 r e)) c := by
  unfold Cert.KernelIdeal.KValue.lmax colMax
  refine (maximumf_apply _ _ _).trans ?_
  refine congrArg₂ (fun y z => max y z) ?_ ?_
  · exact const_broadcast_apply _ _ _ (ix1 c)
  · refine (hostReduce_firstAxis_apply (a := 50000) (b := 10) FloatOps.maximumf x _ _ (by decide) _ c).trans ?_
    exact congrArg (fun i => (Finset.univ : Finset (Fin 50000)).fold (FloatOps.maximumf (F := Ideal) (φ := .f32)) i
      (fun r : Fin 50000 => x (ix2 r c))) (constant_apply _ _)

theorem klspread_apply (v : FVec Ideal Cert.KernelIdeal.S10 .f32) (n : Fin 50000) (c : Fin 10) :
    Cert.KernelIdeal.KValue.lspread v (ix2 n c) = v (ix1 c) := by
  unfold Cert.KernelIdeal.KValue.lspread
  refine (row_spread_apply (a := 50000) (b := 10) _ _ n c).trans ?_
  exact vec_row_apply (b := 10) v _ (0 : Fin 1) c

theorem klshift_apply (x : FVec Ideal Cert.KernelIdeal.S50000x10 .f32) (r : Fin 50000) (c : Fin 10) :
    Cert.KernelIdeal.KValue.lshift x (ix2 r c) = x (ix2 r c) - colMax (fun r e => x (ix2 r e)) c := by
  unfold Cert.KernelIdeal.KValue.lshift
  refine (subf_apply _ _ _).trans ?_
  exact congrArg (fun z => x (ix2 r c) - z) ((klspread_apply _ r c).trans (klmax_apply x c))

/-- The kernel program's log-softmax, entry (n, c). -/
theorem klsm_apply (x : FVec Ideal Cert.KernelIdeal.S50000x10 .f32) (n : Fin 50000) (c : Fin 10) :
    Cert.KernelIdeal.KValue.lsm x (ix2 n c) = logSoftmaxNodes (fun r e => x (ix2 r e)) n c := by
  unfold Cert.KernelIdeal.KValue.lsm logSoftmaxNodes
  refine (subf_apply _ _ _).trans ?_
  refine congrArg₂ (fun y z => y - z) (klshift_apply x n c) ?_
  refine (row_spread_apply (a := 50000) (b := 10) _ _ n c).trans ?_
  refine (hostLog_apply _ _).trans (congrArg Ideal.log ?_)
  refine (vec_row_apply (b := 10) _ _ (0 : Fin 1) c).trans ?_
  refine (hostReduceAdd_firstAxis_apply (a := 50000) (b := 10) _ _ _ (by decide) _ c).trans ?_
  refine congrArg₂ (fun y z => y + z) (constant_apply _ _) ?_
  exact Finset.sum_congr rfl fun r _ => (hostExp_apply _ _).trans (congrArg Ideal.exp (klshift_apply x r c))

/-! ### The reference's spelling, over [50000, 10, 1] -/

theorem rlmax_apply (x : FVec Ideal Cert.ReferenceIdeal.S50000x10x1 .f32) (c : Fin 10) :
    Cert.ReferenceIdeal.RValue.lmax x (ix2 c (0 : Fin 1)) = colMax (fun r e => x (ix3 r e (0 : Fin 1))) c := by
  unfold Cert.ReferenceIdeal.RValue.lmax colMax
  refine (maximumf_apply _ _ _).trans ?_
  refine congrArg₂ (fun y z => max y z) ?_ ?_
  · exact const_broadcast_apply _ _ _ (ix2 c (0 : Fin 1))
  · refine (hostReduce_firstAxis3_apply (a := 50000) (b := 10) (c := 1) FloatOps.maximumf x _ _ (by decide) _ c (0 : Fin 1)).trans ?_
    exact congrArg (fun i => (Finset.univ : Finset (Fin 50000)).fold (FloatOps.maximumf (F := Ideal) (φ := .f32)) i
      (fun r : Fin 50000 => x (ix3 r c (0 : Fin 1)))) (constant_apply _ _)

theorem rlspread_apply (v : FVec Ideal Cert.ReferenceIdeal.S10x1 .f32) (n : Fin 50000) (c : Fin 10) :
    Cert.ReferenceIdeal.RValue.lspread v (ix3 n c (0 : Fin 1)) = v (ix2 c (0 : Fin 1)) := by
  unfold Cert.ReferenceIdeal.RValue.lspread
  refine (bcast_1ab_mab_apply (m := 50000) (a := 10) (b := 1) _ _ n c (0 : Fin 1)).trans ?_
  exact bcast_ab_1ab_apply (a := 10) (b := 1) v _ (0 : Fin 1) c (0 : Fin 1)

theorem rlshift_apply (x : FVec Ideal Cert.ReferenceIdeal.S50000x10x1 .f32) (r : Fin 50000) (c : Fin 10) :
    Cert.ReferenceIdeal.RValue.lshift x (ix3 r c (0 : Fin 1))
      = x (ix3 r c (0 : Fin 1)) - colMax (fun r e => x (ix3 r e (0 : Fin 1))) c := by
  unfold Cert.ReferenceIdeal.RValue.lshift
  refine (subf_apply _ _ _).trans ?_
  exact congrArg (fun z => x (ix3 r c (0 : Fin 1)) - z) ((rlspread_apply _ r c).trans (rlmax_apply x c))

/-- The reference's log-softmax, entry (n, c, 0). -/
theorem rlsm_apply (x : FVec Ideal Cert.ReferenceIdeal.S50000x10x1 .f32) (n : Fin 50000) (c : Fin 10) :
    Cert.ReferenceIdeal.RValue.lsm x (ix3 n c (0 : Fin 1)) = logSoftmaxNodes (fun r e => x (ix3 r e (0 : Fin 1))) n c := by
  unfold Cert.ReferenceIdeal.RValue.lsm logSoftmaxNodes
  refine (subf_apply _ _ _).trans ?_
  refine congrArg₂ (fun y z => y - z) (rlshift_apply x n c) ?_
  refine (bcast_1ab_mab_apply (m := 50000) (a := 10) (b := 1) _ _ n c (0 : Fin 1)).trans ?_
  refine (hostLog_apply _ _).trans (congrArg Ideal.log ?_)
  refine (bcast_ab_1ab_apply (a := 10) (b := 1) _ _ (0 : Fin 1) c (0 : Fin 1)).trans ?_
  refine (hostReduceAdd_firstAxis3_apply (a := 50000) (b := 10) (c := 1) _ _ _ (by decide) _ c (0 : Fin 1)).trans ?_
  refine congrArg₂ (fun y z => y + z) (constant_apply _ _) ?_
  exact Finset.sum_congr rfl fun r _ => (hostExp_apply _ _).trans (congrArg Ideal.exp (rlshift_apply x r c))

/-! ### The two programs' log-probabilities -/

/-- The kernel program's log-softmax of its scores is the reference's log-softmax of its own, recast to [50000, 10]:
    the scores agree entry by entry and both log-softmaxes are the same function of the entries. -/
theorem scores_lsm_eq (cpt : FVec Ideal Cert.KernelIdeal.S50000x128 .f32) (a10 : FVec Ideal Cert.KernelIdeal.S10x1x128 .f32)
    (a11 : FVec Ideal Cert.KernelIdeal.S10x1x1 .f32) :
    Cert.KernelIdeal.KValue.lsm (Cert.Spec.score cpt (Cert.KernelIdeal.KValue.wwT a10) (Cert.KernelIdeal.KValue.biasRow a11))
      = shapeCast Cert.ReferenceIdeal.S50000x10 (Cert.ReferenceIdeal.RValue.lsm (Cert.ReferenceIdeal.RValue.scores cpt a10 a11))
          Cert.ReferenceIdeal.Facts₀.shapeCasts_S50000x10x1_S50000x10 := by
  funext j
  obtain ⟨n, c, rfl⟩ : ∃ (n : Fin 50000) (c : Fin 10), j = ix2 n c := ⟨j 0, j 1, eq_ix2 j⟩
  refine (klsm_apply _ n c).trans ?_
  refine Eq.symm ((shapeCast_ab1_ab_apply (a := 50000) (b := 10) _ _ n c).trans ?_)
  refine (rlsm_apply _ n c).trans ?_
  refine congrArg (fun f => logSoftmaxNodes f n c) ?_
  funext r e
  exact (score_entry_eq cpt a10 a11 r e).symm

end Cert.Proof.Scores
end
-- ==== Proof.RealLayers.lean ====
/-
  Every entry is a real number, carried through the graph-convolution layers.

  The per-node factor is built from the degrees, which are zero plus a finite sum of ones: nonnegative reals; the
  reciprocal square root of a real that is at least 1 is a nonnegative real, and the other branch of the selection
  is 0. A layer takes arrays of reals to arrays of reals: the dense product is a finite sum of products of reals, the
  row scaling a product of two reals, the aggregation zero plus a finite sum of gathered entries, and the leaky
  rectifier of a real is that real or that real times the (real) slope.
-/
import proofs.«170301_j10299331576451_2_alg».proof.Proof.KTerms
import proofs.«170301_j10299331576451_2_alg».proof.Proof.RealDef
import proofs.«170301_j10299331576451_2_alg».proof.Proof.LibRealSums
import Idealize.ShloMosaic.Lib.ValueIdx
import Idealize.ShloMosaic.PureOps.Ideal.Laws

noncomputable section

namespace Cert.Proof.Real

open Idealize.ShloMosaic Idealize.ShloMosaic.ValueIdx Cert.KernelIdeal Cert.KernelIdeal.KValue Cert.Spec
open scoped BigOperators
variable [Cert.KernelIdeal.Facts]

/-! ## Words and scalar facts -/

/-- The binary32 word of 0 is the real number 0. -/
theorem zero_f32 : Ideal.ofBits .f32 0x00000000#32 = ((0 : ℝ) : EReal) := by
  rw [Ideal.ofBits_zero_f32]; rfl

/-- The binary32 word of 1 is the real number 1. -/
theorem one_f32 : Ideal.ofBits .f32 0x3F800000#32 = ((1 : ℝ) : EReal) := by
  simp [Ideal.ofBits, Ideal.ieee]
  rw [← EReal.coe_mul, ← EReal.coe_one]
  congr 1
  norm_num

/-- The reciprocal square root of a positive real is a nonnegative real. -/
theorem rsqrt_pos_real (t : ℝ) (ht : 0 < t) : ∃ r : ℝ, 0 ≤ r ∧ Ideal.rsqrt (t : EReal) = (r : EReal) :=
  ⟨(Real.sqrt t)⁻¹, inv_nonneg.mpr (Real.sqrt_nonneg t), by
    rw [Ideal.rsqrt_coe, if_neg (not_lt.mpr ht.le), if_neg ht.ne']⟩

/-- The larger of two reals, taken in the extended reals, is the larger real. -/
theorem coe_max_real (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- A selection between two values with a property has the property. -/
theorem select_cases {α : Type} (P : α → Prop) (c : BitVec 1) (a b : α) (ha : P a) (hb : P b) : P (Scalar.select c a b) := by
  unfold Scalar.select
  split
  · exact ha
  · exact hb

/-! ## The array operations read at an index -/

/-- A scalar constant spread over any shape reads the constant's value everywhere. -/
theorem bcast_const_apply {t : Shape} {φ : FTy} (dims : Fin (⟨0, ![]⟩ : Shape).rank → Fin t.rank)
    (h : (⟨0, ![]⟩ : Shape).BroadcastsInDim t dims) (b : BitVec φ.bits) (j : t.Idx) :
    broadcastInDim t dims h (constant (F := Ideal) ⟨0, ![]⟩ φ b) j = Ideal.ofBits φ b := rfl

/-- The reciprocal square root of an array, entry by entry. -/
theorem hostRsqrt_apply {s : Shape} {φ : FTy} (x : FVec Ideal s φ) (i : s.Idx) : Host.rsqrt x i = Ideal.rsqrt (x i) := rfl

/-- The accumulating scatter on the extended reals is the exact sum. -/
theorem hostScatterAdd_eq {s si u : Shape} {φ : FTy} {w : ℕ} (d : ScatterDims s si u) (x : FVec Ideal s φ) (idx : IVec si w)
    (upd : FVec Ideal u φ) : Host.scatterAdd d x idx upd = Ideal.hostScatterAdd d x idx upd := rfl

/-- An accumulating scatter of real entries into real entries has real entries. -/
theorem scatterAdd_real {s si su : Shape} (d : ScatterDims s si su) {w : ℕ} (x : s.Idx → EReal) (idx : IVec si w)
    (upd : su.Idx → EReal) (hx : IsReal x) (hu : IsReal upd) : IsReal (Ideal.hostScatterAdd d x idx upd) := by
  intro i
  unfold Ideal.hostScatterAdd
  obtain ⟨r, hr⟩ := hx i
  obtain ⟨t, ht⟩ := Cert.LibRealSums.exists_real_sum (Finset.univ.filter (fun j => d.resultIdx? j idx = some i)) upd hu
  exact ⟨r + t, by rw [hr, ht, EReal.coe_add]⟩

/-- An accumulating scatter of nonnegative reals into nonnegative reals has nonnegative real entries. -/
theorem scatterAdd_nonneg {s si su : Shape} (d : ScatterDims s si su) {w : ℕ} (x : s.Idx → EReal) (idx : IVec si w)
    (upd : su.Idx → EReal) (hx : ∀ i, ∃ r : ℝ, 0 ≤ r ∧ x i = (r : EReal)) (hu : ∀ j, ∃ r : ℝ, 0 ≤ r ∧ upd j = (r : EReal)) :
    ∀ i, ∃ r : ℝ, 0 ≤ r ∧ Ideal.hostScatterAdd d x idx upd i = (r : EReal) := by
  intro i
  unfold Ideal.hostScatterAdd
  obtain ⟨r, hr0, hr⟩ := hx i
  choose g hg0 hg using hu
  refine ⟨r + ∑ j ∈ Finset.univ.filter (fun j => d.resultIdx? j idx = some i), g j,
    add_nonneg hr0 (Finset.sum_nonneg fun j _ => hg0 j), ?_⟩
  rw [hr, EReal.coe_add, Cert.LibRealSums.coe_finset_sum]
  exact congrArg _ (Finset.sum_congr rfl fun j _ => hg j)

/-! ## The degrees and the per-node factor -/

/-- Every degree is a nonnegative real: zero plus a finite sum of ones. -/
theorem deg_nonneg (a1 : IVec S2x800000 32) : ∀ i, ∃ r : ℝ, 0 ≤ r ∧ deg a1 i = (r : EReal) := by
  intro i
  unfold deg
  rw [hostScatterAdd_eq]
  exact scatterAdd_nonneg _ _ _ _ (fun k => ⟨0, le_rfl, by rw [bcast_const_apply]; exact zero_f32⟩)
    (fun j => ⟨1, zero_le_one, by rw [bcast_const_apply]; exact one_f32⟩) i

/-- Every entry of the per-node factor is a nonnegative real: 0, or the reciprocal square root of a real ≥ 1. -/
theorem dis_real (a1 : IVec S2x800000 32) : ∀ i, ∃ r : ℝ, 0 ≤ r ∧ dis a1 i = (r : EReal) := by
  intro i
  obtain ⟨d, hd0, hd⟩ := deg_nonneg a1 i
  unfold dis
  rw [select_apply]
  refine select_cases (fun y : EReal => ∃ r : ℝ, 0 ≤ r ∧ y = (r : EReal)) _ _ _ ?_ ?_
  · rw [hostRsqrt_apply, maximumf_apply, bcast_const_apply, hd, one_f32, coe_max_real]
    exact rsqrt_pos_real _ (lt_of_lt_of_le zero_lt_one (le_max_right d 1))
  · rw [id_eq, bcast_const_apply]
    exact ⟨0, le_rfl, zero_f32⟩

/-! ## Closure of "every entry is a real number" under the layers' operations -/

/-- Forgetting nonnegativity. -/
theorem real_of_nonneg {S : Shape} (x : S.Idx → EReal) (h : ∀ i, ∃ r : ℝ, 0 ≤ r ∧ x i = (r : EReal)) : IsReal x :=
  fun i => let ⟨r, _, hr⟩ := h i; ⟨r, hr⟩

/-- A reshape of an array of reals is an array of reals: every entry is an entry of the operand. -/
theorem shapeCast_real {s t : Shape} (x : s.Idx → EReal) (h : s.ShapeCasts t) (hx : IsReal x) : IsReal (shapeCast t x h) :=
  fun j => hx (Shape.reshapeEquiv h j)

/-- A gather from an array of reals is an array of reals: every entry is an entry of the operand. -/
theorem gather_real {s si t : Shape} {w : ℕ} (d : GatherDims s si t) (x : s.Idx → EReal) (idx : IVec si w) (hx : IsReal x) :
    IsReal (Host.gather d x idx) := by
  intro j
  unfold Host.gather
  exact hx _

/-- Widening the format changes no value on the extended reals. -/
theorem extf_real {s : Shape} {φ ψ : FTy} (a : FVec Ideal s φ) (h : φ.bits < ψ.bits) (ha : IsReal (S := s) a) :
    IsReal (S := s) (extf ψ a h : FVec Ideal s ψ) :=
  fun j => ha j

/-- The dense product of two arrays of reals is an array of reals: a finite sum of products of reals. -/
theorem lin_real {M K N : ℕ} (v : (⟨2, ![M, K]⟩ : Shape).Idx → EReal) (W : (⟨2, ![K, N]⟩ : Shape).Idx → EReal)
    (hv : IsReal v) (hW : IsReal W) : IsReal (Cert.Spec.lin v W) := by
  intro i
  unfold Cert.Spec.lin
  refine Cert.LibRealSums.exists_real_sum Finset.univ _ fun k => ?_
  obtain ⟨a, ha⟩ := hv (ix2 (i 0) k)
  obtain ⟨b, hb⟩ := hW (ix2 k (i 1))
  exact ⟨a * b, by rw [ha, hb, EReal.coe_mul]⟩

/-- Scaling the rows of an array of reals by a column of reals gives an array of reals. -/
theorem scaleRows_real {M N : ℕ} (h : (⟨2, ![M, N]⟩ : Shape).Idx → EReal) (s : (⟨2, ![M, 1]⟩ : Shape).Idx → EReal)
    (hh : IsReal h) (hs : IsReal s) : IsReal (Cert.Spec.scaleRows h s) := by
  intro i
  unfold Cert.Spec.scaleRows
  obtain ⟨a, ha⟩ := hh i
  obtain ⟨b, hb⟩ := hs (ix2 (i 0) (0 : Fin 1))
  exact ⟨a * b, by rw [ha, hb, EReal.coe_mul]⟩

/-- A layer's messages are reals when its input, its weights and the factor are. -/
theorem msg_real {M K N : ℕ} (v : (⟨2, ![M, K]⟩ : Shape).Idx → EReal) (W : (⟨2, ![K, N]⟩ : Shape).Idx → EReal)
    (s : (⟨2, ![M, 1]⟩ : Shape).Idx → EReal) (hv : IsReal v) (hW : IsReal W) (hs : IsReal s) : IsReal (Cert.Spec.msg v W s) :=
  scaleRows_real _ _ (lin_real v W hv hW) hs

/-- The rectifier's slope is a real number. -/
theorem slope_real : ∃ c : ℝ, Cert.Spec.slope = (c : EReal) := by
  have h : Ideal.ofBits .f32 0x3C23D70A#32 = (((10737418 : ℝ) * ((2 : ℝ) ^ 30)⁻¹ : ℝ) : EReal) := by
    simp [Ideal.ofBits, Ideal.ieee]
  exact ⟨_, h⟩

/-- The leaky rectifier of a real is a real: the real itself, or the real times the slope. -/
theorem leaky_real (x : ℝ) : ∃ r : ℝ, Cert.Spec.leaky (x : EReal) = (r : EReal) := by
  unfold Cert.Spec.leaky
  obtain ⟨c, hc⟩ := slope_real
  exact select_cases (fun y : EReal => ∃ r : ℝ, y = (r : EReal)) _ _ _ ⟨x, rfl⟩ ⟨x * c, by rw [hc, EReal.coe_mul]⟩

/-- A layer's activations are reals when the sum that arrived, the factor and the bias are. -/
theorem act_real {M N : ℕ} (a : (⟨2, ![M, N]⟩ : Shape).Idx → EReal) (s : (⟨2, ![M, 1]⟩ : Shape).Idx → EReal)
    (b : (⟨2, ![1, N]⟩ : Shape).Idx → EReal) (ha : IsReal a) (hs : IsReal s) (hb : IsReal b) : IsReal (Cert.Spec.act a s b) := by
  intro i
  unfold Cert.Spec.act
  obtain ⟨x, hx⟩ := ha i
  obtain ⟨y, hy⟩ := hs (ix2 (i 0) (0 : Fin 1))
  obtain ⟨z, hz⟩ := hb (ix2 (0 : Fin 1) (i 1))
  rw [hx, hy, hz, ← EReal.coe_mul, ← EReal.coe_add]
  exact leaky_real _

/-! ## The four layers -/

/-- The factor as a column is an array of reals. -/
theorem dis2_real (a1 : IVec S2x800000 32) : IsReal (dis2 a1) := by
  unfold dis2
  exact shapeCast_real _ _ (real_of_nonneg _ (dis_real a1))

/-- A bias vector of reals, as a row, is an array of reals. -/
theorem brow_real (b : FVec Ideal S128 .f32) (hb : IsReal b) : IsReal (brow b) := by
  unfold brow
  exact shapeCast_real _ _ hb

/-- What arrives at every node is real when the messages are: zero plus a finite sum of gathered entries. -/
theorem agg_real (mk : FVec Ideal S50000x128 .bf16) (a1 : IVec S2x800000 32) (hmk : IsReal mk) : IsReal (agg mk a1) := by
  unfold agg
  rw [hostScatterAdd_eq]
  refine scatterAdd_real _ _ _ _ (fun k => ⟨0, ?_⟩) (extf_real _ _ (gather_real _ _ _ hmk))
  rw [bcast_const_apply]
  exact zero_f32

theorem m0_real (a0 : FVec Ideal S50000x128 .f32) (a1 : IVec S2x800000 32) (a2 : FVec Ideal S128x128 .f32)
    (h0 : IsReal a0) (h2 : IsReal a2) : IsReal (m0 a0 a1 a2) := by
  unfold m0
  exact msg_real _ _ _ h0 h2 (dis2_real a1)

theorem mid_real (mp : FVec Ideal S50000x128 .bf16) (a1 : IVec S2x800000 32) (b : FVec Ideal S128 .f32)
    (W : FVec Ideal S128x128 .f32) (hmp : IsReal mp) (hb : IsReal b) (hW : IsReal W) : IsReal (mid mp a1 b W) := by
  unfold mid
  exact msg_real _ _ _ (act_real _ _ _ (agg_real mp a1 hmp) (dis2_real a1) (brow_real b hb)) hW (dis2_real a1)

theorem last_real (mp : FVec Ideal S50000x128 .bf16) (a1 : IVec S2x800000 32) (b : FVec Ideal S128 .f32)
    (hmp : IsReal mp) (hb : IsReal b) : IsReal (last mp a1 b) := by
  unfold last
  exact act_real _ _ _ (agg_real mp a1 hmp) (dis2_real a1) (brow_real b hb)

/-- The last layer's activations are reals when the features, the weights and the biases are. -/
theorem v4_real (a0 : FVec Ideal S50000x128 .f32) (a1 : IVec S2x800000 32) (a2 : FVec Ideal S128x128 .f32) (a3 : FVec Ideal S128 .f32)
    (a4 : FVec Ideal S128x128 .f32) (a5 : FVec Ideal S128 .f32) (a6 : FVec Ideal S128x128 .f32) (a7 : FVec Ideal S128 .f32)
    (a8 : FVec Ideal S128x128 .f32) (a9 : FVec Ideal S128 .f32)
    (h0 : IsReal a0) (h2 : IsReal a2) (h3 : IsReal a3) (h4 : IsReal a4) (h5 : IsReal a5) (h6 : IsReal a6) (h7 : IsReal a7)
    (h8 : IsReal a8) (h9 : IsReal a9) : IsReal (v4 a0 a1 a2 a3 a4 a5 a6 a7 a8 a9) := by
  unfold v4
  exact last_real _ a1 a9 (mid_real _ a1 a7 a8 (mid_real _ a1 a5 a6 (mid_real _ a1 a3 a4 (m0_real a0 a1 a2 h0 h2) h3 h4) h5 h6) h7 h8) h9

end Cert.Proof.Real
end
-- ==== Proof.BridgeTop.lean ====
/-
  The two programs' results are the same functions of the arguments, for real-valued float arguments.

  The four layers agree with no finiteness (a nonnegative real factor moves through the sum over the edges).
  On the last layer's activations, which are real because the arguments are, the reference's row softmax
  divided by its own row maximum is the kernel's exp (v − row maximum). The class scores agree by the
  associativity of multiplication, and the log-softmax over the nodes is one function in the two layouts.
-/
import proofs.«170301_j10299331576451_2_alg».proof.Proof.BridgeLayer
import proofs.«170301_j10299331576451_2_alg».proof.Proof.BridgeConcepts
import proofs.«170301_j10299331576451_2_alg».proof.Proof.BridgeScores
import proofs.«170301_j10299331576451_2_alg».proof.Proof.RealLayers

noncomputable section

namespace Cert.Proof.Bridge

open Idealize.ShloMosaic
open Cert.KernelIdeal.Gen Cert.ReferenceIdeal.Gen

/-- The per-node factor is a nonnegative real at every node. -/
theorem dis_nonneg (a1 : IVec Cert.KernelIdeal.S2x800000 32) : ∀ i, 0 ≤ Cert.ReferenceIdeal.RValue.dis a1 i ∧ Cert.ReferenceIdeal.RValue.dis a1 i ≠ ⊤ := fun i => by
  obtain ⟨r, hr0, hr⟩ := Cert.Proof.Real.dis_real a1 i
  rw [← Cert.Proof.Layer.dis_eq, hr]
  exact ⟨EReal.coe_nonneg.mpr hr0, EReal.coe_ne_top r⟩

/-- The concepts agree. -/
theorem out0_eq (a0 : FVec Ideal Cert.KernelIdeal.S50000x128 .f32) (a1 : IVec Cert.KernelIdeal.S2x800000 32) (a2 : FVec Ideal Cert.KernelIdeal.S128x128 .f32) (a3 : FVec Ideal Cert.KernelIdeal.S128 .f32)
    (a4 : FVec Ideal Cert.KernelIdeal.S128x128 .f32) (a5 : FVec Ideal Cert.KernelIdeal.S128 .f32) (a6 : FVec Ideal Cert.KernelIdeal.S128x128 .f32) (a7 : FVec Ideal Cert.KernelIdeal.S128 .f32)
    (a8 : FVec Ideal Cert.KernelIdeal.S128x128 .f32) (a9 : FVec Ideal Cert.KernelIdeal.S128 .f32)
    (h0 : Cert.Spec.IsReal a0) (h2 : Cert.Spec.IsReal a2) (h3 : Cert.Spec.IsReal a3) (h4 : Cert.Spec.IsReal a4) (h5 : Cert.Spec.IsReal a5)
    (h6 : Cert.Spec.IsReal a6) (h7 : Cert.Spec.IsReal a7) (h8 : Cert.Spec.IsReal a8) (h9 : Cert.Spec.IsReal a9) :
    Cert.KernelIdeal.KValue.out0 a0 a1 a2 a3 a4 a5 a6 a7 a8 a9 = Cert.ReferenceIdeal.RValue.out0 a0 a1 a2 a3 a4 a5 a6 a7 a8 a9 := by
  unfold Cert.KernelIdeal.KValue.out0 Cert.ReferenceIdeal.RValue.out0
  rw [Cert.Proof.Concepts.conc_eq _ (Cert.Proof.Real.v4_real a0 a1 a2 a3 a4 a5 a6 a7 a8 a9 h0 h2 h3 h4 h5 h6 h7 h8 h9),
    Cert.Proof.Layer.v4_eq a0 a1 a2 a3 a4 a5 a6 a7 a8 a9 (dis_nonneg a1)]

/-- The log-probabilities agree. -/
theorem out1_eq (a0 : FVec Ideal Cert.KernelIdeal.S50000x128 .f32) (a1 : IVec Cert.KernelIdeal.S2x800000 32) (a2 : FVec Ideal Cert.KernelIdeal.S128x128 .f32) (a3 : FVec Ideal Cert.KernelIdeal.S128 .f32)
    (a4 : FVec Ideal Cert.KernelIdeal.S128x128 .f32) (a5 : FVec Ideal Cert.KernelIdeal.S128 .f32) (a6 : FVec Ideal Cert.KernelIdeal.S128x128 .f32) (a7 : FVec Ideal Cert.KernelIdeal.S128 .f32)
    (a8 : FVec Ideal Cert.KernelIdeal.S128x128 .f32) (a9 : FVec Ideal Cert.KernelIdeal.S128 .f32) (a10 : FVec Ideal Cert.KernelIdeal.S10x1x128 .f32) (a11 : FVec Ideal Cert.KernelIdeal.S10x1x1 .f32)
    (h0 : Cert.Spec.IsReal a0) (h2 : Cert.Spec.IsReal a2) (h3 : Cert.Spec.IsReal a3) (h4 : Cert.Spec.IsReal a4) (h5 : Cert.Spec.IsReal a5)
    (h6 : Cert.Spec.IsReal a6) (h7 : Cert.Spec.IsReal a7) (h8 : Cert.Spec.IsReal a8) (h9 : Cert.Spec.IsReal a9) :
    Cert.KernelIdeal.KValue.out1 a0 a1 a2 a3 a4 a5 a6 a7 a8 a9 a10 a11 = Cert.ReferenceIdeal.RValue.out1 a0 a1 a2 a3 a4 a5 a6 a7 a8 a9 a10 a11 := by
  unfold Cert.KernelIdeal.KValue.out1 Cert.ReferenceIdeal.RValue.out1
  rw [Cert.Proof.Scores.scores_lsm_eq, out0_eq a0 a1 a2 a3 a4 a5 a6 a7 a8 a9 h0 h2 h3 h4 h5 h6 h7 h8 h9]

end Cert.Proof.Bridge

end
-- ==== Proof.RealArgs.lean ====
/-
  The precondition makes every float argument an array of real numbers.

  The precondition is the "and" of eleven tests, one per float argument: every entry x of the argument has
  |x| < +∞, the entries' tests joined by "and" over all axes. On the extended reals |x| = max x (−x), and
  max x (−x) < +∞ rules out both infinities (at −∞ the maximum is +∞), so x is a real number. A joined test that
  came out 1 had a 1 at every entry.
-/
import proofs.«170301_j10299331576451_2_alg».proof.Defs
import proofs.«170301_j10299331576451_2_alg».proof.Proof.Gen.KernelIdeal
import proofs.«170301_j10299331576451_2_alg».proof.Proof.Gen.Pre_finite_inputs
import proofs.«170301_j10299331576451_2_alg».proof.Proof.RealDef
import Idealize.ShloMosaic.Lib.ReduceAll
import Idealize.ShloMosaic.Lib.ValueIdx

set_option maxRecDepth 16384

noncomputable section

namespace Cert.Proof.Finite

open Idealize.ShloMosaic Idealize.SL.Sem

namespace Args

/-- An extended real whose absolute value is below +∞ is a real number. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  have h' : max x (-x) < ⊤ := by
    by_contra hn
    simp [Ideal.cmp, hn] at h
  induction x using EReal.rec with
  | bot => simp at h'
  | coe r => exact ⟨r, rfl⟩
  | top => simp at h'

/-- An array all of whose entries pass the test |x| < +∞, the tests joined by "and" over every axis into one word
    that is 1, has only real entries. -/
theorem isReal_of_all {s : Shape} {axes : List (Fin s.rank)} (x : FVec Ideal s .f32)
    (hb : (⟨0, ![]⟩ : Shape).BroadcastsInDim s (![] : Fin 0 → Fin s.rank)) (hr : s.ReducesTo axes ⟨0, ![]⟩) (hu : 0 < (⟨0, ![]⟩ : Shape).numel)
    (e : Host.reduce IntOp.andi
        (cmpf .olt (Host.absf x) (broadcastInDim s ![] hb (constant (F := Ideal) ⟨0, ![]⟩ .f32 0x7F800000#32)))
        (constantI ⟨0, ![]⟩ 1 1#1) hr hu ValueIdx.ix0 = 1#1) :
    Cert.Spec.IsReal (x : s.Idx → EReal) := by
  haveI : Subsingleton (⟨0, ![]⟩ : Shape).Idx := ⟨fun a b => funext fun d => d.elim0⟩
  intro i
  exact real_of_abs_lt_inf (x i) (Host.reduce_andi_all _ _ hr hu ValueIdx.ix0 e i)

end Args

/-- Under the precondition each of the eleven float arguments holds only real numbers. -/
theorem args_real (m : (ℓ : Loc Cert.KernelIdeal.nD Cert.KernelIdeal.τ Cert.KernelIdeal.sig) → Buf (Elt Ideal) ℓ) (h : Cert.Pre_KernelIdeal m) (c : Dev Cert.KernelIdeal.nD) :
    Cert.Spec.IsReal (m ((c.tc : Thread Cert.KernelIdeal.nD Cert.KernelIdeal.τ).loc Cert.KernelIdeal.main_arg0) : Cert.KernelIdeal.S50000x128.Idx → EReal)
      ∧ Cert.Spec.IsReal (m ((c.tc : Thread Cert.KernelIdeal.nD Cert.KernelIdeal.τ).loc Cert.KernelIdeal.main_arg2) : Cert.KernelIdeal.S128x128.Idx → EReal)
      ∧ Cert.Spec.IsReal (m ((c.tc : Thread Cert.KernelIdeal.nD Cert.KernelIdeal.τ).loc Cert.KernelIdeal.main_arg3) : Cert.KernelIdeal.S128.Idx → EReal)
      ∧ Cert.Spec.IsReal (m ((c.tc : Thread Cert.KernelIdeal.nD Cert.KernelIdeal.τ).loc Cert.KernelIdeal.main_arg4) : Cert.KernelIdeal.S128x128.Idx → EReal)
      ∧ Cert.Spec.IsReal (m ((c.tc : Thread Cert.KernelIdeal.nD Cert.KernelIdeal.τ).loc Cert.KernelIdeal.main_arg5) : Cert.KernelIdeal.S128.Idx → EReal)
      ∧ Cert.Spec.IsReal (m ((c.tc : Thread Cert.KernelIdeal.nD Cert.KernelIdeal.τ).loc Cert.KernelIdeal.main_arg6) : Cert.KernelIdeal.S128x128.Idx → EReal)
      ∧ Cert.Spec.IsReal (m ((c.tc : Thread Cert.KernelIdeal.nD Cert.KernelIdeal.τ).loc Cert.KernelIdeal.main_arg7) : Cert.KernelIdeal.S128.Idx → EReal)
      ∧ Cert.Spec.IsReal (m ((c.tc : Thread Cert.KernelIdeal.nD Cert.KernelIdeal.τ).loc Cert.KernelIdeal.main_arg8) : Cert.KernelIdeal.S128x128.Idx → EReal)
      ∧ Cert.Spec.IsReal (m ((c.tc : Thread Cert.KernelIdeal.nD Cert.KernelIdeal.τ).loc Cert.KernelIdeal.main_arg9) : Cert.KernelIdeal.S128.Idx → EReal)
      ∧ Cert.Spec.IsReal (m ((c.tc : Thread Cert.KernelIdeal.nD Cert.KernelIdeal.τ).loc Cert.KernelIdeal.main_arg10) : Cert.KernelIdeal.S10x1x128.Idx → EReal)
      ∧ Cert.Spec.IsReal (m ((c.tc : Thread Cert.KernelIdeal.nD Cert.KernelIdeal.τ).loc Cert.KernelIdeal.main_arg11) : Cert.KernelIdeal.S10x1x1.Idx → EReal) := by
  have e := congrFun (h c) ValueIdx.ix0
  unfold Cert.Pre_finite_inputs.fn Cert.Pre_finite_inputs.fn_part1 Cert.Pre_finite_inputs.fn_part2 Cert.Pre_finite_inputs.fn_part3 at e
  dsimp only [andi] at e
  simp only [IntOp.andi_eq_one] at e
  obtain ⟨⟨⟨⟨⟨⟨⟨⟨⟨⟨e0, e2⟩, e3⟩, e4⟩, e5⟩, e6⟩, e7⟩, e8⟩, e9⟩, e10⟩, e11⟩ := e
  exact ⟨Args.isReal_of_all _ _ _ _ e0, Args.isReal_of_all _ _ _ _ e2, Args.isReal_of_all _ _ _ _ e3,
    Args.isReal_of_all _ _ _ _ e4, Args.isReal_of_all _ _ _ _ e5, Args.isReal_of_all _ _ _ _ e6,
    Args.isReal_of_all _ _ _ _ e7, Args.isReal_of_all _ _ _ _ e8, Args.isReal_of_all _ _ _ _ e9,
    Args.isReal_of_all _ _ _ _ e10, Args.isReal_of_all _ _ _ _ e11⟩

end Cert.Proof.Finite

end
-- ==== Proof.lean ====
/-
  The certificate of a four-layer graph-convolution network with concept scores: a Pallas kernel program of
  five TensorCore regions among host gathers and scatters against its jnp reference.

  The three frames: the two kernel programs' frames are the generated frame certificates; the reference has no
  kernel, and its frame is its run, written out operation by operation, with the results dropped.
  The idealization rewrote no operation, so there is nothing to preserve.
  At the ideal instance both programs end with the same two arrays. The kernel program's run names both results
  as the fold of its thirteen segments; read back to the arguments they are the functions of KTerms.lean (every
  region's output array is one whole-array function of its inputs: the blocks are restrictions of it). The
  reference's run gives its results as the functions of RTerms.lean. The two pairs of functions agree on
  real-valued float arguments (BridgeTop.lean), and the precondition says the float arguments are real-valued.
-/
import proofs.«170301_j10299331576451_2_alg».proof.Defs
import proofs.«170301_j10299331576451_2_alg».proof.Proof.Gen.Kernel
import proofs.«170301_j10299331576451_2_alg».proof.Proof.Gen.Kernel.Frame
import proofs.«170301_j10299331576451_2_alg».proof.Proof.Gen.KernelIdeal
import proofs.«170301_j10299331576451_2_alg».proof.Proof.Gen.KernelIdeal.Frame
import proofs.«170301_j10299331576451_2_alg».proof.Proof.Gen.ReferenceIdeal
import proofs.«170301_j10299331576451_2_alg».proof.Proof.Gen.Pre_finite_inputs
import proofs.«170301_j10299331576451_2_alg».proof.Proof.KChain
import proofs.«170301_j10299331576451_2_alg».proof.Proof.RefVal
import proofs.«170301_j10299331576451_2_alg».proof.Proof.BridgeTop
import proofs.«170301_j10299331576451_2_alg».proof.Proof.RealArgs
import Idealize.ShloMosaic.Adequacy
import Idealize.ShloMosaic.Init

noncomputable section

namespace Cert.Proof

open Idealize.ShloMosaic Idealize.SL.Sem

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ => Cert.ReferenceIdeal.RefRun.frame_args m ρ

/-- Both idealized programs, from memories agreeing on the arguments, end with the same concepts and the same
    log-probabilities: the kernel program's results are named by its run, the reference's by its own, and the
    two pairs of functions agree on the real-valued arguments the precondition grants. -/
theorem algebraic : Cert.algebraic_KernelIdeal_ReferenceIdeal := by
  intro m ρ m' ρ' hpre hagree
  refine ⟨_, _, Cert.KernelIdeal.KChain.run m ρ, ?_⟩
  refine (θ_run Cert.ReferenceIdeal.defs _ _).mono (fun r h c => ?_) (Cert.ReferenceIdeal.RefVal.run m' ρ')
  obtain ⟨hr0, hr1, hargs⟩ := h c
  obtain ⟨e0, e1, e2, e3, e4, e5, e6, e7, e8, e9, e10, e11⟩ := hagree c
  obtain ⟨r0, r2, r3, r4, r5, r6, r7, r8, r9, r10, r11⟩ := Cert.Proof.Finite.args_real m hpre c
  refine ⟨?_, ?_, hargs⟩
  · rw [hr0, e0, e1, e2, e3, e4, e5, e6, e7, e8, e9]
    exact (Cert.Proof.Bridge.out0_eq _ _ _ _ _ _ _ _ _ _ r0 r2 r3 r4 r5 r6 r7 r8 r9).symm
  · rw [hr1, e0, e1, e2, e3, e4, e5, e6, e7, e8, e9, e10, e11]
    exact (Cert.Proof.Bridge.out1_eq _ _ _ _ _ _ _ _ _ _ _ _ r0 r2 r3 r4 r5 r6 r7 r8 r9).symm

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
